-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v105_2)) (v1 : (c : Dev Cert.KernelIdeal.nD) → Buf (Elt Ideal) ((c.tc : Thread Cert.KernelIdeal.nD Cert.KernelIdeal.τ).loc Cert.KernelIdeal.main_v106)) (v2 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105_2) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_v107) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1x50000x64 : S_.BroadcastsInDim S1x50000x64 (![] : Fin 0 → Fin S1x50000x64.rank)
  reducesTo_S1x50000x64_S_d0_1_2 : S1x50000x64.ReducesTo [0, 1, 2] S_
  bcast_S_S1x100x100 : S_.BroadcastsInDim S1x100x100 (![] : Fin 0 → Fin S1x100x100.rank)
  reducesTo_S1x100x100_S_d0_1_2 : S1x100x100.ReducesTo [0, 1, 2] S_
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_
  bcast_S_S256x100 : S_.BroadcastsInDim S256x100 (![] : Fin 0 → Fin S256x100.rank)
  reducesTo_S256x100_S_d0_1 : S256x100.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg15 : FVec F S8 .f32) (main_v63 : IVec S_ 1) (main_v67 : IVec S_ 1) : IVec S_ 1 :=
  let main_v68 : IVec S_ 1 := andi main_v63 main_v67
  let main_v69 : FVec F S8 .f32 := Host.absf main_arg15
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S8x64 .f32) (main_arg15 : FVec F S8 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S8x64 .f32 := Host.absf main_arg14
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg15 main_v63 main_v67

def fn_part2 {F : FTy → Type} [FloatOps F] (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) (main_v33 : IVec S_ 1) : IVec S_ 1 :=
  let main_v34 : FVec F S300 .f32 := Host.absf main_arg8
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300 .f32 := Host.absf main_arg9
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  let main_v44 : FVec F S256x100 .f32 := Host.absf main_arg10
  let main_cst_16 : FVec F S_ .f32 := constant S_ .f32 0x7F800000#32
  let main_v45 : FVec F S256x100 .f32 := broadcastInDim S256x100 ![] bcast_S_S256x100 main_cst_16
  let main_v46 : IVec S256x100 1 := cmpf .olt main_v44 main_v45
  let main_c_17 : IVec S_ 1 := constantI S_ 1 1#1
  let main_v47 : IVec S_ 1 := (fun x v => Host.reduce IntOp.andi x v reducesTo_S256x100_S_d0_1 h_S_) main_v46 main_c_17
  let main_v48 : IVec S_ 1 := andi main_v43 main_v47
  let main_v49 : FVec F S256x64 .f32 := Host.absf main_arg11
  let main_cst_18 : FVec F S_ .f32 := constant S_ .f32 0x7F800000#32
  let main_v50 : FVec F S256x64 .f32 := broadcastInDim S256x64 ![] bcast_S_S256x64 main_cst_18
  fn_part3 (F := F) main_arg12 main_arg13 main_arg14 main_arg15 main_v48 main_v49 main_v50

def fn_part1 {F : FTy → Type} [FloatOps F] (main_arg5 : FVec F S1x100x100 .f32) (main_arg6 : FVec F S300x100 .f32) (main_arg7 : FVec F S300x100 .f32) (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) (main_v13 : IVec S_ 1) (main_v16 : IVec S1x50000x64 1) : IVec S_ 1 :=
  let main_c_5 : IVec S_ 1 := constantI S_ 1 1#1
  let main_v17 : IVec S_ 1 := (fun x v => Host.reduce IntOp.andi x v reducesTo_S1x50000x64_S_d0_1_2 h_S_) main_v16 main_c_5
  let main_v18 : IVec S_ 1 := andi main_v13 main_v17
  let main_v19 : FVec F S1x100x100 .f32 := Host.absf main_arg5
  let main_cst_6 : FVec F S_ .f32 := constant S_ .f32 0x7F800000#32
  let main_v20 : FVec F S1x100x100 .f32 := broadcastInDim S1x100x100 ![] bcast_S_S1x100x100 main_cst_6
  let main_v21 : IVec S1x100x100 1 := cmpf .olt main_v19 main_v20
  let main_c_7 : IVec S_ 1 := constantI S_ 1 1#1
  let main_v22 : IVec S_ 1 := (fun x v => Host.reduce IntOp.andi x v reducesTo_S1x100x100_S_d0_1_2 h_S_) main_v21 main_c_7
  let main_v23 : IVec S_ 1 := andi main_v18 main_v22
  let main_v24 : FVec F S300x100 .f32 := Host.absf main_arg6
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S300x100 .f32 := Host.absf main_arg7
  let main_cst_10 : FVec F S_ .f32 := constant S_ .f32 0x7F800000#32
  let main_v30 : FVec F S300x100 .f32 := broadcastInDim S300x100 ![] bcast_S_S300x100 main_cst_10
  let main_v31 : IVec S300x100 1 := cmpf .olt main_v29 main_v30
  let main_c_11 : IVec S_ 1 := constantI S_ 1 1#1
  let main_v32 : IVec S_ 1 := (fun x v => Host.reduce IntOp.andi x v reducesTo_S300x100_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : FVec F S1x50000x64 .f32) (main_arg4 : FVec F S1x50000x64 .f32) (main_arg5 : FVec F S1x100x100 .f32) (main_arg6 : FVec F S300x100 .f32) (main_arg7 : FVec F S300x100 .f32) (main_arg8 : FVec F S300 .f32) (main_arg9 : FVec F S300 .f32) (main_arg10 : FVec F S256x100 .f32) (main_arg11 : FVec F S256x64 .f32) (main_arg12 : FVec F S256 .f32) (main_arg13 : FVec F S256 .f32) (main_arg14 : FVec F S8x64 .f32) (main_arg15 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1x50000x64 .f32 := Host.absf main_arg3
  let main_cst_2 : FVec F S_ .f32 := constant S_ .f32 0x7F800000#32
  let main_v10 : FVec F S1x50000x64 .f32 := broadcastInDim S1x50000x64 ![] bcast_S_S1x50000x64 main_cst_2
  let main_v11 : IVec S1x50000x64 1 := cmpf .olt main_v9 main_v10
  let main_c_3 : IVec S_ 1 := constantI S_ 1 1#1
  let main_v12 : IVec S_ 1 := (fun x v => Host.reduce IntOp.andi x v reducesTo_S1x50000x64_S_d0_1_2 h_S_) main_v11 main_c_3
  let main_v13 : IVec S_ 1 := andi main_v8 main_v12
  let main_v14 : FVec F S1x50000x64 .f32 := Host.absf main_arg4
  let main_cst_4 : FVec F S_ .f32 := constant S_ .f32 0x7F800000#32
  let main_v15 : FVec F S1x50000x64 .f32 := broadcastInDim S1x50000x64 ![] bcast_S_S1x50000x64 main_cst_4
  let main_v16 : IVec S1x50000x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S1x800000 : Shape := ⟨2, ![1, 800000]⟩
abbrev S1x64x100 : Shape := ⟨3, ![1, 64, 100]⟩
abbrev S64x100 : Shape := ⟨2, ![64, 100]⟩
abbrev S50000x100 : Shape := ⟨2, ![50000, 100]⟩
abbrev S1000x64 : Shape := ⟨2, ![1000, 64]⟩
abbrev S1000x100 : Shape := ⟨2, ![1000, 100]⟩
abbrev S_ : Shape := ⟨0, ![]⟩
abbrev S800000x1 : Shape := ⟨2, ![800000, 1]⟩
abbrev S800000x100 : Shape := ⟨2, ![800000, 100]⟩
abbrev S800000x101 : Shape := ⟨2, ![800000, 101]⟩
abbrev S50000x101 : Shape := ⟨2, ![50000, 101]⟩
abbrev S50000x1 : Shape := ⟨2, ![50000, 1]⟩
abbrev S100x300 : Shape := ⟨2, ![100, 300]⟩
abbrev S100x100 : Shape := ⟨2, ![100, 100]⟩
abbrev S100x128 : Shape := ⟨2, ![100, 128]⟩
abbrev S100x384 : Shape := ⟨2, ![100, 384]⟩
abbrev S1x300 : Shape := ⟨2, ![1, 300]⟩
abbrev S1x100 : Shape := ⟨2, ![1, 100]⟩
abbrev S1x128 : Shape := ⟨2, ![1, 128]⟩
abbrev S1x384 : Shape := ⟨2, ![1, 384]⟩
abbrev S100x256 : Shape := ⟨2, ![100, 256]⟩
abbrev S100x64 : Shape := ⟨2, ![100, 64]⟩
abbrev S100x512 : Shape := ⟨2, ![100, 512]⟩
abbrev S64x256 : Shape := ⟨2, ![64, 256]⟩
abbrev S64x64 : Shape := ⟨2, ![64, 64]⟩
abbrev S64x128 : Shape := ⟨2, ![64, 128]⟩
abbrev S64x512 : Shape := ⟨2, ![64, 512]⟩
abbrev S1x256 : Shape := ⟨2, ![1, 256]⟩
abbrev S1x64 : Shape := ⟨2, ![1, 64]⟩
abbrev S1x512 : Shape := ⟨2, ![1, 512]⟩
abbrev S64x8 : Shape := ⟨2, ![64, 8]⟩
abbrev S1x8 : Shape := ⟨2, ![1, 8]⟩
abbrev S50000x8 : Shape := ⟨2, ![50000, 8]⟩
abbrev S1000x8 : Shape := ⟨2, ![1000, 8]⟩
abbrev S1000x36 : Shape := ⟨2, ![1000, 36]⟩
abbrev S1000x384 : Shape := ⟨2, ![1000, 384]⟩
abbrev S1000x512 : Shape := ⟨2, ![1000, 512]⟩

abbrev nBuf : Space → Nat
  | .hbm => 187
  | .vmem => 29
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S1x50000x64, .f32⟩
  | 4 => ⟨S1x50000x64, .f32⟩
  | 5 => ⟨S1x100x100, .f32⟩
  | 6 => ⟨S300x100, .f32⟩
  | 7 => ⟨S300x100, .f32⟩
  | 8 => ⟨S300, .f32⟩
  | 9 => ⟨S300, .f32⟩
  | 10 => ⟨S256x100, .f32⟩
  | 11 => ⟨S256x64, .f32⟩
  | 12 => ⟨S256, .f32⟩
  | 13 => ⟨S256, .f32⟩
  | 14 => ⟨S8x64, .f32⟩
  | 15 => ⟨S8, .f32⟩
  | 16 => ⟨S1x800000, .i32⟩
  | 17 => ⟨S800000, .i32⟩
  | 18 => ⟨S1x800000, .i32⟩
  | 19 => ⟨S800000, .i32⟩
  | 20 => ⟨S1x64x100, .f32⟩
  | 21 => ⟨S64x100, .f32⟩
  | 22 => ⟨S50000x100, .bf16⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x100, .bf16⟩
  | 32 => ⟨S800000x100, .f32⟩
  | 33 => ⟨S800000x1, .f32⟩
  | 34 => ⟨S800000x100, .f32⟩
  | 35 => ⟨S800000x100, .f32⟩
  | 36 => ⟨S_, .f32⟩
  | 37 => ⟨S800000x1, .f32⟩
  | 38 => ⟨S800000x101, .f32⟩
  | 39 => ⟨S_, .f32⟩
  | 40 => ⟨S50000x101, .f32⟩
  | 41 => ⟨S800000x1, .i32⟩
  | 42 => ⟨S50000x101, .f32⟩
  | 43 => ⟨S50000x100, .f32⟩
  | 44 => ⟨S50000x1, .f32⟩
  | 45 => ⟨S_, .f32⟩
  | 46 => ⟨S50000x1, .f32⟩
  | 47 => ⟨S50000x1, .f32⟩
  | 48 => ⟨S50000x100, .f32⟩
  | 49 => ⟨S50000x100, .f32⟩
  | 50 => ⟨S100x300, .f32⟩
  | 51 => ⟨S100x100, .f32⟩
  | 52 => ⟨S_, .i32⟩
  | 53 => ⟨S_, .f32⟩
  | 54 => ⟨S100x128, .f32⟩
  | 55 => ⟨S100x100, .f32⟩
  | 56 => ⟨S_, .i32⟩
  | 57 => ⟨S_, .f32⟩
  | 58 => ⟨S100x128, .f32⟩
  | 59 => ⟨S100x100, .f32⟩
  | 60 => ⟨S_, .i32⟩
  | 61 => ⟨S_, .f32⟩
  | 62 => ⟨S100x128, .f32⟩
  | 63 => ⟨S100x384, .f32⟩
  | 64 => ⟨S100x300, .f32⟩
  | 65 => ⟨S100x100, .f32⟩
  | 66 => ⟨S_, .i32⟩
  | 67 => ⟨S_, .f32⟩
  | 68 => ⟨S100x128, .f32⟩
  | 69 => ⟨S100x100, .f32⟩
  | 70 => ⟨S_, .i32⟩
  | 71 => ⟨S_, .f32⟩
  | 72 => ⟨S100x128, .f32⟩
  | 73 => ⟨S100x100, .f32⟩
  | 74 => ⟨S_, .i32⟩
  | 75 => ⟨S_, .f32⟩
  | 76 => ⟨S100x128, .f32⟩
  | 77 => ⟨S100x384, .f32⟩
  | 78 => ⟨S1x300, .f32⟩
  | 79 => ⟨S1x100, .f32⟩
  | 80 => ⟨S_, .i32⟩
  | 81 => ⟨S_, .f32⟩
  | 82 => ⟨S1x128, .f32⟩
  | 83 => ⟨S1x100, .f32⟩
  | 84 => ⟨S_, .i32⟩
  | 85 => ⟨S_, .f32⟩
  | 86 => ⟨S1x128, .f32⟩
  | 87 => ⟨S1x100, .f32⟩
  | 88 => ⟨S_, .i32⟩
  | 89 => ⟨S_, .f32⟩
  | 90 => ⟨S1x128, .f32⟩
  | 91 => ⟨S1x384, .f32⟩
  | 92 => ⟨S1x300, .f32⟩
  | 93 => ⟨S1x100, .f32⟩
  | 94 => ⟨S_, .i32⟩
  | 95 => ⟨S_, .f32⟩
  | 96 => ⟨S1x128, .f32⟩
  | 97 => ⟨S1x100, .f32⟩
  | 98 => ⟨S_, .i32⟩
  | 99 => ⟨S_, .f32⟩
  | 100 => ⟨S1x128, .f32⟩
  | 101 => ⟨S1x100, .f32⟩
  | 102 => ⟨S_, .i32⟩
  | 103 => ⟨S_, .f32⟩
  | 104 => ⟨S1x128, .f32⟩
  | 105 => ⟨S1x384, .f32⟩
  | 106 => ⟨S100x256, .f32⟩
  | 107 => ⟨S100x64, .f32⟩
  | 108 => ⟨S_, .i32⟩
  | 109 => ⟨S_, .f32⟩
  | 110 => ⟨S100x128, .f32⟩
  | 111 => ⟨S100x64, .f32⟩
  | 112 => ⟨S_, .i32⟩
  | 113 => ⟨S_, .f32⟩
  | 114 => ⟨S100x128, .f32⟩
  | 115 => ⟨S100x64, .f32⟩
  | 116 => ⟨S_, .i32⟩
  | 117 => ⟨S_, .f32⟩
  | 118 => ⟨S100x128, .f32⟩
  | 119 => ⟨S100x64, .f32⟩
  | 120 => ⟨S_, .i32⟩
  | 121 => ⟨S_, .f32⟩
  | 122 => ⟨S100x128, .f32⟩
  | 123 => ⟨S100x512, .f32⟩
  | 124 => ⟨S64x256, .f32⟩
  | 125 => ⟨S64x64, .f32⟩
  | 126 => ⟨S_, .i32⟩
  | 127 => ⟨S_, .f32⟩
  | _ => ⟨S50000x64, .f32⟩

abbrev hbmTy0_1 (i : Nat) : BufTy := match i % 128 with
  | 0 => ⟨S64x128, .f32⟩
  | 1 => ⟨S64x64, .f32⟩
  | 2 => ⟨S_, .i32⟩
  | 3 => ⟨S_, .f32⟩
  | 4 => ⟨S64x128, .f32⟩
  | 5 => ⟨S64x64, .f32⟩
  | 6 => ⟨S_, .i32⟩
  | 7 => ⟨S_, .f32⟩
  | 8 => ⟨S64x128, .f32⟩
  | 9 => ⟨S64x64, .f32⟩
  | 10 => ⟨S_, .i32⟩
  | 11 => ⟨S_, .f32⟩
  | 12 => ⟨S64x128, .f32⟩
  | 13 => ⟨S64x512, .f32⟩
  | 14 => ⟨S1x256, .f32⟩
  | 15 => ⟨S1x64, .f32⟩
  | 16 => ⟨S_, .i32⟩
  | 17 => ⟨S_, .f32⟩
  | 18 => ⟨S1x128, .f32⟩
  | 19 => ⟨S1x64, .f32⟩
  | 20 => ⟨S_, .i32⟩
  | 21 => ⟨S_, .f32⟩
  | 22 => ⟨S1x128, .f32⟩
  | 23 => ⟨S1x64, .f32⟩
  | 24 => ⟨S_, .i32⟩
  | 25 => ⟨S_, .f32⟩
  | 26 => ⟨S1x128, .f32⟩
  | 27 => ⟨S1x64, .f32⟩
  | 28 => ⟨S_, .i32⟩
  | 29 => ⟨S_, .f32⟩
  | 30 => ⟨S1x128, .f32⟩
  | 31 => ⟨S1x512, .f32⟩
  | 32 => ⟨S1x256, .f32⟩
  | 33 => ⟨S1x64, .f32⟩
  | 34 => ⟨S_, .i32⟩
  | 35 => ⟨S_, .f32⟩
  | 36 => ⟨S1x128, .f32⟩
  | 37 => ⟨S1x64, .f32⟩
  | 38 => ⟨S_, .i32⟩
  | 39 => ⟨S_, .f32⟩
  | 40 => ⟨S1x128, .f32⟩
  | 41 => ⟨S1x64, .f32⟩
  | 42 => ⟨S_, .i32⟩
  | 43 => ⟨S_, .f32⟩
  | 44 => ⟨S1x128, .f32⟩
  | 45 => ⟨S1x64, .f32⟩
  | 46 => ⟨S_, .i32⟩
  | 47 => ⟨S_, .f32⟩
  | 48 => ⟨S1x128, .f32⟩
  | 49 => ⟨S1x512, .f32⟩
  | 50 => ⟨S64x8, .f32⟩
  | 51 => ⟨S1x8, .f32⟩
  | 52 => ⟨S50000x64, .f32⟩
  | 53 => ⟨S50000x64, .f32⟩
  | 54 => ⟨S50000x64, .f32⟩
  | 55 => ⟨S50000x64, .f32⟩
  | 56 => ⟨S50000x8, .f32⟩
  | 57 => ⟨S1x50000x64, .f32⟩
  | 58 => ⟨S1x50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S64x100, .f32⟩
  | .local _ .vmem, ⟨3, _⟩ => ⟨S1000x100, .bf16⟩
  | .local _ .vmem, ⟨4, _⟩ => ⟨S1000x100, .bf16⟩
  | .local _ .vmem, ⟨5, _⟩ => ⟨S1000x64, .f32⟩
  | .local _ .vmem, ⟨6, _⟩ => ⟨S1000x64, .f32⟩
  | .local _ .vmem, ⟨7, _⟩ => ⟨S1000x100, .f32⟩
  | .local _ .vmem, ⟨8, _⟩ => ⟨S1000x100, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S100x384, .f32⟩
  | .local _ .vmem, ⟨14, _⟩ => ⟨S100x384, .f32⟩
  | .local _ .vmem, ⟨15, _⟩ => ⟨S1x384, .f32⟩
  | .local _ .vmem, ⟨16, _⟩ => ⟨S1x384, .f32⟩
  | .local _ .vmem, ⟨17, _⟩ => ⟨S100x512, .f32⟩
  | .local _ .vmem, ⟨18, _⟩ => ⟨S64x512, .f32⟩
  | .local _ .vmem, ⟨19, _⟩ => ⟨S1x512, .f32⟩
  | .local _ .vmem, ⟨20, _⟩ => ⟨S1x512, .f32⟩
  | .local _ .vmem, ⟨21, _⟩ => ⟨S64x8, .f32⟩
  | .local _ .vmem, ⟨22, _⟩ => ⟨S1x8, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x8, .f32⟩
  | .local _ .vmem, ⟨28, _⟩ => ⟨S1000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_call0_v0 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_call2_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_call3_v0 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_call4_v0 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_call5_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_9 : Ref sig .tc := ⟨.hbm, 80, rfl⟩
abbrev main_call6_v0 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_call7_v0 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_call8_v0 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_12 : Ref sig .tc := ⟨.hbm, 94, rfl⟩
abbrev main_call9_v0 : Ref sig .tc := ⟨.hbm, 95, rfl⟩
abbrev main_v55 : Ref sig .tc := ⟨.hbm, 96, rfl⟩
abbrev main_v56 : Ref sig .tc := ⟨.hbm, 97, rfl⟩
abbrev main_c_13 : Ref sig .tc := ⟨.hbm, 98, rfl⟩
abbrev main_call10_v0 : Ref sig .tc := ⟨.hbm, 99, rfl⟩
abbrev main_v57 : Ref sig .tc := ⟨.hbm, 100, rfl⟩
abbrev main_v58 : Ref sig .tc := ⟨.hbm, 101, rfl⟩
abbrev main_c_14 : Ref sig .tc := ⟨.hbm, 102, rfl⟩
abbrev main_call11_v0 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_15 : Ref sig .tc := ⟨.hbm, 108, rfl⟩
abbrev main_call12_v0 : Ref sig .tc := ⟨.hbm, 109, rfl⟩
abbrev main_v63 : Ref sig .tc := ⟨.hbm, 110, rfl⟩
abbrev main_v64 : Ref sig .tc := ⟨.hbm, 111, rfl⟩
abbrev main_c_16 : Ref sig .tc := ⟨.hbm, 112, rfl⟩
abbrev main_call13_v0 : Ref sig .tc := ⟨.hbm, 113, rfl⟩
abbrev main_v65 : Ref sig .tc := ⟨.hbm, 114, rfl⟩
abbrev main_v66 : Ref sig .tc := ⟨.hbm, 115, rfl⟩
abbrev main_c_17 : Ref sig .tc := ⟨.hbm, 116, rfl⟩
abbrev main_call14_v0 : Ref sig .tc := ⟨.hbm, 117, rfl⟩
abbrev main_v67 : Ref sig .tc := ⟨.hbm, 118, rfl⟩
abbrev main_v68 : Ref sig .tc := ⟨.hbm, 119, rfl⟩
abbrev main_c_18 : Ref sig .tc := ⟨.hbm, 120, rfl⟩
abbrev main_call15_v0 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_19 : Ref sig .tc := ⟨.hbm, 126, rfl⟩
abbrev main_call16_v0 : Ref sig .tc := ⟨.hbm, 127, rfl⟩
abbrev main_v73 : Ref sig .tc := ⟨.hbm, 128, rfl⟩
abbrev main_v74 : Ref sig .tc := ⟨.hbm, 129, rfl⟩
abbrev main_c_20 : Ref sig .tc := ⟨.hbm, 130, rfl⟩
abbrev main_call17_v0 : Ref sig .tc := ⟨.hbm, 131, rfl⟩
abbrev main_v75 : Ref sig .tc := ⟨.hbm, 132, rfl⟩
abbrev main_v76 : Ref sig .tc := ⟨.hbm, 133, rfl⟩
abbrev main_c_21 : Ref sig .tc := ⟨.hbm, 134, rfl⟩
abbrev main_call18_v0 : Ref sig .tc := ⟨.hbm, 135, rfl⟩
abbrev main_v77 : Ref sig .tc := ⟨.hbm, 136, rfl⟩
abbrev main_v78 : Ref sig .tc := ⟨.hbm, 137, rfl⟩
abbrev main_c_22 : Ref sig .tc := ⟨.hbm, 138, rfl⟩
abbrev main_call19_v0 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_c_23 : Ref sig .tc := ⟨.hbm, 144, rfl⟩
abbrev main_call20_v0 : Ref sig .tc := ⟨.hbm, 145, rfl⟩
abbrev main_v83 : Ref sig .tc := ⟨.hbm, 146, rfl⟩
abbrev main_v84 : Ref sig .tc := ⟨.hbm, 147, rfl⟩
abbrev main_c_24 : Ref sig .tc := ⟨.hbm, 148, rfl⟩
abbrev main_call21_v0 : Ref sig .tc := ⟨.hbm, 149, rfl⟩
abbrev main_v85 : Ref sig .tc := ⟨.hbm, 150, rfl⟩
abbrev main_v86 : Ref sig .tc := ⟨.hbm, 151, rfl⟩
abbrev main_c_25 : Ref sig .tc := ⟨.hbm, 152, rfl⟩
abbrev main_call22_v0 : Ref sig .tc := ⟨.hbm, 153, rfl⟩
abbrev main_v87 : Ref sig .tc := ⟨.hbm, 154, rfl⟩
abbrev main_v88 : Ref sig .tc := ⟨.hbm, 155, rfl⟩
abbrev main_c_26 : Ref sig .tc := ⟨.hbm, 156, rfl⟩
abbrev main_call23_v0 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_c_27 : Ref sig .tc := ⟨.hbm, 162, rfl⟩
abbrev main_call24_v0 : Ref sig .tc := ⟨.hbm, 163, rfl⟩
abbrev main_v93 : Ref sig .tc := ⟨.hbm, 164, rfl⟩
abbrev main_v94 : Ref sig .tc := ⟨.hbm, 165, rfl⟩
abbrev main_c_28 : Ref sig .tc := ⟨.hbm, 166, rfl⟩
abbrev main_call25_v0 : Ref sig .tc := ⟨.hbm, 167, rfl⟩
abbrev main_v95 : Ref sig .tc := ⟨.hbm, 168, rfl⟩
abbrev main_v96 : Ref sig .tc := ⟨.hbm, 169, rfl⟩
abbrev main_c_29 : Ref sig .tc := ⟨.hbm, 170, rfl⟩
abbrev main_call26_v0 : Ref sig .tc := ⟨.hbm, 171, rfl⟩
abbrev main_v97 : Ref sig .tc := ⟨.hbm, 172, rfl⟩
abbrev main_v98 : Ref sig .tc := ⟨.hbm, 173, rfl⟩
abbrev main_c_30 : Ref sig .tc := ⟨.hbm, 174, rfl⟩
abbrev main_call27_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105_0 : Ref sig .tc := ⟨.hbm, 182, rfl⟩
abbrev main_v105_1 : Ref sig .tc := ⟨.hbm, 183, rfl⟩
abbrev main_v105_2 : Ref sig .tc := ⟨.hbm, 184, rfl⟩
abbrev main_v106 : Ref sig .tc := ⟨.hbm, 185, rfl⟩
abbrev main_v107 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg14_1 : Ref sig .tc := ⟨.vmem, 24, rfl⟩
abbrev cc1_stg15_0 : Ref sig .tc := ⟨.vmem, 25, rfl⟩
abbrev cc1_stg15_1 : Ref sig .tc := ⟨.vmem, 26, rfl⟩
abbrev cc1_stg16_0 : Ref sig .tc := ⟨.vmem, 27, rfl⟩
abbrev cc1_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem14_1 : DmaSem sig := 24
abbrev cc1_sem15_0 : DmaSem sig := 25
abbrev cc1_sem15_1 : DmaSem sig := 26
abbrev cc1_sem16_0 : DmaSem sig := 27
abbrev cc1_sem16_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S100x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S100x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x8 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S1000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1000x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S1x100x100_S1x64x100_0_0_0 : S1x100x100.Slices ![0, 0, 0] S1x64x100
  shapeCasts_S1x64x100_S64x100 : S1x64x100.ShapeCasts S64x100
  inb_S1000x64_S1000x64_0_0 : ∀ a, (![0, 0] : Fin 2 → Nat) a + S1000x64.size a ≤ S1000x64.size a
  h_S1000x64 : 0 < S1000x64.numel
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S1000x100_S1000x100_0_0 : ∀ a, (![0, 0] : Fin 2 → Nat) a + S1000x100.size a ≤ S1000x100.size a
  h_S1000x100 : 0 < S1000x100.numel
  packedbf16_S1000x100_S1000x100_0_0 : (Rect.unit (s := S1000x100) ![0, 0] S1000x100.size inb_S1000x100_S1000x100_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S800000x1 : S_.BroadcastsInDim S800000x1 (![] : Fin 0 → Fin S800000x1.rank)
  concatenates_S800000x100_S800000x1_S800000x101_d1 : Shape.Concatenates [S800000x100, S800000x1] S800000x101 1
  bcast_S_S50000x101 : S_.BroadcastsInDim S50000x101 (![] : Fin 0 → Fin S50000x101.rank)
  slices_S50000x101_S50000x100_0_0 : S50000x101.Slices ![0, 0] S50000x100
  slices_S50000x101_S50000x1_0_100 : S50000x101.Slices ![0, 100] S50000x1
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  transposes_S300x100_S100x300_1_0 : S300x100.Transposes [1, 0] S100x300
  slices_S100x300_S100x100_0_0 : S100x300.Slices ![0, 0] S100x100
  pads_S100x100_S100x128_000_0280 : S100x100.Pads (![0, 0] : Fin 2 → Nat) ![0, 28] ![0, 0] S100x128
  h_S_ : 0 < S_.numel
  slices_S100x300_S100x100_0_100 : S100x300.Slices ![0, 100] S100x100
  slices_S100x300_S100x100_0_200 : S100x300.Slices ![0, 200] S100x100
  concatenates_S100x128_S100x128_S100x128_S100x384_d1 : Shape.Concatenates [S100x128, S100x128, S100x128] S100x384 1
  shapeCasts_S300_S1x300 : S300.ShapeCasts S1x300
  slices_S1x300_S1x100_0_0 : S1x300.Slices ![0, 0] S1x100
  pads_S1x100_S1x128_000_0280 : S1x100.Pads (![0, 0] : Fin 2 → Nat) ![0, 28] ![0, 0] S1x128
  slices_S1x300_S1x100_0_100 : S1x300.Slices ![0, 100] S1x100
  slices_S1x300_S1x100_0_200 : S1x300.Slices ![0, 200] S1x100
  concatenates_S1x128_S1x128_S1x128_S1x384_d1 : Shape.Concatenates [S1x128, S1x128, S1x128] S1x384 1
  transposes_S256x100_S100x256_1_0 : S256x100.Transposes [1, 0] S100x256
  slices_S100x256_S100x64_0_0 : S100x256.Slices ![0, 0] S100x64
  pads_S100x64_S100x128_000_0640 : S100x64.Pads (![0, 0] : Fin 2 → Nat) ![0, 64] ![0, 0] S100x128
  slices_S100x256_S100x64_0_64 : S100x256.Slices ![0, 64] S100x64
  slices_S100x256_S100x64_0_128 : S100x256.Slices ![0, 128] S100x64
  slices_S100x256_S100x64_0_192 : S100x256.Slices ![0, 192] S100x64
  concatenates_S100x128_S100x128_S100x128_S100x128_S100x512_d1 : Shape.Concatenates [S100x128, S100x128, S100x128, S100x128] S100x512 1
  transposes_S256x64_S64x256_1_0 : S256x64.Transposes [1, 0] S64x256
  slices_S64x256_S64x64_0_0 : S64x256.Slices ![0, 0] S64x64
  pads_S64x64_S64x128_000_0640 : S64x64.Pads (![0, 0] : Fin 2 → Nat) ![0, 64] ![0, 0] S64x128
  slices_S64x256_S64x64_0_64 : S64x256.Slices ![0, 64] S64x64
  slices_S64x256_S64x64_0_128 : S64x256.Slices ![0, 128] S64x64
  slices_S64x256_S64x64_0_192 : S64x256.Slices ![0, 192] S64x64
  concatenates_S64x128_S64x128_S64x128_S64x128_S64x512_d1 : Shape.Concatenates [S64x128, S64x128, S64x128, S64x128] S64x512 1
  shapeCasts_S256_S1x256 : S256.ShapeCasts S1x256
  slices_S1x256_S1x64_0_0 : S1x256.Slices ![0, 0] S1x64
  pads_S1x64_S1x128_000_0640 : S1x64.Pads (![0, 0] : Fin 2 → Nat) ![0, 64] ![0, 0] S1x128
  slices_S1x256_S1x64_0_64 : S1x256.Slices ![0, 64] S1x64
  slices_S1x256_S1x64_0_128 : S1x256.Slices ![0, 128] S1x64
  slices_S1x256_S1x64_0_192 : S1x256.Slices ![0, 192] S1x64
  concatenates_S1x128_S1x128_S1x128_S1x128_S1x512_d1 : Shape.Concatenates [S1x128, S1x128, S1x128, S1x128] S1x512 1
  transposes_S8x64_S64x8_1_0 : S8x64.Transposes [1, 0] S64x8
  shapeCasts_S8_S1x8 : S8.ShapeCasts S1x8
  shapeCasts_S1x50000x64_S50000x64 : S1x50000x64.ShapeCasts S50000x64
  shapeCasts_S1000x100_S1000x100 : S1000x100.ShapeCasts S1000x100
  shapeCasts_S1000x64_S1000x64 : S1000x64.ShapeCasts S1000x64
  concatenates_S1000x64_S1000x36_S1000x100_d1 : Shape.Concatenates [S1000x64, S1000x36] S1000x100 1
  inb_S100x384_S100x384_0_0 : ∀ a, (![0, 0] : Fin 2 → Nat) a + S100x384.size a ≤ S100x384.size a
  h_S100x384 : 0 < S100x384.numel
  shapeCasts_S100x384_S100x384 : S100x384.ShapeCasts S100x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x100 : S1000x384.Slices ![0, 0] S1000x100
  slices_S1000x384_o0_128_S1000x100 : S1000x384.Slices ![0, 128] S1000x100
  slices_S1000x384_o0_256_S1000x100 : S1000x384.Slices ![0, 256] S1000x100
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S1000x512_o0_0_S1000x64 : S1000x512.Slices ![0, 0] S1000x64
  slices_S1000x512_o0_128_S1000x64 : S1000x512.Slices ![0, 128] S1000x64
  slices_S1000x512_o0_256_S1000x64 : S1000x512.Slices ![0, 256] S1000x64
  slices_S1000x512_o0_384_S1000x64 : S1000x512.Slices ![0, 384] S1000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  bcast_S50000x64_S1x50000x64_1_2 : S50000x64.BroadcastsInDim S1x50000x64 (![1, 2] : Fin 2 → Fin S1x50000x64.rank)
  dot_S1000x64_S64x100_S1000x100_1_0_0_1_n_n_wf : DotDims.WF S1000x64 S64x100 S1000x100 [1] [0] [0] [1] [] []
  gather_S50000x100_S800000x1_S800000x100_1_0_n_n_0_1_1100_wf : GatherDims.WF S50000x100 S800000x1 S800000x100 [1] [0] [] [0] [] 1 ![1, 100]
  scatter_S50000x101_S800000x1_S800000x101_1_0_0_1_wf : ScatterDims.WF S50000x101 S800000x1 S800000x101 [1] [0] [0] 1
  dot_S1000x100_S100x384_S1000x384_1_0_0_1_n_n_wf : DotDims.WF S1000x100 S100x384 S1000x384 [1] [0] [0] [1] [] []
  dot_S1000x100_S100x512_S1000x512_1_0_0_1_n_n_wf : DotDims.WF S1000x100 S100x512 S1000x512 [1] [0] [0] [1] [] []
  dot_S1000x64_S64x512_S1000x512_1_0_0_1_n_n_wf : DotDims.WF S1000x64 S64x512 S1000x512 [1] [0] [0] [1] [] []
  dot_S1000x64_S64x8_S1000x8_1_0_0_1_n_n_wf : DotDims.WF S1000x64 S64x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .f32 = 32 ∨ (Rect.block (s := S64x100) S64x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x100.size a ≤ S50000x100.size a
  hwx0_2 : ∀ i : grid0.Coords, EltTy.bits .bf16 = 32 ∨ (Rect.block (s := S50000x100) S1000x100.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x100.size a ≤ S50000x100.size a
  hwx1_1 : ∀ i : grid1.Coords, EltTy.bits .f32 = 32 ∨ (Rect.block (s := S50000x100) S1000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S50000x64.size a
  hwx1_2 : ∀ i : grid1.Coords, EltTy.bits .f32 = 32 ∨ (Rect.block (s := S50000x64) S1000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S50000x64.size a
  hwx1_3 : ∀ i : grid1.Coords, EltTy.bits .f32 = 32 ∨ (Rect.block (s := S50000x64) S1000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x384.size a ≤ S100x384.size a
  hwx1_4 : ∀ i : grid1.Coords, EltTy.bits .f32 = 32 ∨ (Rect.block (s := S100x384) S100x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x384.size a ≤ S100x384.size a
  hwx1_5 : ∀ i : grid1.Coords, EltTy.bits .f32 = 32 ∨ (Rect.block (s := S100x384) S100x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S100x512.size a ≤ S100x512.size a
  hwx1_8 : ∀ i : grid1.Coords, EltTy.bits .f32 = 32 ∨ (Rect.block (s := S100x512) S100x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x512.size a ≤ S64x512.size a
  hwx1_9 : ∀ i : grid1.Coords, EltTy.bits .f32 = 32 ∨ (Rect.block (s := S64x512) S64x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x512.size a
  hwx1_11 : ∀ i : grid1.Coords, EltTy.bits .f32 = 32 ∨ (Rect.block (s := S1x512) S1x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x8.size a ≤ S64x8.size a
  hwx1_12 : ∀ i : grid1.Coords, EltTy.bits .f32 = 32 ∨ (Rect.block (s := S64x8) S64x8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x8.size a ≤ S1x8.size a
  hwx1_13 : ∀ i : grid1.Coords, EltTy.bits .f32 = 32 ∨ (Rect.block (s := S1x8) S1x8.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1000x64.size a ≤ S50000x64.size a
  hwx1_14 : ∀ i : grid1.Coords, EltTy.bits .f32 = 32 ∨ (Rect.block (s := S50000x64) S1000x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1000x64.size a ≤ S50000x64.size a
  hwx1_15 : ∀ i : grid1.Coords, EltTy.bits .f32 = 32 ∨ (Rect.block (s := S50000x64) S1000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1000x8.size a ≤ S50000x8.size a
  hwx1_16 : ∀ i : grid1.Coords, EltTy.bits .f32 = 32 ∨ (Rect.block (s := S50000x8) S1000x8.size (cc1_transform_16 i) (hinb1_16 i)).WholeWords (EltTy.packing .f32)

variable [Facts₀]

def dot_S1000x64_S64x100_S1000x100_1_0_0_1_n_n : DotDims S1000x64 S64x100 S1000x100 where
  lhsContracting := [1]
  rhsContracting := [0]
  lhsNonContracting := [0]
  rhsNonContracting := [1]
  lhsBatch := []
  rhsBatch := []
  wf := dot_S1000x64_S64x100_S1000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x101_S800000x1_S800000x101_1_0_0_1 : ScatterDims S50000x101 S800000x1 S800000x101 where
  updateWindowDims := [1]
  insertedWindowDims := [0]
  scatterDimsToOperandDims := [0]
  indexVectorDim := 1
  wf := scatter_S50000x101_S800000x1_S800000x101_1_0_0_1_wf
def dot_S1000x100_S100x384_S1000x384_1_0_0_1_n_n : DotDims S1000x100 S100x384 S1000x384 where
  lhsContracting := [1]
  rhsContracting := [0]
  lhsNonContracting := [0]
  rhsNonContracting := [1]
  lhsBatch := []
  rhsBatch := []
  wf := dot_S1000x100_S100x384_S1000x384_1_0_0_1_n_n_wf
def dot_S1000x100_S100x512_S1000x512_1_0_0_1_n_n : DotDims S1000x100 S100x512 S1000x512 where
  lhsContracting := [1]
  rhsContracting := [0]
  lhsNonContracting := [0]
  rhsNonContracting := [1]
  lhsBatch := []
  rhsBatch := []
  wf := dot_S1000x100_S100x512_S1000x512_1_0_0_1_n_n_wf
def dot_S1000x64_S64x512_S1000x512_1_0_0_1_n_n : DotDims S1000x64 S64x512 S1000x512 where
  lhsContracting := [1]
  rhsContracting := [0]
  lhsNonContracting := [0]
  rhsNonContracting := [1]
  lhsBatch := []
  rhsBatch := []
  wf := dot_S1000x64_S64x512_S1000x512_1_0_0_1_n_n_wf
def dot_S1000x64_S64x8_S1000x8_1_0_0_1_n_n : DotDims S1000x64 S64x8 S1000x8 where
  lhsContracting := [1]
  rhsContracting := [0]
  lhsNonContracting := [0]
  rhsNonContracting := [1]
  lhsBatch := []
  rhsBatch := []
  wf := dot_S1000x64_S64x8_S1000x8_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v103) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v104) S1000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36) S100x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S100x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S100x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v80) S64x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v90) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v100) S1x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v101) S64x8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v102) S1x8.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v105_0) S1000x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v105_1) S1000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v105_2) S1000x8.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S1x50000x64 : Shape := ⟨3, ![1, 50000, 64]⟩
abbrev S1x100x100 : Shape := ⟨3, ![1, 100, 100]⟩
abbrev S300x100 : Shape := ⟨2, ![300, 100]⟩
abbrev S300 : Shape := ⟨1, ![300]⟩
abbrev S256x100 : Shape := ⟨2, ![256, 100]⟩
abbrev S256x64 : Shape := ⟨2, ![256, 64]⟩
abbrev S256 : Shape := ⟨1, ![256]⟩
abbrev S8x64 : Shape := ⟨2, ![8, 64]⟩
abbrev S8 : Shape := ⟨1, ![8]⟩
abbrev S1x800000 : Shape := ⟨2, ![1, 800000]⟩
abbrev S_ : Shape := ⟨0, ![]⟩
abbrev S50000x100 : Shape := ⟨2, ![50000, 100]⟩
abbrev S100x100 : Shape := ⟨2, ![100, 100]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S100x300 : Shape := ⟨2, ![100, 300]⟩
abbrev S50000x300 : Shape := ⟨2, ![50000, 300]⟩
abbrev S1x300 : Shape := ⟨2, ![1, 300]⟩
abbrev S100x256 : Shape := ⟨2, ![100, 256]⟩
abbrev S50000x256 : Shape := ⟨2, ![50000, 256]⟩
abbrev S1x256 : Shape := ⟨2, ![1, 256]⟩
abbrev S64x256 : Shape := ⟨2, ![64, 256]⟩
abbrev S64x8 : Shape := ⟨2, ![64, 8]⟩
abbrev S50000x8 : Shape := ⟨2, ![50000, 8]⟩
abbrev S1x8 : Shape := ⟨2, ![1, 8]⟩

abbrev nBuf : Space → Nat
  | .hbm => 153
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S1x50000x64, .f32⟩
  | 4 => ⟨S1x50000x64, .f32⟩
  | 5 => ⟨S1x100x100, .f32⟩
  | 6 => ⟨S300x100, .f32⟩
  | 7 => ⟨S300x100, .f32⟩
  | 8 => ⟨S300, .f32⟩
  | 9 => ⟨S300, .f32⟩
  | 10 => ⟨S256x100, .f32⟩
  | 11 => ⟨S256x64, .f32⟩
  | 12 => ⟨S256, .f32⟩
  | 13 => ⟨S256, .f32⟩
  | 14 => ⟨S8x64, .f32⟩
  | 15 => ⟨S8, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S_, .f32⟩
  | 22 => ⟨S50000x100, .f32⟩
  | 23 => ⟨S100x100, .f32⟩
  | 24 => ⟨S50000x100, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x100, .f32⟩
  | 34 => ⟨S800000x1, .f32⟩
  | 35 => ⟨S800000x100, .f32⟩
  | 36 => ⟨S800000x100, .f32⟩
  | 37 => ⟨S_, .f32⟩
  | 38 => ⟨S50000x100, .f32⟩
  | 39 => ⟨S800000x1, .i32⟩
  | 40 => ⟨S50000x100, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x100, .f32⟩
  | 52 => ⟨S50000x100, .f32⟩
  | 53 => ⟨S100x300, .f32⟩
  | 54 => ⟨S50000x300, .f32⟩
  | 55 => ⟨S1x300, .f32⟩
  | 56 => ⟨S50000x300, .f32⟩
  | 57 => ⟨S50000x300, .f32⟩
  | 58 => ⟨S100x300, .f32⟩
  | 59 => ⟨S50000x300, .f32⟩
  | 60 => ⟨S1x300, .f32⟩
  | 61 => ⟨S50000x300, .f32⟩
  | 62 => ⟨S50000x300, .f32⟩
  | 63 => ⟨S50000x100, .f32⟩
  | 64 => ⟨S50000x100, .f32⟩
  | 65 => ⟨S50000x100, .f32⟩
  | 66 => ⟨S50000x100, .f32⟩
  | 67 => ⟨S50000x100, .f32⟩
  | 68 => ⟨S50000x100, .f32⟩
  | 69 => ⟨S50000x100, .f32⟩
  | 70 => ⟨S50000x100, .f32⟩
  | 71 => ⟨S50000x100, .f32⟩
  | 72 => ⟨S_, .f32⟩
  | 73 => ⟨S50000x100, .f32⟩
  | 74 => ⟨S50000x100, .f32⟩
  | 75 => ⟨S_, .f32⟩
  | 76 => ⟨S50000x100, .f32⟩
  | 77 => ⟨S50000x100, .f32⟩
  | 78 => ⟨S50000x100, .f32⟩
  | 79 => ⟨S50000x100, .f32⟩
  | 80 => ⟨S50000x100, .f32⟩
  | 81 => ⟨S_, .f32⟩
  | 82 => ⟨S50000x100, .f32⟩
  | 83 => ⟨S50000x100, .f32⟩
  | 84 => ⟨S_, .f32⟩
  | 85 => ⟨S50000x100, .f32⟩
  | 86 => ⟨S50000x100, .f32⟩
  | 87 => ⟨S50000x100, .f32⟩
  | 88 => ⟨S50000x100, .f32⟩
  | 89 => ⟨S50000x100, .f32⟩
  | 90 => ⟨S_, .f32⟩
  | 91 => ⟨S50000x100, .f32⟩
  | 92 => ⟨S50000x100, .f32⟩
  | 93 => ⟨S50000x100, .f32⟩
  | 94 => ⟨S50000x100, .f32⟩
  | 95 => ⟨S50000x100, .f32⟩
  | 96 => ⟨S100x256, .f32⟩
  | 97 => ⟨S50000x256, .f32⟩
  | 98 => ⟨S1x256, .f32⟩
  | 99 => ⟨S50000x256, .f32⟩
  | 100 => ⟨S50000x256, .f32⟩
  | 101 => ⟨S50000x64, .f32⟩
  | 102 => ⟨S64x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S50000x64, .f32⟩
  | 11 => ⟨S50000x64, .f32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S64x8, .f32⟩
  | 19 => ⟨S50000x8, .f32⟩
  | 20 => ⟨S1x8, .f32⟩
  | 21 => ⟨S50000x8, .f32⟩
  | 22 => ⟨S50000x8, .f32⟩
  | 23 => ⟨S1x50000x64, .f32⟩
  | 24 => ⟨S1x50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_10 : Ref sig .tc := ⟨.hbm, 114, rfl⟩
abbrev main_v85 : Ref sig .tc := ⟨.hbm, 115, rfl⟩
abbrev main_v86 : Ref sig .tc := ⟨.hbm, 116, rfl⟩
abbrev main_cst_11 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_12 : Ref sig .tc := ⟨.hbm, 122, rfl⟩
abbrev main_v91 : Ref sig .tc := ⟨.hbm, 123, rfl⟩
abbrev main_v92 : Ref sig .tc := ⟨.hbm, 124, rfl⟩
abbrev main_cst_13 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_14 : Ref sig .tc := ⟨.hbm, 131, rfl⟩
abbrev main_v98 : Ref sig .tc := ⟨.hbm, 132, rfl⟩
abbrev main_v99 : Ref sig .tc := ⟨.hbm, 133, rfl⟩
abbrev main_cst_15 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call1_cst : Ref sig .tc := ⟨.hbm, 143, rfl⟩
abbrev main_call1_v0 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S50000x64_S50000x100_000_0360 : S50000x64.Pads (![0, 0] : Fin 2 → Nat) ![0, 36] ![0, 0] S50000x100
  h_S_ : 0 < S_.numel
  shapeCasts_S1x100x100_S100x100 : S1x100x100.ShapeCasts S100x100
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  transposes_S300x100_S100x300_1_0 : S300x100.Transposes [1, 0] S100x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  slices_S50000x300_S50000x100_0_0 : S50000x300.Slices ![0, 0] S50000x100
  slices_S50000x300_S50000x100_0_100 : S50000x300.Slices ![0, 100] S50000x100
  slices_S50000x300_S50000x100_0_200 : S50000x300.Slices ![0, 200] S50000x100
  transposes_S256x100_S100x256_1_0 : S256x100.Transposes [1, 0] S100x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1x50000x64_S50000x64 : S1x50000x64.ShapeCasts S50000x64
  transposes_S256x64_S64x256_1_0 : S256x64.Transposes [1, 0] S64x256
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  transposes_S8x64_S64x8_1_0 : S8x64.Transposes [1, 0] S64x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S50000x64_S1x50000x64_1_2 : S50000x64.BroadcastsInDim S1x50000x64 (![1, 2] : Fin 2 → Fin S1x50000x64.rank)
  dot_S50000x100_S100x100_S50000x100_1_0_0_1_n_n_wf : DotDims.WF S50000x100 S100x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S50000x100_S100x300_S50000x300_1_0_0_1_n_n_wf : DotDims.WF S50000x100 S100x300 S50000x300 [1] [0] [0] [1] [] []
  dot_S50000x100_S100x256_S50000x256_1_0_0_1_n_n_wf : DotDims.WF S50000x100 S100x256 S50000x256 [1] [0] [0] [1] [] []
  dot_S50000x64_S64x256_S50000x256_1_0_0_1_n_n_wf : DotDims.WF S50000x64 S64x256 S50000x256 [1] [0] [0] [1] [] []
  dot_S50000x64_S64x8_S50000x8_1_0_0_1_n_n_wf : DotDims.WF S50000x64 S64x8 S50000x8 [1] [0] [0] [1] [] []

variable [Facts₀]

def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x100_S100x300_S50000x300_1_0_0_1_n_n : DotDims S50000x100 S100x300 S50000x300 where
  lhsContracting := [1]
  rhsContracting := [0]
  lhsNonContracting := [0]
  rhsNonContracting := [1]
  lhsBatch := []
  rhsBatch := []
  wf := dot_S50000x100_S100x300_S50000x300_1_0_0_1_n_n_wf
def dot_S50000x100_S100x256_S50000x256_1_0_0_1_n_n : DotDims S50000x100 S100x256 S50000x256 where
  lhsContracting := [1]
  rhsContracting := [0]
  lhsNonContracting := [0]
  rhsNonContracting := [1]
  lhsBatch := []
  rhsBatch := []
  wf := dot_S50000x100_S100x256_S50000x256_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.KBody0.lean ====
/-
  The projection kernel (the first pallas_call, `m = x · w` on row blocks of 1000 nodes) as a pipeline body, at any float
  instance: at every grid point the body reads its two input blocks whole, and leaves in the output window's staging buffer
  the one payload `k0_pay1` of them (the matrix product of the row block with the weight block, rounded to bf16). Stated at a
  parameter `V`, the TensorCore's buffer contents when the region is entered: the pipeline's proof data `dat0 V c` (every
  input's buffer at its block, the output's at the payload) and the body obligation at every point.
-/
import proofs.«173484_j54443005444660_2_alg».proof.Proof.Gen.Kernel.Launch
import proofs.«173484_j54443005444660_2_alg».proof.Proof.Gen.Kernel.Skeleton
import proofs.«173484_j54443005444660_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window fetched only
    at the first point keeps the block its unmoved index names). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S1000x64 := Rect.unit (s := S1000x64) ![0, 0] S1000x64.size inb_S1000x64_S1000x64_0_0
abbrev r0_1 : Rect S64x100 := Rect.unit (s := S64x100) ![0, 0] S64x100.size inb_S64x100_S64x100_0_0
abbrev r0_2 : Rect S1000x100 := Rect.unit (s := S1000x100) ![0, 0] S1000x100.size inb_S1000x100_S1000x100_0_0

/-- The output window's staging buffer after the body: its one whole store, of the payload of the two input blocks. -/
def out0_2 (x0 : Vec F S1000x64 .f32) (x1 : Vec F S64x100 .f32) : Vec F S1000x100 .bf16 :=
  View.canon [⟨r0_2, k0_pay1 (View.ld x0 r0_0) (View.ld x1 r0_1)⟩]

/-- The one store covers the buffer. -/
theorem cover0_2 (p0 : Vec F S1000x100 .bf16) (y : S1000x100.Idx) :
    ∃ pc ∈ ([⟨r0_2, p0⟩] : List (View.Piece (Elt F) S1000x100 .bf16)), y ∈ pc.1.set :=
  View.cover_of_tiled [⟨r0_2, p0⟩] S1000x100.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S1000x64 .f32) (harg1 : arg1.IsWhole)
    (arg2 : Memref sig .tc .vmem S64x100 .f32) (harg2 : arg2.IsWhole) (arg3 : Memref sig .tc .vmem S1000x100 .bf16) (harg3 : arg3.IsWhole)
    (x0 : Vec F S1000x64 .f32) (x1 : Vec F S64x100 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t` each
    input's buffer at its block and the output's at `out0_2` of the input blocks; the invariant that of a body touching
    nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The fused kernel (the second pallas_call: the GRU cell on the aggregated messages, one LSTM step, the rectified linear
  head, on row blocks of 1000 nodes) as a pipeline body, at any float instance: at every grid point the body reads its
  fourteen input blocks whole and leaves, in the three output windows' staging buffers, the payloads `k1_pay11` (the new
  hidden state), `k1_pay10` (the new cell state) and `k1_pay1` (the head's output) of them. Stated at a parameter `V`, the
  TensorCore's buffer contents when the region is entered: the pipeline's proof data `dat1 V c` and the body obligation.
-/
import proofs.«173484_j54443005444660_2_alg».proof.Proof.Gen.Kernel.Launch
import proofs.«173484_j54443005444660_2_alg».proof.Proof.Gen.Kernel.Skeleton
import proofs.«173484_j54443005444660_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (a window fetched only
    at the first point keeps the block its unmoved index names). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev rS1000x64 : Rect S1000x64 := Rect.unit (s := S1000x64) ![0, 0] S1000x64.size inb_S1000x64_S1000x64_0_0
abbrev rS1000x100 : Rect S1000x100 := Rect.unit (s := S1000x100) ![0, 0] S1000x100.size inb_S1000x100_S1000x100_0_0
abbrev rS100x384 : Rect S100x384 := Rect.unit (s := S100x384) ![0, 0] S100x384.size inb_S100x384_S100x384_0_0
abbrev rS1x384 : Rect S1x384 := Rect.unit (s := S1x384) ![0, 0] S1x384.size inb_S1x384_S1x384_0_0
abbrev rS100x512 : Rect S100x512 := Rect.unit (s := S100x512) ![0, 0] S100x512.size inb_S100x512_S100x512_0_0
abbrev rS64x512 : Rect S64x512 := Rect.unit (s := S64x512) ![0, 0] S64x512.size inb_S64x512_S64x512_0_0
abbrev rS1x512 : Rect S1x512 := Rect.unit (s := S1x512) ![0, 0] S1x512.size inb_S1x512_S1x512_0_0
abbrev rS64x8 : Rect S64x8 := Rect.unit (s := S64x8) ![0, 0] S64x8.size inb_S64x8_S64x8_0_0
abbrev rS1x8 : Rect S1x8 := Rect.unit (s := S1x8) ![0, 0] S1x8.size inb_S1x8_S1x8_0_0
abbrev rS1000x8 : Rect S1000x8 := Rect.unit (s := S1000x8) ![0, 0] S1000x8.size inb_S1000x8_S1000x8_0_0

/-- The body's intermediate values that several payloads share: the previous hidden and cell states as loaded, the
    zero-padded features, the update gate and the candidate state of the GRU cell. -/
abbrev hid1 (x2 : Vec F S1000x64 .f32) : FVec F S1000x64 .f32 := k1_pay2 (View.ld x2 rS1000x64)
abbrev cel1 (x3 : Vec F S1000x64 .f32) : FVec F S1000x64 .f32 := k1_pay3 (View.ld x3 rS1000x64)
abbrev xpad1 (x0 : Vec F S1000x64 .f32) : FVec F S1000x100 .f32 := k1_pay4 (View.ld x0 rS1000x64)
abbrev zgate1 (x0 : Vec F S1000x64 .f32) (x1 : Vec F S1000x100 .f32) (x4 : Vec F S100x384 .f32) (x5 : Vec F S100x384 .f32) (x6 : Vec F S1x384 .f32) (x7 : Vec F S1x384 .f32) : FVec F S1000x100 .f32 :=
  k1_pay7 (View.ld x0 rS1000x64) (View.ld x1 rS1000x100) (View.ld x4 rS100x384) (View.ld x6 rS1x384) (View.ld x5 rS100x384) (View.ld x7 rS1x384)
abbrev ncand1 (x0 : Vec F S1000x64 .f32) (x1 : Vec F S1000x100 .f32) (x4 : Vec F S100x384 .f32) (x5 : Vec F S100x384 .f32) (x6 : Vec F S1x384 .f32) (x7 : Vec F S1x384 .f32) : FVec F S1000x100 .f32 :=
  k1_pay8 (View.ld x0 rS1000x64) (View.ld x1 rS1000x100) (View.ld x4 rS100x384) (View.ld x6 rS1x384) (View.ld x5 rS100x384) (View.ld x7 rS1x384)

/-- The three output windows' staging buffers after the body: each its one whole store, of a payload of the input blocks. -/
def out1_14 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) : Vec F S1000x64 .f32 :=
  View.canon [⟨rS1000x64, k1_pay11 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)⟩]
def out1_15 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) : Vec F S1000x64 .f32 :=
  View.canon [⟨rS1000x64, k1_pay10 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)⟩]
def out1_16 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) (x12 : Vec F S64x8 .f32) (x13 : Vec F S1x8 .f32) : Vec F S1000x8 .f32 :=
  View.canon [⟨rS1000x8, k1_pay1 (k1_pay12 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)) (View.ld x12 rS64x8) (View.ld x13 rS1x8)⟩]

/-- One whole store covers its buffer. -/
theorem cover1_64 (p0 : Vec F S1000x64 .f32) (y : S1000x64.Idx) :
    ∃ pc ∈ ([⟨rS1000x64, p0⟩] : List (View.Piece (Elt F) S1000x64 .f32)), y ∈ pc.1.set :=
  View.cover_of_tiled [⟨rS1000x64, p0⟩] S1000x64.size (by rfl) y
theorem cover1_8 (p0 : Vec F S1000x8 .f32) (y : S1000x8.Idx) :
    ∃ pc ∈ ([⟨rS1000x8, p0⟩] : List (View.Piece (Elt F) S1000x8 .f32)), y ∈ pc.1.set :=
  View.cover_of_tiled [⟨rS1000x8, p0⟩] S1000x8.size (by rfl) y

set_option maxHeartbeats 4000000 in
/-- The body on whole staging memrefs, the inputs' at contents `xW` and the outputs' at anything, runs to the continuation
    holding the inputs' as they were and each output's at `out1_W` of the inputs'. -/
theorem sound_kernel1 (c : Dev nD) (E : Set ℕ) (i : grid1.Coords) (arg1 : Memref sig .tc .vmem S1000x64 .f32) (harg1 : arg1.IsWhole) (arg2 : Memref sig .tc .vmem S1000x100 .f32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S100x384 .f32) (harg5 : arg5.IsWhole) (arg6 : Memref sig .tc .vmem S100x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S100x512 .f32) (harg9 : arg9.IsWhole) (arg10 : Memref sig .tc .vmem S64x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1000x64 .f32) (harg15 : arg15.IsWhole) (arg16 : Memref sig .tc .vmem S1000x64 .f32) (harg16 : arg16.IsWhole) (arg17 : Memref sig .tc .vmem S1000x8 .f32) (harg17 : arg17.IsWhole)
    (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) (x12 : Vec F S64x8 .f32) (x13 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out1_14 x0 x1 x2 x3 x4 x5 x6 x7 x8 x9 x10 x11) ∗ owns (c : Thread nD τ) arg16 fullShare (out1_15 x0 x1 x2 x3 x4 x5 x6 x7 x8 x9 x10 x11)
            ∗ owns (c : Thread nD τ) arg17 fullShare (out1_16 x0 x1 x2 x3 x4 x5 x6 x7 x8 x9 x10 x11 x12 x13)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__fused_kernel_eq_skeleton]; unfold cc1__fused_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover1_64 _)
  isplitl [H15]
  · iexists _; isplitr
    swap; · iexact H15
    ipureintro
    try dsimp only
    exact View.read_writes_eq_canon _ _ _ (cover1_64 _)
  iexists _; isplitr
  swap; · iexact H16
  ipureintro
  try dsimp only
  exact View.read_writes_eq_canon _ _ _ (cover1_8 _)

/-- The proof data of the second pipeline on core `c`: the arrays as the region finds them; after the body at point `t` each
    input's buffer at its block and each output's at `out1_W` of the input blocks; the invariant that of a body touching
    nothing else; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 4000000 in
/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The program's run as the chain of its host stretches and its two kernel regions, at any float instance. Between two
  items a core holds every unscoped buffer whole at a named valuation: the launch memory, then each host stretch's
  operations applied, then — after a region — its output arrays replaced by what the pipeline's write-backs leave
  (`Dat.arrAt … N` of the region's proof data, taken at the region's entry contents). The two regions' segment records
  are given here from their body obligations; with them the conditional frame yields the frame claim: every weakly fair
  execution terminates without a fault and every argument array ends as launched.
-/
import proofs.«173484_j54443005444660_2_alg».proof.Proof.RegionsKernel
import proofs.«173484_j54443005444660_2_alg».proof.Proof.KBody0
import proofs.«173484_j54443005444660_2_alg».proof.Proof.KBody1

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions are entered from and left at -/

/-- The first region's entry contents (the launch memory after the first host stretch), at the TensorCore's references. -/
abbrev Vr1 : (c : Dev nD) → (b : Ref sig .tc) → Buf (Elt F) ((c : Thread nD τ).loc b) := fun c b => GenP.V1 m c b

/-- The first region's exit contents: its arrays at what the pipeline leaves, every other buffer as entered. -/
def W2 (c : Dev nD) : Valuation τ sig (Elt F) :=
  Pipeline.withArrays spec0 c (GenP.V1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w

/-- What the first region leaves, as the unknowns of the valuations between items. -/
abbrev outsA : GenP.Outs (F := F) := fun _ r c => W2 m c r

/-- The second region's entry contents, at the TensorCore's references. -/
abbrev Vr59 : (c : Dev nD) → (b : Ref sig .tc) → Buf (Elt F) ((c : Thread nD τ).loc b) := fun c b => GenP.V59 m (outsA m) c b

/-- The second region's exit contents: its arrays at what the pipeline leaves, every other buffer as entered. -/
def W60 (c : Dev nD) : Valuation τ sig (Elt F) :=
  Pipeline.withArrays spec1 c (GenP.V59 m (outsA m) c) fun w => (dat1 (Vr59 m) c).arrAt w cfg1.N
theorem W60_arr (c : Dev nD) (w : Fin cfg1.W) :
    W60 m c (Proc.devRef .tc (Pipeline.arrRef spec1 w)) = (dat1 (Vr59 m) c).arrAt w cfg1.N := by
  unfold W60; exact Pipeline.withArrays_arr spec1 launch1.win.arr_inj c _ _ w

/-- What both regions leave: after the first region its exit contents, after the second the second's. -/
def outs : GenP.Outs (F := F) := fun j r c => if j = 2 then W2 m c r else W60 m c r

theorem outs_2 (r : Ref sig .tc) (c : Dev nD) : outs m 2 r c = W2 m c r := rfl
theorem outs_60 (r : Ref sig .tc) (c : Dev nD) : outs m 60 r c = W60 m c r := rfl

/-- The contents before the second region read only what the FIRST region left. -/
theorem V59_outs (c : Dev nD) : GenP.V59 m (outs m) c = GenP.V59 m (outsA m) c := rfl

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr59 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions' exit contents against the valuations between items -/

theorem hF0 (c : Dev nD) : ∀ w : Fin cfg0.W, (dat0 (Vr1 m) c).arrAt w cfg0.N = GenP.V2 m (outs m) c (Proc.devRef .tc (Pipeline.arrRef spec0 w))
  | ⟨0, _⟩ => ((dat0 (Vr1 m) c).arrAt_in 0 rfl _).trans ((A_eq0 (Vr1 m) c 0).trans (GenP.V2_of m (outs m) c _ (by decide)).symm)
  | ⟨1, _⟩ => ((dat0 (Vr1 m) c).arrAt_in 1 rfl _).trans ((A_eq0 (Vr1 m) c 1).trans (GenP.V2_of m (outs m) c _ (by decide)).symm)
  | ⟨2, _⟩ => (W2_arr m c 2).symm.trans (by
      show W2 m c (Proc.devRef .tc main_v6) = GenP.V2 m (outs m) c (Proc.devRef .tc main_v6)
      simp only [GenP.V2, Function.update_self]; rfl)
theorem hrest0 (c : Dev nD) : ∀ b : Ref sig .tc, b ∉ Finset.univ.image (Pipeline.arrRef spec0) → GenP.V2 m (outs m) c (Proc.devRef .tc b) = GenP.V1 m c (Proc.devRef .tc b) :=
  fun b hb => GenP.V2_of m (outs m) c b (fun h => hb (Finset.mem_image.mpr ⟨2, Finset.mem_univ _, (List.mem_singleton.mp h).symm⟩))

set_option maxHeartbeats 8000000 in
theorem hF1 (c : Dev nD) : ∀ w : Fin cfg1.W, (dat1 (Vr59 m) c).arrAt w cfg1.N = GenP.V60 m (outs m) c (Proc.devRef .tc (Pipeline.arrRef spec1 w))
  | ⟨0, _⟩ => ((dat1 (Vr59 m) c).arrAt_in 0 rfl _).trans ((A_eq1 (Vr59 m) c 0).trans ((GenP.V60_of m (outs m) c _ (by decide)).trans (congrFun (V59_outs m c) _)).symm)
  | ⟨1, _⟩ => ((dat1 (Vr59 m) c).arrAt_in 1 rfl _).trans ((A_eq1 (Vr59 m) c 1).trans ((GenP.V60_of m (outs m) c _ (by decide)).trans (congrFun (V59_outs m c) _)).symm)
  | ⟨2, _⟩ => ((dat1 (Vr59 m) c).arrAt_in 2 rfl _).trans ((A_eq1 (Vr59 m) c 2).trans ((GenP.V60_of m (outs m) c _ (by decide)).trans (congrFun (V59_outs m c) _)).symm)
  | ⟨3, _⟩ => ((dat1 (Vr59 m) c).arrAt_in 3 rfl _).trans ((A_eq1 (Vr59 m) c 3).trans ((GenP.V60_of m (outs m) c _ (by decide)).trans (congrFun (V59_outs m c) _)).symm)
  | ⟨4, _⟩ => ((dat1 (Vr59 m) c).arrAt_in 4 rfl _).trans ((A_eq1 (Vr59 m) c 4).trans ((GenP.V60_of m (outs m) c _ (by decide)).trans (congrFun (V59_outs m c) _)).symm)
  | ⟨5, _⟩ => ((dat1 (Vr59 m) c).arrAt_in 5 rfl _).trans ((A_eq1 (Vr59 m) c 5).trans ((GenP.V60_of m (outs m) c _ (by decide)).trans (congrFun (V59_outs m c) _)).symm)
  | ⟨6, _⟩ => ((dat1 (Vr59 m) c).arrAt_in 6 rfl _).trans ((A_eq1 (Vr59 m) c 6).trans ((GenP.V60_of m (outs m) c _ (by decide)).trans (congrFun (V59_outs m c) _)).symm)
  | ⟨7, _⟩ => ((dat1 (Vr59 m) c).arrAt_in 7 rfl _).trans ((A_eq1 (Vr59 m) c 7).trans ((GenP.V60_of m (outs m) c _ (by decide)).trans (congrFun (V59_outs m c) _)).symm)
  | ⟨8, _⟩ => ((dat1 (Vr59 m) c).arrAt_in 8 rfl _).trans ((A_eq1 (Vr59 m) c 8).trans ((GenP.V60_of m (outs m) c _ (by decide)).trans (congrFun (V59_outs m c) _)).symm)
  | ⟨9, _⟩ => ((dat1 (Vr59 m) c).arrAt_in 9 rfl _).trans ((A_eq1 (Vr59 m) c 9).trans ((GenP.V60_of m (outs m) c _ (by decide)).trans (congrFun (V59_outs m c) _)).symm)
  | ⟨10, _⟩ => ((dat1 (Vr59 m) c).arrAt_in 10 rfl _).trans ((A_eq1 (Vr59 m) c 10).trans ((GenP.V60_of m (outs m) c _ (by decide)).trans (congrFun (V59_outs m c) _)).symm)
  | ⟨11, _⟩ => ((dat1 (Vr59 m) c).arrAt_in 11 rfl _).trans ((A_eq1 (Vr59 m) c 11).trans ((GenP.V60_of m (outs m) c _ (by decide)).trans (congrFun (V59_outs m c) _)).symm)
  | ⟨12, _⟩ => ((dat1 (Vr59 m) c).arrAt_in 12 rfl _).trans ((A_eq1 (Vr59 m) c 12).trans ((GenP.V60_of m (outs m) c _ (by decide)).trans (congrFun (V59_outs m c) _)).symm)
  | ⟨13, _⟩ => ((dat1 (Vr59 m) c).arrAt_in 13 rfl _).trans ((A_eq1 (Vr59 m) c 13).trans ((GenP.V60_of m (outs m) c _ (by decide)).trans (congrFun (V59_outs m c) _)).symm)
  | ⟨14, _⟩ => (W60_arr m c 14).symm.trans (by
      show W60 m c (Proc.devRef .tc main_v105_0) = GenP.V60 m (outs m) c (Proc.devRef .tc main_v105_0)
      simp only [GenP.V60, Function.update_self, Function.update_of_ne (StableHlo.devRef_ne_of_ne (by decide) : (Proc.devRef .tc main_v105_0 : DevRef τ sig) ≠ Proc.devRef .tc main_v105_2), Function.update_of_ne (StableHlo.devRef_ne_of_ne (by decide) : (Proc.devRef .tc main_v105_0 : DevRef τ sig) ≠ Proc.devRef .tc main_v105_1)]; rfl)
  | ⟨15, _⟩ => (W60_arr m c 15).symm.trans (by
      show W60 m c (Proc.devRef .tc main_v105_1) = GenP.V60 m (outs m) c (Proc.devRef .tc main_v105_1)
      simp only [GenP.V60, Function.update_self, Function.update_of_ne (StableHlo.devRef_ne_of_ne (by decide) : (Proc.devRef .tc main_v105_1 : DevRef τ sig) ≠ Proc.devRef .tc main_v105_2)]; rfl)
  | ⟨16, _⟩ => (W60_arr m c 16).symm.trans (by
      show W60 m c (Proc.devRef .tc main_v105_2) = GenP.V60 m (outs m) c (Proc.devRef .tc main_v105_2)
      simp only [GenP.V60, Function.update_self]; rfl)
  | ⟨_ + 17, h⟩ => absurd h (Nat.not_lt.2 (Nat.le_add_left _ _))
theorem hrest1 (c : Dev nD) : ∀ b : Ref sig .tc, b ∉ Finset.univ.image (Pipeline.arrRef spec1) → GenP.V60 m (outs m) c (Proc.devRef .tc b) = GenP.V59 m (outsA m) c (Proc.devRef .tc b) :=
  fun b hb => (GenP.V60_of m (outs m) c b (fun h => by
    rcases List.mem_cons.mp h with h | h
    · exact hb (Finset.mem_image.mpr ⟨14, Finset.mem_univ _, h.symm⟩)
    rcases List.mem_cons.mp h with h | h
    · exact hb (Finset.mem_image.mpr ⟨15, Finset.mem_univ _, h.symm⟩)
    · exact hb (Finset.mem_image.mpr ⟨16, Finset.mem_univ _, (List.mem_singleton.mp h).symm⟩))).trans (congrFun (V59_outs m c) _)

/-! ## The regions as segments -/

set_option backward.isDefEq.respectTransparency.types false in
/-- The first region over the thread state: entered from every unscoped buffer at the contents after the first host
    stretch, left at those with the projection's array replaced. Its arrays split out of the unscoped buffers and put
    back at the exit contents; the generator register into the body's invariant and out; nothing owed. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vr1 m c) (fun b => GenP.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents before it, left at those
    with its three result arrays replaced. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr59 m) c).loose
  hwaits := Pipeline.hwaits_of_owed_zero _ _ _ _ L lv 1 fun _ _ => rfl
  pre c := iprop(StableHlo.held (c : Thread nD τ) (Pipeline.ucRefs τ sig) (GenP.V59 m (outsA m) c) ∗ R c)
  post c := iprop(StableHlo.held (c : Thread nD τ) (Pipeline.ucRefs τ sig) (GenP.V60 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr59 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vr59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vr59 m c) (fun b => GenP.V60 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- The frame claim at any float instance: from any memory with zero counters every weakly fair execution of @main
    terminates, nothing faulting, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := GenP.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V59_outs]; exact .rfl) (hpost1 := fun c => .rfl)

end Cert.Kernel.Hand

end
-- ==== Proof.KIBody0.lean ====
/-
  The projection kernel (the first pallas_call, `m = x · w` on row blocks of 1000 nodes) as a pipeline body, at any float
  instance: at every grid point the body reads its two input blocks whole, and leaves in the output window's staging buffer
  the one payload `k0_pay1` of them (the matrix product of the row block with the weight block, rounded to bf16). Stated at a
  parameter `V`, the TensorCore's buffer contents when the region is entered: the pipeline's proof data `dat0 V c` (every
  input's buffer at its block, the output's at the payload) and the body obligation at every point.
-/
import proofs.«173484_j54443005444660_2_alg».proof.Proof.Gen.KernelIdeal.Launch
import proofs.«173484_j54443005444660_2_alg».proof.Proof.Gen.KernelIdeal.Skeleton
import proofs.«173484_j54443005444660_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window fetched only
    at the first point keeps the block its unmoved index names). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_0 : Rect S1000x64 := Rect.unit (s := S1000x64) ![0, 0] S1000x64.size inb_S1000x64_S1000x64_0_0
abbrev r0_1 : Rect S64x100 := Rect.unit (s := S64x100) ![0, 0] S64x100.size inb_S64x100_S64x100_0_0
abbrev r0_2 : Rect S1000x100 := Rect.unit (s := S1000x100) ![0, 0] S1000x100.size inb_S1000x100_S1000x100_0_0

/-- The output window's staging buffer after the body: its one whole store, of the payload of the two input blocks. -/
def out0_2 (x0 : Vec F S1000x64 .f32) (x1 : Vec F S64x100 .f32) : Vec F S1000x100 .bf16 :=
  View.canon [⟨r0_2, k0_pay1 (View.ld x0 r0_0) (View.ld x1 r0_1)⟩]

/-- The one store covers the buffer. -/
theorem cover0_2 (p0 : Vec F S1000x100 .bf16) (y : S1000x100.Idx) :
    ∃ pc ∈ ([⟨r0_2, p0⟩] : List (View.Piece (Elt F) S1000x100 .bf16)), y ∈ pc.1.set :=
  View.cover_of_tiled [⟨r0_2, p0⟩] S1000x100.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S1000x64 .f32) (harg1 : arg1.IsWhole)
    (arg2 : Memref sig .tc .vmem S64x100 .f32) (harg2 : arg2.IsWhole) (arg3 : Memref sig .tc .vmem S1000x100 .bf16) (harg3 : arg3.IsWhole)
    (x0 : Vec F S1000x64 .f32) (x1 : Vec F S64x100 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t` each
    input's buffer at its block and the output's at `out0_2` of the input blocks; the invariant that of a body touching
    nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The fused kernel (the second pallas_call: the GRU cell on the aggregated messages, one LSTM step, the rectified linear
  head, on row blocks of 1000 nodes) as a pipeline body, at any float instance: at every grid point the body reads its
  fourteen input blocks whole and leaves, in the three output windows' staging buffers, the payloads `k1_pay11` (the new
  hidden state), `k1_pay10` (the new cell state) and `k1_pay1` (the head's output) of them. Stated at a parameter `V`, the
  TensorCore's buffer contents when the region is entered: the pipeline's proof data `dat1 V c` and the body obligation.
-/
import proofs.«173484_j54443005444660_2_alg».proof.Proof.Gen.KernelIdeal.Launch
import proofs.«173484_j54443005444660_2_alg».proof.Proof.Gen.KernelIdeal.Skeleton
import proofs.«173484_j54443005444660_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (a window fetched only
    at the first point keeps the block its unmoved index names). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each buffer whole. -/
abbrev rS1000x64 : Rect S1000x64 := Rect.unit (s := S1000x64) ![0, 0] S1000x64.size inb_S1000x64_S1000x64_0_0
abbrev rS1000x100 : Rect S1000x100 := Rect.unit (s := S1000x100) ![0, 0] S1000x100.size inb_S1000x100_S1000x100_0_0
abbrev rS100x384 : Rect S100x384 := Rect.unit (s := S100x384) ![0, 0] S100x384.size inb_S100x384_S100x384_0_0
abbrev rS1x384 : Rect S1x384 := Rect.unit (s := S1x384) ![0, 0] S1x384.size inb_S1x384_S1x384_0_0
abbrev rS100x512 : Rect S100x512 := Rect.unit (s := S100x512) ![0, 0] S100x512.size inb_S100x512_S100x512_0_0
abbrev rS64x512 : Rect S64x512 := Rect.unit (s := S64x512) ![0, 0] S64x512.size inb_S64x512_S64x512_0_0
abbrev rS1x512 : Rect S1x512 := Rect.unit (s := S1x512) ![0, 0] S1x512.size inb_S1x512_S1x512_0_0
abbrev rS64x8 : Rect S64x8 := Rect.unit (s := S64x8) ![0, 0] S64x8.size inb_S64x8_S64x8_0_0
abbrev rS1x8 : Rect S1x8 := Rect.unit (s := S1x8) ![0, 0] S1x8.size inb_S1x8_S1x8_0_0
abbrev rS1000x8 : Rect S1000x8 := Rect.unit (s := S1000x8) ![0, 0] S1000x8.size inb_S1000x8_S1000x8_0_0

/-- The body's intermediate values that several payloads share: the previous hidden and cell states as loaded, the
    zero-padded features, the update gate and the candidate state of the GRU cell. -/
abbrev hid1 (x2 : Vec F S1000x64 .f32) : FVec F S1000x64 .f32 := k1_pay2 (View.ld x2 rS1000x64)
abbrev cel1 (x3 : Vec F S1000x64 .f32) : FVec F S1000x64 .f32 := k1_pay3 (View.ld x3 rS1000x64)
abbrev xpad1 (x0 : Vec F S1000x64 .f32) : FVec F S1000x100 .f32 := k1_pay4 (View.ld x0 rS1000x64)
abbrev zgate1 (x0 : Vec F S1000x64 .f32) (x1 : Vec F S1000x100 .f32) (x4 : Vec F S100x384 .f32) (x5 : Vec F S100x384 .f32) (x6 : Vec F S1x384 .f32) (x7 : Vec F S1x384 .f32) : FVec F S1000x100 .f32 :=
  k1_pay7 (View.ld x0 rS1000x64) (View.ld x1 rS1000x100) (View.ld x4 rS100x384) (View.ld x6 rS1x384) (View.ld x5 rS100x384) (View.ld x7 rS1x384)
abbrev ncand1 (x0 : Vec F S1000x64 .f32) (x1 : Vec F S1000x100 .f32) (x4 : Vec F S100x384 .f32) (x5 : Vec F S100x384 .f32) (x6 : Vec F S1x384 .f32) (x7 : Vec F S1x384 .f32) : FVec F S1000x100 .f32 :=
  k1_pay8 (View.ld x0 rS1000x64) (View.ld x1 rS1000x100) (View.ld x4 rS100x384) (View.ld x6 rS1x384) (View.ld x5 rS100x384) (View.ld x7 rS1x384)

/-- The three output windows' staging buffers after the body: each its one whole store, of a payload of the input blocks. -/
def out1_14 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) : Vec F S1000x64 .f32 :=
  View.canon [⟨rS1000x64, k1_pay11 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)⟩]
def out1_15 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) : Vec F S1000x64 .f32 :=
  View.canon [⟨rS1000x64, k1_pay10 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)⟩]
def out1_16 (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) (x12 : Vec F S64x8 .f32) (x13 : Vec F S1x8 .f32) : Vec F S1000x8 .f32 :=
  View.canon [⟨rS1000x8, k1_pay1 (k1_pay12 (hid1 x2) (cel1 x3) (xpad1 x0) (zgate1 x0 x1 x4 x5 x6 x7) (ncand1 x0 x1 x4 x5 x6 x7) (View.ld x8 rS100x512) (View.ld x10 rS1x512) (View.ld x9 rS64x512) (View.ld x11 rS1x512)) (View.ld x12 rS64x8) (View.ld x13 rS1x8)⟩]

/-- One whole store covers its buffer. -/
theorem cover1_64 (p0 : Vec F S1000x64 .f32) (y : S1000x64.Idx) :
    ∃ pc ∈ ([⟨rS1000x64, p0⟩] : List (View.Piece (Elt F) S1000x64 .f32)), y ∈ pc.1.set :=
  View.cover_of_tiled [⟨rS1000x64, p0⟩] S1000x64.size (by rfl) y
theorem cover1_8 (p0 : Vec F S1000x8 .f32) (y : S1000x8.Idx) :
    ∃ pc ∈ ([⟨rS1000x8, p0⟩] : List (View.Piece (Elt F) S1000x8 .f32)), y ∈ pc.1.set :=
  View.cover_of_tiled [⟨rS1000x8, p0⟩] S1000x8.size (by rfl) y

set_option maxHeartbeats 4000000 in
/-- The body on whole staging memrefs, the inputs' at contents `xW` and the outputs' at anything, runs to the continuation
    holding the inputs' as they were and each output's at `out1_W` of the inputs'. -/
theorem sound_kernel1 (c : Dev nD) (E : Set ℕ) (i : grid1.Coords) (arg1 : Memref sig .tc .vmem S1000x64 .f32) (harg1 : arg1.IsWhole) (arg2 : Memref sig .tc .vmem S1000x100 .f32) (harg2 : arg2.IsWhole) (arg3 : Memref sig .tc .vmem S1000x64 .f32) (harg3 : arg3.IsWhole) (arg4 : Memref sig .tc .vmem S1000x64 .f32) (harg4 : arg4.IsWhole) (arg5 : Memref sig .tc .vmem S100x384 .f32) (harg5 : arg5.IsWhole) (arg6 : Memref sig .tc .vmem S100x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S100x512 .f32) (harg9 : arg9.IsWhole) (arg10 : Memref sig .tc .vmem S64x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S64x8 .f32) (harg13 : arg13.IsWhole) (arg14 : Memref sig .tc .vmem S1x8 .f32) (harg14 : arg14.IsWhole) (arg15 : Memref sig .tc .vmem S1000x64 .f32) (harg15 : arg15.IsWhole) (arg16 : Memref sig .tc .vmem S1000x64 .f32) (harg16 : arg16.IsWhole) (arg17 : Memref sig .tc .vmem S1000x8 .f32) (harg17 : arg17.IsWhole)
    (x0 : Vec F S1000x64 .f32) (x1 : Vec F S1000x100 .f32) (x2 : Vec F S1000x64 .f32) (x3 : Vec F S1000x64 .f32) (x4 : Vec F S100x384 .f32) (x5 : Vec F S100x384 .f32) (x6 : Vec F S1x384 .f32) (x7 : Vec F S1x384 .f32) (x8 : Vec F S100x512 .f32) (x9 : Vec F S64x512 .f32) (x10 : Vec F S1x512 .f32) (x11 : Vec F S1x512 .f32) (x12 : Vec F S64x8 .f32) (x13 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out1_14 x0 x1 x2 x3 x4 x5 x6 x7 x8 x9 x10 x11) ∗ owns (c : Thread nD τ) arg16 fullShare (out1_15 x0 x1 x2 x3 x4 x5 x6 x7 x8 x9 x10 x11)
            ∗ owns (c : Thread nD τ) arg17 fullShare (out1_16 x0 x1 x2 x3 x4 x5 x6 x7 x8 x9 x10 x11 x12 x13)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__fused_kernel_eq_skeleton]; unfold cc1__fused_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover1_64 _)
  isplitl [H15]
  · iexists _; isplitr
    swap; · iexact H15
    ipureintro
    try dsimp only
    exact View.read_writes_eq_canon _ _ _ (cover1_64 _)
  iexists _; isplitr
  swap; · iexact H16
  ipureintro
  try dsimp only
  exact View.read_writes_eq_canon _ _ _ (cover1_8 _)

/-- The proof data of the second pipeline on core `c`: the arrays as the region finds them; after the body at point `t` each
    input's buffer at its block and each output's at `out1_W` of the input blocks; the invariant that of a body touching
    nothing else; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨_ + 17, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 4000000 in
/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The program's run as the chain of its host stretches and its two kernel regions, at any float instance. Between two
  items a core holds every unscoped buffer whole at a named valuation: the launch memory, then each host stretch's
  operations applied, then — after a region — its output arrays replaced by what the pipeline's write-backs leave
  (`Dat.arrAt … N` of the region's proof data, taken at the region's entry contents). The two regions' segment records
  are given here from their body obligations; with them the conditional frame yields the frame claim: every weakly fair
  execution terminates without a fault and every argument array ends as launched.
-/
import proofs.«173484_j54443005444660_2_alg».proof.Proof.RegionsKernelIdeal
import proofs.«173484_j54443005444660_2_alg».proof.Proof.KIBody0
import proofs.«173484_j54443005444660_2_alg».proof.Proof.KIBody1

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions are entered from and left at -/

/-- The first region's entry contents (the launch memory after the first host stretch), at the TensorCore's references. -/
abbrev Vr1 : (c : Dev nD) → (b : Ref sig .tc) → Buf (Elt F) ((c : Thread nD τ).loc b) := fun c b => GenP.V1 m c b

/-- The first region's exit contents: its arrays at what the pipeline leaves, every other buffer as entered. -/
def W2 (c : Dev nD) : Valuation τ sig (Elt F) :=
  Pipeline.withArrays spec0 c (GenP.V1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w

/-- What the first region leaves, as the unknowns of the valuations between items. -/
abbrev outsA : GenP.Outs (F := F) := fun _ r c => W2 m c r

/-- The second region's entry contents, at the TensorCore's references. -/
abbrev Vr59 : (c : Dev nD) → (b : Ref sig .tc) → Buf (Elt F) ((c : Thread nD τ).loc b) := fun c b => GenP.V59 m (outsA m) c b

/-- The second region's exit contents: its arrays at what the pipeline leaves, every other buffer as entered. -/
def W60 (c : Dev nD) : Valuation τ sig (Elt F) :=
  Pipeline.withArrays spec1 c (GenP.V59 m (outsA m) c) fun w => (dat1 (Vr59 m) c).arrAt w cfg1.N
theorem W60_arr (c : Dev nD) (w : Fin cfg1.W) :
    W60 m c (Proc.devRef .tc (Pipeline.arrRef spec1 w)) = (dat1 (Vr59 m) c).arrAt w cfg1.N := by
  unfold W60; exact Pipeline.withArrays_arr spec1 launch1.win.arr_inj c _ _ w

/-- What both regions leave: after the first region its exit contents, after the second the second's. -/
def outs : GenP.Outs (F := F) := fun j r c => if j = 2 then W2 m c r else W60 m c r

theorem outs_2 (r : Ref sig .tc) (c : Dev nD) : outs m 2 r c = W2 m c r := rfl
theorem outs_60 (r : Ref sig .tc) (c : Dev nD) : outs m 60 r c = W60 m c r := rfl

/-- The contents before the second region read only what the FIRST region left. -/
theorem V59_outs (c : Dev nD) : GenP.V59 m (outs m) c = GenP.V59 m (outsA m) c := rfl

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr59 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions' exit contents against the valuations between items -/

theorem hF0 (c : Dev nD) : ∀ w : Fin cfg0.W, (dat0 (Vr1 m) c).arrAt w cfg0.N = GenP.V2 m (outs m) c (Proc.devRef .tc (Pipeline.arrRef spec0 w))
  | ⟨0, _⟩ => ((dat0 (Vr1 m) c).arrAt_in 0 rfl _).trans ((A_eq0 (Vr1 m) c 0).trans (GenP.V2_of m (outs m) c _ (by decide)).symm)
  | ⟨1, _⟩ => ((dat0 (Vr1 m) c).arrAt_in 1 rfl _).trans ((A_eq0 (Vr1 m) c 1).trans (GenP.V2_of m (outs m) c _ (by decide)).symm)
  | ⟨2, _⟩ => (W2_arr m c 2).symm.trans (by
      show W2 m c (Proc.devRef .tc main_v6) = GenP.V2 m (outs m) c (Proc.devRef .tc main_v6)
      simp only [GenP.V2, Function.update_self]; rfl)
theorem hrest0 (c : Dev nD) : ∀ b : Ref sig .tc, b ∉ Finset.univ.image (Pipeline.arrRef spec0) → GenP.V2 m (outs m) c (Proc.devRef .tc b) = GenP.V1 m c (Proc.devRef .tc b) :=
  fun b hb => GenP.V2_of m (outs m) c b (fun h => hb (Finset.mem_image.mpr ⟨2, Finset.mem_univ _, (List.mem_singleton.mp h).symm⟩))

set_option maxHeartbeats 8000000 in
theorem hF1 (c : Dev nD) : ∀ w : Fin cfg1.W, (dat1 (Vr59 m) c).arrAt w cfg1.N = GenP.V60 m (outs m) c (Proc.devRef .tc (Pipeline.arrRef spec1 w))
  | ⟨0, _⟩ => ((dat1 (Vr59 m) c).arrAt_in 0 rfl _).trans ((A_eq1 (Vr59 m) c 0).trans ((GenP.V60_of m (outs m) c _ (by decide)).trans (congrFun (V59_outs m c) _)).symm)
  | ⟨1, _⟩ => ((dat1 (Vr59 m) c).arrAt_in 1 rfl _).trans ((A_eq1 (Vr59 m) c 1).trans ((GenP.V60_of m (outs m) c _ (by decide)).trans (congrFun (V59_outs m c) _)).symm)
  | ⟨2, _⟩ => ((dat1 (Vr59 m) c).arrAt_in 2 rfl _).trans ((A_eq1 (Vr59 m) c 2).trans ((GenP.V60_of m (outs m) c _ (by decide)).trans (congrFun (V59_outs m c) _)).symm)
  | ⟨3, _⟩ => ((dat1 (Vr59 m) c).arrAt_in 3 rfl _).trans ((A_eq1 (Vr59 m) c 3).trans ((GenP.V60_of m (outs m) c _ (by decide)).trans (congrFun (V59_outs m c) _)).symm)
  | ⟨4, _⟩ => ((dat1 (Vr59 m) c).arrAt_in 4 rfl _).trans ((A_eq1 (Vr59 m) c 4).trans ((GenP.V60_of m (outs m) c _ (by decide)).trans (congrFun (V59_outs m c) _)).symm)
  | ⟨5, _⟩ => ((dat1 (Vr59 m) c).arrAt_in 5 rfl _).trans ((A_eq1 (Vr59 m) c 5).trans ((GenP.V60_of m (outs m) c _ (by decide)).trans (congrFun (V59_outs m c) _)).symm)
  | ⟨6, _⟩ => ((dat1 (Vr59 m) c).arrAt_in 6 rfl _).trans ((A_eq1 (Vr59 m) c 6).trans ((GenP.V60_of m (outs m) c _ (by decide)).trans (congrFun (V59_outs m c) _)).symm)
  | ⟨7, _⟩ => ((dat1 (Vr59 m) c).arrAt_in 7 rfl _).trans ((A_eq1 (Vr59 m) c 7).trans ((GenP.V60_of m (outs m) c _ (by decide)).trans (congrFun (V59_outs m c) _)).symm)
  | ⟨8, _⟩ => ((dat1 (Vr59 m) c).arrAt_in 8 rfl _).trans ((A_eq1 (Vr59 m) c 8).trans ((GenP.V60_of m (outs m) c _ (by decide)).trans (congrFun (V59_outs m c) _)).symm)
  | ⟨9, _⟩ => ((dat1 (Vr59 m) c).arrAt_in 9 rfl _).trans ((A_eq1 (Vr59 m) c 9).trans ((GenP.V60_of m (outs m) c _ (by decide)).trans (congrFun (V59_outs m c) _)).symm)
  | ⟨10, _⟩ => ((dat1 (Vr59 m) c).arrAt_in 10 rfl _).trans ((A_eq1 (Vr59 m) c 10).trans ((GenP.V60_of m (outs m) c _ (by decide)).trans (congrFun (V59_outs m c) _)).symm)
  | ⟨11, _⟩ => ((dat1 (Vr59 m) c).arrAt_in 11 rfl _).trans ((A_eq1 (Vr59 m) c 11).trans ((GenP.V60_of m (outs m) c _ (by decide)).trans (congrFun (V59_outs m c) _)).symm)
  | ⟨12, _⟩ => ((dat1 (Vr59 m) c).arrAt_in 12 rfl _).trans ((A_eq1 (Vr59 m) c 12).trans ((GenP.V60_of m (outs m) c _ (by decide)).trans (congrFun (V59_outs m c) _)).symm)
  | ⟨13, _⟩ => ((dat1 (Vr59 m) c).arrAt_in 13 rfl _).trans ((A_eq1 (Vr59 m) c 13).trans ((GenP.V60_of m (outs m) c _ (by decide)).trans (congrFun (V59_outs m c) _)).symm)
  | ⟨14, _⟩ => (W60_arr m c 14).symm.trans (by
      show W60 m c (Proc.devRef .tc main_v105_0) = GenP.V60 m (outs m) c (Proc.devRef .tc main_v105_0)
      simp only [GenP.V60, Function.update_self, Function.update_of_ne (StableHlo.devRef_ne_of_ne (by decide) : (Proc.devRef .tc main_v105_0 : DevRef τ sig) ≠ Proc.devRef .tc main_v105_2), Function.update_of_ne (StableHlo.devRef_ne_of_ne (by decide) : (Proc.devRef .tc main_v105_0 : DevRef τ sig) ≠ Proc.devRef .tc main_v105_1)]; rfl)
  | ⟨15, _⟩ => (W60_arr m c 15).symm.trans (by
      show W60 m c (Proc.devRef .tc main_v105_1) = GenP.V60 m (outs m) c (Proc.devRef .tc main_v105_1)
      simp only [GenP.V60, Function.update_self, Function.update_of_ne (StableHlo.devRef_ne_of_ne (by decide) : (Proc.devRef .tc main_v105_1 : DevRef τ sig) ≠ Proc.devRef .tc main_v105_2)]; rfl)
  | ⟨16, _⟩ => (W60_arr m c 16).symm.trans (by
      show W60 m c (Proc.devRef .tc main_v105_2) = GenP.V60 m (outs m) c (Proc.devRef .tc main_v105_2)
      simp only [GenP.V60, Function.update_self]; rfl)
  | ⟨_ + 17, h⟩ => absurd h (Nat.not_lt.2 (Nat.le_add_left _ _))
theorem hrest1 (c : Dev nD) : ∀ b : Ref sig .tc, b ∉ Finset.univ.image (Pipeline.arrRef spec1) → GenP.V60 m (outs m) c (Proc.devRef .tc b) = GenP.V59 m (outsA m) c (Proc.devRef .tc b) :=
  fun b hb => (GenP.V60_of m (outs m) c b (fun h => by
    rcases List.mem_cons.mp h with h | h
    · exact hb (Finset.mem_image.mpr ⟨14, Finset.mem_univ _, h.symm⟩)
    rcases List.mem_cons.mp h with h | h
    · exact hb (Finset.mem_image.mpr ⟨15, Finset.mem_univ _, h.symm⟩)
    · exact hb (Finset.mem_image.mpr ⟨16, Finset.mem_univ _, (List.mem_singleton.mp h).symm⟩))).trans (congrFun (V59_outs m c) _)

/-! ## The regions as segments -/

set_option backward.isDefEq.respectTransparency.types false in
/-- The first region over the thread state: entered from every unscoped buffer at the contents after the first host
    stretch, left at those with the projection's array replaced. Its arrays split out of the unscoped buffers and put
    back at the exit contents; the generator register into the body's invariant and out; nothing owed. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (GenP.V1 m c) ∗ R c)
  post c := iprop(StableHlo.held (c : Thread nD τ) (Pipeline.ucRefs τ sig) (GenP.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vr1 m c) (fun b => GenP.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents before it, left at those
    with its three result arrays replaced. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr59 m) c).loose
  hwaits := Pipeline.hwaits_of_owed_zero _ _ _ _ L lv 1 fun _ _ => rfl
  pre c := iprop(StableHlo.held (c : Thread nD τ) (Pipeline.ucRefs τ sig) (GenP.V59 m (outsA m) c) ∗ R c)
  post c := iprop(StableHlo.held (c : Thread nD τ) (Pipeline.ucRefs τ sig) (GenP.V60 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr59 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vr59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vr59 m c) (fun b => GenP.V60 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- The frame claim at any float instance: from any memory with zero counters every weakly fair execution of @main
    terminates, nothing faulting, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := GenP.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V59_outs]; exact .rfl) (hpost1 := fun c => .rfl)

end Cert.KernelIdeal.Hand

end
-- ==== Proof.RefFrame.lean ====
/-
  The reference program — plain host operations, no kernel — runs to the end from any memory, faults nowhere and leaves
  its argument arrays as launched: its run with every result named, with the results dropped.
-/
import proofs.«173484_j54443005444660_2_alg».proof.Defs
import proofs.«173484_j54443005444660_2_alg».proof.Proof.Gen.ReferenceIdeal
import proofs.«173484_j54443005444660_2_alg».proof.Proof.Gen.ReferenceIdeal.Run
import proofs.«173484_j54443005444660_2_alg».proof.Proof.Gen.Pre_finite_inputs

noncomputable section

namespace Cert.Proof.RefSide

open Idealize.ShloMosaic Idealize.ShloMosaic.TcCoe Idealize.SL.Sem

theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.RefSide

end
-- ==== Proof.KIVals.lean ====
/-
  The program's run with every unscoped buffer's final contents named: the same chain of host stretches and kernel
  regions as the frame's, read at the end against the last valuation — the launch memory, every host stretch's
  operations applied in turn, each region's output arrays at what its pipeline's write-backs leave. The results and
  the arguments are then read off that valuation.
-/
import proofs.«173484_j54443005444660_2_alg».proof.Proof.KIRun

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- @main's items as segments on core `c`, the two regions' records those of the run. -/
abbrev segsOf (c : Dev nD) : List (Seg (pcfgs (F := F)) GenP.adm (pdats m) () defs₀ 𝒱₀ L lv) :=
  GenP.segs m (outs m) 𝒱₀ L lv (fun _ c => R c) () (pdats m) (reg0 m) (reg1 m) c

/-- @main is the run of its segments. -/
theorem main_run (c : Dev nD) : main (F := F) c = Seg.run (segsOf m c) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, nothing faulting, and every final memory holds each unscoped
    buffer of every core at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = GenP.V61 m (outs m) c b) :=
  Pipeline.θ_run_regions_kit_dev (pcfgs (F := F)) GenP.adm (pdats m) () cellOf_inj emb₁ defs₀ 𝒱₀ L lv m ρ main (segsOf m)
    (fun c Q => by rw [main_run m c])
    (fun c => by simp only [segsOf, GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => StableHlo.held (c : Thread nD τ) (Pipeline.ucRefs τ sig) (GenP.V61 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, (by
        show iprop(StableHlo.held (c : Thread nD τ) (Pipeline.ucRefs τ sig) (GenP.V59 m (outs m) c) ∗ R c) ⊢ iprop(StableHlo.held (c : Thread nD τ) (Pipeline.ucRefs τ sig) (GenP.V59 m (outsA m) c) ∗ R c)
        rw [V59_outs]), .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (GenP.V0 m c)
        from Pipeline.unscopedBufs_held c (GenP.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = GenP.V61 m (outs m) c b)
    (hfin := fun c s' => by
      unfold StableHlo.held
      iintro ⟨Hh, HSI⟩
      ihave Hr := (pointsTo_read_all (Pipeline.ucRefs τ sig) (fun b => ((c : Thread nD τ).1, b)) (GenP.V61 m (outs m) c) s') $$ [Hh HSI]
      · isplitl [Hh] <;> iassumption
      icases Hr with ⟨%h, HSI⟩
      imodintro
      isplitr
      · ipureintro; exact h
      · iexact HSI)
    (hQ := fun _ h => h)

end Cert.KernelIdeal.Hand

end
-- ==== Proof.KIVal1.lean ====
/-
  What the fused kernel's region leaves in its three output arrays, at the exact (extended-real) instance. Grid point `t`
  writes back rows 1000·t … 1000·t + 999 of each output, and those rows are the body's payloads of the point's input
  blocks: rows 1000·t … of the four row arrays (features, aggregated messages, previous hidden and cell states) and the
  ten resident parameter arrays whole. So each output array is ONE function of the fourteen operand arrays: at index
  (r, j), the payload of the row blocks of point r / 1000 (and the parameters), read at row r mod 1000, column j. The fifty
  blocks tile each array.
-/
import proofs.«173484_j54443005444660_2_alg».proof.Proof.KIBody1
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2' : (![0, 0] : Fin 2 → Nat) = fun _ => 0 := funext fun a => by fin_cases a <;> rfl

/-- The grid point whose block holds row `r`, and the row's place inside the block. -/
abbrev tOf {C : Nat} (i : (⟨2, ![50000, C]⟩ : Shape).Idx) : Nat := (i 0).val / 1000
abbrev pOf {C : Nat} (i : (⟨2, ![50000, C]⟩ : Shape).Idx) : Fin 1000 := ⟨(i 0).val % 1000, Nat.mod_lt _ (by decide)⟩

/-- Rows 1000·t … 1000·t + 999 of a row array. -/
def rowBlk {C : Nat} (a : (⟨2, ![50000, C]⟩ : Shape).Idx → EReal) (t : Nat) : (⟨2, ![1000, C]⟩ : Shape).Idx → EReal :=
  fun y => a (ix2 (⟨(t * 1000 + (y 0).val) % 50000, Nat.mod_lt _ (by decide)⟩ : Fin 50000) (⟨(y 1).val, (y 1).isLt⟩ : Fin C))

/-- The body's three stored values as functions of its fourteen loaded blocks. -/
def B14 (x0 : Vec Ideal S1000x64 .f32) (x1 : Vec Ideal S1000x100 .f32) (x2 : Vec Ideal S1000x64 .f32) (x3 : Vec Ideal S1000x64 .f32) (x4 : Vec Ideal S100x384 .f32) (x5 : Vec Ideal S100x384 .f32) (x6 : Vec Ideal S1x384 .f32) (x7 : Vec Ideal S1x384 .f32) (x8 : Vec Ideal S100x512 .f32) (x9 : Vec Ideal S64x512 .f32) (x10 : Vec Ideal S1x512 .f32) (x11 : Vec Ideal S1x512 .f32) : Vec Ideal S1000x64 .f32 := k1_pay11 (k1_pay2 x2) (k1_pay3 x3) (k1_pay4 x0) (k1_pay7 x0 x1 x4 x6 x5 x7) (k1_pay8 x0 x1 x4 x6 x5 x7) x8 x10 x9 x11
def B15 (x0 : Vec Ideal S1000x64 .f32) (x1 : Vec Ideal S1000x100 .f32) (x2 : Vec Ideal S1000x64 .f32) (x3 : Vec Ideal S1000x64 .f32) (x4 : Vec Ideal S100x384 .f32) (x5 : Vec Ideal S100x384 .f32) (x6 : Vec Ideal S1x384 .f32) (x7 : Vec Ideal S1x384 .f32) (x8 : Vec Ideal S100x512 .f32) (x9 : Vec Ideal S64x512 .f32) (x10 : Vec Ideal S1x512 .f32) (x11 : Vec Ideal S1x512 .f32) : Vec Ideal S1000x64 .f32 := k1_pay10 (k1_pay2 x2) (k1_pay3 x3) (k1_pay4 x0) (k1_pay7 x0 x1 x4 x6 x5 x7) (k1_pay8 x0 x1 x4 x6 x5 x7) x8 x10 x9 x11
def B16 (x0 : Vec Ideal S1000x64 .f32) (x1 : Vec Ideal S1000x100 .f32) (x2 : Vec Ideal S1000x64 .f32) (x3 : Vec Ideal S1000x64 .f32) (x4 : Vec Ideal S100x384 .f32) (x5 : Vec Ideal S100x384 .f32) (x6 : Vec Ideal S1x384 .f32) (x7 : Vec Ideal S1x384 .f32) (x8 : Vec Ideal S100x512 .f32) (x9 : Vec Ideal S64x512 .f32) (x10 : Vec Ideal S1x512 .f32) (x11 : Vec Ideal S1x512 .f32) (x12 : Vec Ideal S64x8 .f32) (x13 : Vec Ideal S1x8 .f32) : Vec Ideal S1000x8 .f32 := k1_pay1 (k1_pay12 (k1_pay2 x2) (k1_pay3 x3) (k1_pay4 x0) (k1_pay7 x0 x1 x4 x6 x5 x7) (k1_pay8 x0 x1 x4 x6 x5 x7) x8 x10 x9 x11) x12 x13

/-- The three output arrays as functions of the fourteen operand arrays. -/
def G14 (a0 : S50000x64.Idx → EReal) (a1 : S50000x100.Idx → EReal) (a2 : S50000x64.Idx → EReal) (a3 : S50000x64.Idx → EReal) (a4 : S100x384.Idx → EReal) (a5 : S100x384.Idx → EReal) (a6 : S1x384.Idx → EReal) (a7 : S1x384.Idx → EReal) (a8 : S100x512.Idx → EReal) (a9 : S64x512.Idx → EReal) (a10 : S1x512.Idx → EReal) (a11 : S1x512.Idx → EReal) : S50000x64.Idx → EReal :=
  fun i => B14 (rowBlk a0 (tOf i)) (rowBlk a1 (tOf i)) (rowBlk a2 (tOf i)) (rowBlk a3 (tOf i)) a4 a5 a6 a7 a8 a9 a10 a11 (ix2 (pOf i) (⟨(i 1).val, (i 1).isLt⟩ : Fin 64))
def G15 (a0 : S50000x64.Idx → EReal) (a1 : S50000x100.Idx → EReal) (a2 : S50000x64.Idx → EReal) (a3 : S50000x64.Idx → EReal) (a4 : S100x384.Idx → EReal) (a5 : S100x384.Idx → EReal) (a6 : S1x384.Idx → EReal) (a7 : S1x384.Idx → EReal) (a8 : S100x512.Idx → EReal) (a9 : S64x512.Idx → EReal) (a10 : S1x512.Idx → EReal) (a11 : S1x512.Idx → EReal) : S50000x64.Idx → EReal :=
  fun i => B15 (rowBlk a0 (tOf i)) (rowBlk a1 (tOf i)) (rowBlk a2 (tOf i)) (rowBlk a3 (tOf i)) a4 a5 a6 a7 a8 a9 a10 a11 (ix2 (pOf i) (⟨(i 1).val, (i 1).isLt⟩ : Fin 64))
def G16 (a0 : S50000x64.Idx → EReal) (a1 : S50000x100.Idx → EReal) (a2 : S50000x64.Idx → EReal) (a3 : S50000x64.Idx → EReal) (a4 : S100x384.Idx → EReal) (a5 : S100x384.Idx → EReal) (a6 : S1x384.Idx → EReal) (a7 : S1x384.Idx → EReal) (a8 : S100x512.Idx → EReal) (a9 : S64x512.Idx → EReal) (a10 : S1x512.Idx → EReal) (a11 : S1x512.Idx → EReal) (a12 : S64x8.Idx → EReal) (a13 : S1x8.Idx → EReal) : S50000x8.Idx → EReal :=
  fun i => B16 (rowBlk a0 (tOf i)) (rowBlk a1 (tOf i)) (rowBlk a2 (tOf i)) (rowBlk a3 (tOf i)) a4 a5 a6 a7 a8 a9 a10 a11 a12 a13 (ix2 (pOf i) (⟨(i 1).val, (i 1).isLt⟩ : Fin 8))

/-- The printed block index maps, decided over the grid: the row windows move with the point, the parameter windows stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = t.val ∧ win1_14.index t (1 : Fin 2) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-! The input blocks at point `t`: a row window's block is rows 1000·t … of its array, a parameter window's its array. -/
theorem blk1_0 (c : Dev nD) (t : Fin cfg1.N) : iblk1 V c 0 t = rowBlk (V c main_arg0) t.val := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext y
  show V c main_arg0 (((cfg1.win 0).blk t).view.emb y) = V c main_arg0 _
  refine congrArg (V c main_arg0) (funext fun a => Fin.ext ?_)
  have hy0 : (y 0).val < 1000 := (y 0).isLt
  match a with
  | ⟨0, _⟩ => show win1_0.index t (0 : Fin 2) * 1000 + 1 * (y 0).val = (t.val * 1000 + (y 0).val) % 50000; omega
  | ⟨1, _⟩ => show win1_0.index t (1 : Fin 2) * 64 + 1 * (y 1).val = (y 1).val; omega
theorem blk1_1 (c : Dev nD) (t : Fin cfg1.N) : iblk1 V c 1 t = rowBlk (V c main_v28) t.val := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext y
  show V c main_v28 (((cfg1.win 1).blk t).view.emb y) = V c main_v28 _
  refine congrArg (V c main_v28) (funext fun a => Fin.ext ?_)
  have hy0 : (y 0).val < 1000 := (y 0).isLt
  match a with
  | ⟨0, _⟩ => show win1_1.index t (0 : Fin 2) * 1000 + 1 * (y 0).val = (t.val * 1000 + (y 0).val) % 50000; omega
  | ⟨1, _⟩ => show win1_1.index t (1 : Fin 2) * 100 + 1 * (y 1).val = (y 1).val; omega
theorem blk1_2 (c : Dev nD) (t : Fin cfg1.N) : iblk1 V c 2 t = rowBlk (V c main_v103) t.val := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext y
  show V c main_v103 (((cfg1.win 2).blk t).view.emb y) = V c main_v103 _
  refine congrArg (V c main_v103) (funext fun a => Fin.ext ?_)
  have hy0 : (y 0).val < 1000 := (y 0).isLt
  match a with
  | ⟨0, _⟩ => show win1_2.index t (0 : Fin 2) * 1000 + 1 * (y 0).val = (t.val * 1000 + (y 0).val) % 50000; omega
  | ⟨1, _⟩ => show win1_2.index t (1 : Fin 2) * 64 + 1 * (y 1).val = (y 1).val; omega
theorem blk1_3 (c : Dev nD) (t : Fin cfg1.N) : iblk1 V c 3 t = rowBlk (V c main_v104) t.val := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext y
  show V c main_v104 (((cfg1.win 3).blk t).view.emb y) = V c main_v104 _
  refine congrArg (V c main_v104) (funext fun a => Fin.ext ?_)
  have hy0 : (y 0).val < 1000 := (y 0).isLt
  match a with
  | ⟨0, _⟩ => show win1_3.index t (0 : Fin 2) * 1000 + 1 * (y 0).val = (t.val * 1000 + (y 0).val) % 50000; omega
  | ⟨1, _⟩ => show win1_3.index t (1 : Fin 2) * 64 + 1 * (y 1).val = (y 1).val; omega
theorem blk1_4 (c : Dev nD) (t : Fin cfg1.N) : iblk1 V c 4 t = V c main_v36 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v36 (((cfg1.win 4).blk t).view.emb y) = V c main_v36 y
  refine congrArg (V c main_v36) (funext fun a => Fin.ext ?_)
  match a with
  | ⟨0, _⟩ => show win1_4.index t (0 : Fin 2) * 100 + 1 * (y 0).val = (y 0).val; omega
  | ⟨1, _⟩ => show win1_4.index t (1 : Fin 2) * 384 + 1 * (y 1).val = (y 1).val; omega
theorem blk1_5 (c : Dev nD) (t : Fin cfg1.N) : iblk1 V c 5 t = V c main_v44 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v44 (((cfg1.win 5).blk t).view.emb y) = V c main_v44 y
  refine congrArg (V c main_v44) (funext fun a => Fin.ext ?_)
  match a with
  | ⟨0, _⟩ => show win1_5.index t (0 : Fin 2) * 100 + 1 * (y 0).val = (y 0).val; omega
  | ⟨1, _⟩ => show win1_5.index t (1 : Fin 2) * 384 + 1 * (y 1).val = (y 1).val; omega
theorem blk1_6 (c : Dev nD) (t : Fin cfg1.N) : iblk1 V c 6 t = V c main_v52 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v52 (((cfg1.win 6).blk t).view.emb y) = V c main_v52 y
  refine congrArg (V c main_v52) (funext fun a => Fin.ext ?_)
  match a with
  | ⟨0, _⟩ => show win1_6.index t (0 : Fin 2) * 1 + 1 * (y 0).val = (y 0).val; omega
  | ⟨1, _⟩ => show win1_6.index t (1 : Fin 2) * 384 + 1 * (y 1).val = (y 1).val; omega
theorem blk1_7 (c : Dev nD) (t : Fin cfg1.N) : iblk1 V c 7 t = V c main_v60 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v60 (((cfg1.win 7).blk t).view.emb y) = V c main_v60 y
  refine congrArg (V c main_v60) (funext fun a => Fin.ext ?_)
  match a with
  | ⟨0, _⟩ => show win1_7.index t (0 : Fin 2) * 1 + 1 * (y 0).val = (y 0).val; omega
  | ⟨1, _⟩ => show win1_7.index t (1 : Fin 2) * 384 + 1 * (y 1).val = (y 1).val; omega
theorem blk1_8 (c : Dev nD) (t : Fin cfg1.N) : iblk1 V c 8 t = V c main_v70 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v70 (((cfg1.win 8).blk t).view.emb y) = V c main_v70 y
  refine congrArg (V c main_v70) (funext fun a => Fin.ext ?_)
  match a with
  | ⟨0, _⟩ => show win1_8.index t (0 : Fin 2) * 100 + 1 * (y 0).val = (y 0).val; omega
  | ⟨1, _⟩ => show win1_8.index t (1 : Fin 2) * 512 + 1 * (y 1).val = (y 1).val; omega
theorem blk1_9 (c : Dev nD) (t : Fin cfg1.N) : iblk1 V c 9 t = V c main_v80 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v80 (((cfg1.win 9).blk t).view.emb y) = V c main_v80 y
  refine congrArg (V c main_v80) (funext fun a => Fin.ext ?_)
  match a with
  | ⟨0, _⟩ => show win1_9.index t (0 : Fin 2) * 64 + 1 * (y 0).val = (y 0).val; omega
  | ⟨1, _⟩ => show win1_9.index t (1 : Fin 2) * 512 + 1 * (y 1).val = (y 1).val; omega
theorem blk1_10 (c : Dev nD) (t : Fin cfg1.N) : iblk1 V c 10 t = V c main_v90 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v90 (((cfg1.win 10).blk t).view.emb y) = V c main_v90 y
  refine congrArg (V c main_v90) (funext fun a => Fin.ext ?_)
  match a with
  | ⟨0, _⟩ => show win1_10.index t (0 : Fin 2) * 1 + 1 * (y 0).val = (y 0).val; omega
  | ⟨1, _⟩ => show win1_10.index t (1 : Fin 2) * 512 + 1 * (y 1).val = (y 1).val; omega
theorem blk1_11 (c : Dev nD) (t : Fin cfg1.N) : iblk1 V c 11 t = V c main_v100 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v100 (((cfg1.win 11).blk t).view.emb y) = V c main_v100 y
  refine congrArg (V c main_v100) (funext fun a => Fin.ext ?_)
  match a with
  | ⟨0, _⟩ => show win1_11.index t (0 : Fin 2) * 1 + 1 * (y 0).val = (y 0).val; omega
  | ⟨1, _⟩ => show win1_11.index t (1 : Fin 2) * 512 + 1 * (y 1).val = (y 1).val; omega
theorem blk1_12 (c : Dev nD) (t : Fin cfg1.N) : iblk1 V c 12 t = V c main_v101 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v101 (((cfg1.win 12).blk t).view.emb y) = V c main_v101 y
  refine congrArg (V c main_v101) (funext fun a => Fin.ext ?_)
  match a with
  | ⟨0, _⟩ => show win1_12.index t (0 : Fin 2) * 64 + 1 * (y 0).val = (y 0).val; omega
  | ⟨1, _⟩ => show win1_12.index t (1 : Fin 2) * 8 + 1 * (y 1).val = (y 1).val; omega
theorem blk1_13 (c : Dev nD) (t : Fin cfg1.N) : iblk1 V c 13 t = V c main_v102 := by
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  funext y
  show V c main_v102 (((cfg1.win 13).blk t).view.emb y) = V c main_v102 y
  refine congrArg (V c main_v102) (funext fun a => Fin.ext ?_)
  match a with
  | ⟨0, _⟩ => show win1_13.index t (0 : Fin 2) * 1 + 1 * (y 0).val = (y 0).val; omega
  | ⟨1, _⟩ => show win1_13.index t (1 : Fin 2) * 8 + 1 * (y 1).val = (y 1).val; omega

/-! ## Output window 14 -/

/-- What point `t` writes back is block `t` of the output's function of the operand arrays. -/
theorem flushed1_14_eq (c : Dev nD) (t : Fin cfg1.N) :
    (dat1 V c).flushed 14 t = ((cfg1.win 14).blk t).view.read (Elt Ideal) (G14 (V c main_arg0) (V c main_v28) (V c main_v103) (V c main_v104) (V c main_v36) (V c main_v44) (V c main_v52) (V c main_v60) (V c main_v70) (V c main_v80) (V c main_v90) (V c main_v100)) := by
  show (cfg1.win 14).cut (grid1.coords t) ((dat1 V c).after 14 t) = _
  rw [after1_14]
  unfold out1_14
  rw [View.canon_unit_zero hz2']
  simp only [hid1, cel1, xpad1, zgate1, ncand1, View.ld_unit_zero (S := S1000x64) hz2', View.ld_unit_zero (S := S1000x100) hz2', View.ld_unit_zero (S := S100x384) hz2', View.ld_unit_zero (S := S1x384) hz2', View.ld_unit_zero (S := S100x512) hz2', View.ld_unit_zero (S := S64x512) hz2', View.ld_unit_zero (S := S1x512) hz2']
  rw [blk1_0 V c t, blk1_1 V c t, blk1_2 V c t, blk1_3 V c t, blk1_4 V c t, blk1_5 V c t, blk1_6 V c t, blk1_7 V c t, blk1_8 V c t, blk1_9 V c t, blk1_10 V c t, blk1_11 V c t]
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext j
  obtain ⟨p, q, rfl⟩ : ∃ (p : Fin 1000) (q : Fin 64), j = ix2 p q := ⟨j 0, j 1, eq_ix2 j⟩
  show B14 (rowBlk (V c main_arg0) t.val) (rowBlk (V c main_v28) t.val) (rowBlk (V c main_v103) t.val) (rowBlk (V c main_v104) t.val) (V c main_v36) (V c main_v44) (V c main_v52) (V c main_v60) (V c main_v70) (V c main_v80) (V c main_v90) (V c main_v100) (ix2 p q)
    = G14 (V c main_arg0) (V c main_v28) (V c main_v103) (V c main_v104) (V c main_v36) (V c main_v44) (V c main_v52) (V c main_v60) (V c main_v70) (V c main_v80) (V c main_v90) (V c main_v100) (((cfg1.win 14).blk t).view.emb (ix2 p q))
  unfold G14
  have h0 : ((((cfg1.win 14).blk t).view.emb (ix2 p q)) 0).val = t.val * 1000 + p.val := by
    show win1_14.index t (0 : Fin 2) * 1000 + 1 * p.val = _; omega
  have h1 : ((((cfg1.win 14).blk t).view.emb (ix2 p q)) 1).val = q.val := by
    show win1_14.index t (1 : Fin 2) * 64 + 1 * q.val = _; omega
  have hp : p.val < 1000 := p.isLt
  have ht' : tOf (((cfg1.win 14).blk t).view.emb (ix2 p q)) = t.val := by show _ / 1000 = _; rw [h0]; omega
  have hp' : pOf (((cfg1.win 14).blk t).view.emb (ix2 p q)) = p := Fin.ext (by show _ % 1000 = _; rw [h0]; omega)
  have hq' : (⟨((((cfg1.win 14).blk t).view.emb (ix2 p q)) 1).val, ((((cfg1.win 14).blk t).view.emb (ix2 p q)) 1).isLt⟩ : Fin 64) = q := Fin.ext h1
  rw [ht', hp', hq']

theorem mem_blk1_14 (t : Fin cfg1.N) (i : S50000x64.Idx) :
    i ∈ ((cfg1.win 14).blk t).view.set ↔ ∀ a : Fin 2, win1_14.index t a * S1000x64.size a ≤ (i a).val ∧ (i a).val < win1_14.index t a * S1000x64.size a + S1000x64.size a := by
  show i ∈ ((View.whole main_v105_0).slice (win1_14.rect t)).set ↔ _
  rw [View.set_slice_whole, Rect.mem_set_unit]
  exact Iff.rfl

/-- Row `r` of the array is in the block of point `r / 1000`. -/
theorem cover1_14 (i : S50000x64.Idx) : ∃ t : Fin cfg1.N, (cfg1.win 14).flush t = true ∧ i ∈ ((cfg1.win 14).blk t).view.set := by
  have hi0 : (i 0).val < 50000 := (i 0).isLt
  have hi1 : (i 1).val < 64 := (i 1).isLt
  have hN : cfg1.N = 50 := N_1
  have ht : (i 0).val / 1000 < cfg1.N := by rw [hN]; omega
  refine ⟨⟨(i 0).val / 1000, ht⟩, flush1_14 _, ?_⟩
  rw [mem_blk1_14]
  obtain ⟨e0, e1, e2, e3, e4, e5, e6, e7, e8, e9, e10, e11, e12, e13, e14, e15, e16, e17, e18, e19, e20, e21, e22, e23, e24, e25, e26, e27, e28, e29, e30, e31, e32, e33⟩ := idx_facts1 ⟨(i 0).val / 1000, ht⟩
  intro a
  match a with
  | ⟨0, _⟩ =>
    show win1_14.index ⟨(i 0).val / 1000, ht⟩ (0 : Fin 2) * 1000 ≤ (i 0).val ∧ (i 0).val < win1_14.index ⟨(i 0).val / 1000, ht⟩ (0 : Fin 2) * 1000 + 1000
    rw [e28]; show (i 0).val / 1000 * 1000 ≤ (i 0).val ∧ (i 0).val < (i 0).val / 1000 * 1000 + 1000; omega
  | ⟨1, _⟩ =>
    show win1_14.index ⟨(i 0).val / 1000, ht⟩ (1 : Fin 2) * 64 ≤ (i 1).val ∧ (i 1).val < win1_14.index ⟨(i 0).val / 1000, ht⟩ (1 : Fin 2) * 64 + 64
    rw [e29]; omega

/-- THE ARRAY after the region. -/
theorem final1_14 (c : Dev nD) : (dat1 V c).arrAt 14 cfg1.N = G14 (V c main_arg0) (V c main_v28) (V c main_v103) (V c main_v104) (V c main_v36) (V c main_v44) (V c main_v52) (V c main_v60) (V c main_v70) (V c main_v80) (V c main_v90) (V c main_v100) :=
  (dat1 V c).arrAt_eq_of_cover 14 _ (fun t _ => flushed1_14_eq V c t) cover1_14

/-! ## Output window 15 -/

/-- What point `t` writes back is block `t` of the output's function of the operand arrays. -/
theorem flushed1_15_eq (c : Dev nD) (t : Fin cfg1.N) :
    (dat1 V c).flushed 15 t = ((cfg1.win 15).blk t).view.read (Elt Ideal) (G15 (V c main_arg0) (V c main_v28) (V c main_v103) (V c main_v104) (V c main_v36) (V c main_v44) (V c main_v52) (V c main_v60) (V c main_v70) (V c main_v80) (V c main_v90) (V c main_v100)) := by
  show (cfg1.win 15).cut (grid1.coords t) ((dat1 V c).after 15 t) = _
  rw [after1_15]
  unfold out1_15
  rw [View.canon_unit_zero hz2']
  simp only [hid1, cel1, xpad1, zgate1, ncand1, View.ld_unit_zero (S := S1000x64) hz2', View.ld_unit_zero (S := S1000x100) hz2', View.ld_unit_zero (S := S100x384) hz2', View.ld_unit_zero (S := S1x384) hz2', View.ld_unit_zero (S := S100x512) hz2', View.ld_unit_zero (S := S64x512) hz2', View.ld_unit_zero (S := S1x512) hz2']
  rw [blk1_0 V c t, blk1_1 V c t, blk1_2 V c t, blk1_3 V c t, blk1_4 V c t, blk1_5 V c t, blk1_6 V c t, blk1_7 V c t, blk1_8 V c t, blk1_9 V c t, blk1_10 V c t, blk1_11 V c t]
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext j
  obtain ⟨p, q, rfl⟩ : ∃ (p : Fin 1000) (q : Fin 64), j = ix2 p q := ⟨j 0, j 1, eq_ix2 j⟩
  show B15 (rowBlk (V c main_arg0) t.val) (rowBlk (V c main_v28) t.val) (rowBlk (V c main_v103) t.val) (rowBlk (V c main_v104) t.val) (V c main_v36) (V c main_v44) (V c main_v52) (V c main_v60) (V c main_v70) (V c main_v80) (V c main_v90) (V c main_v100) (ix2 p q)
    = G15 (V c main_arg0) (V c main_v28) (V c main_v103) (V c main_v104) (V c main_v36) (V c main_v44) (V c main_v52) (V c main_v60) (V c main_v70) (V c main_v80) (V c main_v90) (V c main_v100) (((cfg1.win 15).blk t).view.emb (ix2 p q))
  unfold G15
  have h0 : ((((cfg1.win 15).blk t).view.emb (ix2 p q)) 0).val = t.val * 1000 + p.val := by
    show win1_15.index t (0 : Fin 2) * 1000 + 1 * p.val = _; omega
  have h1 : ((((cfg1.win 15).blk t).view.emb (ix2 p q)) 1).val = q.val := by
    show win1_15.index t (1 : Fin 2) * 64 + 1 * q.val = _; omega
  have hp : p.val < 1000 := p.isLt
  have ht' : tOf (((cfg1.win 15).blk t).view.emb (ix2 p q)) = t.val := by show _ / 1000 = _; rw [h0]; omega
  have hp' : pOf (((cfg1.win 15).blk t).view.emb (ix2 p q)) = p := Fin.ext (by show _ % 1000 = _; rw [h0]; omega)
  have hq' : (⟨((((cfg1.win 15).blk t).view.emb (ix2 p q)) 1).val, ((((cfg1.win 15).blk t).view.emb (ix2 p q)) 1).isLt⟩ : Fin 64) = q := Fin.ext h1
  rw [ht', hp', hq']

theorem mem_blk1_15 (t : Fin cfg1.N) (i : S50000x64.Idx) :
    i ∈ ((cfg1.win 15).blk t).view.set ↔ ∀ a : Fin 2, win1_15.index t a * S1000x64.size a ≤ (i a).val ∧ (i a).val < win1_15.index t a * S1000x64.size a + S1000x64.size a := by
  show i ∈ ((View.whole main_v105_1).slice (win1_15.rect t)).set ↔ _
  rw [View.set_slice_whole, Rect.mem_set_unit]
  exact Iff.rfl

/-- Row `r` of the array is in the block of point `r / 1000`. -/
theorem cover1_15 (i : S50000x64.Idx) : ∃ t : Fin cfg1.N, (cfg1.win 15).flush t = true ∧ i ∈ ((cfg1.win 15).blk t).view.set := by
  have hi0 : (i 0).val < 50000 := (i 0).isLt
  have hi1 : (i 1).val < 64 := (i 1).isLt
  have hN : cfg1.N = 50 := N_1
  have ht : (i 0).val / 1000 < cfg1.N := by rw [hN]; omega
  refine ⟨⟨(i 0).val / 1000, ht⟩, flush1_15 _, ?_⟩
  rw [mem_blk1_15]
  obtain ⟨e0, e1, e2, e3, e4, e5, e6, e7, e8, e9, e10, e11, e12, e13, e14, e15, e16, e17, e18, e19, e20, e21, e22, e23, e24, e25, e26, e27, e28, e29, e30, e31, e32, e33⟩ := idx_facts1 ⟨(i 0).val / 1000, ht⟩
  intro a
  match a with
  | ⟨0, _⟩ =>
    show win1_15.index ⟨(i 0).val / 1000, ht⟩ (0 : Fin 2) * 1000 ≤ (i 0).val ∧ (i 0).val < win1_15.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win1_15.index ⟨(i 0).val / 1000, ht⟩ (1 : Fin 2) * 64 ≤ (i 1).val ∧ (i 1).val < win1_15.index ⟨(i 0).val / 1000, ht⟩ (1 : Fin 2) * 64 + 64
    rw [e31]; omega

/-- THE ARRAY after the region. -/
theorem final1_15 (c : Dev nD) : (dat1 V c).arrAt 15 cfg1.N = G15 (V c main_arg0) (V c main_v28) (V c main_v103) (V c main_v104) (V c main_v36) (V c main_v44) (V c main_v52) (V c main_v60) (V c main_v70) (V c main_v80) (V c main_v90) (V c main_v100) :=
  (dat1 V c).arrAt_eq_of_cover 15 _ (fun t _ => flushed1_15_eq V c t) cover1_15

/-! ## Output window 16 -/

/-- What point `t` writes back is block `t` of the output's function of the operand arrays. -/
theorem flushed1_16_eq (c : Dev nD) (t : Fin cfg1.N) :
    (dat1 V c).flushed 16 t = ((cfg1.win 16).blk t).view.read (Elt Ideal) (G16 (V c main_arg0) (V c main_v28) (V c main_v103) (V c main_v104) (V c main_v36) (V c main_v44) (V c main_v52) (V c main_v60) (V c main_v70) (V c main_v80) (V c main_v90) (V c main_v100) (V c main_v101) (V c main_v102)) := by
  show (cfg1.win 16).cut (grid1.coords t) ((dat1 V c).after 16 t) = _
  rw [after1_16]
  unfold out1_16
  rw [View.canon_unit_zero hz2']
  simp only [hid1, cel1, xpad1, zgate1, ncand1, View.ld_unit_zero (S := S1000x64) hz2', View.ld_unit_zero (S := S1000x100) hz2', View.ld_unit_zero (S := S100x384) hz2', View.ld_unit_zero (S := S1x384) hz2', View.ld_unit_zero (S := S100x512) hz2', View.ld_unit_zero (S := S64x512) hz2', View.ld_unit_zero (S := S1x512) hz2', View.ld_unit_zero (S := S64x8) hz2', View.ld_unit_zero (S := S1x8) hz2']
  rw [blk1_0 V c t, blk1_1 V c t, blk1_2 V c t, blk1_3 V c t, blk1_4 V c t, blk1_5 V c t, blk1_6 V c t, blk1_7 V c t, blk1_8 V c t, blk1_9 V c t, blk1_10 V c t, blk1_11 V c t, blk1_12 V c t, blk1_13 V c t]
  obtain ⟨e0, e1, e2, e3, e4, e5, e6, e7, e8, e9, e10, e11, e12, e13, e14, e15, e16, e17, e18, e19, e20, e21, e22, e23, e24, e25, e26, e27, e28, e29, e30, e31, e32, e33⟩ := idx_facts1 t
  have hN : cfg1.N = 50 := N_1
  have ht : t.val < 50 := hN ▸ t.isLt
  funext j
  obtain ⟨p, q, rfl⟩ : ∃ (p : Fin 1000) (q : Fin 8), j = ix2 p q := ⟨j 0, j 1, eq_ix2 j⟩
  show B16 (rowBlk (V c main_arg0) t.val) (rowBlk (V c main_v28) t.val) (rowBlk (V c main_v103) t.val) (rowBlk (V c main_v104) t.val) (V c main_v36) (V c main_v44) (V c main_v52) (V c main_v60) (V c main_v70) (V c main_v80) (V c main_v90) (V c main_v100) (V c main_v101) (V c main_v102) (ix2 p q)
    = G16 (V c main_arg0) (V c main_v28) (V c main_v103) (V c main_v104) (V c main_v36) (V c main_v44) (V c main_v52) (V c main_v60) (V c main_v70) (V c main_v80) (V c main_v90) (V c main_v100) (V c main_v101) (V c main_v102) (((cfg1.win 16).blk t).view.emb (ix2 p q))
  unfold G16
  have h0 : ((((cfg1.win 16).blk t).view.emb (ix2 p q)) 0).val = t.val * 1000 + p.val := by
    show win1_16.index t (0 : Fin 2) * 1000 + 1 * p.val = _; omega
  have h1 : ((((cfg1.win 16).blk t).view.emb (ix2 p q)) 1).val = q.val := by
    show win1_16.index t (1 : Fin 2) * 8 + 1 * q.val = _; omega
  have hp : p.val < 1000 := p.isLt
  have ht' : tOf (((cfg1.win 16).blk t).view.emb (ix2 p q)) = t.val := by show _ / 1000 = _; rw [h0]; omega
  have hp' : pOf (((cfg1.win 16).blk t).view.emb (ix2 p q)) = p := Fin.ext (by show _ % 1000 = _; rw [h0]; omega)
  have hq' : (⟨((((cfg1.win 16).blk t).view.emb (ix2 p q)) 1).val, ((((cfg1.win 16).blk t).view.emb (ix2 p q)) 1).isLt⟩ : Fin 8) = q := Fin.ext h1
  rw [ht', hp', hq']

theorem mem_blk1_16 (t : Fin cfg1.N) (i : S50000x8.Idx) :
    i ∈ ((cfg1.win 16).blk t).view.set ↔ ∀ a : Fin 2, win1_16.index t a * S1000x8.size a ≤ (i a).val ∧ (i a).val < win1_16.index t a * S1000x8.size a + S1000x8.size a := by
  show i ∈ ((View.whole main_v105_2).slice (win1_16.rect t)).set ↔ _
  rw [View.set_slice_whole, Rect.mem_set_unit]
  exact Iff.rfl

/-- Row `r` of the array is in the block of point `r / 1000`. -/
theorem cover1_16 (i : S50000x8.Idx) : ∃ t : Fin cfg1.N, (cfg1.win 16).flush t = true ∧ i ∈ ((cfg1.win 16).blk t).view.set := by
  have hi0 : (i 0).val < 50000 := (i 0).isLt
  have hi1 : (i 1).val < 8 := (i 1).isLt
  have hN : cfg1.N = 50 := N_1
  have ht : (i 0).val / 1000 < cfg1.N := by rw [hN]; omega
  refine ⟨⟨(i 0).val / 1000, ht⟩, flush1_16 _, ?_⟩
  rw [mem_blk1_16]
  obtain ⟨e0, e1, e2, e3, e4, e5, e6, e7, e8, e9, e10, e11, e12, e13, e14, e15, e16, e17, e18, e19, e20, e21, e22, e23, e24, e25, e26, e27, e28, e29, e30, e31, e32, e33⟩ := idx_facts1 ⟨(i 0).val / 1000, ht⟩
  intro a
  match a with
  | ⟨0, _⟩ =>
    show win1_16.index ⟨(i 0).val / 1000, ht⟩ (0 : Fin 2) * 1000 ≤ (i 0).val ∧ (i 0).val < win1_16.index ⟨(i 0).val / 1000, ht⟩ (0 : Fin 2) * 1000 + 1000
    rw [e32]; show (i 0).val / 1000 * 1000 ≤ (i 0).val ∧ (i 0).val < (i 0).val / 1000 * 1000 + 1000; omega
  | ⟨1, _⟩ =>
    show win1_16.index ⟨(i 0).val / 1000, ht⟩ (1 : Fin 2) * 8 ≤ (i 1).val ∧ (i 1).val < win1_16.index ⟨(i 0).val / 1000, ht⟩ (1 : Fin 2) * 8 + 8
    rw [e33]; omega

/-- THE ARRAY after the region. -/
theorem final1_16 (c : Dev nD) : (dat1 V c).arrAt 16 cfg1.N = G16 (V c main_arg0) (V c main_v28) (V c main_v103) (V c main_v104) (V c main_v36) (V c main_v44) (V c main_v52) (V c main_v60) (V c main_v70) (V c main_v80) (V c main_v90) (V c main_v100) (V c main_v101) (V c main_v102) :=
  (dat1 V c).arrAt_eq_of_cover 16 _ (fun t _ => flushed1_16_eq V c t) cover1_16

end Cert.KernelIdeal.HandV

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.KIPay.lean ====
/-
  The fused kernel's payloads read at an index, at the exact (extended-real) instance. Every payload is a matrix of 1000
  rows; row `p` of each depends on row `p` of the row blocks only. The matrix products read as sums over the contracted
  coordinate, the bias rows broadcast, the gate slices at their lane-tile offsets (0, 128, 256, 384), the zero padding of
  the features; the roundings to bf16 and the shape casts are the identity here.
-/
import proofs.«173484_j54443005444660_2_alg».proof.Proof.Gen.KernelIdeal.Skeleton
import proofs.«173484_j54443005444660_2_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe Idealize.ShloMosaic.ValueIdx

/-- The two float constants of the body: one (the GRU's `1 - z`) and zero (the padding and the rectifier). -/
abbrev oneE : EReal := Ideal.ofBits .f32 0x3F800000#32
abbrev zeroE : EReal := Ideal.ofBits .f32 0x00000000#32

theorem pay2_apply (v3 : Vec Ideal S1000x64 .f32) : k1_pay2 v3 = v3 := by
  unfold k1_pay2; exact shapeCast_self _ _
theorem pay3_apply (v5 : Vec Ideal S1000x64 .f32) : k1_pay3 v5 = v5 := by
  unfold k1_pay3; exact shapeCast_self _ _

/-- The features padded with zeros to 100 columns. -/
theorem pay4_apply_lo (v0 : Vec Ideal S1000x64 .f32) (p : Fin 1000) (k : Fin 100) (h : k.val < 64) :
    k1_pay4 v0 (ix2 p k) = v0 (ix2 p (⟨k.val, h⟩ : Fin 64)) := by
  unfold k1_pay4
  exact concatenate_pair_apply_left (t := S1000x100) (s₁ := S1000x64) (s₂ := S1000x36) (1 : Fin 2) _ _ _ (ix2 p k) rfl (ix2 p (⟨k.val, h⟩ : Fin 64)) (fun b => by
    match b with
    | ⟨0, _⟩ => rfl
    | ⟨1, _⟩ => rfl)
theorem pay4_apply_hi (v0 : Vec Ideal S1000x64 .f32) (p : Fin 1000) (k : Fin 100) (h : ¬ k.val < 64) :
    k1_pay4 v0 (ix2 p k) = zeroE := by
  unfold k1_pay4
  have hk : k.val < 100 := k.isLt
  exact concatenate_pair_apply_right (t := S1000x100) (s₁ := S1000x64) (s₂ := S1000x36) (1 : Fin 2) _ _ _ (ix2 p k) rfl rfl (ix2 p (⟨k.val - 64, by omega⟩ : Fin 36)) (fun b hb => by
    match b with
    | ⟨0, _⟩ => rfl
    | ⟨1, _⟩ => exact absurd rfl hb) (by show k.val - 64 + 64 = k.val; omega)

/-- The GRU's input-side pre-activations (three gates, each in its own 128-lane tile). -/
theorem pay5_apply (v1 : Vec Ideal S1000x100 .f32) (v10 : Vec Ideal S100x384 .f32) (v14 : Vec Ideal S1x384 .f32) (p : Fin 1000) (c : Fin 384) :
    k1_pay5 v1 v10 v14 (ix2 p c) = (∑ k : Fin 100, v1 (ix2 p k) * v10 (ix2 k c)) + v14 (ix2 (0 : Fin 1) c) := by
  unfold k1_pay5
  show FloatOps.matmul dot_S1000x100_S100x384_S1000x384_1_0_0_1_n_n none _ _ (constant (F := Ideal) S1000x384 .f32 0x00000000#32) (ix2 p c)
      + broadcastTo S1000x384 (shapeCast S1x384 v14 shapeCasts_S1x384_S1x384) broadcasts_S1x384_S1000x384 (ix2 p c) = _
  rw [broadcastTo_1b_ab_apply]
  refine congrArg₂ (fun a b : EReal => a + b) ?_ (by rw [shapeCast_self])
  refine (PlainMatmul.matmul_zero_apply _ none _ _ p c).trans ?_
  refine Finset.sum_congr rfl fun k _ => ?_
  rw [shapeCast_self, shapeCast_self]; rfl

/-- The GRU's state-side pre-activations, of the zero-padded features. -/
theorem pay6_apply (v0 : Vec Ideal S1000x64 .f32) (v19 : Vec Ideal S100x384 .f32) (v23 : Vec Ideal S1x384 .f32) (p : Fin 1000) (c : Fin 384) :
    k1_pay6 v0 v19 v23 (ix2 p c) = (∑ k : Fin 100, k1_pay4 v0 (ix2 p k) * v19 (ix2 k c)) + v23 (ix2 (0 : Fin 1) c) := by
  unfold k1_pay6
  show FloatOps.matmul dot_S1000x100_S100x384_S1000x384_1_0_0_1_n_n none _ _ (constant (F := Ideal) S1000x384 .f32 0x00000000#32) (ix2 p c)
      + broadcastTo S1000x384 (shapeCast S1x384 v23 shapeCasts_S1x384_S1x384) broadcasts_S1x384_S1000x384 (ix2 p c) = _
  rw [broadcastTo_1b_ab_apply]
  refine congrArg₂ (fun a b : EReal => a + b) ?_ (by rw [shapeCast_self])
  refine (PlainMatmul.matmul_zero_apply _ none _ _ p c).trans ?_
  refine Finset.sum_congr rfl fun k _ => ?_
  rw [shapeCast_self]; rfl

/-- The update gate. -/
theorem pay7_apply (v0 : Vec Ideal S1000x64 .f32) (v1 : Vec Ideal S1000x100 .f32) (v10 : Vec Ideal S100x384 .f32) (v14 : Vec Ideal S1x384 .f32)
    (v19 : Vec Ideal S100x384 .f32) (v23 : Vec Ideal S1x384 .f32) (p : Fin 1000) (j : Fin 100) :
    k1_pay7 v0 v1 v10 v14 v19 v23 (ix2 p j)
      = Ideal.logistic (k1_pay5 v1 v10 v14 (ix2 p (⟨128 + j.val, by have := j.isLt; omega⟩ : Fin 384))
          + k1_pay6 v0 v19 v23 (ix2 p (⟨128 + j.val, by have := j.isLt; omega⟩ : Fin 384))) := by
  unfold k1_pay7
  show Ideal.logistic (extractStridedSlice S1000x100 ![0, 128] (k1_pay5 v1 v10 v14) slices_S1000x384_o0_128_S1000x100 (ix2 p j)
      + extractStridedSlice S1000x100 ![0, 128] (k1_pay6 v0 v19 v23) slices_S1000x384_o0_128_S1000x100 (ix2 p j)) = _
  rw [slice2_axis1_apply 128 _ _ p j (⟨128 + j.val, by have := j.isLt; omega⟩ : Fin 384) rfl,
    slice2_axis1_apply 128 _ _ p j (⟨128 + j.val, by have := j.isLt; omega⟩ : Fin 384) rfl]

/-- The candidate state. -/
theorem pay8_apply (v0 : Vec Ideal S1000x64 .f32) (v1 : Vec Ideal S1000x100 .f32) (v10 : Vec Ideal S100x384 .f32) (v14 : Vec Ideal S1x384 .f32)
    (v19 : Vec Ideal S100x384 .f32) (v23 : Vec Ideal S1x384 .f32) (p : Fin 1000) (j : Fin 100) :
    k1_pay8 v0 v1 v10 v14 v19 v23 (ix2 p j)
      = Ideal.tanh (k1_pay5 v1 v10 v14 (ix2 p (⟨256 + j.val, by have := j.isLt; omega⟩ : Fin 384))
          + Ideal.logistic (k1_pay5 v1 v10 v14 (ix2 p (⟨0 + j.val, by have := j.isLt; omega⟩ : Fin 384))
              + k1_pay6 v0 v19 v23 (ix2 p (⟨0 + j.val, by have := j.isLt; omega⟩ : Fin 384)))
            * k1_pay6 v0 v19 v23 (ix2 p (⟨256 + j.val, by have := j.isLt; omega⟩ : Fin 384))) := by
  unfold k1_pay8
  show Ideal.tanh (extractStridedSlice S1000x100 ![0, 256] (k1_pay5 v1 v10 v14) slices_S1000x384_o0_256_S1000x100 (ix2 p j)
      + Ideal.logistic (extractStridedSlice S1000x100 ![0, 0] (k1_pay5 v1 v10 v14) slices_S1000x384_o0_0_S1000x100 (ix2 p j)
          + extractStridedSlice S1000x100 ![0, 0] (k1_pay6 v0 v19 v23) slices_S1000x384_o0_0_S1000x100 (ix2 p j))
        * extractStridedSlice S1000x100 ![0, 256] (k1_pay6 v0 v19 v23) slices_S1000x384_o0_256_S1000x100 (ix2 p j)) = _
  rw [slice2_axis1_apply 256 _ _ p j (⟨256 + j.val, by have := j.isLt; omega⟩ : Fin 384) rfl,
    slice2_axis1_apply 0 _ _ p j (⟨0 + j.val, by have := j.isLt; omega⟩ : Fin 384) rfl,
    slice2_axis1_apply 0 _ _ p j (⟨0 + j.val, by have := j.isLt; omega⟩ : Fin 384) rfl,
    slice2_axis1_apply 256 _ _ p j (⟨256 + j.val, by have := j.isLt; omega⟩ : Fin 384) rfl]

/-- The LSTM's pre-activations (four gates, each in its own 128-lane tile): of the GRU's new state and of the previous
    hidden state. -/
theorem pay9_apply (v4 : FVec Ideal S1000x64 .f32) (v8 v36 v39 : FVec Ideal S1000x100 .f32) (v46 : Vec Ideal S100x512 .f32) (v50 : Vec Ideal S1x512 .f32)
    (v55 : Vec Ideal S64x512 .f32) (v59 : Vec Ideal S1x512 .f32) (p : Fin 1000) (c : Fin 512) :
    k1_pay9 v4 v8 v36 v39 v46 v50 v55 v59 (ix2 p c)
      = ((∑ k : Fin 100, ((oneE - v36 (ix2 p k)) * v39 (ix2 p k) + v36 (ix2 p k) * v8 (ix2 p k)) * v46 (ix2 k c)) + v50 (ix2 (0 : Fin 1) c))
        + ((∑ k : Fin 64, v4 (ix2 p k) * v55 (ix2 k c)) + v59 (ix2 (0 : Fin 1) c)) := by
  unfold k1_pay9
  show (FloatOps.matmul dot_S1000x100_S100x512_S1000x512_1_0_0_1_n_n none _ _ (constant (F := Ideal) S1000x512 .f32 0x00000000#32) (ix2 p c)
        + broadcastTo S1000x512 (shapeCast S1x512 v50 shapeCasts_S1x512_S1x512) broadcasts_S1x512_S1000x512 (ix2 p c))
      + (FloatOps.matmul dot_S1000x64_S64x512_S1000x512_1_0_0_1_n_n none _ _ (constant (F := Ideal) S1000x512 .f32 0x00000000#32) (ix2 p c)
        + broadcastTo S1000x512 (shapeCast S1x512 v59 shapeCasts_S1x512_S1x512) broadcasts_S1x512_S1000x512 (ix2 p c)) = _
  rw [broadcastTo_1b_ab_apply, broadcastTo_1b_ab_apply]
  refine congrArg₂ (fun a b : EReal => a + b) (congrArg₂ (fun a b : EReal => a + b) ?_ (by rw [shapeCast_self])) (congrArg₂ (fun a b : EReal => a + b) ?_ (by rw [shapeCast_self]))
  · refine (PlainMatmul.matmul_zero_apply _ none _ _ p c).trans ?_
    refine Finset.sum_congr rfl fun k _ => ?_
    rw [shapeCast_self]; rfl
  · refine (PlainMatmul.matmul_zero_apply _ none _ _ p c).trans ?_
    refine Finset.sum_congr rfl fun k _ => ?_
    rw [shapeCast_self]; rfl

/-- The new cell state. -/
theorem pay10_apply (v4 v6 : FVec Ideal S1000x64 .f32) (v8 v36 v39 : FVec Ideal S1000x100 .f32) (v46 : Vec Ideal S100x512 .f32) (v50 : Vec Ideal S1x512 .f32)
    (v55 : Vec Ideal S64x512 .f32) (v59 : Vec Ideal S1x512 .f32) (p : Fin 1000) (j : Fin 64) :
    k1_pay10 v4 v6 v8 v36 v39 v46 v50 v55 v59 (ix2 p j)
      = Ideal.logistic (k1_pay9 v4 v8 v36 v39 v46 v50 v55 v59 (ix2 p (⟨128 + j.val, by have := j.isLt; omega⟩ : Fin 512))) * v6 (ix2 p j)
        + Ideal.logistic (k1_pay9 v4 v8 v36 v39 v46 v50 v55 v59 (ix2 p (⟨0 + j.val, by have := j.isLt; omega⟩ : Fin 512)))
          * Ideal.tanh (k1_pay9 v4 v8 v36 v39 v46 v50 v55 v59 (ix2 p (⟨256 + j.val, by have := j.isLt; omega⟩ : Fin 512))) := by
  unfold k1_pay10
  show Ideal.logistic (extractStridedSlice S1000x64 ![0, 128] (k1_pay9 v4 v8 v36 v39 v46 v50 v55 v59) slices_S1000x512_o0_128_S1000x64 (ix2 p j)) * v6 (ix2 p j)
      + Ideal.logistic (extractStridedSlice S1000x64 ![0, 0] (k1_pay9 v4 v8 v36 v39 v46 v50 v55 v59) slices_S1000x512_o0_0_S1000x64 (ix2 p j))
        * Ideal.tanh (extractStridedSlice S1000x64 ![0, 256] (k1_pay9 v4 v8 v36 v39 v46 v50 v55 v59) slices_S1000x512_o0_256_S1000x64 (ix2 p j)) = _
  rw [slice2_axis1_apply 128 _ _ p j (⟨128 + j.val, by have := j.isLt; omega⟩ : Fin 512) rfl,
    slice2_axis1_apply 0 _ _ p j (⟨0 + j.val, by have := j.isLt; omega⟩ : Fin 512) rfl,
    slice2_axis1_apply 256 _ _ p j (⟨256 + j.val, by have := j.isLt; omega⟩ : Fin 512) rfl]

/-- The new hidden state. -/
theorem pay11_apply (v4 v6 : FVec Ideal S1000x64 .f32) (v8 v36 v39 : FVec Ideal S1000x100 .f32) (v46 : Vec Ideal S100x512 .f32) (v50 : Vec Ideal S1x512 .f32)
    (v55 : Vec Ideal S64x512 .f32) (v59 : Vec Ideal S1x512 .f32) (p : Fin 1000) (j : Fin 64) :
    k1_pay11 v4 v6 v8 v36 v39 v46 v50 v55 v59 (ix2 p j)
      = Ideal.logistic (k1_pay9 v4 v8 v36 v39 v46 v50 v55 v59 (ix2 p (⟨384 + j.val, by have := j.isLt; omega⟩ : Fin 512)))
        * Ideal.tanh (k1_pay10 v4 v6 v8 v36 v39 v46 v50 v55 v59 (ix2 p j)) := by
  unfold k1_pay11
  show Ideal.logistic (extractStridedSlice S1000x64 ![0, 384] (k1_pay9 v4 v8 v36 v39 v46 v50 v55 v59) slices_S1000x512_o0_384_S1000x64 (ix2 p j))
      * Ideal.tanh (k1_pay10 v4 v6 v8 v36 v39 v46 v50 v55 v59 (ix2 p j)) = _
  rw [slice2_axis1_apply 384 _ _ p j (⟨384 + j.val, by have := j.isLt; omega⟩ : Fin 512) rfl]

/-- The rectified hidden state. -/
theorem pay12_apply (v4 v6 : FVec Ideal S1000x64 .f32) (v8 v36 v39 : FVec Ideal S1000x100 .f32) (v46 : Vec Ideal S100x512 .f32) (v50 : Vec Ideal S1x512 .f32)
    (v55 : Vec Ideal S64x512 .f32) (v59 : Vec Ideal S1x512 .f32) (p : Fin 1000) (j : Fin 64) :
    k1_pay12 v4 v6 v8 v36 v39 v46 v50 v55 v59 (ix2 p j) = max (k1_pay11 v4 v6 v8 v36 v39 v46 v50 v55 v59 (ix2 p j)) zeroE := by
  unfold k1_pay12
  rfl

/-- The head's output. -/
theorem pay1_apply (v81 : FVec Ideal S1000x64 .bf16) (v82 : Vec Ideal S64x8 .f32) (v86 : Vec Ideal S1x8 .f32) (p : Fin 1000) (q : Fin 8) :
    k1_pay1 v81 v82 v86 (ix2 p q) = (∑ k : Fin 64, v81 (ix2 p k) * v82 (ix2 k q)) + v86 (ix2 (0 : Fin 1) q) := by
  unfold k1_pay1
  show FloatOps.matmul dot_S1000x64_S64x8_S1000x8_1_0_0_1_n_n none _ _ (constant (F := Ideal) S1000x8 .f32 0x00000000#32) (ix2 p q)
      + broadcastTo S1000x8 (shapeCast S1x8 v86 shapeCasts_S1x8_S1x8) broadcasts_S1x8_S1000x8 (ix2 p q) = _
  rw [broadcastTo_1b_ab_apply]
  refine congrArg₂ (fun a b : EReal => a + b) ?_ (by rw [shapeCast_self])
  refine (PlainMatmul.matmul_zero_apply _ none _ _ p q).trans ?_
  refine Finset.sum_congr rfl fun k _ => ?_
  rw [shapeCast_self]; rfl

end Cert.KernelIdeal.HandV

end
-- ==== Proof.GnnSpec.lean ====
/-
  The elementwise mathematics of the fused step on ONE node's row, over the extended reals: the GRU cell's new state from
  its six gate pre-activations and the zero-padded features; the LSTM step's new cell and hidden states from its four gate
  pre-activations and the previous cell state; the rectified linear head. The pre-activations are parameters: the
  kernel computes them against gate-padded parameter matrices, the reference against the original ones, and these
  functions are what both then apply to them.
-/
import Idealize.ShloMosaic.PureOps.Ideal

noncomputable section

namespace Cert.GnnSpec

open Idealize.ShloMosaic

/-- The GRU cell's new state from the six pre-activations at one coordinate: `(1 − z)·n + z·x` with `r = σ(i_r + h_r)`,
    `z = σ(i_z + h_z)`, `n = tanh(i_n + r·h_n)`. -/
def convhE (one ir iz inn hr hz hn xp : EReal) : EReal :=
  (one - Ideal.logistic (iz + hz)) * Ideal.tanh (inn + Ideal.logistic (ir + hr) * hn) + Ideal.logistic (iz + hz) * xp

/-- The same by gate: gates 0, 1, 2 are r, z, n. -/
def convh (one : EReal) (gi gh : Fin 3 → Fin 100 → EReal) (xp : Fin 100 → EReal) (j : Fin 100) : EReal :=
  convhE one (gi 0 j) (gi 1 j) (gi 2 j) (gh 0 j) (gh 1 j) (gh 2 j) (xp j)

/-- The LSTM step's new cell state: `σ(f)·c₀ + σ(i)·tanh(g)`. -/
def c1E (gi gf gg c0 : EReal) : EReal := Ideal.logistic gf * c0 + Ideal.logistic gi * Ideal.tanh gg

/-- The same by gate: gates 0, 1, 2, 3 are i, f, g, o. -/
def c1 (gt : Fin 4 → Fin 64 → EReal) (c0 : Fin 64 → EReal) (j : Fin 64) : EReal := c1E (gt 0 j) (gt 1 j) (gt 2 j) (c0 j)

/-- The new hidden state: `σ(o)·tanh(c₁)`. -/
def h1E (go c1v : EReal) : EReal := Ideal.logistic go * Ideal.tanh c1v
def h1 (gt : Fin 4 → Fin 64 → EReal) (c0 : Fin 64 → EReal) (j : Fin 64) : EReal := h1E (gt 3 j) (c1 gt c0 j)

/-- The head: the rectified hidden state times the head's matrix, plus its bias. -/
def out (zero : EReal) (h : Fin 64 → EReal) (Lw : Fin 64 → Fin 8 → EReal) (lb : Fin 8 → EReal) (q : Fin 8) : EReal :=
  (∑ k : Fin 64, max (h k) zero * Lw k q) + lb q

/-- A pre-activation: a row times a column of a parameter matrix, plus a bias. -/
def pre {K : Nat} (a : Fin K → EReal) (W : Fin K → EReal) (b : EReal) : EReal := (∑ k : Fin K, a k * W k) + b

end Cert.GnnSpec

end
-- ==== Proof.KIRows.lean ====
/-
  The fused kernel's three stored values at row `p` of a grid point's blocks, as the row mathematics of the fused step
  applied to the kernel's gate pre-activations: those read the gate-padded parameter blocks at the lane-tile offsets
  0, 128, 256 (, 384).
-/
import proofs.«173484_j54443005444660_2_alg».proof.Proof.KIVal1
import proofs.«173484_j54443005444660_2_alg».proof.Proof.KIPay
import proofs.«173484_j54443005444660_2_alg».proof.Proof.GnnSpec

set_option maxRecDepth 16384

noncomputable section

namespace Cert.KernelIdeal.HandV

open Cert.KernelIdeal Cert.KernelIdeal.Gen Cert.GnnSpec
open Idealize.ShloMosaic Idealize.ShloMosaic.TcCoe Idealize.ShloMosaic.ValueIdx

section
variable (x0 : Vec Ideal S1000x64 .f32) (x1 : Vec Ideal S1000x100 .f32) (x2 x3 : Vec Ideal S1000x64 .f32)
  (x4 x5 : Vec Ideal S100x384 .f32) (x6 x7 : Vec Ideal S1x384 .f32) (x8 : Vec Ideal S100x512 .f32) (x9 : Vec Ideal S64x512 .f32)
  (x10 x11 : Vec Ideal S1x512 .f32) (x12 : Vec Ideal S64x8 .f32) (x13 : Vec Ideal S1x8 .f32) (p : Fin 1000)

/-- A column inside gate `g`'s lane tile. -/
abbrev col384 (o : Nat) (ho : o + 100 ≤ 384) (k : Fin 100) : Fin 384 := ⟨o + k.val, by have := k.isLt; omega⟩
abbrev col512 (o : Nat) (ho : o + 64 ≤ 512) (j : Fin 64) : Fin 512 := ⟨o + j.val, by have := j.isLt; omega⟩

/-- The kernel's GRU pre-activations at row `p`, by gate. -/
abbrev giK : Fin 3 → Fin 100 → EReal :=
  ![fun k => k1_pay5 x1 x4 x6 (ix2 p (col384 0 (by decide) k)), fun k => k1_pay5 x1 x4 x6 (ix2 p (col384 128 (by decide) k)),
    fun k => k1_pay5 x1 x4 x6 (ix2 p (col384 256 (by decide) k))]
abbrev ghK : Fin 3 → Fin 100 → EReal :=
  ![fun k => k1_pay6 x0 x5 x7 (ix2 p (col384 0 (by decide) k)), fun k => k1_pay6 x0 x5 x7 (ix2 p (col384 128 (by decide) k)),
    fun k => k1_pay6 x0 x5 x7 (ix2 p (col384 256 (by decide) k))]
/-- The zero-padded features at row `p`. -/
abbrev xpK : Fin 100 → EReal := fun k => k1_pay4 x0 (ix2 p k)

/-- The GRU's new state at row `p`. -/
abbrev chK : Fin 100 → EReal := convh oneE (giK x1 x4 x6 p) (ghK x0 x5 x7 p) (xpK x0 p)

/-- The kernel's LSTM pre-activation at row `p`, column `c` of the padded layout. -/
def gtKc (c : Fin 512) : EReal :=
  ((∑ k : Fin 100, chK x0 x1 x4 x5 x6 x7 p k * x8 (ix2 k c)) + x10 (ix2 (0 : Fin 1) c))
    + ((∑ k : Fin 64, x2 (ix2 p k) * x9 (ix2 k c)) + x11 (ix2 (0 : Fin 1) c))
/-- By gate. -/
abbrev gtK : Fin 4 → Fin 64 → EReal :=
  ![fun j => gtKc x0 x1 x2 x4 x5 x6 x7 x8 x9 x10 x11 p (col512 0 (by decide) j), fun j => gtKc x0 x1 x2 x4 x5 x6 x7 x8 x9 x10 x11 p (col512 128 (by decide) j),
    fun j => gtKc x0 x1 x2 x4 x5 x6 x7 x8 x9 x10 x11 p (col512 256 (by decide) j), fun j => gtKc x0 x1 x2 x4 x5 x6 x7 x8 x9 x10 x11 p (col512 384 (by decide) j)]

theorem pay9_row (c : Fin 512) :
    k1_pay9 (k1_pay2 x2) (k1_pay4 x0) (k1_pay7 x0 x1 x4 x6 x5 x7) (k1_pay8 x0 x1 x4 x6 x5 x7) x8 x10 x9 x11 (ix2 p c)
      = gtKc x0 x1 x2 x4 x5 x6 x7 x8 x9 x10 x11 p c := by
  rw [pay9_apply, pay2_apply]
  unfold gtKc
  refine congrArg₂ (fun a b : EReal => a + b) (congrArg₂ (fun a b : EReal => a + b) ?_ rfl) rfl
  refine Finset.sum_congr rfl fun k _ => ?_
  refine congrArg (fun z : EReal => z * x8 (ix2 k c)) ?_
  rw [pay7_apply, pay8_apply]
  rfl

/-- The new cell state at row `p`. -/
theorem B15_row (j : Fin 64) :
    B15 x0 x1 x2 x3 x4 x5 x6 x7 x8 x9 x10 x11 (ix2 p j) = c1 (gtK x0 x1 x2 x4 x5 x6 x7 x8 x9 x10 x11 p) (fun j => x3 (ix2 p j)) j := by
  unfold B15
  rw [pay10_apply, pay9_row, pay9_row, pay9_row, pay3_apply]
  rfl

/-- The new hidden state at row `p`. -/
theorem B14_row (j : Fin 64) :
    B14 x0 x1 x2 x3 x4 x5 x6 x7 x8 x9 x10 x11 (ix2 p j) = h1 (gtK x0 x1 x2 x4 x5 x6 x7 x8 x9 x10 x11 p) (fun j => x3 (ix2 p j)) j := by
  unfold B14
  rw [pay11_apply, pay9_row]
  have e := B15_row x0 x1 x2 x3 x4 x5 x6 x7 x8 x9 x10 x11 p j
  unfold B15 at e
  rw [e]
  rfl

/-- The head's output at row `p`. -/
theorem B16_row (q : Fin 8) :
    B16 x0 x1 x2 x3 x4 x5 x6 x7 x8 x9 x10 x11 x12 x13 (ix2 p q)
      = out zeroE (h1 (gtK x0 x1 x2 x4 x5 x6 x7 x8 x9 x10 x11 p) (fun j => x3 (ix2 p j))) (fun k q => x12 (ix2 k q)) (fun q => x13 (ix2 (0 : Fin 1) q)) q := by
  unfold B16
  rw [pay1_apply]
  unfold out
  refine congrArg₂ (fun a b : EReal => a + b) ?_ rfl
  refine Finset.sum_congr rfl fun k _ => ?_
  refine congrArg (fun z : EReal => z * x12 (ix2 k q)) ?_
  rw [pay12_apply]
  have e := B14_row x0 x1 x2 x3 x4 x5 x6 x7 x8 x9 x10 x11 p k
  unfold B14 at e
  rw [e]

end

end Cert.KernelIdeal.HandV

end
-- ==== Proof.LibPadCat.lean ====
/-
  Column layouts read at an index: a matrix padded on the right of its columns, and three or four matrices of one shape
  set side by side. Reading the padded matrix inside the original columns gives the operand's element; reading the
  concatenation at column `T·g + j` gives piece `g` at column `j`. Together with a column slice and a transpose (the
  library's) these read a gate-major weight matrix whose gates were each padded to their own lane tile.
-/
import Idealize.ShloMosaic.Lib.Pipeline.Value
import Idealize.ShloMosaic.Lib.ValueLayout
import Idealize.ShloMosaic.Lib.ValueIdx

open Idealize.ShloMosaic Idealize.ShloMosaic.ValueIdx

namespace Idealize.ShloMosaic.PadCat

variable {α : Type}

/-- A matrix padded on the right of its columns (no low padding, no interior padding) reads, inside the original
    columns, the operand. -/
theorem pad_cols_apply {R Cw T P : Nat} {u : Shape} (X : (⟨2, ![R, Cw]⟩ : Shape).Idx → α) (v : u.Idx → α)
    (h : (⟨2, ![R, Cw]⟩ : Shape).Pads ![0, 0] ![0, P] ![0, 0] ⟨2, ![R, T]⟩) (hu : 0 < u.numel)
    (k : Fin R) (j : Fin Cw) (j' : Fin T) (hj : j'.val = j.val) :
    pad ⟨2, ![R, T]⟩ ![0, 0] ![0, P] ![0, 0] X v h hu (ix2 k j') = X (ix2 k j) := by
  unfold pad
  have hk : k.val < R := k.isLt
  have hjl : j.val < Cw := j.isLt
  split
  · refine congrArg X (funext fun a => Fin.ext ?_)
    match a with
    | ⟨0, _⟩ => show (k.val - 0) / (0 + 1) = k.val; omega
    | ⟨1, _⟩ => show (j'.val - 0) / (0 + 1) = j.val; omega
  · rename_i hnot
    exfalso; apply hnot
    intro a
    match a with
    | ⟨0, _⟩ => show 0 ≤ k.val ∧ (k.val - 0) % (0 + 1) = 0 ∧ (k.val - 0) / (0 + 1) < R; omega
    | ⟨1, _⟩ => show 0 ≤ j'.val ∧ (j'.val - 0) % (0 + 1) = 0 ∧ (j'.val - 0) / (0 + 1) < Cw; omega

/-- The same padded matrix reads the padding value in the added columns. -/
theorem pad_cols_apply_hi {R Cw T P : Nat} {u : Shape} (X : (⟨2, ![R, Cw]⟩ : Shape).Idx → α) (v : u.Idx → α)
    (h : (⟨2, ![R, Cw]⟩ : Shape).Pads ![0, 0] ![0, P] ![0, 0] ⟨2, ![R, T]⟩) (hu : 0 < u.numel)
    (k : Fin R) (j' : Fin T) (hj : Cw ≤ j'.val) :
    pad ⟨2, ![R, T]⟩ ![0, 0] ![0, P] ![0, 0] X v h hu (ix2 k j') = v (Shape.Idx.first hu) := by
  unfold pad
  split
  · rename_i hin
    exfalso
    have h1 : (j'.val - 0) / (0 + 1) < Cw := (hin 1).2.2
    omega
  · rfl

/-- A sum over `n + p` coordinates whose last `p` terms vanish is the sum over the first `n`. -/
theorem sum_pad_zero {M : Type*} [AddCommMonoid M] {n p : Nat} (f : Fin (n + p) → M) (h : ∀ k : Fin p, f (Fin.natAdd n k) = 0) :
    ∑ k : Fin (n + p), f k = ∑ k : Fin n, f (Fin.castAdd p k) := by
  rw [Fin.sum_univ_add, Finset.sum_eq_zero (fun k _ => h k), add_zero]

/-- 3 matrices side by side, read in piece 0. -/
theorem cat3_0 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 0 + j.val) :
    concatenate ⟨2, ![R, TT]⟩ 1 [⟨⟨2, ![R, T]⟩, x0⟩, ⟨⟨2, ![R, T]⟩, x1⟩, ⟨⟨2, ![R, T]⟩, x2⟩] h (ix2 k j') = x0 (ix2 k j) := by
  refine concatenate_apply_piece (1 : Fin 2) _ h (ix2 k j') 0 (by simp) ⟨2, ![R, T]⟩ x0 rfl rfl (T * 0) ?_ (ix2 k j) ?_ ?_
  · simp; try omega
  · intro b hb
    match b with
    | ⟨0, _⟩ => rfl
    | ⟨1, _⟩ => exact absurd rfl hb
  · show T * 0 + j.val = j'.val
    omega

/-- 3 matrices side by side, read in piece 1. -/
theorem cat3_1 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 1 + j.val) :
    concatenate ⟨2, ![R, TT]⟩ 1 [⟨⟨2, ![R, T]⟩, x0⟩, ⟨⟨2, ![R, T]⟩, x1⟩, ⟨⟨2, ![R, T]⟩, x2⟩] h (ix2 k j') = x1 (ix2 k j) := by
  refine concatenate_apply_piece (1 : Fin 2) _ h (ix2 k j') 1 (by simp) ⟨2, ![R, T]⟩ x1 rfl rfl (T * 1) ?_ (ix2 k j) ?_ ?_
  · simp; try omega
  · intro b hb
    match b with
    | ⟨0, _⟩ => rfl
    | ⟨1, _⟩ => exact absurd rfl hb
  · show T * 1 + j.val = j'.val
    omega

/-- 3 matrices side by side, read in piece 2. -/
theorem cat3_2 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 2 + j.val) :
    concatenate ⟨2, ![R, TT]⟩ 1 [⟨⟨2, ![R, T]⟩, x0⟩, ⟨⟨2, ![R, T]⟩, x1⟩, ⟨⟨2, ![R, T]⟩, x2⟩] h (ix2 k j') = x2 (ix2 k j) := by
  refine concatenate_apply_piece (1 : Fin 2) _ h (ix2 k j') 2 (by simp) ⟨2, ![R, T]⟩ x2 rfl rfl (T * 2) ?_ (ix2 k j) ?_ ?_
  · simp; try omega
  · intro b hb
    match b with
    | ⟨0, _⟩ => rfl
    | ⟨1, _⟩ => exact absurd rfl hb
  · show T * 2 + j.val = j'.val
    omega

/-- 4 matrices side by side, read in piece 0. -/
theorem cat4_0 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 0 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x0 (ix2 k j) := by
  refine concatenate_apply_piece (1 : Fin 2) _ h (ix2 k j') 0 (by simp) ⟨2, ![R, T]⟩ x0 rfl rfl (T * 0) ?_ (ix2 k j) ?_ ?_
  · simp; try omega
  · intro b hb
    match b with
    | ⟨0, _⟩ => rfl
    | ⟨1, _⟩ => exact absurd rfl hb
  · show T * 0 + j.val = j'.val
    omega

/-- 4 matrices side by side, read in piece 1. -/
theorem cat4_1 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 1 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x1 (ix2 k j) := by
  refine concatenate_apply_piece (1 : Fin 2) _ h (ix2 k j') 1 (by simp) ⟨2, ![R, T]⟩ x1 rfl rfl (T * 1) ?_ (ix2 k j) ?_ ?_
  · simp; try omega
  · intro b hb
    match b with
    | ⟨0, _⟩ => rfl
    | ⟨1, _⟩ => exact absurd rfl hb
  · show T * 1 + j.val = j'.val
    omega

/-- 4 matrices side by side, read in piece 2. -/
theorem cat4_2 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 2 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x2 (ix2 k j) := by
  refine concatenate_apply_piece (1 : Fin 2) _ h (ix2 k j') 2 (by simp) ⟨2, ![R, T]⟩ x2 rfl rfl (T * 2) ?_ (ix2 k j) ?_ ?_
  · simp; try omega
  · intro b hb
    match b with
    | ⟨0, _⟩ => rfl
    | ⟨1, _⟩ => exact absurd rfl hb
  · show T * 2 + j.val = j'.val
    omega

/-- 4 matrices side by side, read in piece 3. -/
theorem cat4_3 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 3 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x3 (ix2 k j) := by
  refine concatenate_apply_piece (1 : Fin 2) _ h (ix2 k j') 3 (by simp) ⟨2, ![R, T]⟩ x3 rfl rfl (T * 3) ?_ (ix2 k j) ?_ ?_
  · simp; try omega
  · intro b hb
    match b with
    | ⟨0, _⟩ => rfl
    | ⟨1, _⟩ => exact absurd rfl hb
  · show T * 3 + j.val = j'.val
    omega

end Idealize.ShloMosaic.PadCat
-- ==== Proof.RefRows.lean ====
/-
  The reference's stages read on ONE node's row, at the exact (extended-real) instance: the gate pre-activations as a row
  times a column of the ORIGINAL parameter matrix plus a bias entry (each gate a slice at its offset 100·g or 64·g of one
  wide product), the zero-padded features, and the GRU, LSTM and head stages as the row mathematics of the fused step
  applied to those pre-activations.
-/
import proofs.«173484_j54443005444660_2_alg».proof.Proof.Gen.ReferenceIdeal.Read
import proofs.«173484_j54443005444660_2_alg».proof.Proof.GnnSpec
import proofs.«173484_j54443005444660_2_alg».proof.Proof.LibPadCat
import Idealize.ShloMosaic.Lib.ValueIdx

set_option maxRecDepth 16384
set_option maxHeartbeats 1000000

noncomputable section

namespace Cert.ReferenceIdeal.RefRows

open Cert.ReferenceIdeal Cert.ReferenceIdeal.Gen Cert.ReferenceIdeal.Read Cert.GnnSpec
open Idealize.ShloMosaic Idealize.ShloMosaic.TcCoe Idealize.ShloMosaic.ValueIdx

/-- The float constants the reference spells: `1.0` denotes 1 and `0.0` denotes 0. -/
theorem ofBits_one : Ideal.ofBits .f32 0x3F800000#32 = 1 := by
  simp [Ideal.ofBits, Ideal.ieee, -EReal.coe_mul]; norm_num
theorem ofBits_zero : Ideal.ofBits .f32 0x00000000#32 = 0 := by
  simp [Ideal.ofBits, Ideal.ieee]

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 x4 : (⟨S1x50000x64, .f32⟩ : BufTy).Contents (Elt Ideal))
  (x5 : (⟨S1x100x100, .f32⟩ : BufTy).Contents (Elt Ideal)) (x6 x7 : (⟨S300x100, .f32⟩ : BufTy).Contents (Elt Ideal))
  (x8 x9 : (⟨S300, .f32⟩ : BufTy).Contents (Elt Ideal)) (x10 : (⟨S256x100, .f32⟩ : BufTy).Contents (Elt Ideal))
  (x11 : (⟨S256x64, .f32⟩ : BufTy).Contents (Elt Ideal)) (x12 x13 : (⟨S256, .f32⟩ : BufTy).Contents (Elt Ideal))
  (x14 : (⟨S8x64, .f32⟩ : BufTy).Contents (Elt Ideal)) (x15 : (⟨S8, .f32⟩ : BufTy).Contents (Elt Ideal))
  (r : Fin 50000)

/-! ## The zero-padded features, and the projection -/

theorem xp_ref_lo (k : Fin 100) (h : k.val < 64) : val_main_v4 (F := Ideal) x0 (ix2 r k) = x0 (ix2 r (⟨k.val, h⟩ : Fin 64)) := by
  unfold val_main_v4
  exact PadCat.pad_cols_apply _ _ _ _ r (⟨k.val, h⟩ : Fin 64) k rfl
theorem xp_ref_hi (k : Fin 100) (h : ¬ k.val < 64) : val_main_v4 (F := Ideal) x0 (ix2 r k) = 0 := by
  unfold val_main_v4
  rw [PadCat.pad_cols_apply_hi _ _ _ _ r k (by omega)]
  show ((((0#32 : BitVec 32).toInt : ℤ) : ℝ) : EReal) = 0
  simp

/-- The projection at row `r`: the padded coordinates contribute nothing. -/
theorem m_ref (j : Fin 100) :
    val_main_v6 (F := Ideal) x0 x5 (ix2 r j) = ∑ k : Fin 64, x0 (ix2 r k) * x5 (ix3 (0 : Fin 1) (⟨k.val, by have := k.isLt; omega⟩ : Fin 100) j) := by
  rw [val_main_v6_apply]
  refine (PadCat.sum_pad_zero (n := 64) (p := 36) (fun k : Fin (64 + 36) => val_main_v4 (F := Ideal) x0 (lidx_main_v6 (ix2 r j) k) * val_main_v5 (F := Ideal) x5 (ridx_main_v6 (ix2 r j) k)) (fun k => ?_)).trans
    (Finset.sum_congr rfl fun k _ => ?_)
  · have e : val_main_v4 (F := Ideal) x0 (lidx_main_v6 (ix2 r j) (Fin.natAdd 64 k)) = 0 := by
      have := xp_ref_hi x0 r (Fin.natAdd 64 k) (by show ¬ (64 + k.val < 64); omega)
      refine Eq.trans (congrArg (val_main_v4 (F := Ideal) x0) (funext fun a => Fin.ext (by match a with | ⟨0, _⟩ => exact (by first | rfl | omega) | ⟨1, _⟩ => exact (by first | rfl | omega)))) this
    rw [e, zero_mul]
  · have hk : k.val < 64 := k.isLt
    have e : val_main_v4 (F := Ideal) x0 (lidx_main_v6 (ix2 r j) (Fin.castAdd 36 k)) = x0 (ix2 r k) := by
      have := xp_ref_lo x0 r (Fin.castAdd 36 k) (by show k.val < 64; omega)
      refine Eq.trans (congrArg (val_main_v4 (F := Ideal) x0) (funext fun a => Fin.ext (by match a with | ⟨0, _⟩ => exact (by first | rfl | omega) | ⟨1, _⟩ => exact (by first | rfl | omega)))) (this.trans ?_)
      rfl
    rw [e, val_main_v5_apply]
    refine congrArg (fun z : EReal => x0 (ix2 r k) * z) (congrArg x5 (funext fun a => Fin.ext ?_))
    have hj : j.val < 100 := j.isLt
    match a with
    | ⟨0, _⟩ => show _ = 0; simp [idx_main_v5]
    | ⟨1, _⟩ => show (k.val * 100 + j.val) / 100 % 100 = k.val; omega
    | ⟨2, _⟩ => show (k.val * 100 + j.val) % 100 = j.val; omega

/-! ## The GRU's pre-activations, gate by gate -/

theorem gi_0 (k : Fin 100) :
    val_main_v39 (F := Ideal) x0 x1 x2 x5 x6 x8 (ix2 r k) = pre (fun k' : Fin 100 => val_main_v28 (F := Ideal) x0 x1 x2 x5 (ix2 r k')) (fun k' : Fin 100 => x6 (ix2 (⟨k.val, by have := k.isLt; omega⟩ : Fin 300) k')) (x8 (ix1 (⟨k.val, by have := k.isLt; omega⟩ : Fin 300))) := by
  rw [val_main_v39_apply, val_main_v33_apply, val_main_v30_apply, val_main_v32_apply, val_main_v31_apply]
  unfold pre
  refine congrArg₂ (fun a b : EReal => a + b) (Finset.sum_congr rfl fun k' _ => ?_) ?_
  · rw [val_main_v29_apply]
    exact congrArg₂ (fun a b : EReal => a * b) (congrArg (val_main_v28 (F := Ideal) x0 x1 x2 x5) (funext fun a => Fin.ext (by match a with | ⟨0, _⟩ => exact (by first | rfl | omega) | ⟨1, _⟩ => exact (by first | rfl | omega)))) (congrArg x6 (funext fun a => Fin.ext (by match a with | ⟨0, _⟩ => exact (by first | rfl | omega) | ⟨1, _⟩ => exact (by first | rfl | omega))))
  · exact congrArg x8 (funext fun a => Fin.ext (by match a with | ⟨0, _⟩ => exact (by first | rfl | omega)))
theorem gh_0 (k : Fin 100) :
    val_main_v42 (F := Ideal) x0 x7 x9 (ix2 r k) = pre (fun k' : Fin 100 => val_main_v4 (F := Ideal) x0 (ix2 r k')) (fun k' : Fin 100 => x7 (ix2 (⟨k.val, by have := k.isLt; omega⟩ : Fin 300) k')) (x9 (ix1 (⟨k.val, by have := k.isLt; omega⟩ : Fin 300))) := by
  rw [val_main_v42_apply, val_main_v38_apply, val_main_v35_apply, val_main_v37_apply, val_main_v36_apply]
  unfold pre
  refine congrArg₂ (fun a b : EReal => a + b) (Finset.sum_congr rfl fun k' _ => ?_) ?_
  · rw [val_main_v34_apply]
    exact congrArg₂ (fun a b : EReal => a * b) (congrArg (val_main_v4 (F := Ideal) x0) (funext fun a => Fin.ext (by match a with | ⟨0, _⟩ => exact (by first | rfl | omega) | ⟨1, _⟩ => exact (by first | rfl | omega)))) (congrArg x7 (funext fun a => Fin.ext (by match a with | ⟨0, _⟩ => exact (by first | rfl | omega) | ⟨1, _⟩ => exact (by first | rfl | omega))))
  · exact congrArg x9 (funext fun a => Fin.ext (by match a with | ⟨0, _⟩ => exact (by first | rfl | omega)))
theorem gi_1 (k : Fin 100) :
    val_main_v40 (F := Ideal) x0 x1 x2 x5 x6 x8 (ix2 r k) = pre (fun k' : Fin 100 => val_main_v28 (F := Ideal) x0 x1 x2 x5 (ix2 r k')) (fun k' : Fin 100 => x6 (ix2 (⟨100 + k.val, by have := k.isLt; omega⟩ : Fin 300) k')) (x8 (ix1 (⟨100 + k.val, by have := k.isLt; omega⟩ : Fin 300))) := by
  rw [val_main_v40_apply, val_main_v33_apply, val_main_v30_apply, val_main_v32_apply, val_main_v31_apply]
  unfold pre
  refine congrArg₂ (fun a b : EReal => a + b) (Finset.sum_congr rfl fun k' _ => ?_) ?_
  · rw [val_main_v29_apply]
    exact congrArg₂ (fun a b : EReal => a * b) (congrArg (val_main_v28 (F := Ideal) x0 x1 x2 x5) (funext fun a => Fin.ext (by match a with | ⟨0, _⟩ => exact (by first | rfl | omega) | ⟨1, _⟩ => exact (by first | rfl | omega)))) (congrArg x6 (funext fun a => Fin.ext (by match a with | ⟨0, _⟩ => exact (by first | rfl | omega) | ⟨1, _⟩ => exact (by first | rfl | omega))))
  · exact congrArg x8 (funext fun a => Fin.ext (by match a with | ⟨0, _⟩ => exact (by first | rfl | omega)))
theorem gh_1 (k : Fin 100) :
    val_main_v43 (F := Ideal) x0 x7 x9 (ix2 r k) = pre (fun k' : Fin 100 => val_main_v4 (F := Ideal) x0 (ix2 r k')) (fun k' : Fin 100 => x7 (ix2 (⟨100 + k.val, by have := k.isLt; omega⟩ : Fin 300) k')) (x9 (ix1 (⟨100 + k.val, by have := k.isLt; omega⟩ : Fin 300))) := by
  rw [val_main_v43_apply, val_main_v38_apply, val_main_v35_apply, val_main_v37_apply, val_main_v36_apply]
  unfold pre
  refine congrArg₂ (fun a b : EReal => a + b) (Finset.sum_congr rfl fun k' _ => ?_) ?_
  · rw [val_main_v34_apply]
    exact congrArg₂ (fun a b : EReal => a * b) (congrArg (val_main_v4 (F := Ideal) x0) (funext fun a => Fin.ext (by match a with | ⟨0, _⟩ => exact (by first | rfl | omega) | ⟨1, _⟩ => exact (by first | rfl | omega)))) (congrArg x7 (funext fun a => Fin.ext (by match a with | ⟨0, _⟩ => exact (by first | rfl | omega) | ⟨1, _⟩ => exact (by first | rfl | omega))))
  · exact congrArg x9 (funext fun a => Fin.ext (by match a with | ⟨0, _⟩ => exact (by first | rfl | omega)))
theorem gi_2 (k : Fin 100) :
    val_main_v41 (F := Ideal) x0 x1 x2 x5 x6 x8 (ix2 r k) = pre (fun k' : Fin 100 => val_main_v28 (F := Ideal) x0 x1 x2 x5 (ix2 r k')) (fun k' : Fin 100 => x6 (ix2 (⟨200 + k.val, by have := k.isLt; omega⟩ : Fin 300) k')) (x8 (ix1 (⟨200 + k.val, by have := k.isLt; omega⟩ : Fin 300))) := by
  rw [val_main_v41_apply, val_main_v33_apply, val_main_v30_apply, val_main_v32_apply, val_main_v31_apply]
  unfold pre
  refine congrArg₂ (fun a b : EReal => a + b) (Finset.sum_congr rfl fun k' _ => ?_) ?_
  · rw [val_main_v29_apply]
    exact congrArg₂ (fun a b : EReal => a * b) (congrArg (val_main_v28 (F := Ideal) x0 x1 x2 x5) (funext fun a => Fin.ext (by match a with | ⟨0, _⟩ => exact (by first | rfl | omega) | ⟨1, _⟩ => exact (by first | rfl | omega)))) (congrArg x6 (funext fun a => Fin.ext (by match a with | ⟨0, _⟩ => exact (by first | rfl | omega) | ⟨1, _⟩ => exact (by first | rfl | omega))))
  · exact congrArg x8 (funext fun a => Fin.ext (by match a with | ⟨0, _⟩ => exact (by first | rfl | omega)))
theorem gh_2 (k : Fin 100) :
    val_main_v44 (F := Ideal) x0 x7 x9 (ix2 r k) = pre (fun k' : Fin 100 => val_main_v4 (F := Ideal) x0 (ix2 r k')) (fun k' : Fin 100 => x7 (ix2 (⟨200 + k.val, by have := k.isLt; omega⟩ : Fin 300) k')) (x9 (ix1 (⟨200 + k.val, by have := k.isLt; omega⟩ : Fin 300))) := by
  rw [val_main_v44_apply, val_main_v38_apply, val_main_v35_apply, val_main_v37_apply, val_main_v36_apply]
  unfold pre
  refine congrArg₂ (fun a b : EReal => a + b) (Finset.sum_congr rfl fun k' _ => ?_) ?_
  · rw [val_main_v34_apply]
    exact congrArg₂ (fun a b : EReal => a * b) (congrArg (val_main_v4 (F := Ideal) x0) (funext fun a => Fin.ext (by match a with | ⟨0, _⟩ => exact (by first | rfl | omega) | ⟨1, _⟩ => exact (by first | rfl | omega)))) (congrArg x7 (funext fun a => Fin.ext (by match a with | ⟨0, _⟩ => exact (by first | rfl | omega) | ⟨1, _⟩ => exact (by first | rfl | omega))))
  · exact congrArg x9 (funext fun a => Fin.ext (by match a with | ⟨0, _⟩ => exact (by first | rfl | omega)))

/-- The GRU's new state at row `r`, from the six gate slices and the padded features there. -/
theorem convh_ref (k : Fin 100) :
    val_main_v66 (F := Ideal) x0 x1 x2 x5 x6 x7 x8 x9 (ix2 r k) = convhE 1 (val_main_v39 (F := Ideal) x0 x1 x2 x5 x6 x8 (ix2 r k)) (val_main_v40 (F := Ideal) x0 x1 x2 x5 x6 x8 (ix2 r k)) (val_main_v41 (F := Ideal) x0 x1 x2 x5 x6 x8 (ix2 r k))
      (val_main_v42 (F := Ideal) x0 x7 x9 (ix2 r k)) (val_main_v43 (F := Ideal) x0 x7 x9 (ix2 r k)) (val_main_v44 (F := Ideal) x0 x7 x9 (ix2 r k)) (val_main_v4 (F := Ideal) x0 (ix2 r k)) := by
  rw [val_main_v66_apply, val_main_v64_apply, val_main_v65_apply, val_main_v63_apply, val_main_v62_apply, val_main_cst_9_apply,
    val_main_v61_apply, val_main_v60_apply, val_main_v59_apply, val_main_v58_apply, val_main_v57_apply, val_main_cst_8_apply,
    val_main_v56_apply, val_main_v55_apply, val_main_cst_7_apply, val_main_v54_apply, val_main_v53_apply, val_main_v52_apply,
    val_main_v51_apply, val_main_v50_apply, val_main_cst_6_apply, val_main_v49_apply, val_main_v48_apply, val_main_cst_5_apply,
    val_main_v47_apply, val_main_v46_apply, val_main_v45_apply]
  rw [Ideal.ofBits_def, ofBits_one]
  generalize val_main_v39 (F := Ideal) x0 x1 x2 x5 x6 x8 (ix2 r k) = a0
  generalize val_main_v40 (F := Ideal) x0 x1 x2 x5 x6 x8 (ix2 r k) = a1
  generalize val_main_v41 (F := Ideal) x0 x1 x2 x5 x6 x8 (ix2 r k) = a2
  generalize val_main_v42 (F := Ideal) x0 x7 x9 (ix2 r k) = b0
  generalize val_main_v43 (F := Ideal) x0 x7 x9 (ix2 r k) = b1
  generalize val_main_v44 (F := Ideal) x0 x7 x9 (ix2 r k) = b2
  generalize val_main_v4 (F := Ideal) x0 (ix2 r k) = xp
  rfl

/-! ## The LSTM's pre-activations, gate by gate -/

theorem gt_0 (j : Fin 64) :
    val_main_v79 (F := Ideal) x0 x1 x2 x3 x5 x6 x7 x8 x9 x10 x11 x12 x13 (ix2 r j)
      = ((pre (fun k : Fin 100 => val_main_v66 (F := Ideal) x0 x1 x2 x5 x6 x7 x8 x9 (ix2 r k)) (fun k : Fin 100 => x10 (ix2 (⟨j.val, by have := j.isLt; omega⟩ : Fin 256) k)) (x12 (ix1 (⟨j.val, by have := j.isLt; omega⟩ : Fin 256))))
          + (∑ k : Fin 64, x3 (ix3 (0 : Fin 1) r k) * x11 (ix2 (⟨j.val, by have := j.isLt; omega⟩ : Fin 256) k))) + x13 (ix1 (⟨j.val, by have := j.isLt; omega⟩ : Fin 256)) := by
  rw [val_main_v79_apply, val_main_v78_apply, val_main_v75_apply, val_main_v71_apply, val_main_v68_apply, val_main_v70_apply,
    val_main_v69_apply, val_main_v74_apply, val_main_v77_apply, val_main_v76_apply]
  unfold pre
  have hr : r.val < 50000 := r.isLt
  refine congrArg₂ (fun a b : EReal => a + b) (congrArg₂ (fun a b : EReal => a + b) (congrArg₂ (fun a b : EReal => a + b)
    (Finset.sum_congr rfl fun k _ => ?_) ?_) (Finset.sum_congr rfl fun k _ => ?_)) ?_
  · rw [val_main_v67_apply]
    exact congrArg₂ (fun a b : EReal => a * b) (congrArg (val_main_v66 (F := Ideal) x0 x1 x2 x5 x6 x7 x8 x9) (funext fun a => Fin.ext (by match a with | ⟨0, _⟩ => exact (by first | rfl | omega) | ⟨1, _⟩ => exact (by first | rfl | omega)))) (congrArg x10 (funext fun a => Fin.ext (by match a with | ⟨0, _⟩ => exact (by first | rfl | omega) | ⟨1, _⟩ => exact (by first | rfl | omega))))
  · exact congrArg x12 (funext fun a => Fin.ext (by match a with | ⟨0, _⟩ => exact (by first | rfl | omega)))
  · rw [val_main_v72_apply, val_main_v73_apply]
    have hk : k.val < 64 := k.isLt
    refine congrArg₂ (fun a b : EReal => a * b) (congrArg x3 (funext fun a => Fin.ext ?_)) (congrArg x11 (funext fun a => Fin.ext (by match a with | ⟨0, _⟩ => exact (by first | rfl | omega) | ⟨1, _⟩ => exact (by first | rfl | omega))))
    match a with
    | ⟨0, _⟩ => rfl
    | ⟨1, _⟩ => show (r.val * 64 + k.val) / 64 % 50000 = r.val; omega
    | ⟨2, _⟩ => show (r.val * 64 + k.val) % 64 = k.val; omega
  · exact congrArg x13 (funext fun a => Fin.ext (by match a with | ⟨0, _⟩ => exact (by first | rfl | omega)))
theorem gt_1 (j : Fin 64) :
    val_main_v80 (F := Ideal) x0 x1 x2 x3 x5 x6 x7 x8 x9 x10 x11 x12 x13 (ix2 r j)
      = ((pre (fun k : Fin 100 => val_main_v66 (F := Ideal) x0 x1 x2 x5 x6 x7 x8 x9 (ix2 r k)) (fun k : Fin 100 => x10 (ix2 (⟨64 + j.val, by have := j.isLt; omega⟩ : Fin 256) k)) (x12 (ix1 (⟨64 + j.val, by have := j.isLt; omega⟩ : Fin 256))))
          + (∑ k : Fin 64, x3 (ix3 (0 : Fin 1) r k) * x11 (ix2 (⟨64 + j.val, by have := j.isLt; omega⟩ : Fin 256) k))) + x13 (ix1 (⟨64 + j.val, by have := j.isLt; omega⟩ : Fin 256)) := by
  rw [val_main_v80_apply, val_main_v78_apply, val_main_v75_apply, val_main_v71_apply, val_main_v68_apply, val_main_v70_apply,
    val_main_v69_apply, val_main_v74_apply, val_main_v77_apply, val_main_v76_apply]
  unfold pre
  have hr : r.val < 50000 := r.isLt
  refine congrArg₂ (fun a b : EReal => a + b) (congrArg₂ (fun a b : EReal => a + b) (congrArg₂ (fun a b : EReal => a + b)
    (Finset.sum_congr rfl fun k _ => ?_) ?_) (Finset.sum_congr rfl fun k _ => ?_)) ?_
  · rw [val_main_v67_apply]
    exact congrArg₂ (fun a b : EReal => a * b) (congrArg (val_main_v66 (F := Ideal) x0 x1 x2 x5 x6 x7 x8 x9) (funext fun a => Fin.ext (by match a with | ⟨0, _⟩ => exact (by first | rfl | omega) | ⟨1, _⟩ => exact (by first | rfl | omega)))) (congrArg x10 (funext fun a => Fin.ext (by match a with | ⟨0, _⟩ => exact (by first | rfl | omega) | ⟨1, _⟩ => exact (by first | rfl | omega))))
  · exact congrArg x12 (funext fun a => Fin.ext (by match a with | ⟨0, _⟩ => exact (by first | rfl | omega)))
  · rw [val_main_v72_apply, val_main_v73_apply]
    have hk : k.val < 64 := k.isLt
    refine congrArg₂ (fun a b : EReal => a * b) (congrArg x3 (funext fun a => Fin.ext ?_)) (congrArg x11 (funext fun a => Fin.ext (by match a with | ⟨0, _⟩ => exact (by first | rfl | omega) | ⟨1, _⟩ => exact (by first | rfl | omega))))
    match a with
    | ⟨0, _⟩ => rfl
    | ⟨1, _⟩ => show (r.val * 64 + k.val) / 64 % 50000 = r.val; omega
    | ⟨2, _⟩ => show (r.val * 64 + k.val) % 64 = k.val; omega
  · exact congrArg x13 (funext fun a => Fin.ext (by match a with | ⟨0, _⟩ => exact (by first | rfl | omega)))
theorem gt_2 (j : Fin 64) :
    val_main_v81 (F := Ideal) x0 x1 x2 x3 x5 x6 x7 x8 x9 x10 x11 x12 x13 (ix2 r j)
      = ((pre (fun k : Fin 100 => val_main_v66 (F := Ideal) x0 x1 x2 x5 x6 x7 x8 x9 (ix2 r k)) (fun k : Fin 100 => x10 (ix2 (⟨128 + j.val, by have := j.isLt; omega⟩ : Fin 256) k)) (x12 (ix1 (⟨128 + j.val, by have := j.isLt; omega⟩ : Fin 256))))
          + (∑ k : Fin 64, x3 (ix3 (0 : Fin 1) r k) * x11 (ix2 (⟨128 + j.val, by have := j.isLt; omega⟩ : Fin 256) k))) + x13 (ix1 (⟨128 + j.val, by have := j.isLt; omega⟩ : Fin 256)) := by
  rw [val_main_v81_apply, val_main_v78_apply, val_main_v75_apply, val_main_v71_apply, val_main_v68_apply, val_main_v70_apply,
    val_main_v69_apply, val_main_v74_apply, val_main_v77_apply, val_main_v76_apply]
  unfold pre
  have hr : r.val < 50000 := r.isLt
  refine congrArg₂ (fun a b : EReal => a + b) (congrArg₂ (fun a b : EReal => a + b) (congrArg₂ (fun a b : EReal => a + b)
    (Finset.sum_congr rfl fun k _ => ?_) ?_) (Finset.sum_congr rfl fun k _ => ?_)) ?_
  · rw [val_main_v67_apply]
    exact congrArg₂ (fun a b : EReal => a * b) (congrArg (val_main_v66 (F := Ideal) x0 x1 x2 x5 x6 x7 x8 x9) (funext fun a => Fin.ext (by match a with | ⟨0, _⟩ => exact (by first | rfl | omega) | ⟨1, _⟩ => exact (by first | rfl | omega)))) (congrArg x10 (funext fun a => Fin.ext (by match a with | ⟨0, _⟩ => exact (by first | rfl | omega) | ⟨1, _⟩ => exact (by first | rfl | omega))))
  · exact congrArg x12 (funext fun a => Fin.ext (by match a with | ⟨0, _⟩ => exact (by first | rfl | omega)))
  · rw [val_main_v72_apply, val_main_v73_apply]
    have hk : k.val < 64 := k.isLt
    refine congrArg₂ (fun a b : EReal => a * b) (congrArg x3 (funext fun a => Fin.ext ?_)) (congrArg x11 (funext fun a => Fin.ext (by match a with | ⟨0, _⟩ => exact (by first | rfl | omega) | ⟨1, _⟩ => exact (by first | rfl | omega))))
    match a with
    | ⟨0, _⟩ => rfl
    | ⟨1, _⟩ => show (r.val * 64 + k.val) / 64 % 50000 = r.val; omega
    | ⟨2, _⟩ => show (r.val * 64 + k.val) % 64 = k.val; omega
  · exact congrArg x13 (funext fun a => Fin.ext (by match a with | ⟨0, _⟩ => exact (by first | rfl | omega)))
theorem gt_3 (j : Fin 64) :
    val_main_v82 (F := Ideal) x0 x1 x2 x3 x5 x6 x7 x8 x9 x10 x11 x12 x13 (ix2 r j)
      = ((pre (fun k : Fin 100 => val_main_v66 (F := Ideal) x0 x1 x2 x5 x6 x7 x8 x9 (ix2 r k)) (fun k : Fin 100 => x10 (ix2 (⟨192 + j.val, by have := j.isLt; omega⟩ : Fin 256) k)) (x12 (ix1 (⟨192 + j.val, by have := j.isLt; omega⟩ : Fin 256))))
          + (∑ k : Fin 64, x3 (ix3 (0 : Fin 1) r k) * x11 (ix2 (⟨192 + j.val, by have := j.isLt; omega⟩ : Fin 256) k))) + x13 (ix1 (⟨192 + j.val, by have := j.isLt; omega⟩ : Fin 256)) := by
  rw [val_main_v82_apply, val_main_v78_apply, val_main_v75_apply, val_main_v71_apply, val_main_v68_apply, val_main_v70_apply,
    val_main_v69_apply, val_main_v74_apply, val_main_v77_apply, val_main_v76_apply]
  unfold pre
  have hr : r.val < 50000 := r.isLt
  refine congrArg₂ (fun a b : EReal => a + b) (congrArg₂ (fun a b : EReal => a + b) (congrArg₂ (fun a b : EReal => a + b)
    (Finset.sum_congr rfl fun k _ => ?_) ?_) (Finset.sum_congr rfl fun k _ => ?_)) ?_
  · rw [val_main_v67_apply]
    exact congrArg₂ (fun a b : EReal => a * b) (congrArg (val_main_v66 (F := Ideal) x0 x1 x2 x5 x6 x7 x8 x9) (funext fun a => Fin.ext (by match a with | ⟨0, _⟩ => exact (by first | rfl | omega) | ⟨1, _⟩ => exact (by first | rfl | omega)))) (congrArg x10 (funext fun a => Fin.ext (by match a with | ⟨0, _⟩ => exact (by first | rfl | omega) | ⟨1, _⟩ => exact (by first | rfl | omega))))
  · exact congrArg x12 (funext fun a => Fin.ext (by match a with | ⟨0, _⟩ => exact (by first | rfl | omega)))
  · rw [val_main_v72_apply, val_main_v73_apply]
    have hk : k.val < 64 := k.isLt
    refine congrArg₂ (fun a b : EReal => a * b) (congrArg x3 (funext fun a => Fin.ext ?_)) (congrArg x11 (funext fun a => Fin.ext (by match a with | ⟨0, _⟩ => exact (by first | rfl | omega) | ⟨1, _⟩ => exact (by first | rfl | omega))))
    match a with
    | ⟨0, _⟩ => rfl
    | ⟨1, _⟩ => show (r.val * 64 + k.val) / 64 % 50000 = r.val; omega
    | ⟨2, _⟩ => show (r.val * 64 + k.val) % 64 = k.val; omega
  · exact congrArg x13 (funext fun a => Fin.ext (by match a with | ⟨0, _⟩ => exact (by first | rfl | omega)))

/-- The previous cell state's row. -/
theorem c0_ref (j : Fin 64) : val_main_v102 (F := Ideal) x4 (ix2 r j) = x4 (ix3 (0 : Fin 1) r j) := by
  rw [val_main_v102_apply]
  have hr : r.val < 50000 := r.isLt
  have hj : j.val < 64 := j.isLt
  refine congrArg x4 (funext fun a => Fin.ext ?_)
  match a with
  | ⟨0, _⟩ => rfl
  | ⟨1, _⟩ => show (r.val * 64 + j.val) / 64 % 50000 = r.val; omega
  | ⟨2, _⟩ => show (r.val * 64 + j.val) % 64 = j.val; omega

/-- The new cell state at row `r`, from the gate slices there. -/
theorem c1_ref (j : Fin 64) :
    val_main_v105 (F := Ideal) x0 x1 x2 x3 x4 x5 x6 x7 x8 x9 x10 x11 x12 x13 (ix2 r j) = c1E (val_main_v79 (F := Ideal) x0 x1 x2 x3 x5 x6 x7 x8 x9 x10 x11 x12 x13 (ix2 r j)) (val_main_v80 (F := Ideal) x0 x1 x2 x3 x5 x6 x7 x8 x9 x10 x11 x12 x13 (ix2 r j)) (val_main_v81 (F := Ideal) x0 x1 x2 x3 x5 x6 x7 x8 x9 x10 x11 x12 x13 (ix2 r j)) (val_main_v102 (F := Ideal) x4 (ix2 r j)) := by
  rw [val_main_v105_apply, val_main_v103_apply, val_main_v104_apply, val_main_v94_apply, val_main_v93_apply, val_main_cst_13_apply,
    val_main_v92_apply, val_main_v91_apply, val_main_cst_12_apply, val_main_v90_apply, val_main_v89_apply, val_main_v88_apply,
    val_main_v87_apply, val_main_cst_11_apply, val_main_v86_apply, val_main_v85_apply, val_main_cst_10_apply, val_main_v84_apply,
    val_main_v83_apply, val_main_v95_apply]
  rw [Ideal.ofBits_def, ofBits_one]
  generalize val_main_v79 (F := Ideal) x0 x1 x2 x3 x5 x6 x7 x8 x9 x10 x11 x12 x13 (ix2 r j) = g0
  generalize val_main_v80 (F := Ideal) x0 x1 x2 x3 x5 x6 x7 x8 x9 x10 x11 x12 x13 (ix2 r j) = g1
  generalize val_main_v81 (F := Ideal) x0 x1 x2 x3 x5 x6 x7 x8 x9 x10 x11 x12 x13 (ix2 r j) = g2
  generalize val_main_v102 (F := Ideal) x4 (ix2 r j) = c0
  rfl

/-- The new hidden state at row `r`. -/
theorem h1_ref (j : Fin 64) :
    val_main_v107 (F := Ideal) x0 x1 x2 x3 x4 x5 x6 x7 x8 x9 x10 x11 x12 x13 (ix2 r j) = h1E (val_main_v82 (F := Ideal) x0 x1 x2 x3 x5 x6 x7 x8 x9 x10 x11 x12 x13 (ix2 r j)) (val_main_v105 (F := Ideal) x0 x1 x2 x3 x4 x5 x6 x7 x8 x9 x10 x11 x12 x13 (ix2 r j)) := by
  rw [val_main_v107_apply, val_main_v106_apply, val_main_v101_apply, val_main_v100_apply, val_main_cst_15_apply, val_main_v99_apply,
    val_main_v98_apply, val_main_cst_14_apply, val_main_v97_apply, val_main_v96_apply]
  rw [Ideal.ofBits_def, ofBits_one]
  generalize val_main_v82 (F := Ideal) x0 x1 x2 x3 x5 x6 x7 x8 x9 x10 x11 x12 x13 (ix2 r j) = g3
  generalize val_main_v105 (F := Ideal) x0 x1 x2 x3 x4 x5 x6 x7 x8 x9 x10 x11 x12 x13 (ix2 r j) = cc
  rfl

/-- The head's output at row `r`. -/
theorem out_ref (q : Fin 8) :
    val_main_v113 (F := Ideal) x0 x1 x2 x3 x4 x5 x6 x7 x8 x9 x10 x11 x12 x13 x14 x15 (ix2 r q)
      = out (Ideal.ofBits .f32 0x00000000#32) (fun k => val_main_v107 (F := Ideal) x0 x1 x2 x3 x4 x5 x6 x7 x8 x9 x10 x11 x12 x13 (ix2 r k)) (fun k q => x14 (ix2 q k)) (fun q => x15 (ix1 q)) q := by
  rw [val_main_v113_apply, val_main_v110_apply, val_main_v112_apply, val_main_v111_apply]
  unfold out
  refine congrArg₂ (fun a b : EReal => a + b) (Finset.sum_congr rfl fun k _ => ?_) ?_
  · rw [val_main_v108_apply, val_main_v109_apply, val_main_call1_v0_apply, val_main_call1_cst_apply]
    exact congrArg₂ (fun a b : EReal => a * b) (congrArg₂ (fun a b : EReal => max a b) (congrArg (val_main_v107 (F := Ideal) x0 x1 x2 x3 x4 x5 x6 x7 x8 x9 x10 x11 x12 x13) (funext fun a => Fin.ext (by match a with | ⟨0, _⟩ => exact (by first | rfl | omega) | ⟨1, _⟩ => exact (by first | rfl | omega)))) rfl) (congrArg x14 (funext fun a => Fin.ext (by match a with | ⟨0, _⟩ => exact (by first | rfl | omega) | ⟨1, _⟩ => exact (by first | rfl | omega))))
  · exact congrArg x15 (funext fun a => Fin.ext (by match a with | ⟨0, _⟩ => exact (by first | rfl | omega)))

end Cert.ReferenceIdeal.RefRows

end
-- ==== Proof.Bridge.lean ====
/-
  The kernel's three result arrays and the reference's, index by index. At row `r` both sides apply the same row
  mathematics of the fused step to gate pre-activations; the kernel's pre-activations read gate-padded parameters at
  the lane-tile offsets, the reference's the original parameters at the gate offsets, and the two agree entry by entry
  because a padded parameter's column `128·g + j` is the original's column `Cw·g + j`. Stated over ANY fourteen operand
  arrays standing in those relations to the sixteen argument arrays (`OperandFacts`): which the kernel program's host
  operations establish.
-/
import proofs.«173484_j54443005444660_2_alg».proof.Proof.KIRows
import proofs.«173484_j54443005444660_2_alg».proof.Proof.RefRows

set_option maxRecDepth 16384
set_option maxHeartbeats 1000000

noncomputable section

namespace Cert.Proof.Bridge

open Cert.KernelIdeal Cert.KernelIdeal.Gen Cert.KernelIdeal.HandV Cert.GnnSpec
open Idealize.ShloMosaic Idealize.ShloMosaic.TcCoe Idealize.ShloMosaic.ValueIdx

/-- What the second region's fourteen operand arrays are, of the sixteen argument arrays: the features as they are, the
    aggregated messages the reference's, the previous states without their unit axis, each gate-padded parameter the
    original at the gate's offset, the head's matrix transposed and its bias as a row. -/
structure OperandFacts (A0 : S50000x64.Idx → EReal) (A1 : S50000x100.Idx → EReal) (A2 : S50000x64.Idx → EReal) (A3 : S50000x64.Idx → EReal) (A4 : S100x384.Idx → EReal) (A5 : S100x384.Idx → EReal) (A6 : S1x384.Idx → EReal) (A7 : S1x384.Idx → EReal) (A8 : S100x512.Idx → EReal) (A9 : S64x512.Idx → EReal) (A10 : S1x512.Idx → EReal) (A11 : S1x512.Idx → EReal) (A12 : S64x8.Idx → EReal) (A13 : S1x8.Idx → EReal)
    (a0 : S50000x64.Idx → EReal) (a1 : IVec S2x800000 32) (a2 : S800000.Idx → EReal) (a3 : S1x50000x64.Idx → EReal) (a4 : S1x50000x64.Idx → EReal) (a5 : S1x100x100.Idx → EReal) (a6 : S300x100.Idx → EReal) (a7 : S300x100.Idx → EReal) (a8 : S300.Idx → EReal) (a9 : S300.Idx → EReal) (a10 : S256x100.Idx → EReal) (a11 : S256x64.Idx → EReal) (a12 : S256.Idx → EReal) (a13 : S256.Idx → EReal) (a14 : S8x64.Idx → EReal) (a15 : S8.Idx → EReal) : Prop where
  hA0 : A0 = a0
  hAgg : A1 = Cert.ReferenceIdeal.Read.val_main_v28 (F := Ideal) a0 a1 a2 a5
  hA2 : ∀ (r : Fin 50000) (k : Fin 64), A2 (ix2 r k) = a3 (ix3 (0 : Fin 1) r k)
  hA3 : ∀ (r : Fin 50000) (k : Fin 64), A3 (ix2 r k) = a4 (ix3 (0 : Fin 1) r k)
  w4_0 : ∀ (k j : Fin 100), A4 (ix2 k (col384 0 (by decide) j)) = a6 (ix2 (⟨j.val, by have := j.isLt; omega⟩ : Fin 300) k)
  w5_0 : ∀ (k j : Fin 100), A5 (ix2 k (col384 0 (by decide) j)) = a7 (ix2 (⟨j.val, by have := j.isLt; omega⟩ : Fin 300) k)
  w6_0 : ∀ (j : Fin 100), A6 (ix2 (0 : Fin 1) (col384 0 (by decide) j)) = a8 (ix1 (⟨j.val, by have := j.isLt; omega⟩ : Fin 300))
  w7_0 : ∀ (j : Fin 100), A7 (ix2 (0 : Fin 1) (col384 0 (by decide) j)) = a9 (ix1 (⟨j.val, by have := j.isLt; omega⟩ : Fin 300))
  w4_1 : ∀ (k j : Fin 100), A4 (ix2 k (col384 128 (by decide) j)) = a6 (ix2 (⟨100 + j.val, by have := j.isLt; omega⟩ : Fin 300) k)
  w5_1 : ∀ (k j : Fin 100), A5 (ix2 k (col384 128 (by decide) j)) = a7 (ix2 (⟨100 + j.val, by have := j.isLt; omega⟩ : Fin 300) k)
  w6_1 : ∀ (j : Fin 100), A6 (ix2 (0 : Fin 1) (col384 128 (by decide) j)) = a8 (ix1 (⟨100 + j.val, by have := j.isLt; omega⟩ : Fin 300))
  w7_1 : ∀ (j : Fin 100), A7 (ix2 (0 : Fin 1) (col384 128 (by decide) j)) = a9 (ix1 (⟨100 + j.val, by have := j.isLt; omega⟩ : Fin 300))
  w4_2 : ∀ (k j : Fin 100), A4 (ix2 k (col384 256 (by decide) j)) = a6 (ix2 (⟨200 + j.val, by have := j.isLt; omega⟩ : Fin 300) k)
  w5_2 : ∀ (k j : Fin 100), A5 (ix2 k (col384 256 (by decide) j)) = a7 (ix2 (⟨200 + j.val, by have := j.isLt; omega⟩ : Fin 300) k)
  w6_2 : ∀ (j : Fin 100), A6 (ix2 (0 : Fin 1) (col384 256 (by decide) j)) = a8 (ix1 (⟨200 + j.val, by have := j.isLt; omega⟩ : Fin 300))
  w7_2 : ∀ (j : Fin 100), A7 (ix2 (0 : Fin 1) (col384 256 (by decide) j)) = a9 (ix1 (⟨200 + j.val, by have := j.isLt; omega⟩ : Fin 300))
  w8_0 : ∀ (k : Fin 100) (j : Fin 64), A8 (ix2 k (col512 0 (by decide) j)) = a10 (ix2 (⟨j.val, by have := j.isLt; omega⟩ : Fin 256) k)
  w9_0 : ∀ (k j : Fin 64), A9 (ix2 k (col512 0 (by decide) j)) = a11 (ix2 (⟨j.val, by have := j.isLt; omega⟩ : Fin 256) k)
  w10_0 : ∀ (j : Fin 64), A10 (ix2 (0 : Fin 1) (col512 0 (by decide) j)) = a12 (ix1 (⟨j.val, by have := j.isLt; omega⟩ : Fin 256))
  w11_0 : ∀ (j : Fin 64), A11 (ix2 (0 : Fin 1) (col512 0 (by decide) j)) = a13 (ix1 (⟨j.val, by have := j.isLt; omega⟩ : Fin 256))
  w8_1 : ∀ (k : Fin 100) (j : Fin 64), A8 (ix2 k (col512 128 (by decide) j)) = a10 (ix2 (⟨64 + j.val, by have := j.isLt; omega⟩ : Fin 256) k)
  w9_1 : ∀ (k j : Fin 64), A9 (ix2 k (col512 128 (by decide) j)) = a11 (ix2 (⟨64 + j.val, by have := j.isLt; omega⟩ : Fin 256) k)
  w10_1 : ∀ (j : Fin 64), A10 (ix2 (0 : Fin 1) (col512 128 (by decide) j)) = a12 (ix1 (⟨64 + j.val, by have := j.isLt; omega⟩ : Fin 256))
  w11_1 : ∀ (j : Fin 64), A11 (ix2 (0 : Fin 1) (col512 128 (by decide) j)) = a13 (ix1 (⟨64 + j.val, by have := j.isLt; omega⟩ : Fin 256))
  w8_2 : ∀ (k : Fin 100) (j : Fin 64), A8 (ix2 k (col512 256 (by decide) j)) = a10 (ix2 (⟨128 + j.val, by have := j.isLt; omega⟩ : Fin 256) k)
  w9_2 : ∀ (k j : Fin 64), A9 (ix2 k (col512 256 (by decide) j)) = a11 (ix2 (⟨128 + j.val, by have := j.isLt; omega⟩ : Fin 256) k)
  w10_2 : ∀ (j : Fin 64), A10 (ix2 (0 : Fin 1) (col512 256 (by decide) j)) = a12 (ix1 (⟨128 + j.val, by have := j.isLt; omega⟩ : Fin 256))
  w11_2 : ∀ (j : Fin 64), A11 (ix2 (0 : Fin 1) (col512 256 (by decide) j)) = a13 (ix1 (⟨128 + j.val, by have := j.isLt; omega⟩ : Fin 256))
  w8_3 : ∀ (k : Fin 100) (j : Fin 64), A8 (ix2 k (col512 384 (by decide) j)) = a10 (ix2 (⟨192 + j.val, by have := j.isLt; omega⟩ : Fin 256) k)
  w9_3 : ∀ (k j : Fin 64), A9 (ix2 k (col512 384 (by decide) j)) = a11 (ix2 (⟨192 + j.val, by have := j.isLt; omega⟩ : Fin 256) k)
  w10_3 : ∀ (j : Fin 64), A10 (ix2 (0 : Fin 1) (col512 384 (by decide) j)) = a12 (ix1 (⟨192 + j.val, by have := j.isLt; omega⟩ : Fin 256))
  w11_3 : ∀ (j : Fin 64), A11 (ix2 (0 : Fin 1) (col512 384 (by decide) j)) = a13 (ix1 (⟨192 + j.val, by have := j.isLt; omega⟩ : Fin 256))
  hA12 : ∀ (k : Fin 64) (q : Fin 8), A12 (ix2 k q) = a14 (ix2 q k)
  hA13 : ∀ (q : Fin 8), A13 (ix2 (0 : Fin 1) q) = a15 (ix1 q)

variable (A0 : S50000x64.Idx → EReal) (A1 : S50000x100.Idx → EReal) (A2 : S50000x64.Idx → EReal) (A3 : S50000x64.Idx → EReal) (A4 : S100x384.Idx → EReal) (A5 : S100x384.Idx → EReal) (A6 : S1x384.Idx → EReal) (A7 : S1x384.Idx → EReal) (A8 : S100x512.Idx → EReal) (A9 : S64x512.Idx → EReal) (A10 : S1x512.Idx → EReal) (A11 : S1x512.Idx → EReal) (A12 : S64x8.Idx → EReal) (A13 : S1x8.Idx → EReal)
  (a0 : S50000x64.Idx → EReal) (a1 : IVec S2x800000 32) (a2 : S800000.Idx → EReal) (a3 : S1x50000x64.Idx → EReal) (a4 : S1x50000x64.Idx → EReal) (a5 : S1x100x100.Idx → EReal) (a6 : S300x100.Idx → EReal) (a7 : S300x100.Idx → EReal) (a8 : S300.Idx → EReal) (a9 : S300.Idx → EReal) (a10 : S256x100.Idx → EReal) (a11 : S256x64.Idx → EReal) (a12 : S256.Idx → EReal) (a13 : S256.Idx → EReal) (a14 : S8x64.Idx → EReal) (a15 : S8.Idx → EReal)
  (H : OperandFacts A0 A1 A2 A3 A4 A5 A6 A7 A8 A9 A10 A11 A12 A13 a0 a1 a2 a3 a4 a5 a6 a7 a8 a9 a10 a11 a12 a13 a14 a15)

/-- The row's place inside its block. -/
abbrev pR (r : Fin 50000) : Fin 1000 := ⟨r.val % 1000, Nat.mod_lt _ (by decide)⟩

/-- Row `r mod 1000` of block `r / 1000` of a row array is its row `r`. -/
theorem rowBlk_at {C : Nat} (A : (⟨2, ![50000, C]⟩ : Shape).Idx → EReal) (r : Fin 50000) (k : Fin C) :
    rowBlk A (r.val / 1000) (ix2 (pR r) k) = A (ix2 r k) := by
  unfold rowBlk
  have hr : r.val < 50000 := r.isLt
  refine congrArg A (funext fun a => Fin.ext ?_)
  match a with
  | ⟨0, _⟩ => show (r.val / 1000 * 1000 + r.val % 1000) % 50000 = r.val; omega
  | ⟨1, _⟩ => rfl

variable (r : Fin 50000)

include H in
/-- The zero-padded features agree. -/
theorem xp_eq (k : Fin 100) : k1_pay4 (F := Ideal) (rowBlk A0 (r.val / 1000)) (ix2 (pR r) k) = Cert.ReferenceIdeal.Read.val_main_v4 (F := Ideal) a0 (ix2 r k) := by
  by_cases h : k.val < 64
  · rw [pay4_apply_lo _ _ _ h, rowBlk_at, H.hA0, Cert.ReferenceIdeal.RefRows.xp_ref_lo _ _ _ h]
  · rw [pay4_apply_hi _ _ _ h, Cert.ReferenceIdeal.RefRows.xp_ref_hi _ _ _ h]
    exact Cert.ReferenceIdeal.RefRows.ofBits_zero

include H in
theorem gi_eq_0 (k : Fin 100) : k1_pay5 (F := Ideal) (rowBlk A1 (r.val / 1000)) A4 A6 (ix2 (pR r) (col384 0 (by decide) k)) = Cert.ReferenceIdeal.Read.val_main_v39 (F := Ideal) a0 a1 a2 a5 a6 a8 (ix2 r k) := by
  rw [pay5_apply, Cert.ReferenceIdeal.RefRows.gi_0]
  unfold pre
  refine congrArg₂ (fun a b : EReal => a + b) (Finset.sum_congr rfl fun k' _ => ?_) (H.w6_0 k)
  rw [rowBlk_at, H.hAgg, H.w4_0 k' k]
include H in
theorem gh_eq_0 (k : Fin 100) : k1_pay6 (F := Ideal) (rowBlk A0 (r.val / 1000)) A5 A7 (ix2 (pR r) (col384 0 (by decide) k)) = Cert.ReferenceIdeal.Read.val_main_v42 (F := Ideal) a0 a7 a9 (ix2 r k) := by
  rw [pay6_apply, Cert.ReferenceIdeal.RefRows.gh_0]
  unfold pre
  refine congrArg₂ (fun a b : EReal => a + b) (Finset.sum_congr rfl fun k' _ => ?_) (H.w7_0 k)
  rw [xp_eq A0 A1 A2 A3 A4 A5 A6 A7 A8 A9 A10 A11 A12 A13 a0 a1 a2 a3 a4 a5 a6 a7 a8 a9 a10 a11 a12 a13 a14 a15 H r k', H.w5_0 k' k]
include H in
theorem gi_eq_1 (k : Fin 100) : k1_pay5 (F := Ideal) (rowBlk A1 (r.val / 1000)) A4 A6 (ix2 (pR r) (col384 128 (by decide) k)) = Cert.ReferenceIdeal.Read.val_main_v40 (F := Ideal) a0 a1 a2 a5 a6 a8 (ix2 r k) := by
  rw [pay5_apply, Cert.ReferenceIdeal.RefRows.gi_1]
  unfold pre
  refine congrArg₂ (fun a b : EReal => a + b) (Finset.sum_congr rfl fun k' _ => ?_) (H.w6_1 k)
  rw [rowBlk_at, H.hAgg, H.w4_1 k' k]
include H in
theorem gh_eq_1 (k : Fin 100) : k1_pay6 (F := Ideal) (rowBlk A0 (r.val / 1000)) A5 A7 (ix2 (pR r) (col384 128 (by decide) k)) = Cert.ReferenceIdeal.Read.val_main_v43 (F := Ideal) a0 a7 a9 (ix2 r k) := by
  rw [pay6_apply, Cert.ReferenceIdeal.RefRows.gh_1]
  unfold pre
  refine congrArg₂ (fun a b : EReal => a + b) (Finset.sum_congr rfl fun k' _ => ?_) (H.w7_1 k)
  rw [xp_eq A0 A1 A2 A3 A4 A5 A6 A7 A8 A9 A10 A11 A12 A13 a0 a1 a2 a3 a4 a5 a6 a7 a8 a9 a10 a11 a12 a13 a14 a15 H r k', H.w5_1 k' k]
include H in
theorem gi_eq_2 (k : Fin 100) : k1_pay5 (F := Ideal) (rowBlk A1 (r.val / 1000)) A4 A6 (ix2 (pR r) (col384 256 (by decide) k)) = Cert.ReferenceIdeal.Read.val_main_v41 (F := Ideal) a0 a1 a2 a5 a6 a8 (ix2 r k) := by
  rw [pay5_apply, Cert.ReferenceIdeal.RefRows.gi_2]
  unfold pre
  refine congrArg₂ (fun a b : EReal => a + b) (Finset.sum_congr rfl fun k' _ => ?_) (H.w6_2 k)
  rw [rowBlk_at, H.hAgg, H.w4_2 k' k]
include H in
theorem gh_eq_2 (k : Fin 100) : k1_pay6 (F := Ideal) (rowBlk A0 (r.val / 1000)) A5 A7 (ix2 (pR r) (col384 256 (by decide) k)) = Cert.ReferenceIdeal.Read.val_main_v44 (F := Ideal) a0 a7 a9 (ix2 r k) := by
  rw [pay6_apply, Cert.ReferenceIdeal.RefRows.gh_2]
  unfold pre
  refine congrArg₂ (fun a b : EReal => a + b) (Finset.sum_congr rfl fun k' _ => ?_) (H.w7_2 k)
  rw [xp_eq A0 A1 A2 A3 A4 A5 A6 A7 A8 A9 A10 A11 A12 A13 a0 a1 a2 a3 a4 a5 a6 a7 a8 a9 a10 a11 a12 a13 a14 a15 H r k', H.w5_2 k' k]

include H in
/-- The GRU's new state agrees. -/
theorem convh_eq (k : Fin 100) : chK (rowBlk A0 (r.val / 1000)) (rowBlk A1 (r.val / 1000)) A4 A5 A6 A7 (pR r) k = Cert.ReferenceIdeal.Read.val_main_v66 (F := Ideal) a0 a1 a2 a5 a6 a7 a8 a9 (ix2 r k) := by
  rw [Cert.ReferenceIdeal.RefRows.convh_ref]
  have e : chK (rowBlk A0 (r.val / 1000)) (rowBlk A1 (r.val / 1000)) A4 A5 A6 A7 (pR r) k
      = convhE oneE (k1_pay5 (F := Ideal) (rowBlk A1 (r.val / 1000)) A4 A6 (ix2 (pR r) (col384 0 (by decide) k))) (k1_pay5 (F := Ideal) (rowBlk A1 (r.val / 1000)) A4 A6 (ix2 (pR r) (col384 128 (by decide) k)))
        (k1_pay5 (F := Ideal) (rowBlk A1 (r.val / 1000)) A4 A6 (ix2 (pR r) (col384 256 (by decide) k))) (k1_pay6 (F := Ideal) (rowBlk A0 (r.val / 1000)) A5 A7 (ix2 (pR r) (col384 0 (by decide) k)))
        (k1_pay6 (F := Ideal) (rowBlk A0 (r.val / 1000)) A5 A7 (ix2 (pR r) (col384 128 (by decide) k))) (k1_pay6 (F := Ideal) (rowBlk A0 (r.val / 1000)) A5 A7 (ix2 (pR r) (col384 256 (by decide) k)))
        (k1_pay4 (F := Ideal) (rowBlk A0 (r.val / 1000)) (ix2 (pR r) k)) := rfl
  rw [e, gi_eq_0 A0 A1 A2 A3 A4 A5 A6 A7 A8 A9 A10 A11 A12 A13 a0 a1 a2 a3 a4 a5 a6 a7 a8 a9 a10 a11 a12 a13 a14 a15 H r k, gi_eq_1 A0 A1 A2 A3 A4 A5 A6 A7 A8 A9 A10 A11 A12 A13 a0 a1 a2 a3 a4 a5 a6 a7 a8 a9 a10 a11 a12 a13 a14 a15 H r k, gi_eq_2 A0 A1 A2 A3 A4 A5 A6 A7 A8 A9 A10 A11 A12 A13 a0 a1 a2 a3 a4 a5 a6 a7 a8 a9 a10 a11 a12 a13 a14 a15 H r k,
    gh_eq_0 A0 A1 A2 A3 A4 A5 A6 A7 A8 A9 A10 A11 A12 A13 a0 a1 a2 a3 a4 a5 a6 a7 a8 a9 a10 a11 a12 a13 a14 a15 H r k, gh_eq_1 A0 A1 A2 A3 A4 A5 A6 A7 A8 A9 A10 A11 A12 A13 a0 a1 a2 a3 a4 a5 a6 a7 a8 a9 a10 a11 a12 a13 a14 a15 H r k, gh_eq_2 A0 A1 A2 A3 A4 A5 A6 A7 A8 A9 A10 A11 A12 A13 a0 a1 a2 a3 a4 a5 a6 a7 a8 a9 a10 a11 a12 a13 a14 a15 H r k, xp_eq A0 A1 A2 A3 A4 A5 A6 A7 A8 A9 A10 A11 A12 A13 a0 a1 a2 a3 a4 a5 a6 a7 a8 a9 a10 a11 a12 a13 a14 a15 H r k]
  exact congrArg (fun z : EReal => convhE z _ _ _ _ _ _ _) Cert.ReferenceIdeal.RefRows.ofBits_one

include H in
/-- The previous cell state's row. -/
theorem c0_eq (j : Fin 64) : (rowBlk A3 (r.val / 1000)) (ix2 (pR r) j) = Cert.ReferenceIdeal.Read.val_main_v102 (F := Ideal) a4 (ix2 r j) := by
  rw [rowBlk_at, H.hA3, Cert.ReferenceIdeal.RefRows.c0_ref]

include H in
theorem gt_eq_0 (j : Fin 64) : gtKc (rowBlk A0 (r.val / 1000)) (rowBlk A1 (r.val / 1000)) (rowBlk A2 (r.val / 1000)) A4 A5 A6 A7 A8 A9 A10 A11 (pR r) (col512 0 (by decide) j) = Cert.ReferenceIdeal.Read.val_main_v79 (F := Ideal) a0 a1 a2 a3 a5 a6 a7 a8 a9 a10 a11 a12 a13 (ix2 r j) := by
  unfold gtKc
  rw [Cert.ReferenceIdeal.RefRows.gt_0]
  unfold pre
  refine (add_assoc _ _ _).symm.trans ?_
  refine congrArg₂ (fun a b : EReal => a + b) (congrArg₂ (fun a b : EReal => a + b) (congrArg₂ (fun a b : EReal => a + b)
    (Finset.sum_congr rfl fun k _ => ?_) (H.w10_0 j)) (Finset.sum_congr rfl fun k _ => ?_)) (H.w11_0 j)
  · rw [convh_eq A0 A1 A2 A3 A4 A5 A6 A7 A8 A9 A10 A11 A12 A13 a0 a1 a2 a3 a4 a5 a6 a7 a8 a9 a10 a11 a12 a13 a14 a15 H r k, H.w8_0 k j]
  · rw [rowBlk_at, H.hA2, H.w9_0 k j]
include H in
theorem gt_eq_1 (j : Fin 64) : gtKc (rowBlk A0 (r.val / 1000)) (rowBlk A1 (r.val / 1000)) (rowBlk A2 (r.val / 1000)) A4 A5 A6 A7 A8 A9 A10 A11 (pR r) (col512 128 (by decide) j) = Cert.ReferenceIdeal.Read.val_main_v80 (F := Ideal) a0 a1 a2 a3 a5 a6 a7 a8 a9 a10 a11 a12 a13 (ix2 r j) := by
  unfold gtKc
  rw [Cert.ReferenceIdeal.RefRows.gt_1]
  unfold pre
  refine (add_assoc _ _ _).symm.trans ?_
  refine congrArg₂ (fun a b : EReal => a + b) (congrArg₂ (fun a b : EReal => a + b) (congrArg₂ (fun a b : EReal => a + b)
    (Finset.sum_congr rfl fun k _ => ?_) (H.w10_1 j)) (Finset.sum_congr rfl fun k _ => ?_)) (H.w11_1 j)
  · rw [convh_eq A0 A1 A2 A3 A4 A5 A6 A7 A8 A9 A10 A11 A12 A13 a0 a1 a2 a3 a4 a5 a6 a7 a8 a9 a10 a11 a12 a13 a14 a15 H r k, H.w8_1 k j]
  · rw [rowBlk_at, H.hA2, H.w9_1 k j]
include H in
theorem gt_eq_2 (j : Fin 64) : gtKc (rowBlk A0 (r.val / 1000)) (rowBlk A1 (r.val / 1000)) (rowBlk A2 (r.val / 1000)) A4 A5 A6 A7 A8 A9 A10 A11 (pR r) (col512 256 (by decide) j) = Cert.ReferenceIdeal.Read.val_main_v81 (F := Ideal) a0 a1 a2 a3 a5 a6 a7 a8 a9 a10 a11 a12 a13 (ix2 r j) := by
  unfold gtKc
  rw [Cert.ReferenceIdeal.RefRows.gt_2]
  unfold pre
  refine (add_assoc _ _ _).symm.trans ?_
  refine congrArg₂ (fun a b : EReal => a + b) (congrArg₂ (fun a b : EReal => a + b) (congrArg₂ (fun a b : EReal => a + b)
    (Finset.sum_congr rfl fun k _ => ?_) (H.w10_2 j)) (Finset.sum_congr rfl fun k _ => ?_)) (H.w11_2 j)
  · rw [convh_eq A0 A1 A2 A3 A4 A5 A6 A7 A8 A9 A10 A11 A12 A13 a0 a1 a2 a3 a4 a5 a6 a7 a8 a9 a10 a11 a12 a13 a14 a15 H r k, H.w8_2 k j]
  · rw [rowBlk_at, H.hA2, H.w9_2 k j]
include H in
theorem gt_eq_3 (j : Fin 64) : gtKc (rowBlk A0 (r.val / 1000)) (rowBlk A1 (r.val / 1000)) (rowBlk A2 (r.val / 1000)) A4 A5 A6 A7 A8 A9 A10 A11 (pR r) (col512 384 (by decide) j) = Cert.ReferenceIdeal.Read.val_main_v82 (F := Ideal) a0 a1 a2 a3 a5 a6 a7 a8 a9 a10 a11 a12 a13 (ix2 r j) := by
  unfold gtKc
  rw [Cert.ReferenceIdeal.RefRows.gt_3]
  unfold pre
  refine (add_assoc _ _ _).symm.trans ?_
  refine congrArg₂ (fun a b : EReal => a + b) (congrArg₂ (fun a b : EReal => a + b) (congrArg₂ (fun a b : EReal => a + b)
    (Finset.sum_congr rfl fun k _ => ?_) (H.w10_3 j)) (Finset.sum_congr rfl fun k _ => ?_)) (H.w11_3 j)
  · rw [convh_eq A0 A1 A2 A3 A4 A5 A6 A7 A8 A9 A10 A11 A12 A13 a0 a1 a2 a3 a4 a5 a6 a7 a8 a9 a10 a11 a12 a13 a14 a15 H r k, H.w8_3 k j]
  · rw [rowBlk_at, H.hA2, H.w9_3 k j]

include H in
/-- The new cell state's rows agree. -/
theorem c1_eq (j : Fin 64) : B15 (rowBlk A0 (r.val / 1000)) (rowBlk A1 (r.val / 1000)) (rowBlk A2 (r.val / 1000)) (rowBlk A3 (r.val / 1000)) A4 A5 A6 A7 A8 A9 A10 A11 (ix2 (pR r) j) = Cert.ReferenceIdeal.Read.val_main_v105 (F := Ideal) a0 a1 a2 a3 a4 a5 a6 a7 a8 a9 a10 a11 a12 a13 (ix2 r j) := by
  rw [B15_row, Cert.ReferenceIdeal.RefRows.c1_ref]
  have e : c1 (gtK (rowBlk A0 (r.val / 1000)) (rowBlk A1 (r.val / 1000)) (rowBlk A2 (r.val / 1000)) A4 A5 A6 A7 A8 A9 A10 A11 (pR r)) (fun j => (rowBlk A3 (r.val / 1000)) (ix2 (pR r) j)) j
      = c1E (gtKc (rowBlk A0 (r.val / 1000)) (rowBlk A1 (r.val / 1000)) (rowBlk A2 (r.val / 1000)) A4 A5 A6 A7 A8 A9 A10 A11 (pR r) (col512 0 (by decide) j)) (gtKc (rowBlk A0 (r.val / 1000)) (rowBlk A1 (r.val / 1000)) (rowBlk A2 (r.val / 1000)) A4 A5 A6 A7 A8 A9 A10 A11 (pR r) (col512 128 (by decide) j)) (gtKc (rowBlk A0 (r.val / 1000)) (rowBlk A1 (r.val / 1000)) (rowBlk A2 (r.val / 1000)) A4 A5 A6 A7 A8 A9 A10 A11 (pR r) (col512 256 (by decide) j)) ((rowBlk A3 (r.val / 1000)) (ix2 (pR r) j)) := rfl
  rw [e, gt_eq_0 A0 A1 A2 A3 A4 A5 A6 A7 A8 A9 A10 A11 A12 A13 a0 a1 a2 a3 a4 a5 a6 a7 a8 a9 a10 a11 a12 a13 a14 a15 H r j, gt_eq_1 A0 A1 A2 A3 A4 A5 A6 A7 A8 A9 A10 A11 A12 A13 a0 a1 a2 a3 a4 a5 a6 a7 a8 a9 a10 a11 a12 a13 a14 a15 H r j, gt_eq_2 A0 A1 A2 A3 A4 A5 A6 A7 A8 A9 A10 A11 A12 A13 a0 a1 a2 a3 a4 a5 a6 a7 a8 a9 a10 a11 a12 a13 a14 a15 H r j, c0_eq A0 A1 A2 A3 A4 A5 A6 A7 A8 A9 A10 A11 A12 A13 a0 a1 a2 a3 a4 a5 a6 a7 a8 a9 a10 a11 a12 a13 a14 a15 H r j]

include H in
/-- The new hidden state's rows agree. -/
theorem h1_eq (j : Fin 64) : B14 (rowBlk A0 (r.val / 1000)) (rowBlk A1 (r.val / 1000)) (rowBlk A2 (r.val / 1000)) (rowBlk A3 (r.val / 1000)) A4 A5 A6 A7 A8 A9 A10 A11 (ix2 (pR r) j) = Cert.ReferenceIdeal.Read.val_main_v107 (F := Ideal) a0 a1 a2 a3 a4 a5 a6 a7 a8 a9 a10 a11 a12 a13 (ix2 r j) := by
  rw [B14_row, Cert.ReferenceIdeal.RefRows.h1_ref]
  have e0 := c1_eq A0 A1 A2 A3 A4 A5 A6 A7 A8 A9 A10 A11 A12 A13 a0 a1 a2 a3 a4 a5 a6 a7 a8 a9 a10 a11 a12 a13 a14 a15 H r j
  rw [B15_row] at e0
  have e : h1 (gtK (rowBlk A0 (r.val / 1000)) (rowBlk A1 (r.val / 1000)) (rowBlk A2 (r.val / 1000)) A4 A5 A6 A7 A8 A9 A10 A11 (pR r)) (fun j => (rowBlk A3 (r.val / 1000)) (ix2 (pR r) j)) j
      = h1E (gtKc (rowBlk A0 (r.val / 1000)) (rowBlk A1 (r.val / 1000)) (rowBlk A2 (r.val / 1000)) A4 A5 A6 A7 A8 A9 A10 A11 (pR r) (col512 384 (by decide) j)) (c1 (gtK (rowBlk A0 (r.val / 1000)) (rowBlk A1 (r.val / 1000)) (rowBlk A2 (r.val / 1000)) A4 A5 A6 A7 A8 A9 A10 A11 (pR r)) (fun j => (rowBlk A3 (r.val / 1000)) (ix2 (pR r) j)) j) := rfl
  rw [e, gt_eq_3 A0 A1 A2 A3 A4 A5 A6 A7 A8 A9 A10 A11 A12 A13 a0 a1 a2 a3 a4 a5 a6 a7 a8 a9 a10 a11 a12 a13 a14 a15 H r j, e0]

include H in
/-- The head's output rows agree. -/
theorem out_eq (q : Fin 8) : B16 (rowBlk A0 (r.val / 1000)) (rowBlk A1 (r.val / 1000)) (rowBlk A2 (r.val / 1000)) (rowBlk A3 (r.val / 1000)) A4 A5 A6 A7 A8 A9 A10 A11 A12 A13 (ix2 (pR r) q) = Cert.ReferenceIdeal.Read.val_main_v113 (F := Ideal) a0 a1 a2 a3 a4 a5 a6 a7 a8 a9 a10 a11 a12 a13 a14 a15 (ix2 r q) := by
  rw [B16_row, Cert.ReferenceIdeal.RefRows.out_ref]
  unfold out
  refine congrArg₂ (fun a b : EReal => a + b) (Finset.sum_congr rfl fun k _ => ?_) (H.hA13 q)
  have e := h1_eq A0 A1 A2 A3 A4 A5 A6 A7 A8 A9 A10 A11 A12 A13 a0 a1 a2 a3 a4 a5 a6 a7 a8 a9 a10 a11 a12 a13 a14 a15 H r k
  rw [B14_row] at e
  rw [e]
  beta_reduce
  rw [H.hA12 k q]

/-! ## The three arrays -/

include H in
theorem G15_eq : G15 A0 A1 A2 A3 A4 A5 A6 A7 A8 A9 A10 A11 = Cert.ReferenceIdeal.Read.val_main_v105 (F := Ideal) a0 a1 a2 a3 a4 a5 a6 a7 a8 a9 a10 a11 a12 a13 := by
  funext i
  obtain ⟨r, j, rfl⟩ : ∃ (r : Fin 50000) (j : Fin 64), i = ix2 r j := ⟨i 0, i 1, eq_ix2 i⟩
  exact c1_eq A0 A1 A2 A3 A4 A5 A6 A7 A8 A9 A10 A11 A12 A13 a0 a1 a2 a3 a4 a5 a6 a7 a8 a9 a10 a11 a12 a13 a14 a15 H r j

include H in
theorem G14_eq : G14 A0 A1 A2 A3 A4 A5 A6 A7 A8 A9 A10 A11 = Cert.ReferenceIdeal.Read.val_main_v107 (F := Ideal) a0 a1 a2 a3 a4 a5 a6 a7 a8 a9 a10 a11 a12 a13 := by
  funext i
  obtain ⟨r, j, rfl⟩ : ∃ (r : Fin 50000) (j : Fin 64), i = ix2 r j := ⟨i 0, i 1, eq_ix2 i⟩
  exact h1_eq A0 A1 A2 A3 A4 A5 A6 A7 A8 A9 A10 A11 A12 A13 a0 a1 a2 a3 a4 a5 a6 a7 a8 a9 a10 a11 a12 a13 a14 a15 H r j

include H in
theorem G16_eq : G16 A0 A1 A2 A3 A4 A5 A6 A7 A8 A9 A10 A11 A12 A13 = Cert.ReferenceIdeal.Read.val_main_v113 (F := Ideal) a0 a1 a2 a3 a4 a5 a6 a7 a8 a9 a10 a11 a12 a13 a14 a15 := by
  funext i
  obtain ⟨r, q, rfl⟩ : ∃ (r : Fin 50000) (q : Fin 8), i = ix2 r q := ⟨i 0, i 1, eq_ix2 i⟩
  exact out_eq A0 A1 A2 A3 A4 A5 A6 A7 A8 A9 A10 A11 A12 A13 a0 a1 a2 a3 a4 a5 a6 a7 a8 a9 a10 a11 a12 a13 a14 a15 H r q

end Cert.Proof.Bridge

end
-- ==== Proof.KIHost.lean ====
/-
  The host operations between the two kernel regions, read where the second region's operands need them. Every buffer is
  written once, so what a buffer holds when the second region is entered is what its own stretch of host operations wrote
  there. The gate-padded parameter matrices are read at an index: column `128·g + j` of a padded matrix is the
  concatenation's piece `g` at column `j`, which is the padded slice inside its original columns, which is the original
  (transposed or reshaped) parameter at column `Cw·g + j`.
-/
import proofs.«173484_j54443005444660_2_alg».proof.Proof.KIRun
import proofs.«173484_j54443005444660_2_alg».proof.Proof.LibPadCat
import Idealize.ShloMosaic.Lib.StableHlo.Run
import Idealize.ShloMosaic.Lib.ValueLayout

set_option maxRecDepth 65536
set_option maxHeartbeats 4000000

noncomputable section

namespace Cert.KernelIdeal.HandH

open Cert.KernelIdeal Cert.KernelIdeal.Gen Cert.KernelIdeal.Hand
open Idealize.ShloMosaic Idealize.ShloMosaic.TcCoe Idealize.ShloMosaic.StableHlo Idealize.ShloMosaic.ValueIdx
open Idealize.SL Idealize.SL.Sem

variable {F : FTy → Type} [FloatOps F]
variable (m : (ℓ : Loc nD τ sig) → Buf (Elt F) ℓ) (c : Dev nD)

/-! ## Each buffer at its own stretch, and carried unchanged through the later ones -/

theorem C_v36_59_9 : GenP.V59 m (outsA m) c (Proc.devRef .tc main_v36) = GenP.V9 m (outsA m) c (Proc.devRef .tc main_v36) :=
  (GenP.V59_of m (outsA m) c main_v36 (by decide)).trans ((GenP.V58_of m (outsA m) c main_v36 (by decide)).trans ((GenP.V57_of m (outsA m) c main_v36 (by decide)).trans ((GenP.V56_of m (outsA m) c main_v36 (by decide)).trans ((GenP.V55_of m (outsA m) c main_v36 (by decide)).trans ((GenP.V54_of m (outsA m) c main_v36 (by decide)).trans ((GenP.V53_of m (outsA m) c main_v36 (by decide)).trans ((GenP.V52_of m (outsA m) c main_v36 (by decide)).trans ((GenP.V51_of m (outsA m) c main_v36 (by decide)).trans ((GenP.V50_of m (outsA m) c main_v36 (by decide)).trans ((GenP.V49_of m (outsA m) c main_v36 (by decide)).trans ((GenP.V48_of m (outsA m) c main_v36 (by decide)).trans ((GenP.V47_of m (outsA m) c main_v36 (by decide)).trans ((GenP.V46_of m (outsA m) c main_v36 (by decide)).trans ((GenP.V45_of m (outsA m) c main_v36 (by decide)).trans ((GenP.V44_of m (outsA m) c main_v36 (by decide)).trans ((GenP.V43_of m (outsA m) c main_v36 (by decide)).trans ((GenP.V42_of m (outsA m) c main_v36 (by decide)).trans ((GenP.V41_of m (outsA m) c main_v36 (by decide)).trans ((GenP.V40_of m (outsA m) c main_v36 (by decide)).trans ((GenP.V39_of m (outsA m) c main_v36 (by decide)).trans ((GenP.V38_of m (outsA m) c main_v36 (by decide)).trans ((GenP.V37_of m (outsA m) c main_v36 (by decide)).trans ((GenP.V36_of m (outsA m) c main_v36 (by decide)).trans ((GenP.V35_of m (outsA m) c main_v36 (by decide)).trans ((GenP.V34_of m (outsA m) c main_v36 (by decide)).trans ((GenP.V33_of m (outsA m) c main_v36 (by decide)).trans ((GenP.V32_of m (outsA m) c main_v36 (by decide)).trans ((GenP.V31_of m (outsA m) c main_v36 (by decide)).trans ((GenP.V30_of m (outsA m) c main_v36 (by decide)).trans ((GenP.V29_of m (outsA m) c main_v36 (by decide)).trans ((GenP.V28_of m (outsA m) c main_v36 (by decide)).trans ((GenP.V27_of m (outsA m) c main_v36 (by decide)).trans ((GenP.V26_of m (outsA m) c main_v36 (by decide)).trans ((GenP.V25_of m (outsA m) c main_v36 (by decide)).trans ((GenP.V24_of m (outsA m) c main_v36 (by decide)).trans ((GenP.V23_of m (outsA m) c main_v36 (by decide)).trans ((GenP.V22_of m (outsA m) c main_v36 (by decide)).trans ((GenP.V21_of m (outsA m) c main_v36 (by decide)).trans ((GenP.V20_of m (outsA m) c main_v36 (by decide)).trans ((GenP.V19_of m (outsA m) c main_v36 (by decide)).trans ((GenP.V18_of m (outsA m) c main_v36 (by decide)).trans ((GenP.V17_of m (outsA m) c main_v36 (by decide)).trans ((GenP.V16_of m (outsA m) c main_v36 (by decide)).trans ((GenP.V15_of m (outsA m) c main_v36 (by decide)).trans ((GenP.V14_of m (outsA m) c main_v36 (by decide)).trans ((GenP.V13_of m (outsA m) c main_v36 (by decide)).trans ((GenP.V12_of m (outsA m) c main_v36 (by decide)).trans ((GenP.V11_of m (outsA m) c main_v36 (by decide)).trans (GenP.V10_of m (outsA m) c main_v36 (by decide))))))))))))))))))))))))))))))))))))))))))))))))))

theorem A_v36 : GenP.V9 m (outsA m) c (Proc.devRef .tc main_v36) = concatenate S100x384 1 [⟨S100x128, GenP.V8 m (outsA m) c (Proc.devRef .tc main_v31)⟩, ⟨S100x128, GenP.V8 m (outsA m) c (Proc.devRef .tc main_v33)⟩, ⟨S100x128, GenP.V8 m (outsA m) c (Proc.devRef .tc main_v35)⟩] concatenates_S100x128_S100x128_S100x128_S100x384_d1 := by
  show StableHlo.after hostOps1_6 (GenP.V8 m (outsA m) c) (Proc.devRef .tc main_v36) = _
  after_results_simp
  try rfl

theorem C_v31_8_4 : GenP.V8 m (outsA m) c (Proc.devRef .tc main_v31) = GenP.V4 m (outsA m) c (Proc.devRef .tc main_v31) :=
  (GenP.V8_of m (outsA m) c main_v31 (by decide)).trans ((GenP.V7_of m (outsA m) c main_v31 (by decide)).trans ((GenP.V6_of m (outsA m) c main_v31 (by decide)).trans (GenP.V5_of m (outsA m) c main_v31 (by decide))))

theorem A_v31 : GenP.V4 m (outsA m) c (Proc.devRef .tc main_v31) = pad S100x128 ![0, 0] ![0, 28] ![0, 0] (GenP.V3 m (outsA m) c (Proc.devRef .tc main_v30)) (sitofp .f32 (GenP.V3 m (outsA m) c (Proc.devRef .tc main_c_3))) pads_S100x100_S100x128_000_0280 h_S_ := by
  show StableHlo.after hostOps1_1 (GenP.V3 m (outsA m) c) (Proc.devRef .tc main_v31) = _
  after_results
  try rfl

theorem A_v30 : GenP.V3 m (outsA m) c (Proc.devRef .tc main_v30) = extractStridedSlice S100x100 ![0, 0] (transpose S100x300 [1, 0] (GenP.V2 m (outsA m) c (Proc.devRef .tc main_arg6)) transposes_S300x100_S100x300_1_0) slices_S100x300_S100x100_0_0 := by
  show StableHlo.after hostOps1 (GenP.V2 m (outsA m) c) (Proc.devRef .tc main_v30) = _
  after_results_simp
  try rfl

theorem C_arg6_2_0 : GenP.V2 m (outsA m) c (Proc.devRef .tc main_arg6) = GenP.V0 m c (Proc.devRef .tc main_arg6) :=
  (GenP.V2_of m (outsA m) c main_arg6 (by decide)).trans (GenP.V1_of m c main_arg6 (by decide))

theorem C_v33_8_6 : GenP.V8 m (outsA m) c (Proc.devRef .tc main_v33) = GenP.V6 m (outsA m) c (Proc.devRef .tc main_v33) :=
  (GenP.V8_of m (outsA m) c main_v33 (by decide)).trans (GenP.V7_of m (outsA m) c main_v33 (by decide))

theorem A_v33 : GenP.V6 m (outsA m) c (Proc.devRef .tc main_v33) = pad S100x128 ![0, 0] ![0, 28] ![0, 0] (GenP.V5 m (outsA m) c (Proc.devRef .tc main_v32)) (sitofp .f32 (GenP.V5 m (outsA m) c (Proc.devRef .tc main_c_4))) pads_S100x100_S100x128_000_0280 h_S_ := by
  show StableHlo.after hostOps1_3 (GenP.V5 m (outsA m) c) (Proc.devRef .tc main_v33) = _
  after_results
  try rfl

theorem A_v32 : GenP.V5 m (outsA m) c (Proc.devRef .tc main_v32) = extractStridedSlice S100x100 ![0, 100] (GenP.V4 m (outsA m) c (Proc.devRef .tc main_v29)) slices_S100x300_S100x100_0_100 := by
  show StableHlo.after hostOps1_2 (GenP.V4 m (outsA m) c) (Proc.devRef .tc main_v32) = _
  after_results_simp
  try rfl

theorem C_v29_4_3 : GenP.V4 m (outsA m) c (Proc.devRef .tc main_v29) = GenP.V3 m (outsA m) c (Proc.devRef .tc main_v29) :=
  GenP.V4_of m (outsA m) c main_v29 (by decide)

theorem A_v29 : GenP.V3 m (outsA m) c (Proc.devRef .tc main_v29) = transpose S100x300 [1, 0] (GenP.V2 m (outsA m) c (Proc.devRef .tc main_arg6)) transposes_S300x100_S100x300_1_0 := by
  show StableHlo.after hostOps1 (GenP.V2 m (outsA m) c) (Proc.devRef .tc main_v29) = _
  after_results_simp
  try rfl

theorem A_v35 : GenP.V8 m (outsA m) c (Proc.devRef .tc main_v35) = pad S100x128 ![0, 0] ![0, 28] ![0, 0] (GenP.V7 m (outsA m) c (Proc.devRef .tc main_v34)) (sitofp .f32 (GenP.V7 m (outsA m) c (Proc.devRef .tc main_c_5))) pads_S100x100_S100x128_000_0280 h_S_ := by
  show StableHlo.after hostOps1_5 (GenP.V7 m (outsA m) c) (Proc.devRef .tc main_v35) = _
  after_results
  try rfl

theorem A_v34 : GenP.V7 m (outsA m) c (Proc.devRef .tc main_v34) = extractStridedSlice S100x100 ![0, 200] (GenP.V6 m (outsA m) c (Proc.devRef .tc main_v29)) slices_S100x300_S100x100_0_200 := by
  show StableHlo.after hostOps1_4 (GenP.V6 m (outsA m) c) (Proc.devRef .tc main_v34) = _
  after_results_simp
  try rfl

theorem C_v29_6_3 : GenP.V6 m (outsA m) c (Proc.devRef .tc main_v29) = GenP.V3 m (outsA m) c (Proc.devRef .tc main_v29) :=
  (GenP.V6_of m (outsA m) c main_v29 (by decide)).trans ((GenP.V5_of m (outsA m) c main_v29 (by decide)).trans (GenP.V4_of m (outsA m) c main_v29 (by decide)))

theorem C_v44_59_15 : GenP.V59 m (outsA m) c (Proc.devRef .tc main_v44) = GenP.V15 m (outsA m) c (Proc.devRef .tc main_v44) :=
  (GenP.V59_of m (outsA m) c main_v44 (by decide)).trans ((GenP.V58_of m (outsA m) c main_v44 (by decide)).trans ((GenP.V57_of m (outsA m) c main_v44 (by decide)).trans ((GenP.V56_of m (outsA m) c main_v44 (by decide)).trans ((GenP.V55_of m (outsA m) c main_v44 (by decide)).trans ((GenP.V54_of m (outsA m) c main_v44 (by decide)).trans ((GenP.V53_of m (outsA m) c main_v44 (by decide)).trans ((GenP.V52_of m (outsA m) c main_v44 (by decide)).trans ((GenP.V51_of m (outsA m) c main_v44 (by decide)).trans ((GenP.V50_of m (outsA m) c main_v44 (by decide)).trans ((GenP.V49_of m (outsA m) c main_v44 (by decide)).trans ((GenP.V48_of m (outsA m) c main_v44 (by decide)).trans ((GenP.V47_of m (outsA m) c main_v44 (by decide)).trans ((GenP.V46_of m (outsA m) c main_v44 (by decide)).trans ((GenP.V45_of m (outsA m) c main_v44 (by decide)).trans ((GenP.V44_of m (outsA m) c main_v44 (by decide)).trans ((GenP.V43_of m (outsA m) c main_v44 (by decide)).trans ((GenP.V42_of m (outsA m) c main_v44 (by decide)).trans ((GenP.V41_of m (outsA m) c main_v44 (by decide)).trans ((GenP.V40_of m (outsA m) c main_v44 (by decide)).trans ((GenP.V39_of m (outsA m) c main_v44 (by decide)).trans ((GenP.V38_of m (outsA m) c main_v44 (by decide)).trans ((GenP.V37_of m (outsA m) c main_v44 (by decide)).trans ((GenP.V36_of m (outsA m) c main_v44 (by decide)).trans ((GenP.V35_of m (outsA m) c main_v44 (by decide)).trans ((GenP.V34_of m (outsA m) c main_v44 (by decide)).trans ((GenP.V33_of m (outsA m) c main_v44 (by decide)).trans ((GenP.V32_of m (outsA m) c main_v44 (by decide)).trans ((GenP.V31_of m (outsA m) c main_v44 (by decide)).trans ((GenP.V30_of m (outsA m) c main_v44 (by decide)).trans ((GenP.V29_of m (outsA m) c main_v44 (by decide)).trans ((GenP.V28_of m (outsA m) c main_v44 (by decide)).trans ((GenP.V27_of m (outsA m) c main_v44 (by decide)).trans ((GenP.V26_of m (outsA m) c main_v44 (by decide)).trans ((GenP.V25_of m (outsA m) c main_v44 (by decide)).trans ((GenP.V24_of m (outsA m) c main_v44 (by decide)).trans ((GenP.V23_of m (outsA m) c main_v44 (by decide)).trans ((GenP.V22_of m (outsA m) c main_v44 (by decide)).trans ((GenP.V21_of m (outsA m) c main_v44 (by decide)).trans ((GenP.V20_of m (outsA m) c main_v44 (by decide)).trans ((GenP.V19_of m (outsA m) c main_v44 (by decide)).trans ((GenP.V18_of m (outsA m) c main_v44 (by decide)).trans ((GenP.V17_of m (outsA m) c main_v44 (by decide)).trans (GenP.V16_of m (outsA m) c main_v44 (by decide))))))))))))))))))))))))))))))))))))))))))))

theorem A_v44 : GenP.V15 m (outsA m) c (Proc.devRef .tc main_v44) = concatenate S100x384 1 [⟨S100x128, GenP.V14 m (outsA m) c (Proc.devRef .tc main_v39)⟩, ⟨S100x128, GenP.V14 m (outsA m) c (Proc.devRef .tc main_v41)⟩, ⟨S100x128, GenP.V14 m (outsA m) c (Proc.devRef .tc main_v43)⟩] concatenates_S100x128_S100x128_S100x128_S100x384_d1 := by
  show StableHlo.after hostOps1_12 (GenP.V14 m (outsA m) c) (Proc.devRef .tc main_v44) = _
  after_results_simp
  try rfl

theorem C_v39_14_10 : GenP.V14 m (outsA m) c (Proc.devRef .tc main_v39) = GenP.V10 m (outsA m) c (Proc.devRef .tc main_v39) :=
  (GenP.V14_of m (outsA m) c main_v39 (by decide)).trans ((GenP.V13_of m (outsA m) c main_v39 (by decide)).trans ((GenP.V12_of m (outsA m) c main_v39 (by decide)).trans (GenP.V11_of m (outsA m) c main_v39 (by decide))))

theorem A_v39 : GenP.V10 m (outsA m) c (Proc.devRef .tc main_v39) = pad S100x128 ![0, 0] ![0, 28] ![0, 0] (GenP.V9 m (outsA m) c (Proc.devRef .tc main_v38)) (sitofp .f32 (GenP.V9 m (outsA m) c (Proc.devRef .tc main_c_6))) pads_S100x100_S100x128_000_0280 h_S_ := by
  show StableHlo.after hostOps1_7 (GenP.V9 m (outsA m) c) (Proc.devRef .tc main_v39) = _
  after_results
  try rfl

theorem A_v38 : GenP.V9 m (outsA m) c (Proc.devRef .tc main_v38) = extractStridedSlice S100x100 ![0, 0] (transpose S100x300 [1, 0] (GenP.V8 m (outsA m) c (Proc.devRef .tc main_arg7)) transposes_S300x100_S100x300_1_0) slices_S100x300_S100x100_0_0 := by
  show StableHlo.after hostOps1_6 (GenP.V8 m (outsA m) c) (Proc.devRef .tc main_v38) = _
  after_results_simp
  try rfl

theorem C_arg7_8_0 : GenP.V8 m (outsA m) c (Proc.devRef .tc main_arg7) = GenP.V0 m c (Proc.devRef .tc main_arg7) :=
  (GenP.V8_of m (outsA m) c main_arg7 (by decide)).trans ((GenP.V7_of m (outsA m) c main_arg7 (by decide)).trans ((GenP.V6_of m (outsA m) c main_arg7 (by decide)).trans ((GenP.V5_of m (outsA m) c main_arg7 (by decide)).trans ((GenP.V4_of m (outsA m) c main_arg7 (by decide)).trans ((GenP.V3_of m (outsA m) c main_arg7 (by decide)).trans ((GenP.V2_of m (outsA m) c main_arg7 (by decide)).trans (GenP.V1_of m c main_arg7 (by decide))))))))

theorem C_v41_14_12 : GenP.V14 m (outsA m) c (Proc.devRef .tc main_v41) = GenP.V12 m (outsA m) c (Proc.devRef .tc main_v41) :=
  (GenP.V14_of m (outsA m) c main_v41 (by decide)).trans (GenP.V13_of m (outsA m) c main_v41 (by decide))

theorem A_v41 : GenP.V12 m (outsA m) c (Proc.devRef .tc main_v41) = pad S100x128 ![0, 0] ![0, 28] ![0, 0] (GenP.V11 m (outsA m) c (Proc.devRef .tc main_v40)) (sitofp .f32 (GenP.V11 m (outsA m) c (Proc.devRef .tc main_c_7))) pads_S100x100_S100x128_000_0280 h_S_ := by
  show StableHlo.after hostOps1_9 (GenP.V11 m (outsA m) c) (Proc.devRef .tc main_v41) = _
  after_results
  try rfl

theorem A_v40 : GenP.V11 m (outsA m) c (Proc.devRef .tc main_v40) = extractStridedSlice S100x100 ![0, 100] (GenP.V10 m (outsA m) c (Proc.devRef .tc main_v37)) slices_S100x300_S100x100_0_100 := by
  show StableHlo.after hostOps1_8 (GenP.V10 m (outsA m) c) (Proc.devRef .tc main_v40) = _
  after_results_simp
  try rfl

theorem C_v37_10_9 : GenP.V10 m (outsA m) c (Proc.devRef .tc main_v37) = GenP.V9 m (outsA m) c (Proc.devRef .tc main_v37) :=
  GenP.V10_of m (outsA m) c main_v37 (by decide)

theorem A_v37 : GenP.V9 m (outsA m) c (Proc.devRef .tc main_v37) = transpose S100x300 [1, 0] (GenP.V8 m (outsA m) c (Proc.devRef .tc main_arg7)) transposes_S300x100_S100x300_1_0 := by
  show StableHlo.after hostOps1_6 (GenP.V8 m (outsA m) c) (Proc.devRef .tc main_v37) = _
  after_results_simp
  try rfl

theorem A_v43 : GenP.V14 m (outsA m) c (Proc.devRef .tc main_v43) = pad S100x128 ![0, 0] ![0, 28] ![0, 0] (GenP.V13 m (outsA m) c (Proc.devRef .tc main_v42)) (sitofp .f32 (GenP.V13 m (outsA m) c (Proc.devRef .tc main_c_8))) pads_S100x100_S100x128_000_0280 h_S_ := by
  show StableHlo.after hostOps1_11 (GenP.V13 m (outsA m) c) (Proc.devRef .tc main_v43) = _
  after_results
  try rfl

theorem A_v42 : GenP.V13 m (outsA m) c (Proc.devRef .tc main_v42) = extractStridedSlice S100x100 ![0, 200] (GenP.V12 m (outsA m) c (Proc.devRef .tc main_v37)) slices_S100x300_S100x100_0_200 := by
  show StableHlo.after hostOps1_10 (GenP.V12 m (outsA m) c) (Proc.devRef .tc main_v42) = _
  after_results_simp
  try rfl

theorem C_v37_12_9 : GenP.V12 m (outsA m) c (Proc.devRef .tc main_v37) = GenP.V9 m (outsA m) c (Proc.devRef .tc main_v37) :=
  (GenP.V12_of m (outsA m) c main_v37 (by decide)).trans ((GenP.V11_of m (outsA m) c main_v37 (by decide)).trans (GenP.V10_of m (outsA m) c main_v37 (by decide)))

theorem C_v52_59_21 : GenP.V59 m (outsA m) c (Proc.devRef .tc main_v52) = GenP.V21 m (outsA m) c (Proc.devRef .tc main_v52) :=
  (GenP.V59_of m (outsA m) c main_v52 (by decide)).trans ((GenP.V58_of m (outsA m) c main_v52 (by decide)).trans ((GenP.V57_of m (outsA m) c main_v52 (by decide)).trans ((GenP.V56_of m (outsA m) c main_v52 (by decide)).trans ((GenP.V55_of m (outsA m) c main_v52 (by decide)).trans ((GenP.V54_of m (outsA m) c main_v52 (by decide)).trans ((GenP.V53_of m (outsA m) c main_v52 (by decide)).trans ((GenP.V52_of m (outsA m) c main_v52 (by decide)).trans ((GenP.V51_of m (outsA m) c main_v52 (by decide)).trans ((GenP.V50_of m (outsA m) c main_v52 (by decide)).trans ((GenP.V49_of m (outsA m) c main_v52 (by decide)).trans ((GenP.V48_of m (outsA m) c main_v52 (by decide)).trans ((GenP.V47_of m (outsA m) c main_v52 (by decide)).trans ((GenP.V46_of m (outsA m) c main_v52 (by decide)).trans ((GenP.V45_of m (outsA m) c main_v52 (by decide)).trans ((GenP.V44_of m (outsA m) c main_v52 (by decide)).trans ((GenP.V43_of m (outsA m) c main_v52 (by decide)).trans ((GenP.V42_of m (outsA m) c main_v52 (by decide)).trans ((GenP.V41_of m (outsA m) c main_v52 (by decide)).trans ((GenP.V40_of m (outsA m) c main_v52 (by decide)).trans ((GenP.V39_of m (outsA m) c main_v52 (by decide)).trans ((GenP.V38_of m (outsA m) c main_v52 (by decide)).trans ((GenP.V37_of m (outsA m) c main_v52 (by decide)).trans ((GenP.V36_of m (outsA m) c main_v52 (by decide)).trans ((GenP.V35_of m (outsA m) c main_v52 (by decide)).trans ((GenP.V34_of m (outsA m) c main_v52 (by decide)).trans ((GenP.V33_of m (outsA m) c main_v52 (by decide)).trans ((GenP.V32_of m (outsA m) c main_v52 (by decide)).trans ((GenP.V31_of m (outsA m) c main_v52 (by decide)).trans ((GenP.V30_of m (outsA m) c main_v52 (by decide)).trans ((GenP.V29_of m (outsA m) c main_v52 (by decide)).trans ((GenP.V28_of m (outsA m) c main_v52 (by decide)).trans ((GenP.V27_of m (outsA m) c main_v52 (by decide)).trans ((GenP.V26_of m (outsA m) c main_v52 (by decide)).trans ((GenP.V25_of m (outsA m) c main_v52 (by decide)).trans ((GenP.V24_of m (outsA m) c main_v52 (by decide)).trans ((GenP.V23_of m (outsA m) c main_v52 (by decide)).trans (GenP.V22_of m (outsA m) c main_v52 (by decide))))))))))))))))))))))))))))))))))))))

theorem A_v52 : GenP.V21 m (outsA m) c (Proc.devRef .tc main_v52) = concatenate S1x384 1 [⟨S1x128, GenP.V20 m (outsA m) c (Proc.devRef .tc main_v47)⟩, ⟨S1x128, GenP.V20 m (outsA m) c (Proc.devRef .tc main_v49)⟩, ⟨S1x128, GenP.V20 m (outsA m) c (Proc.devRef .tc main_v51)⟩] concatenates_S1x128_S1x128_S1x128_S1x384_d1 := by
  show StableHlo.after hostOps1_18 (GenP.V20 m (outsA m) c) (Proc.devRef .tc main_v52) = _
  after_results_simp
  try rfl

theorem C_v47_20_16 : GenP.V20 m (outsA m) c (Proc.devRef .tc main_v47) = GenP.V16 m (outsA m) c (Proc.devRef .tc main_v47) :=
  (GenP.V20_of m (outsA m) c main_v47 (by decide)).trans ((GenP.V19_of m (outsA m) c main_v47 (by decide)).trans ((GenP.V18_of m (outsA m) c main_v47 (by decide)).trans (GenP.V17_of m (outsA m) c main_v47 (by decide))))

theorem A_v47 : GenP.V16 m (outsA m) c (Proc.devRef .tc main_v47) = pad S1x128 ![0, 0] ![0, 28] ![0, 0] (GenP.V15 m (outsA m) c (Proc.devRef .tc main_v46)) (sitofp .f32 (GenP.V15 m (outsA m) c (Proc.devRef .tc main_c_9))) pads_S1x100_S1x128_000_0280 h_S_ := by
  show StableHlo.after hostOps1_13 (GenP.V15 m (outsA m) c) (Proc.devRef .tc main_v47) = _
  after_results
  try rfl

theorem A_v46 : GenP.V15 m (outsA m) c (Proc.devRef .tc main_v46) = extractStridedSlice S1x100 ![0, 0] (shapeCast _ (GenP.V14 m (outsA m) c (Proc.devRef .tc main_arg8)) shapeCasts_S300_S1x300) slices_S1x300_S1x100_0_0 := by
  show StableHlo.after hostOps1_12 (GenP.V14 m (outsA m) c) (Proc.devRef .tc main_v46) = _
  after_results_simp
  try rfl

theorem C_arg8_14_0 : GenP.V14 m (outsA m) c (Proc.devRef .tc main_arg8) = GenP.V0 m c (Proc.devRef .tc main_arg8) :=
  (GenP.V14_of m (outsA m) c main_arg8 (by decide)).trans ((GenP.V13_of m (outsA m) c main_arg8 (by decide)).trans ((GenP.V12_of m (outsA m) c main_arg8 (by decide)).trans ((GenP.V11_of m (outsA m) c main_arg8 (by decide)).trans ((GenP.V10_of m (outsA m) c main_arg8 (by decide)).trans ((GenP.V9_of m (outsA m) c main_arg8 (by decide)).trans ((GenP.V8_of m (outsA m) c main_arg8 (by decide)).trans ((GenP.V7_of m (outsA m) c main_arg8 (by decide)).trans ((GenP.V6_of m (outsA m) c main_arg8 (by decide)).trans ((GenP.V5_of m (outsA m) c main_arg8 (by decide)).trans ((GenP.V4_of m (outsA m) c main_arg8 (by decide)).trans ((GenP.V3_of m (outsA m) c main_arg8 (by decide)).trans ((GenP.V2_of m (outsA m) c main_arg8 (by decide)).trans (GenP.V1_of m c main_arg8 (by decide))))))))))))))

theorem C_v49_20_18 : GenP.V20 m (outsA m) c (Proc.devRef .tc main_v49) = GenP.V18 m (outsA m) c (Proc.devRef .tc main_v49) :=
  (GenP.V20_of m (outsA m) c main_v49 (by decide)).trans (GenP.V19_of m (outsA m) c main_v49 (by decide))

theorem A_v49 : GenP.V18 m (outsA m) c (Proc.devRef .tc main_v49) = pad S1x128 ![0, 0] ![0, 28] ![0, 0] (GenP.V17 m (outsA m) c (Proc.devRef .tc main_v48)) (sitofp .f32 (GenP.V17 m (outsA m) c (Proc.devRef .tc main_c_10))) pads_S1x100_S1x128_000_0280 h_S_ := by
  show StableHlo.after hostOps1_15 (GenP.V17 m (outsA m) c) (Proc.devRef .tc main_v49) = _
  after_results
  try rfl

theorem A_v48 : GenP.V17 m (outsA m) c (Proc.devRef .tc main_v48) = extractStridedSlice S1x100 ![0, 100] (GenP.V16 m (outsA m) c (Proc.devRef .tc main_v45)) slices_S1x300_S1x100_0_100 := by
  show StableHlo.after hostOps1_14 (GenP.V16 m (outsA m) c) (Proc.devRef .tc main_v48) = _
  after_results_simp
  try rfl

theorem C_v45_16_15 : GenP.V16 m (outsA m) c (Proc.devRef .tc main_v45) = GenP.V15 m (outsA m) c (Proc.devRef .tc main_v45) :=
  GenP.V16_of m (outsA m) c main_v45 (by decide)

theorem A_v45 : GenP.V15 m (outsA m) c (Proc.devRef .tc main_v45) = shapeCast _ (GenP.V14 m (outsA m) c (Proc.devRef .tc main_arg8)) shapeCasts_S300_S1x300 := by
  show StableHlo.after hostOps1_12 (GenP.V14 m (outsA m) c) (Proc.devRef .tc main_v45) = _
  after_results_simp
  try rfl

theorem A_v51 : GenP.V20 m (outsA m) c (Proc.devRef .tc main_v51) = pad S1x128 ![0, 0] ![0, 28] ![0, 0] (GenP.V19 m (outsA m) c (Proc.devRef .tc main_v50)) (sitofp .f32 (GenP.V19 m (outsA m) c (Proc.devRef .tc main_c_11))) pads_S1x100_S1x128_000_0280 h_S_ := by
  show StableHlo.after hostOps1_17 (GenP.V19 m (outsA m) c) (Proc.devRef .tc main_v51) = _
  after_results
  try rfl

theorem A_v50 : GenP.V19 m (outsA m) c (Proc.devRef .tc main_v50) = extractStridedSlice S1x100 ![0, 200] (GenP.V18 m (outsA m) c (Proc.devRef .tc main_v45)) slices_S1x300_S1x100_0_200 := by
  show StableHlo.after hostOps1_16 (GenP.V18 m (outsA m) c) (Proc.devRef .tc main_v50) = _
  after_results_simp
  try rfl

theorem C_v45_18_15 : GenP.V18 m (outsA m) c (Proc.devRef .tc main_v45) = GenP.V15 m (outsA m) c (Proc.devRef .tc main_v45) :=
  (GenP.V18_of m (outsA m) c main_v45 (by decide)).trans ((GenP.V17_of m (outsA m) c main_v45 (by decide)).trans (GenP.V16_of m (outsA m) c main_v45 (by decide)))

theorem C_v60_59_27 : GenP.V59 m (outsA m) c (Proc.devRef .tc main_v60) = GenP.V27 m (outsA m) c (Proc.devRef .tc main_v60) :=
  (GenP.V59_of m (outsA m) c main_v60 (by decide)).trans ((GenP.V58_of m (outsA m) c main_v60 (by decide)).trans ((GenP.V57_of m (outsA m) c main_v60 (by decide)).trans ((GenP.V56_of m (outsA m) c main_v60 (by decide)).trans ((GenP.V55_of m (outsA m) c main_v60 (by decide)).trans ((GenP.V54_of m (outsA m) c main_v60 (by decide)).trans ((GenP.V53_of m (outsA m) c main_v60 (by decide)).trans ((GenP.V52_of m (outsA m) c main_v60 (by decide)).trans ((GenP.V51_of m (outsA m) c main_v60 (by decide)).trans ((GenP.V50_of m (outsA m) c main_v60 (by decide)).trans ((GenP.V49_of m (outsA m) c main_v60 (by decide)).trans ((GenP.V48_of m (outsA m) c main_v60 (by decide)).trans ((GenP.V47_of m (outsA m) c main_v60 (by decide)).trans ((GenP.V46_of m (outsA m) c main_v60 (by decide)).trans ((GenP.V45_of m (outsA m) c main_v60 (by decide)).trans ((GenP.V44_of m (outsA m) c main_v60 (by decide)).trans ((GenP.V43_of m (outsA m) c main_v60 (by decide)).trans ((GenP.V42_of m (outsA m) c main_v60 (by decide)).trans ((GenP.V41_of m (outsA m) c main_v60 (by decide)).trans ((GenP.V40_of m (outsA m) c main_v60 (by decide)).trans ((GenP.V39_of m (outsA m) c main_v60 (by decide)).trans ((GenP.V38_of m (outsA m) c main_v60 (by decide)).trans ((GenP.V37_of m (outsA m) c main_v60 (by decide)).trans ((GenP.V36_of m (outsA m) c main_v60 (by decide)).trans ((GenP.V35_of m (outsA m) c main_v60 (by decide)).trans ((GenP.V34_of m (outsA m) c main_v60 (by decide)).trans ((GenP.V33_of m (outsA m) c main_v60 (by decide)).trans ((GenP.V32_of m (outsA m) c main_v60 (by decide)).trans ((GenP.V31_of m (outsA m) c main_v60 (by decide)).trans ((GenP.V30_of m (outsA m) c main_v60 (by decide)).trans ((GenP.V29_of m (outsA m) c main_v60 (by decide)).trans (GenP.V28_of m (outsA m) c main_v60 (by decide))))))))))))))))))))))))))))))))

theorem A_v60 : GenP.V27 m (outsA m) c (Proc.devRef .tc main_v60) = concatenate S1x384 1 [⟨S1x128, GenP.V26 m (outsA m) c (Proc.devRef .tc main_v55)⟩, ⟨S1x128, GenP.V26 m (outsA m) c (Proc.devRef .tc main_v57)⟩, ⟨S1x128, GenP.V26 m (outsA m) c (Proc.devRef .tc main_v59)⟩] concatenates_S1x128_S1x128_S1x128_S1x384_d1 := by
  show StableHlo.after hostOps1_24 (GenP.V26 m (outsA m) c) (Proc.devRef .tc main_v60) = _
  after_results_simp
  try rfl

theorem C_v55_26_22 : GenP.V26 m (outsA m) c (Proc.devRef .tc main_v55) = GenP.V22 m (outsA m) c (Proc.devRef .tc main_v55) :=
  (GenP.V26_of m (outsA m) c main_v55 (by decide)).trans ((GenP.V25_of m (outsA m) c main_v55 (by decide)).trans ((GenP.V24_of m (outsA m) c main_v55 (by decide)).trans (GenP.V23_of m (outsA m) c main_v55 (by decide))))

theorem A_v55 : GenP.V22 m (outsA m) c (Proc.devRef .tc main_v55) = pad S1x128 ![0, 0] ![0, 28] ![0, 0] (GenP.V21 m (outsA m) c (Proc.devRef .tc main_v54)) (sitofp .f32 (GenP.V21 m (outsA m) c (Proc.devRef .tc main_c_12))) pads_S1x100_S1x128_000_0280 h_S_ := by
  show StableHlo.after hostOps1_19 (GenP.V21 m (outsA m) c) (Proc.devRef .tc main_v55) = _
  after_results
  try rfl

theorem A_v54 : GenP.V21 m (outsA m) c (Proc.devRef .tc main_v54) = extractStridedSlice S1x100 ![0, 0] (shapeCast _ (GenP.V20 m (outsA m) c (Proc.devRef .tc main_arg9)) shapeCasts_S300_S1x300) slices_S1x300_S1x100_0_0 := by
  show StableHlo.after hostOps1_18 (GenP.V20 m (outsA m) c) (Proc.devRef .tc main_v54) = _
  after_results_simp
  try rfl

theorem C_arg9_20_0 : GenP.V20 m (outsA m) c (Proc.devRef .tc main_arg9) = GenP.V0 m c (Proc.devRef .tc main_arg9) :=
  (GenP.V20_of m (outsA m) c main_arg9 (by decide)).trans ((GenP.V19_of m (outsA m) c main_arg9 (by decide)).trans ((GenP.V18_of m (outsA m) c main_arg9 (by decide)).trans ((GenP.V17_of m (outsA m) c main_arg9 (by decide)).trans ((GenP.V16_of m (outsA m) c main_arg9 (by decide)).trans ((GenP.V15_of m (outsA m) c main_arg9 (by decide)).trans ((GenP.V14_of m (outsA m) c main_arg9 (by decide)).trans ((GenP.V13_of m (outsA m) c main_arg9 (by decide)).trans ((GenP.V12_of m (outsA m) c main_arg9 (by decide)).trans ((GenP.V11_of m (outsA m) c main_arg9 (by decide)).trans ((GenP.V10_of m (outsA m) c main_arg9 (by decide)).trans ((GenP.V9_of m (outsA m) c main_arg9 (by decide)).trans ((GenP.V8_of m (outsA m) c main_arg9 (by decide)).trans ((GenP.V7_of m (outsA m) c main_arg9 (by decide)).trans ((GenP.V6_of m (outsA m) c main_arg9 (by decide)).trans ((GenP.V5_of m (outsA m) c main_arg9 (by decide)).trans ((GenP.V4_of m (outsA m) c main_arg9 (by decide)).trans ((GenP.V3_of m (outsA m) c main_arg9 (by decide)).trans ((GenP.V2_of m (outsA m) c main_arg9 (by decide)).trans (GenP.V1_of m c main_arg9 (by decide))))))))))))))))))))

theorem C_v57_26_24 : GenP.V26 m (outsA m) c (Proc.devRef .tc main_v57) = GenP.V24 m (outsA m) c (Proc.devRef .tc main_v57) :=
  (GenP.V26_of m (outsA m) c main_v57 (by decide)).trans (GenP.V25_of m (outsA m) c main_v57 (by decide))

theorem A_v57 : GenP.V24 m (outsA m) c (Proc.devRef .tc main_v57) = pad S1x128 ![0, 0] ![0, 28] ![0, 0] (GenP.V23 m (outsA m) c (Proc.devRef .tc main_v56)) (sitofp .f32 (GenP.V23 m (outsA m) c (Proc.devRef .tc main_c_13))) pads_S1x100_S1x128_000_0280 h_S_ := by
  show StableHlo.after hostOps1_21 (GenP.V23 m (outsA m) c) (Proc.devRef .tc main_v57) = _
  after_results
  try rfl

theorem A_v56 : GenP.V23 m (outsA m) c (Proc.devRef .tc main_v56) = extractStridedSlice S1x100 ![0, 100] (GenP.V22 m (outsA m) c (Proc.devRef .tc main_v53)) slices_S1x300_S1x100_0_100 := by
  show StableHlo.after hostOps1_20 (GenP.V22 m (outsA m) c) (Proc.devRef .tc main_v56) = _
  after_results_simp
  try rfl

theorem C_v53_22_21 : GenP.V22 m (outsA m) c (Proc.devRef .tc main_v53) = GenP.V21 m (outsA m) c (Proc.devRef .tc main_v53) :=
  GenP.V22_of m (outsA m) c main_v53 (by decide)

theorem A_v53 : GenP.V21 m (outsA m) c (Proc.devRef .tc main_v53) = shapeCast _ (GenP.V20 m (outsA m) c (Proc.devRef .tc main_arg9)) shapeCasts_S300_S1x300 := by
  show StableHlo.after hostOps1_18 (GenP.V20 m (outsA m) c) (Proc.devRef .tc main_v53) = _
  after_results_simp
  try rfl

theorem A_v59 : GenP.V26 m (outsA m) c (Proc.devRef .tc main_v59) = pad S1x128 ![0, 0] ![0, 28] ![0, 0] (GenP.V25 m (outsA m) c (Proc.devRef .tc main_v58)) (sitofp .f32 (GenP.V25 m (outsA m) c (Proc.devRef .tc main_c_14))) pads_S1x100_S1x128_000_0280 h_S_ := by
  show StableHlo.after hostOps1_23 (GenP.V25 m (outsA m) c) (Proc.devRef .tc main_v59) = _
  after_results
  try rfl

theorem A_v58 : GenP.V25 m (outsA m) c (Proc.devRef .tc main_v58) = extractStridedSlice S1x100 ![0, 200] (GenP.V24 m (outsA m) c (Proc.devRef .tc main_v53)) slices_S1x300_S1x100_0_200 := by
  show StableHlo.after hostOps1_22 (GenP.V24 m (outsA m) c) (Proc.devRef .tc main_v58) = _
  after_results_simp
  try rfl

theorem C_v53_24_21 : GenP.V24 m (outsA m) c (Proc.devRef .tc main_v53) = GenP.V21 m (outsA m) c (Proc.devRef .tc main_v53) :=
  (GenP.V24_of m (outsA m) c main_v53 (by decide)).trans ((GenP.V23_of m (outsA m) c main_v53 (by decide)).trans (GenP.V22_of m (outsA m) c main_v53 (by decide)))

theorem C_v70_59_35 : GenP.V59 m (outsA m) c (Proc.devRef .tc main_v70) = GenP.V35 m (outsA m) c (Proc.devRef .tc main_v70) :=
  (GenP.V59_of m (outsA m) c main_v70 (by decide)).trans ((GenP.V58_of m (outsA m) c main_v70 (by decide)).trans ((GenP.V57_of m (outsA m) c main_v70 (by decide)).trans ((GenP.V56_of m (outsA m) c main_v70 (by decide)).trans ((GenP.V55_of m (outsA m) c main_v70 (by decide)).trans ((GenP.V54_of m (outsA m) c main_v70 (by decide)).trans ((GenP.V53_of m (outsA m) c main_v70 (by decide)).trans ((GenP.V52_of m (outsA m) c main_v70 (by decide)).trans ((GenP.V51_of m (outsA m) c main_v70 (by decide)).trans ((GenP.V50_of m (outsA m) c main_v70 (by decide)).trans ((GenP.V49_of m (outsA m) c main_v70 (by decide)).trans ((GenP.V48_of m (outsA m) c main_v70 (by decide)).trans ((GenP.V47_of m (outsA m) c main_v70 (by decide)).trans ((GenP.V46_of m (outsA m) c main_v70 (by decide)).trans ((GenP.V45_of m (outsA m) c main_v70 (by decide)).trans ((GenP.V44_of m (outsA m) c main_v70 (by decide)).trans ((GenP.V43_of m (outsA m) c main_v70 (by decide)).trans ((GenP.V42_of m (outsA m) c main_v70 (by decide)).trans ((GenP.V41_of m (outsA m) c main_v70 (by decide)).trans ((GenP.V40_of m (outsA m) c main_v70 (by decide)).trans ((GenP.V39_of m (outsA m) c main_v70 (by decide)).trans ((GenP.V38_of m (outsA m) c main_v70 (by decide)).trans ((GenP.V37_of m (outsA m) c main_v70 (by decide)).trans (GenP.V36_of m (outsA m) c main_v70 (by decide))))))))))))))))))))))))

theorem A_v70 : GenP.V35 m (outsA m) c (Proc.devRef .tc main_v70) = concatenate S100x512 1 [⟨S100x128, GenP.V34 m (outsA m) c (Proc.devRef .tc main_v63)⟩, ⟨S100x128, GenP.V34 m (outsA m) c (Proc.devRef .tc main_v65)⟩, ⟨S100x128, GenP.V34 m (outsA m) c (Proc.devRef .tc main_v67)⟩, ⟨S100x128, GenP.V34 m (outsA m) c (Proc.devRef .tc main_v69)⟩] concatenates_S100x128_S100x128_S100x128_S100x128_S100x512_d1 := by
  show StableHlo.after hostOps1_32 (GenP.V34 m (outsA m) c) (Proc.devRef .tc main_v70) = _
  after_results_simp
  try rfl

theorem C_v63_34_28 : GenP.V34 m (outsA m) c (Proc.devRef .tc main_v63) = GenP.V28 m (outsA m) c (Proc.devRef .tc main_v63) :=
  (GenP.V34_of m (outsA m) c main_v63 (by decide)).trans ((GenP.V33_of m (outsA m) c main_v63 (by decide)).trans ((GenP.V32_of m (outsA m) c main_v63 (by decide)).trans ((GenP.V31_of m (outsA m) c main_v63 (by decide)).trans ((GenP.V30_of m (outsA m) c main_v63 (by decide)).trans (GenP.V29_of m (outsA m) c main_v63 (by decide))))))

theorem A_v63 : GenP.V28 m (outsA m) c (Proc.devRef .tc main_v63) = pad S100x128 ![0, 0] ![0, 64] ![0, 0] (GenP.V27 m (outsA m) c (Proc.devRef .tc main_v62)) (sitofp .f32 (GenP.V27 m (outsA m) c (Proc.devRef .tc main_c_15))) pads_S100x64_S100x128_000_0640 h_S_ := by
  show StableHlo.after hostOps1_25 (GenP.V27 m (outsA m) c) (Proc.devRef .tc main_v63) = _
  after_results
  try rfl

theorem A_v62 : GenP.V27 m (outsA m) c (Proc.devRef .tc main_v62) = extractStridedSlice S100x64 ![0, 0] (transpose S100x256 [1, 0] (GenP.V26 m (outsA m) c (Proc.devRef .tc main_arg10)) transposes_S256x100_S100x256_1_0) slices_S100x256_S100x64_0_0 := by
  show StableHlo.after hostOps1_24 (GenP.V26 m (outsA m) c) (Proc.devRef .tc main_v62) = _
  after_results_simp
  try rfl

theorem C_arg10_26_0 : GenP.V26 m (outsA m) c (Proc.devRef .tc main_arg10) = GenP.V0 m c (Proc.devRef .tc main_arg10) :=
  (GenP.V26_of m (outsA m) c main_arg10 (by decide)).trans ((GenP.V25_of m (outsA m) c main_arg10 (by decide)).trans ((GenP.V24_of m (outsA m) c main_arg10 (by decide)).trans ((GenP.V23_of m (outsA m) c main_arg10 (by decide)).trans ((GenP.V22_of m (outsA m) c main_arg10 (by decide)).trans ((GenP.V21_of m (outsA m) c main_arg10 (by decide)).trans ((GenP.V20_of m (outsA m) c main_arg10 (by decide)).trans ((GenP.V19_of m (outsA m) c main_arg10 (by decide)).trans ((GenP.V18_of m (outsA m) c main_arg10 (by decide)).trans ((GenP.V17_of m (outsA m) c main_arg10 (by decide)).trans ((GenP.V16_of m (outsA m) c main_arg10 (by decide)).trans ((GenP.V15_of m (outsA m) c main_arg10 (by decide)).trans ((GenP.V14_of m (outsA m) c main_arg10 (by decide)).trans ((GenP.V13_of m (outsA m) c main_arg10 (by decide)).trans ((GenP.V12_of m (outsA m) c main_arg10 (by decide)).trans ((GenP.V11_of m (outsA m) c main_arg10 (by decide)).trans ((GenP.V10_of m (outsA m) c main_arg10 (by decide)).trans ((GenP.V9_of m (outsA m) c main_arg10 (by decide)).trans ((GenP.V8_of m (outsA m) c main_arg10 (by decide)).trans ((GenP.V7_of m (outsA m) c main_arg10 (by decide)).trans ((GenP.V6_of m (outsA m) c main_arg10 (by decide)).trans ((GenP.V5_of m (outsA m) c main_arg10 (by decide)).trans ((GenP.V4_of m (outsA m) c main_arg10 (by decide)).trans ((GenP.V3_of m (outsA m) c main_arg10 (by decide)).trans ((GenP.V2_of m (outsA m) c main_arg10 (by decide)).trans (GenP.V1_of m c main_arg10 (by decide))))))))))))))))))))))))))

theorem C_v65_34_30 : GenP.V34 m (outsA m) c (Proc.devRef .tc main_v65) = GenP.V30 m (outsA m) c (Proc.devRef .tc main_v65) :=
  (GenP.V34_of m (outsA m) c main_v65 (by decide)).trans ((GenP.V33_of m (outsA m) c main_v65 (by decide)).trans ((GenP.V32_of m (outsA m) c main_v65 (by decide)).trans (GenP.V31_of m (outsA m) c main_v65 (by decide))))

theorem A_v65 : GenP.V30 m (outsA m) c (Proc.devRef .tc main_v65) = pad S100x128 ![0, 0] ![0, 64] ![0, 0] (GenP.V29 m (outsA m) c (Proc.devRef .tc main_v64)) (sitofp .f32 (GenP.V29 m (outsA m) c (Proc.devRef .tc main_c_16))) pads_S100x64_S100x128_000_0640 h_S_ := by
  show StableHlo.after hostOps1_27 (GenP.V29 m (outsA m) c) (Proc.devRef .tc main_v65) = _
  after_results
  try rfl

theorem A_v64 : GenP.V29 m (outsA m) c (Proc.devRef .tc main_v64) = extractStridedSlice S100x64 ![0, 64] (GenP.V28 m (outsA m) c (Proc.devRef .tc main_v61)) slices_S100x256_S100x64_0_64 := by
  show StableHlo.after hostOps1_26 (GenP.V28 m (outsA m) c) (Proc.devRef .tc main_v64) = _
  after_results_simp
  try rfl

theorem C_v61_28_27 : GenP.V28 m (outsA m) c (Proc.devRef .tc main_v61) = GenP.V27 m (outsA m) c (Proc.devRef .tc main_v61) :=
  GenP.V28_of m (outsA m) c main_v61 (by decide)

theorem A_v61 : GenP.V27 m (outsA m) c (Proc.devRef .tc main_v61) = transpose S100x256 [1, 0] (GenP.V26 m (outsA m) c (Proc.devRef .tc main_arg10)) transposes_S256x100_S100x256_1_0 := by
  show StableHlo.after hostOps1_24 (GenP.V26 m (outsA m) c) (Proc.devRef .tc main_v61) = _
  after_results_simp
  try rfl

theorem C_v67_34_32 : GenP.V34 m (outsA m) c (Proc.devRef .tc main_v67) = GenP.V32 m (outsA m) c (Proc.devRef .tc main_v67) :=
  (GenP.V34_of m (outsA m) c main_v67 (by decide)).trans (GenP.V33_of m (outsA m) c main_v67 (by decide))

theorem A_v67 : GenP.V32 m (outsA m) c (Proc.devRef .tc main_v67) = pad S100x128 ![0, 0] ![0, 64] ![0, 0] (GenP.V31 m (outsA m) c (Proc.devRef .tc main_v66)) (sitofp .f32 (GenP.V31 m (outsA m) c (Proc.devRef .tc main_c_17))) pads_S100x64_S100x128_000_0640 h_S_ := by
  show StableHlo.after hostOps1_29 (GenP.V31 m (outsA m) c) (Proc.devRef .tc main_v67) = _
  after_results
  try rfl

theorem A_v66 : GenP.V31 m (outsA m) c (Proc.devRef .tc main_v66) = extractStridedSlice S100x64 ![0, 128] (GenP.V30 m (outsA m) c (Proc.devRef .tc main_v61)) slices_S100x256_S100x64_0_128 := by
  show StableHlo.after hostOps1_28 (GenP.V30 m (outsA m) c) (Proc.devRef .tc main_v66) = _
  after_results_simp
  try rfl

theorem C_v61_30_27 : GenP.V30 m (outsA m) c (Proc.devRef .tc main_v61) = GenP.V27 m (outsA m) c (Proc.devRef .tc main_v61) :=
  (GenP.V30_of m (outsA m) c main_v61 (by decide)).trans ((GenP.V29_of m (outsA m) c main_v61 (by decide)).trans (GenP.V28_of m (outsA m) c main_v61 (by decide)))

theorem A_v69 : GenP.V34 m (outsA m) c (Proc.devRef .tc main_v69) = pad S100x128 ![0, 0] ![0, 64] ![0, 0] (GenP.V33 m (outsA m) c (Proc.devRef .tc main_v68)) (sitofp .f32 (GenP.V33 m (outsA m) c (Proc.devRef .tc main_c_18))) pads_S100x64_S100x128_000_0640 h_S_ := by
  show StableHlo.after hostOps1_31 (GenP.V33 m (outsA m) c) (Proc.devRef .tc main_v69) = _
  after_results
  try rfl

theorem A_v68 : GenP.V33 m (outsA m) c (Proc.devRef .tc main_v68) = extractStridedSlice S100x64 ![0, 192] (GenP.V32 m (outsA m) c (Proc.devRef .tc main_v61)) slices_S100x256_S100x64_0_192 := by
  show StableHlo.after hostOps1_30 (GenP.V32 m (outsA m) c) (Proc.devRef .tc main_v68) = _
  after_results_simp
  try rfl

theorem C_v61_32_27 : GenP.V32 m (outsA m) c (Proc.devRef .tc main_v61) = GenP.V27 m (outsA m) c (Proc.devRef .tc main_v61) :=
  (GenP.V32_of m (outsA m) c main_v61 (by decide)).trans ((GenP.V31_of m (outsA m) c main_v61 (by decide)).trans ((GenP.V30_of m (outsA m) c main_v61 (by decide)).trans ((GenP.V29_of m (outsA m) c main_v61 (by decide)).trans (GenP.V28_of m (outsA m) c main_v61 (by decide)))))

theorem C_v80_59_43 : GenP.V59 m (outsA m) c (Proc.devRef .tc main_v80) = GenP.V43 m (outsA m) c (Proc.devRef .tc main_v80) :=
  (GenP.V59_of m (outsA m) c main_v80 (by decide)).trans ((GenP.V58_of m (outsA m) c main_v80 (by decide)).trans ((GenP.V57_of m (outsA m) c main_v80 (by decide)).trans ((GenP.V56_of m (outsA m) c main_v80 (by decide)).trans ((GenP.V55_of m (outsA m) c main_v80 (by decide)).trans ((GenP.V54_of m (outsA m) c main_v80 (by decide)).trans ((GenP.V53_of m (outsA m) c main_v80 (by decide)).trans ((GenP.V52_of m (outsA m) c main_v80 (by decide)).trans ((GenP.V51_of m (outsA m) c main_v80 (by decide)).trans ((GenP.V50_of m (outsA m) c main_v80 (by decide)).trans ((GenP.V49_of m (outsA m) c main_v80 (by decide)).trans ((GenP.V48_of m (outsA m) c main_v80 (by decide)).trans ((GenP.V47_of m (outsA m) c main_v80 (by decide)).trans ((GenP.V46_of m (outsA m) c main_v80 (by decide)).trans ((GenP.V45_of m (outsA m) c main_v80 (by decide)).trans (GenP.V44_of m (outsA m) c main_v80 (by decide))))))))))))))))

theorem A_v80 : GenP.V43 m (outsA m) c (Proc.devRef .tc main_v80) = concatenate S64x512 1 [⟨S64x128, GenP.V42 m (outsA m) c (Proc.devRef .tc main_v73)⟩, ⟨S64x128, GenP.V42 m (outsA m) c (Proc.devRef .tc main_v75)⟩, ⟨S64x128, GenP.V42 m (outsA m) c (Proc.devRef .tc main_v77)⟩, ⟨S64x128, GenP.V42 m (outsA m) c (Proc.devRef .tc main_v79)⟩] concatenates_S64x128_S64x128_S64x128_S64x128_S64x512_d1 := by
  show StableHlo.after hostOps1_40 (GenP.V42 m (outsA m) c) (Proc.devRef .tc main_v80) = _
  after_results_simp
  try rfl

theorem C_v73_42_36 : GenP.V42 m (outsA m) c (Proc.devRef .tc main_v73) = GenP.V36 m (outsA m) c (Proc.devRef .tc main_v73) :=
  (GenP.V42_of m (outsA m) c main_v73 (by decide)).trans ((GenP.V41_of m (outsA m) c main_v73 (by decide)).trans ((GenP.V40_of m (outsA m) c main_v73 (by decide)).trans ((GenP.V39_of m (outsA m) c main_v73 (by decide)).trans ((GenP.V38_of m (outsA m) c main_v73 (by decide)).trans (GenP.V37_of m (outsA m) c main_v73 (by decide))))))

theorem A_v73 : GenP.V36 m (outsA m) c (Proc.devRef .tc main_v73) = pad S64x128 ![0, 0] ![0, 64] ![0, 0] (GenP.V35 m (outsA m) c (Proc.devRef .tc main_v72)) (sitofp .f32 (GenP.V35 m (outsA m) c (Proc.devRef .tc main_c_19))) pads_S64x64_S64x128_000_0640 h_S_ := by
  show StableHlo.after hostOps1_33 (GenP.V35 m (outsA m) c) (Proc.devRef .tc main_v73) = _
  after_results
  try rfl

theorem A_v72 : GenP.V35 m (outsA m) c (Proc.devRef .tc main_v72) = extractStridedSlice S64x64 ![0, 0] (transpose S64x256 [1, 0] (GenP.V34 m (outsA m) c (Proc.devRef .tc main_arg11)) transposes_S256x64_S64x256_1_0) slices_S64x256_S64x64_0_0 := by
  show StableHlo.after hostOps1_32 (GenP.V34 m (outsA m) c) (Proc.devRef .tc main_v72) = _
  after_results_simp
  try rfl

theorem C_arg11_34_0 : GenP.V34 m (outsA m) c (Proc.devRef .tc main_arg11) = GenP.V0 m c (Proc.devRef .tc main_arg11) :=
  (GenP.V34_of m (outsA m) c main_arg11 (by decide)).trans ((GenP.V33_of m (outsA m) c main_arg11 (by decide)).trans ((GenP.V32_of m (outsA m) c main_arg11 (by decide)).trans ((GenP.V31_of m (outsA m) c main_arg11 (by decide)).trans ((GenP.V30_of m (outsA m) c main_arg11 (by decide)).trans ((GenP.V29_of m (outsA m) c main_arg11 (by decide)).trans ((GenP.V28_of m (outsA m) c main_arg11 (by decide)).trans ((GenP.V27_of m (outsA m) c main_arg11 (by decide)).trans ((GenP.V26_of m (outsA m) c main_arg11 (by decide)).trans ((GenP.V25_of m (outsA m) c main_arg11 (by decide)).trans ((GenP.V24_of m (outsA m) c main_arg11 (by decide)).trans ((GenP.V23_of m (outsA m) c main_arg11 (by decide)).trans ((GenP.V22_of m (outsA m) c main_arg11 (by decide)).trans ((GenP.V21_of m (outsA m) c main_arg11 (by decide)).trans ((GenP.V20_of m (outsA m) c main_arg11 (by decide)).trans ((GenP.V19_of m (outsA m) c main_arg11 (by decide)).trans ((GenP.V18_of m (outsA m) c main_arg11 (by decide)).trans ((GenP.V17_of m (outsA m) c main_arg11 (by decide)).trans ((GenP.V16_of m (outsA m) c main_arg11 (by decide)).trans ((GenP.V15_of m (outsA m) c main_arg11 (by decide)).trans ((GenP.V14_of m (outsA m) c main_arg11 (by decide)).trans ((GenP.V13_of m (outsA m) c main_arg11 (by decide)).trans ((GenP.V12_of m (outsA m) c main_arg11 (by decide)).trans ((GenP.V11_of m (outsA m) c main_arg11 (by decide)).trans ((GenP.V10_of m (outsA m) c main_arg11 (by decide)).trans ((GenP.V9_of m (outsA m) c main_arg11 (by decide)).trans ((GenP.V8_of m (outsA m) c main_arg11 (by decide)).trans ((GenP.V7_of m (outsA m) c main_arg11 (by decide)).trans ((GenP.V6_of m (outsA m) c main_arg11 (by decide)).trans ((GenP.V5_of m (outsA m) c main_arg11 (by decide)).trans ((GenP.V4_of m (outsA m) c main_arg11 (by decide)).trans ((GenP.V3_of m (outsA m) c main_arg11 (by decide)).trans ((GenP.V2_of m (outsA m) c main_arg11 (by decide)).trans (GenP.V1_of m c main_arg11 (by decide))))))))))))))))))))))))))))))))))

theorem C_v75_42_38 : GenP.V42 m (outsA m) c (Proc.devRef .tc main_v75) = GenP.V38 m (outsA m) c (Proc.devRef .tc main_v75) :=
  (GenP.V42_of m (outsA m) c main_v75 (by decide)).trans ((GenP.V41_of m (outsA m) c main_v75 (by decide)).trans ((GenP.V40_of m (outsA m) c main_v75 (by decide)).trans (GenP.V39_of m (outsA m) c main_v75 (by decide))))

theorem A_v75 : GenP.V38 m (outsA m) c (Proc.devRef .tc main_v75) = pad S64x128 ![0, 0] ![0, 64] ![0, 0] (GenP.V37 m (outsA m) c (Proc.devRef .tc main_v74)) (sitofp .f32 (GenP.V37 m (outsA m) c (Proc.devRef .tc main_c_20))) pads_S64x64_S64x128_000_0640 h_S_ := by
  show StableHlo.after hostOps1_35 (GenP.V37 m (outsA m) c) (Proc.devRef .tc main_v75) = _
  after_results
  try rfl

theorem A_v74 : GenP.V37 m (outsA m) c (Proc.devRef .tc main_v74) = extractStridedSlice S64x64 ![0, 64] (GenP.V36 m (outsA m) c (Proc.devRef .tc main_v71)) slices_S64x256_S64x64_0_64 := by
  show StableHlo.after hostOps1_34 (GenP.V36 m (outsA m) c) (Proc.devRef .tc main_v74) = _
  after_results_simp
  try rfl

theorem C_v71_36_35 : GenP.V36 m (outsA m) c (Proc.devRef .tc main_v71) = GenP.V35 m (outsA m) c (Proc.devRef .tc main_v71) :=
  GenP.V36_of m (outsA m) c main_v71 (by decide)

theorem A_v71 : GenP.V35 m (outsA m) c (Proc.devRef .tc main_v71) = transpose S64x256 [1, 0] (GenP.V34 m (outsA m) c (Proc.devRef .tc main_arg11)) transposes_S256x64_S64x256_1_0 := by
  show StableHlo.after hostOps1_32 (GenP.V34 m (outsA m) c) (Proc.devRef .tc main_v71) = _
  after_results_simp
  try rfl

theorem C_v77_42_40 : GenP.V42 m (outsA m) c (Proc.devRef .tc main_v77) = GenP.V40 m (outsA m) c (Proc.devRef .tc main_v77) :=
  (GenP.V42_of m (outsA m) c main_v77 (by decide)).trans (GenP.V41_of m (outsA m) c main_v77 (by decide))

theorem A_v77 : GenP.V40 m (outsA m) c (Proc.devRef .tc main_v77) = pad S64x128 ![0, 0] ![0, 64] ![0, 0] (GenP.V39 m (outsA m) c (Proc.devRef .tc main_v76)) (sitofp .f32 (GenP.V39 m (outsA m) c (Proc.devRef .tc main_c_21))) pads_S64x64_S64x128_000_0640 h_S_ := by
  show StableHlo.after hostOps1_37 (GenP.V39 m (outsA m) c) (Proc.devRef .tc main_v77) = _
  after_results
  try rfl

theorem A_v76 : GenP.V39 m (outsA m) c (Proc.devRef .tc main_v76) = extractStridedSlice S64x64 ![0, 128] (GenP.V38 m (outsA m) c (Proc.devRef .tc main_v71)) slices_S64x256_S64x64_0_128 := by
  show StableHlo.after hostOps1_36 (GenP.V38 m (outsA m) c) (Proc.devRef .tc main_v76) = _
  after_results_simp
  try rfl

theorem C_v71_38_35 : GenP.V38 m (outsA m) c (Proc.devRef .tc main_v71) = GenP.V35 m (outsA m) c (Proc.devRef .tc main_v71) :=
  (GenP.V38_of m (outsA m) c main_v71 (by decide)).trans ((GenP.V37_of m (outsA m) c main_v71 (by decide)).trans (GenP.V36_of m (outsA m) c main_v71 (by decide)))

theorem A_v79 : GenP.V42 m (outsA m) c (Proc.devRef .tc main_v79) = pad S64x128 ![0, 0] ![0, 64] ![0, 0] (GenP.V41 m (outsA m) c (Proc.devRef .tc main_v78)) (sitofp .f32 (GenP.V41 m (outsA m) c (Proc.devRef .tc main_c_22))) pads_S64x64_S64x128_000_0640 h_S_ := by
  show StableHlo.after hostOps1_39 (GenP.V41 m (outsA m) c) (Proc.devRef .tc main_v79) = _
  after_results
  try rfl

theorem A_v78 : GenP.V41 m (outsA m) c (Proc.devRef .tc main_v78) = extractStridedSlice S64x64 ![0, 192] (GenP.V40 m (outsA m) c (Proc.devRef .tc main_v71)) slices_S64x256_S64x64_0_192 := by
  show StableHlo.after hostOps1_38 (GenP.V40 m (outsA m) c) (Proc.devRef .tc main_v78) = _
  after_results_simp
  try rfl

theorem C_v71_40_35 : GenP.V40 m (outsA m) c (Proc.devRef .tc main_v71) = GenP.V35 m (outsA m) c (Proc.devRef .tc main_v71) :=
  (GenP.V40_of m (outsA m) c main_v71 (by decide)).trans ((GenP.V39_of m (outsA m) c main_v71 (by decide)).trans ((GenP.V38_of m (outsA m) c main_v71 (by decide)).trans ((GenP.V37_of m (outsA m) c main_v71 (by decide)).trans (GenP.V36_of m (outsA m) c main_v71 (by decide)))))

theorem C_v90_59_51 : GenP.V59 m (outsA m) c (Proc.devRef .tc main_v90) = GenP.V51 m (outsA m) c (Proc.devRef .tc main_v90) :=
  (GenP.V59_of m (outsA m) c main_v90 (by decide)).trans ((GenP.V58_of m (outsA m) c main_v90 (by decide)).trans ((GenP.V57_of m (outsA m) c main_v90 (by decide)).trans ((GenP.V56_of m (outsA m) c main_v90 (by decide)).trans ((GenP.V55_of m (outsA m) c main_v90 (by decide)).trans ((GenP.V54_of m (outsA m) c main_v90 (by decide)).trans ((GenP.V53_of m (outsA m) c main_v90 (by decide)).trans (GenP.V52_of m (outsA m) c main_v90 (by decide))))))))

theorem A_v90 : GenP.V51 m (outsA m) c (Proc.devRef .tc main_v90) = concatenate S1x512 1 [⟨S1x128, GenP.V50 m (outsA m) c (Proc.devRef .tc main_v83)⟩, ⟨S1x128, GenP.V50 m (outsA m) c (Proc.devRef .tc main_v85)⟩, ⟨S1x128, GenP.V50 m (outsA m) c (Proc.devRef .tc main_v87)⟩, ⟨S1x128, GenP.V50 m (outsA m) c (Proc.devRef .tc main_v89)⟩] concatenates_S1x128_S1x128_S1x128_S1x128_S1x512_d1 := by
  show StableHlo.after hostOps1_48 (GenP.V50 m (outsA m) c) (Proc.devRef .tc main_v90) = _
  after_results_simp
  try rfl

theorem C_v83_50_44 : GenP.V50 m (outsA m) c (Proc.devRef .tc main_v83) = GenP.V44 m (outsA m) c (Proc.devRef .tc main_v83) :=
  (GenP.V50_of m (outsA m) c main_v83 (by decide)).trans ((GenP.V49_of m (outsA m) c main_v83 (by decide)).trans ((GenP.V48_of m (outsA m) c main_v83 (by decide)).trans ((GenP.V47_of m (outsA m) c main_v83 (by decide)).trans ((GenP.V46_of m (outsA m) c main_v83 (by decide)).trans (GenP.V45_of m (outsA m) c main_v83 (by decide))))))

theorem A_v83 : GenP.V44 m (outsA m) c (Proc.devRef .tc main_v83) = pad S1x128 ![0, 0] ![0, 64] ![0, 0] (GenP.V43 m (outsA m) c (Proc.devRef .tc main_v82)) (sitofp .f32 (GenP.V43 m (outsA m) c (Proc.devRef .tc main_c_23))) pads_S1x64_S1x128_000_0640 h_S_ := by
  show StableHlo.after hostOps1_41 (GenP.V43 m (outsA m) c) (Proc.devRef .tc main_v83) = _
  after_results
  try rfl

theorem A_v82 : GenP.V43 m (outsA m) c (Proc.devRef .tc main_v82) = extractStridedSlice S1x64 ![0, 0] (shapeCast _ (GenP.V42 m (outsA m) c (Proc.devRef .tc main_arg12)) shapeCasts_S256_S1x256) slices_S1x256_S1x64_0_0 := by
  show StableHlo.after hostOps1_40 (GenP.V42 m (outsA m) c) (Proc.devRef .tc main_v82) = _
  after_results_simp
  try rfl

theorem C_arg12_42_0 : GenP.V42 m (outsA m) c (Proc.devRef .tc main_arg12) = GenP.V0 m c (Proc.devRef .tc main_arg12) :=
  (GenP.V42_of m (outsA m) c main_arg12 (by decide)).trans ((GenP.V41_of m (outsA m) c main_arg12 (by decide)).trans ((GenP.V40_of m (outsA m) c main_arg12 (by decide)).trans ((GenP.V39_of m (outsA m) c main_arg12 (by decide)).trans ((GenP.V38_of m (outsA m) c main_arg12 (by decide)).trans ((GenP.V37_of m (outsA m) c main_arg12 (by decide)).trans ((GenP.V36_of m (outsA m) c main_arg12 (by decide)).trans ((GenP.V35_of m (outsA m) c main_arg12 (by decide)).trans ((GenP.V34_of m (outsA m) c main_arg12 (by decide)).trans ((GenP.V33_of m (outsA m) c main_arg12 (by decide)).trans ((GenP.V32_of m (outsA m) c main_arg12 (by decide)).trans ((GenP.V31_of m (outsA m) c main_arg12 (by decide)).trans ((GenP.V30_of m (outsA m) c main_arg12 (by decide)).trans ((GenP.V29_of m (outsA m) c main_arg12 (by decide)).trans ((GenP.V28_of m (outsA m) c main_arg12 (by decide)).trans ((GenP.V27_of m (outsA m) c main_arg12 (by decide)).trans ((GenP.V26_of m (outsA m) c main_arg12 (by decide)).trans ((GenP.V25_of m (outsA m) c main_arg12 (by decide)).trans ((GenP.V24_of m (outsA m) c main_arg12 (by decide)).trans ((GenP.V23_of m (outsA m) c main_arg12 (by decide)).trans ((GenP.V22_of m (outsA m) c main_arg12 (by decide)).trans ((GenP.V21_of m (outsA m) c main_arg12 (by decide)).trans ((GenP.V20_of m (outsA m) c main_arg12 (by decide)).trans ((GenP.V19_of m (outsA m) c main_arg12 (by decide)).trans ((GenP.V18_of m (outsA m) c main_arg12 (by decide)).trans ((GenP.V17_of m (outsA m) c main_arg12 (by decide)).trans ((GenP.V16_of m (outsA m) c main_arg12 (by decide)).trans ((GenP.V15_of m (outsA m) c main_arg12 (by decide)).trans ((GenP.V14_of m (outsA m) c main_arg12 (by decide)).trans ((GenP.V13_of m (outsA m) c main_arg12 (by decide)).trans ((GenP.V12_of m (outsA m) c main_arg12 (by decide)).trans ((GenP.V11_of m (outsA m) c main_arg12 (by decide)).trans ((GenP.V10_of m (outsA m) c main_arg12 (by decide)).trans ((GenP.V9_of m (outsA m) c main_arg12 (by decide)).trans ((GenP.V8_of m (outsA m) c main_arg12 (by decide)).trans ((GenP.V7_of m (outsA m) c main_arg12 (by decide)).trans ((GenP.V6_of m (outsA m) c main_arg12 (by decide)).trans ((GenP.V5_of m (outsA m) c main_arg12 (by decide)).trans ((GenP.V4_of m (outsA m) c main_arg12 (by decide)).trans ((GenP.V3_of m (outsA m) c main_arg12 (by decide)).trans ((GenP.V2_of m (outsA m) c main_arg12 (by decide)).trans (GenP.V1_of m c main_arg12 (by decide))))))))))))))))))))))))))))))))))))))))))

theorem C_v85_50_46 : GenP.V50 m (outsA m) c (Proc.devRef .tc main_v85) = GenP.V46 m (outsA m) c (Proc.devRef .tc main_v85) :=
  (GenP.V50_of m (outsA m) c main_v85 (by decide)).trans ((GenP.V49_of m (outsA m) c main_v85 (by decide)).trans ((GenP.V48_of m (outsA m) c main_v85 (by decide)).trans (GenP.V47_of m (outsA m) c main_v85 (by decide))))

theorem A_v85 : GenP.V46 m (outsA m) c (Proc.devRef .tc main_v85) = pad S1x128 ![0, 0] ![0, 64] ![0, 0] (GenP.V45 m (outsA m) c (Proc.devRef .tc main_v84)) (sitofp .f32 (GenP.V45 m (outsA m) c (Proc.devRef .tc main_c_24))) pads_S1x64_S1x128_000_0640 h_S_ := by
  show StableHlo.after hostOps1_43 (GenP.V45 m (outsA m) c) (Proc.devRef .tc main_v85) = _
  after_results
  try rfl

theorem A_v84 : GenP.V45 m (outsA m) c (Proc.devRef .tc main_v84) = extractStridedSlice S1x64 ![0, 64] (GenP.V44 m (outsA m) c (Proc.devRef .tc main_v81)) slices_S1x256_S1x64_0_64 := by
  show StableHlo.after hostOps1_42 (GenP.V44 m (outsA m) c) (Proc.devRef .tc main_v84) = _
  after_results_simp
  try rfl

theorem C_v81_44_43 : GenP.V44 m (outsA m) c (Proc.devRef .tc main_v81) = GenP.V43 m (outsA m) c (Proc.devRef .tc main_v81) :=
  GenP.V44_of m (outsA m) c main_v81 (by decide)

theorem A_v81 : GenP.V43 m (outsA m) c (Proc.devRef .tc main_v81) = shapeCast _ (GenP.V42 m (outsA m) c (Proc.devRef .tc main_arg12)) shapeCasts_S256_S1x256 := by
  show StableHlo.after hostOps1_40 (GenP.V42 m (outsA m) c) (Proc.devRef .tc main_v81) = _
  after_results_simp
  try rfl

theorem C_v87_50_48 : GenP.V50 m (outsA m) c (Proc.devRef .tc main_v87) = GenP.V48 m (outsA m) c (Proc.devRef .tc main_v87) :=
  (GenP.V50_of m (outsA m) c main_v87 (by decide)).trans (GenP.V49_of m (outsA m) c main_v87 (by decide))

theorem A_v87 : GenP.V48 m (outsA m) c (Proc.devRef .tc main_v87) = pad S1x128 ![0, 0] ![0, 64] ![0, 0] (GenP.V47 m (outsA m) c (Proc.devRef .tc main_v86)) (sitofp .f32 (GenP.V47 m (outsA m) c (Proc.devRef .tc main_c_25))) pads_S1x64_S1x128_000_0640 h_S_ := by
  show StableHlo.after hostOps1_45 (GenP.V47 m (outsA m) c) (Proc.devRef .tc main_v87) = _
  after_results
  try rfl

theorem A_v86 : GenP.V47 m (outsA m) c (Proc.devRef .tc main_v86) = extractStridedSlice S1x64 ![0, 128] (GenP.V46 m (outsA m) c (Proc.devRef .tc main_v81)) slices_S1x256_S1x64_0_128 := by
  show StableHlo.after hostOps1_44 (GenP.V46 m (outsA m) c) (Proc.devRef .tc main_v86) = _
  after_results_simp
  try rfl

theorem C_v81_46_43 : GenP.V46 m (outsA m) c (Proc.devRef .tc main_v81) = GenP.V43 m (outsA m) c (Proc.devRef .tc main_v81) :=
  (GenP.V46_of m (outsA m) c main_v81 (by decide)).trans ((GenP.V45_of m (outsA m) c main_v81 (by decide)).trans (GenP.V44_of m (outsA m) c main_v81 (by decide)))

theorem A_v89 : GenP.V50 m (outsA m) c (Proc.devRef .tc main_v89) = pad S1x128 ![0, 0] ![0, 64] ![0, 0] (GenP.V49 m (outsA m) c (Proc.devRef .tc main_v88)) (sitofp .f32 (GenP.V49 m (outsA m) c (Proc.devRef .tc main_c_26))) pads_S1x64_S1x128_000_0640 h_S_ := by
  show StableHlo.after hostOps1_47 (GenP.V49 m (outsA m) c) (Proc.devRef .tc main_v89) = _
  after_results
  try rfl

theorem A_v88 : GenP.V49 m (outsA m) c (Proc.devRef .tc main_v88) = extractStridedSlice S1x64 ![0, 192] (GenP.V48 m (outsA m) c (Proc.devRef .tc main_v81)) slices_S1x256_S1x64_0_192 := by
  show StableHlo.after hostOps1_46 (GenP.V48 m (outsA m) c) (Proc.devRef .tc main_v88) = _
  after_results_simp
  try rfl

theorem C_v81_48_43 : GenP.V48 m (outsA m) c (Proc.devRef .tc main_v81) = GenP.V43 m (outsA m) c (Proc.devRef .tc main_v81) :=
  (GenP.V48_of m (outsA m) c main_v81 (by decide)).trans ((GenP.V47_of m (outsA m) c main_v81 (by decide)).trans ((GenP.V46_of m (outsA m) c main_v81 (by decide)).trans ((GenP.V45_of m (outsA m) c main_v81 (by decide)).trans (GenP.V44_of m (outsA m) c main_v81 (by decide)))))

theorem A_v100 : GenP.V59 m (outsA m) c (Proc.devRef .tc main_v100) = concatenate S1x512 1 [⟨S1x128, GenP.V58 m (outsA m) c (Proc.devRef .tc main_v93)⟩, ⟨S1x128, GenP.V58 m (outsA m) c (Proc.devRef .tc main_v95)⟩, ⟨S1x128, GenP.V58 m (outsA m) c (Proc.devRef .tc main_v97)⟩, ⟨S1x128, GenP.V58 m (outsA m) c (Proc.devRef .tc main_v99)⟩] concatenates_S1x128_S1x128_S1x128_S1x128_S1x512_d1 := by
  show StableHlo.after hostOps1_56 (GenP.V58 m (outsA m) c) (Proc.devRef .tc main_v100) = _
  after_results_simp
  try rfl

theorem C_v93_58_52 : GenP.V58 m (outsA m) c (Proc.devRef .tc main_v93) = GenP.V52 m (outsA m) c (Proc.devRef .tc main_v93) :=
  (GenP.V58_of m (outsA m) c main_v93 (by decide)).trans ((GenP.V57_of m (outsA m) c main_v93 (by decide)).trans ((GenP.V56_of m (outsA m) c main_v93 (by decide)).trans ((GenP.V55_of m (outsA m) c main_v93 (by decide)).trans ((GenP.V54_of m (outsA m) c main_v93 (by decide)).trans (GenP.V53_of m (outsA m) c main_v93 (by decide))))))

theorem A_v93 : GenP.V52 m (outsA m) c (Proc.devRef .tc main_v93) = pad S1x128 ![0, 0] ![0, 64] ![0, 0] (GenP.V51 m (outsA m) c (Proc.devRef .tc main_v92)) (sitofp .f32 (GenP.V51 m (outsA m) c (Proc.devRef .tc main_c_27))) pads_S1x64_S1x128_000_0640 h_S_ := by
  show StableHlo.after hostOps1_49 (GenP.V51 m (outsA m) c) (Proc.devRef .tc main_v93) = _
  after_results
  try rfl

theorem A_v92 : GenP.V51 m (outsA m) c (Proc.devRef .tc main_v92) = extractStridedSlice S1x64 ![0, 0] (shapeCast _ (GenP.V50 m (outsA m) c (Proc.devRef .tc main_arg13)) shapeCasts_S256_S1x256) slices_S1x256_S1x64_0_0 := by
  show StableHlo.after hostOps1_48 (GenP.V50 m (outsA m) c) (Proc.devRef .tc main_v92) = _
  after_results_simp
  try rfl

theorem C_arg13_50_0 : GenP.V50 m (outsA m) c (Proc.devRef .tc main_arg13) = GenP.V0 m c (Proc.devRef .tc main_arg13) :=
  (GenP.V50_of m (outsA m) c main_arg13 (by decide)).trans ((GenP.V49_of m (outsA m) c main_arg13 (by decide)).trans ((GenP.V48_of m (outsA m) c main_arg13 (by decide)).trans ((GenP.V47_of m (outsA m) c main_arg13 (by decide)).trans ((GenP.V46_of m (outsA m) c main_arg13 (by decide)).trans ((GenP.V45_of m (outsA m) c main_arg13 (by decide)).trans ((GenP.V44_of m (outsA m) c main_arg13 (by decide)).trans ((GenP.V43_of m (outsA m) c main_arg13 (by decide)).trans ((GenP.V42_of m (outsA m) c main_arg13 (by decide)).trans ((GenP.V41_of m (outsA m) c main_arg13 (by decide)).trans ((GenP.V40_of m (outsA m) c main_arg13 (by decide)).trans ((GenP.V39_of m (outsA m) c main_arg13 (by decide)).trans ((GenP.V38_of m (outsA m) c main_arg13 (by decide)).trans ((GenP.V37_of m (outsA m) c main_arg13 (by decide)).trans ((GenP.V36_of m (outsA m) c main_arg13 (by decide)).trans ((GenP.V35_of m (outsA m) c main_arg13 (by decide)).trans ((GenP.V34_of m (outsA m) c main_arg13 (by decide)).trans ((GenP.V33_of m (outsA m) c main_arg13 (by decide)).trans ((GenP.V32_of m (outsA m) c main_arg13 (by decide)).trans ((GenP.V31_of m (outsA m) c main_arg13 (by decide)).trans ((GenP.V30_of m (outsA m) c main_arg13 (by decide)).trans ((GenP.V29_of m (outsA m) c main_arg13 (by decide)).trans ((GenP.V28_of m (outsA m) c main_arg13 (by decide)).trans ((GenP.V27_of m (outsA m) c main_arg13 (by decide)).trans ((GenP.V26_of m (outsA m) c main_arg13 (by decide)).trans ((GenP.V25_of m (outsA m) c main_arg13 (by decide)).trans ((GenP.V24_of m (outsA m) c main_arg13 (by decide)).trans ((GenP.V23_of m (outsA m) c main_arg13 (by decide)).trans ((GenP.V22_of m (outsA m) c main_arg13 (by decide)).trans ((GenP.V21_of m (outsA m) c main_arg13 (by decide)).trans ((GenP.V20_of m (outsA m) c main_arg13 (by decide)).trans ((GenP.V19_of m (outsA m) c main_arg13 (by decide)).trans ((GenP.V18_of m (outsA m) c main_arg13 (by decide)).trans ((GenP.V17_of m (outsA m) c main_arg13 (by decide)).trans ((GenP.V16_of m (outsA m) c main_arg13 (by decide)).trans ((GenP.V15_of m (outsA m) c main_arg13 (by decide)).trans ((GenP.V14_of m (outsA m) c main_arg13 (by decide)).trans ((GenP.V13_of m (outsA m) c main_arg13 (by decide)).trans ((GenP.V12_of m (outsA m) c main_arg13 (by decide)).trans ((GenP.V11_of m (outsA m) c main_arg13 (by decide)).trans ((GenP.V10_of m (outsA m) c main_arg13 (by decide)).trans ((GenP.V9_of m (outsA m) c main_arg13 (by decide)).trans ((GenP.V8_of m (outsA m) c main_arg13 (by decide)).trans ((GenP.V7_of m (outsA m) c main_arg13 (by decide)).trans ((GenP.V6_of m (outsA m) c main_arg13 (by decide)).trans ((GenP.V5_of m (outsA m) c main_arg13 (by decide)).trans ((GenP.V4_of m (outsA m) c main_arg13 (by decide)).trans ((GenP.V3_of m (outsA m) c main_arg13 (by decide)).trans ((GenP.V2_of m (outsA m) c main_arg13 (by decide)).trans (GenP.V1_of m c main_arg13 (by decide))))))))))))))))))))))))))))))))))))))))))))))))))

theorem C_v95_58_54 : GenP.V58 m (outsA m) c (Proc.devRef .tc main_v95) = GenP.V54 m (outsA m) c (Proc.devRef .tc main_v95) :=
  (GenP.V58_of m (outsA m) c main_v95 (by decide)).trans ((GenP.V57_of m (outsA m) c main_v95 (by decide)).trans ((GenP.V56_of m (outsA m) c main_v95 (by decide)).trans (GenP.V55_of m (outsA m) c main_v95 (by decide))))

theorem A_v95 : GenP.V54 m (outsA m) c (Proc.devRef .tc main_v95) = pad S1x128 ![0, 0] ![0, 64] ![0, 0] (GenP.V53 m (outsA m) c (Proc.devRef .tc main_v94)) (sitofp .f32 (GenP.V53 m (outsA m) c (Proc.devRef .tc main_c_28))) pads_S1x64_S1x128_000_0640 h_S_ := by
  show StableHlo.after hostOps1_51 (GenP.V53 m (outsA m) c) (Proc.devRef .tc main_v95) = _
  after_results
  try rfl

theorem A_v94 : GenP.V53 m (outsA m) c (Proc.devRef .tc main_v94) = extractStridedSlice S1x64 ![0, 64] (GenP.V52 m (outsA m) c (Proc.devRef .tc main_v91)) slices_S1x256_S1x64_0_64 := by
  show StableHlo.after hostOps1_50 (GenP.V52 m (outsA m) c) (Proc.devRef .tc main_v94) = _
  after_results_simp
  try rfl

theorem C_v91_52_51 : GenP.V52 m (outsA m) c (Proc.devRef .tc main_v91) = GenP.V51 m (outsA m) c (Proc.devRef .tc main_v91) :=
  GenP.V52_of m (outsA m) c main_v91 (by decide)

theorem A_v91 : GenP.V51 m (outsA m) c (Proc.devRef .tc main_v91) = shapeCast _ (GenP.V50 m (outsA m) c (Proc.devRef .tc main_arg13)) shapeCasts_S256_S1x256 := by
  show StableHlo.after hostOps1_48 (GenP.V50 m (outsA m) c) (Proc.devRef .tc main_v91) = _
  after_results_simp
  try rfl

theorem C_v97_58_56 : GenP.V58 m (outsA m) c (Proc.devRef .tc main_v97) = GenP.V56 m (outsA m) c (Proc.devRef .tc main_v97) :=
  (GenP.V58_of m (outsA m) c main_v97 (by decide)).trans (GenP.V57_of m (outsA m) c main_v97 (by decide))

theorem A_v97 : GenP.V56 m (outsA m) c (Proc.devRef .tc main_v97) = pad S1x128 ![0, 0] ![0, 64] ![0, 0] (GenP.V55 m (outsA m) c (Proc.devRef .tc main_v96)) (sitofp .f32 (GenP.V55 m (outsA m) c (Proc.devRef .tc main_c_29))) pads_S1x64_S1x128_000_0640 h_S_ := by
  show StableHlo.after hostOps1_53 (GenP.V55 m (outsA m) c) (Proc.devRef .tc main_v97) = _
  after_results
  try rfl

theorem A_v96 : GenP.V55 m (outsA m) c (Proc.devRef .tc main_v96) = extractStridedSlice S1x64 ![0, 128] (GenP.V54 m (outsA m) c (Proc.devRef .tc main_v91)) slices_S1x256_S1x64_0_128 := by
  show StableHlo.after hostOps1_52 (GenP.V54 m (outsA m) c) (Proc.devRef .tc main_v96) = _
  after_results_simp
  try rfl

theorem C_v91_54_51 : GenP.V54 m (outsA m) c (Proc.devRef .tc main_v91) = GenP.V51 m (outsA m) c (Proc.devRef .tc main_v91) :=
  (GenP.V54_of m (outsA m) c main_v91 (by decide)).trans ((GenP.V53_of m (outsA m) c main_v91 (by decide)).trans (GenP.V52_of m (outsA m) c main_v91 (by decide)))

theorem A_v99 : GenP.V58 m (outsA m) c (Proc.devRef .tc main_v99) = pad S1x128 ![0, 0] ![0, 64] ![0, 0] (GenP.V57 m (outsA m) c (Proc.devRef .tc main_v98)) (sitofp .f32 (GenP.V57 m (outsA m) c (Proc.devRef .tc main_c_30))) pads_S1x64_S1x128_000_0640 h_S_ := by
  show StableHlo.after hostOps1_55 (GenP.V57 m (outsA m) c) (Proc.devRef .tc main_v99) = _
  after_results
  try rfl

theorem A_v98 : GenP.V57 m (outsA m) c (Proc.devRef .tc main_v98) = extractStridedSlice S1x64 ![0, 192] (GenP.V56 m (outsA m) c (Proc.devRef .tc main_v91)) slices_S1x256_S1x64_0_192 := by
  show StableHlo.after hostOps1_54 (GenP.V56 m (outsA m) c) (Proc.devRef .tc main_v98) = _
  after_results_simp
  try rfl

theorem C_v91_56_51 : GenP.V56 m (outsA m) c (Proc.devRef .tc main_v91) = GenP.V51 m (outsA m) c (Proc.devRef .tc main_v91) :=
  (GenP.V56_of m (outsA m) c main_v91 (by decide)).trans ((GenP.V55_of m (outsA m) c main_v91 (by decide)).trans ((GenP.V54_of m (outsA m) c main_v91 (by decide)).trans ((GenP.V53_of m (outsA m) c main_v91 (by decide)).trans (GenP.V52_of m (outsA m) c main_v91 (by decide)))))

theorem C_arg14_58_0 : GenP.V58 m (outsA m) c (Proc.devRef .tc main_arg14) = GenP.V0 m c (Proc.devRef .tc main_arg14) :=
  (GenP.V58_of m (outsA m) c main_arg14 (by decide)).trans ((GenP.V57_of m (outsA m) c main_arg14 (by decide)).trans ((GenP.V56_of m (outsA m) c main_arg14 (by decide)).trans ((GenP.V55_of m (outsA m) c main_arg14 (by decide)).trans ((GenP.V54_of m (outsA m) c main_arg14 (by decide)).trans ((GenP.V53_of m (outsA m) c main_arg14 (by decide)).trans ((GenP.V52_of m (outsA m) c main_arg14 (by decide)).trans ((GenP.V51_of m (outsA m) c main_arg14 (by decide)).trans ((GenP.V50_of m (outsA m) c main_arg14 (by decide)).trans ((GenP.V49_of m (outsA m) c main_arg14 (by decide)).trans ((GenP.V48_of m (outsA m) c main_arg14 (by decide)).trans ((GenP.V47_of m (outsA m) c main_arg14 (by decide)).trans ((GenP.V46_of m (outsA m) c main_arg14 (by decide)).trans ((GenP.V45_of m (outsA m) c main_arg14 (by decide)).trans ((GenP.V44_of m (outsA m) c main_arg14 (by decide)).trans ((GenP.V43_of m (outsA m) c main_arg14 (by decide)).trans ((GenP.V42_of m (outsA m) c main_arg14 (by decide)).trans ((GenP.V41_of m (outsA m) c main_arg14 (by decide)).trans ((GenP.V40_of m (outsA m) c main_arg14 (by decide)).trans ((GenP.V39_of m (outsA m) c main_arg14 (by decide)).trans ((GenP.V38_of m (outsA m) c main_arg14 (by decide)).trans ((GenP.V37_of m (outsA m) c main_arg14 (by decide)).trans ((GenP.V36_of m (outsA m) c main_arg14 (by decide)).trans ((GenP.V35_of m (outsA m) c main_arg14 (by decide)).trans ((GenP.V34_of m (outsA m) c main_arg14 (by decide)).trans ((GenP.V33_of m (outsA m) c main_arg14 (by decide)).trans ((GenP.V32_of m (outsA m) c main_arg14 (by decide)).trans ((GenP.V31_of m (outsA m) c main_arg14 (by decide)).trans ((GenP.V30_of m (outsA m) c main_arg14 (by decide)).trans ((GenP.V29_of m (outsA m) c main_arg14 (by decide)).trans ((GenP.V28_of m (outsA m) c main_arg14 (by decide)).trans ((GenP.V27_of m (outsA m) c main_arg14 (by decide)).trans ((GenP.V26_of m (outsA m) c main_arg14 (by decide)).trans ((GenP.V25_of m (outsA m) c main_arg14 (by decide)).trans ((GenP.V24_of m (outsA m) c main_arg14 (by decide)).trans ((GenP.V23_of m (outsA m) c main_arg14 (by decide)).trans ((GenP.V22_of m (outsA m) c main_arg14 (by decide)).trans ((GenP.V21_of m (outsA m) c main_arg14 (by decide)).trans ((GenP.V20_of m (outsA m) c main_arg14 (by decide)).trans ((GenP.V19_of m (outsA m) c main_arg14 (by decide)).trans ((GenP.V18_of m (outsA m) c main_arg14 (by decide)).trans ((GenP.V17_of m (outsA m) c main_arg14 (by decide)).trans ((GenP.V16_of m (outsA m) c main_arg14 (by decide)).trans ((GenP.V15_of m (outsA m) c main_arg14 (by decide)).trans ((GenP.V14_of m (outsA m) c main_arg14 (by decide)).trans ((GenP.V13_of m (outsA m) c main_arg14 (by decide)).trans ((GenP.V12_of m (outsA m) c main_arg14 (by decide)).trans ((GenP.V11_of m (outsA m) c main_arg14 (by decide)).trans ((GenP.V10_of m (outsA m) c main_arg14 (by decide)).trans ((GenP.V9_of m (outsA m) c main_arg14 (by decide)).trans ((GenP.V8_of m (outsA m) c main_arg14 (by decide)).trans ((GenP.V7_of m (outsA m) c main_arg14 (by decide)).trans ((GenP.V6_of m (outsA m) c main_arg14 (by decide)).trans ((GenP.V5_of m (outsA m) c main_arg14 (by decide)).trans ((GenP.V4_of m (outsA m) c main_arg14 (by decide)).trans ((GenP.V3_of m (outsA m) c main_arg14 (by decide)).trans ((GenP.V2_of m (outsA m) c main_arg14 (by decide)).trans (GenP.V1_of m c main_arg14 (by decide))))))))))))))))))))))))))))))))))))))))))))))))))))))))))

theorem A_v101 : GenP.V59 m (outsA m) c (Proc.devRef .tc main_v101) = transpose S64x8 [1, 0] (GenP.V58 m (outsA m) c (Proc.devRef .tc main_arg14)) transposes_S8x64_S64x8_1_0 := by
  show StableHlo.after hostOps1_56 (GenP.V58 m (outsA m) c) (Proc.devRef .tc main_v101) = _
  after_results_simp
  try rfl

theorem C_arg15_58_0 : GenP.V58 m (outsA m) c (Proc.devRef .tc main_arg15) = GenP.V0 m c (Proc.devRef .tc main_arg15) :=
  (GenP.V58_of m (outsA m) c main_arg15 (by decide)).trans ((GenP.V57_of m (outsA m) c main_arg15 (by decide)).trans ((GenP.V56_of m (outsA m) c main_arg15 (by decide)).trans ((GenP.V55_of m (outsA m) c main_arg15 (by decide)).trans ((GenP.V54_of m (outsA m) c main_arg15 (by decide)).trans ((GenP.V53_of m (outsA m) c main_arg15 (by decide)).trans ((GenP.V52_of m (outsA m) c main_arg15 (by decide)).trans ((GenP.V51_of m (outsA m) c main_arg15 (by decide)).trans ((GenP.V50_of m (outsA m) c main_arg15 (by decide)).trans ((GenP.V49_of m (outsA m) c main_arg15 (by decide)).trans ((GenP.V48_of m (outsA m) c main_arg15 (by decide)).trans ((GenP.V47_of m (outsA m) c main_arg15 (by decide)).trans ((GenP.V46_of m (outsA m) c main_arg15 (by decide)).trans ((GenP.V45_of m (outsA m) c main_arg15 (by decide)).trans ((GenP.V44_of m (outsA m) c main_arg15 (by decide)).trans ((GenP.V43_of m (outsA m) c main_arg15 (by decide)).trans ((GenP.V42_of m (outsA m) c main_arg15 (by decide)).trans ((GenP.V41_of m (outsA m) c main_arg15 (by decide)).trans ((GenP.V40_of m (outsA m) c main_arg15 (by decide)).trans ((GenP.V39_of m (outsA m) c main_arg15 (by decide)).trans ((GenP.V38_of m (outsA m) c main_arg15 (by decide)).trans ((GenP.V37_of m (outsA m) c main_arg15 (by decide)).trans ((GenP.V36_of m (outsA m) c main_arg15 (by decide)).trans ((GenP.V35_of m (outsA m) c main_arg15 (by decide)).trans ((GenP.V34_of m (outsA m) c main_arg15 (by decide)).trans ((GenP.V33_of m (outsA m) c main_arg15 (by decide)).trans ((GenP.V32_of m (outsA m) c main_arg15 (by decide)).trans ((GenP.V31_of m (outsA m) c main_arg15 (by decide)).trans ((GenP.V30_of m (outsA m) c main_arg15 (by decide)).trans ((GenP.V29_of m (outsA m) c main_arg15 (by decide)).trans ((GenP.V28_of m (outsA m) c main_arg15 (by decide)).trans ((GenP.V27_of m (outsA m) c main_arg15 (by decide)).trans ((GenP.V26_of m (outsA m) c main_arg15 (by decide)).trans ((GenP.V25_of m (outsA m) c main_arg15 (by decide)).trans ((GenP.V24_of m (outsA m) c main_arg15 (by decide)).trans ((GenP.V23_of m (outsA m) c main_arg15 (by decide)).trans ((GenP.V22_of m (outsA m) c main_arg15 (by decide)).trans ((GenP.V21_of m (outsA m) c main_arg15 (by decide)).trans ((GenP.V20_of m (outsA m) c main_arg15 (by decide)).trans ((GenP.V19_of m (outsA m) c main_arg15 (by decide)).trans ((GenP.V18_of m (outsA m) c main_arg15 (by decide)).trans ((GenP.V17_of m (outsA m) c main_arg15 (by decide)).trans ((GenP.V16_of m (outsA m) c main_arg15 (by decide)).trans ((GenP.V15_of m (outsA m) c main_arg15 (by decide)).trans ((GenP.V14_of m (outsA m) c main_arg15 (by decide)).trans ((GenP.V13_of m (outsA m) c main_arg15 (by decide)).trans ((GenP.V12_of m (outsA m) c main_arg15 (by decide)).trans ((GenP.V11_of m (outsA m) c main_arg15 (by decide)).trans ((GenP.V10_of m (outsA m) c main_arg15 (by decide)).trans ((GenP.V9_of m (outsA m) c main_arg15 (by decide)).trans ((GenP.V8_of m (outsA m) c main_arg15 (by decide)).trans ((GenP.V7_of m (outsA m) c main_arg15 (by decide)).trans ((GenP.V6_of m (outsA m) c main_arg15 (by decide)).trans ((GenP.V5_of m (outsA m) c main_arg15 (by decide)).trans ((GenP.V4_of m (outsA m) c main_arg15 (by decide)).trans ((GenP.V3_of m (outsA m) c main_arg15 (by decide)).trans ((GenP.V2_of m (outsA m) c main_arg15 (by decide)).trans (GenP.V1_of m c main_arg15 (by decide))))))))))))))))))))))))))))))))))))))))))))))))))))))))))

theorem A_v102 : GenP.V59 m (outsA m) c (Proc.devRef .tc main_v102) = shapeCast _ (GenP.V58 m (outsA m) c (Proc.devRef .tc main_arg15)) shapeCasts_S8_S1x8 := by
  show StableHlo.after hostOps1_56 (GenP.V58 m (outsA m) c) (Proc.devRef .tc main_v102) = _
  after_results_simp
  try rfl

theorem C_arg3_58_0 : GenP.V58 m (outsA m) c (Proc.devRef .tc main_arg3) = GenP.V0 m c (Proc.devRef .tc main_arg3) :=
  (GenP.V58_of m (outsA m) c main_arg3 (by decide)).trans ((GenP.V57_of m (outsA m) c main_arg3 (by decide)).trans ((GenP.V56_of m (outsA m) c main_arg3 (by decide)).trans ((GenP.V55_of m (outsA m) c main_arg3 (by decide)).trans ((GenP.V54_of m (outsA m) c main_arg3 (by decide)).trans ((GenP.V53_of m (outsA m) c main_arg3 (by decide)).trans ((GenP.V52_of m (outsA m) c main_arg3 (by decide)).trans ((GenP.V51_of m (outsA m) c main_arg3 (by decide)).trans ((GenP.V50_of m (outsA m) c main_arg3 (by decide)).trans ((GenP.V49_of m (outsA m) c main_arg3 (by decide)).trans ((GenP.V48_of m (outsA m) c main_arg3 (by decide)).trans ((GenP.V47_of m (outsA m) c main_arg3 (by decide)).trans ((GenP.V46_of m (outsA m) c main_arg3 (by decide)).trans ((GenP.V45_of m (outsA m) c main_arg3 (by decide)).trans ((GenP.V44_of m (outsA m) c main_arg3 (by decide)).trans ((GenP.V43_of m (outsA m) c main_arg3 (by decide)).trans ((GenP.V42_of m (outsA m) c main_arg3 (by decide)).trans ((GenP.V41_of m (outsA m) c main_arg3 (by decide)).trans ((GenP.V40_of m (outsA m) c main_arg3 (by decide)).trans ((GenP.V39_of m (outsA m) c main_arg3 (by decide)).trans ((GenP.V38_of m (outsA m) c main_arg3 (by decide)).trans ((GenP.V37_of m (outsA m) c main_arg3 (by decide)).trans ((GenP.V36_of m (outsA m) c main_arg3 (by decide)).trans ((GenP.V35_of m (outsA m) c main_arg3 (by decide)).trans ((GenP.V34_of m (outsA m) c main_arg3 (by decide)).trans ((GenP.V33_of m (outsA m) c main_arg3 (by decide)).trans ((GenP.V32_of m (outsA m) c main_arg3 (by decide)).trans ((GenP.V31_of m (outsA m) c main_arg3 (by decide)).trans ((GenP.V30_of m (outsA m) c main_arg3 (by decide)).trans ((GenP.V29_of m (outsA m) c main_arg3 (by decide)).trans ((GenP.V28_of m (outsA m) c main_arg3 (by decide)).trans ((GenP.V27_of m (outsA m) c main_arg3 (by decide)).trans ((GenP.V26_of m (outsA m) c main_arg3 (by decide)).trans ((GenP.V25_of m (outsA m) c main_arg3 (by decide)).trans ((GenP.V24_of m (outsA m) c main_arg3 (by decide)).trans ((GenP.V23_of m (outsA m) c main_arg3 (by decide)).trans ((GenP.V22_of m (outsA m) c main_arg3 (by decide)).trans ((GenP.V21_of m (outsA m) c main_arg3 (by decide)).trans ((GenP.V20_of m (outsA m) c main_arg3 (by decide)).trans ((GenP.V19_of m (outsA m) c main_arg3 (by decide)).trans ((GenP.V18_of m (outsA m) c main_arg3 (by decide)).trans ((GenP.V17_of m (outsA m) c main_arg3 (by decide)).trans ((GenP.V16_of m (outsA m) c main_arg3 (by decide)).trans ((GenP.V15_of m (outsA m) c main_arg3 (by decide)).trans ((GenP.V14_of m (outsA m) c main_arg3 (by decide)).trans ((GenP.V13_of m (outsA m) c main_arg3 (by decide)).trans ((GenP.V12_of m (outsA m) c main_arg3 (by decide)).trans ((GenP.V11_of m (outsA m) c main_arg3 (by decide)).trans ((GenP.V10_of m (outsA m) c main_arg3 (by decide)).trans ((GenP.V9_of m (outsA m) c main_arg3 (by decide)).trans ((GenP.V8_of m (outsA m) c main_arg3 (by decide)).trans ((GenP.V7_of m (outsA m) c main_arg3 (by decide)).trans ((GenP.V6_of m (outsA m) c main_arg3 (by decide)).trans ((GenP.V5_of m (outsA m) c main_arg3 (by decide)).trans ((GenP.V4_of m (outsA m) c main_arg3 (by decide)).trans ((GenP.V3_of m (outsA m) c main_arg3 (by decide)).trans ((GenP.V2_of m (outsA m) c main_arg3 (by decide)).trans (GenP.V1_of m c main_arg3 (by decide))))))))))))))))))))))))))))))))))))))))))))))))))))))))))

theorem A_v103 : GenP.V59 m (outsA m) c (Proc.devRef .tc main_v103) = shapeCast _ (GenP.V58 m (outsA m) c (Proc.devRef .tc main_arg3)) shapeCasts_S1x50000x64_S50000x64 := by
  show StableHlo.after hostOps1_56 (GenP.V58 m (outsA m) c) (Proc.devRef .tc main_v103) = _
  after_results_simp
  try rfl

theorem C_arg4_58_0 : GenP.V58 m (outsA m) c (Proc.devRef .tc main_arg4) = GenP.V0 m c (Proc.devRef .tc main_arg4) :=
  (GenP.V58_of m (outsA m) c main_arg4 (by decide)).trans ((GenP.V57_of m (outsA m) c main_arg4 (by decide)).trans ((GenP.V56_of m (outsA m) c main_arg4 (by decide)).trans ((GenP.V55_of m (outsA m) c main_arg4 (by decide)).trans ((GenP.V54_of m (outsA m) c main_arg4 (by decide)).trans ((GenP.V53_of m (outsA m) c main_arg4 (by decide)).trans ((GenP.V52_of m (outsA m) c main_arg4 (by decide)).trans ((GenP.V51_of m (outsA m) c main_arg4 (by decide)).trans ((GenP.V50_of m (outsA m) c main_arg4 (by decide)).trans ((GenP.V49_of m (outsA m) c main_arg4 (by decide)).trans ((GenP.V48_of m (outsA m) c main_arg4 (by decide)).trans ((GenP.V47_of m (outsA m) c main_arg4 (by decide)).trans ((GenP.V46_of m (outsA m) c main_arg4 (by decide)).trans ((GenP.V45_of m (outsA m) c main_arg4 (by decide)).trans ((GenP.V44_of m (outsA m) c main_arg4 (by decide)).trans ((GenP.V43_of m (outsA m) c main_arg4 (by decide)).trans ((GenP.V42_of m (outsA m) c main_arg4 (by decide)).trans ((GenP.V41_of m (outsA m) c main_arg4 (by decide)).trans ((GenP.V40_of m (outsA m) c main_arg4 (by decide)).trans ((GenP.V39_of m (outsA m) c main_arg4 (by decide)).trans ((GenP.V38_of m (outsA m) c main_arg4 (by decide)).trans ((GenP.V37_of m (outsA m) c main_arg4 (by decide)).trans ((GenP.V36_of m (outsA m) c main_arg4 (by decide)).trans ((GenP.V35_of m (outsA m) c main_arg4 (by decide)).trans ((GenP.V34_of m (outsA m) c main_arg4 (by decide)).trans ((GenP.V33_of m (outsA m) c main_arg4 (by decide)).trans ((GenP.V32_of m (outsA m) c main_arg4 (by decide)).trans ((GenP.V31_of m (outsA m) c main_arg4 (by decide)).trans ((GenP.V30_of m (outsA m) c main_arg4 (by decide)).trans ((GenP.V29_of m (outsA m) c main_arg4 (by decide)).trans ((GenP.V28_of m (outsA m) c main_arg4 (by decide)).trans ((GenP.V27_of m (outsA m) c main_arg4 (by decide)).trans ((GenP.V26_of m (outsA m) c main_arg4 (by decide)).trans ((GenP.V25_of m (outsA m) c main_arg4 (by decide)).trans ((GenP.V24_of m (outsA m) c main_arg4 (by decide)).trans ((GenP.V23_of m (outsA m) c main_arg4 (by decide)).trans ((GenP.V22_of m (outsA m) c main_arg4 (by decide)).trans ((GenP.V21_of m (outsA m) c main_arg4 (by decide)).trans ((GenP.V20_of m (outsA m) c main_arg4 (by decide)).trans ((GenP.V19_of m (outsA m) c main_arg4 (by decide)).trans ((GenP.V18_of m (outsA m) c main_arg4 (by decide)).trans ((GenP.V17_of m (outsA m) c main_arg4 (by decide)).trans ((GenP.V16_of m (outsA m) c main_arg4 (by decide)).trans ((GenP.V15_of m (outsA m) c main_arg4 (by decide)).trans ((GenP.V14_of m (outsA m) c main_arg4 (by decide)).trans ((GenP.V13_of m (outsA m) c main_arg4 (by decide)).trans ((GenP.V12_of m (outsA m) c main_arg4 (by decide)).trans ((GenP.V11_of m (outsA m) c main_arg4 (by decide)).trans ((GenP.V10_of m (outsA m) c main_arg4 (by decide)).trans ((GenP.V9_of m (outsA m) c main_arg4 (by decide)).trans ((GenP.V8_of m (outsA m) c main_arg4 (by decide)).trans ((GenP.V7_of m (outsA m) c main_arg4 (by decide)).trans ((GenP.V6_of m (outsA m) c main_arg4 (by decide)).trans ((GenP.V5_of m (outsA m) c main_arg4 (by decide)).trans ((GenP.V4_of m (outsA m) c main_arg4 (by decide)).trans ((GenP.V3_of m (outsA m) c main_arg4 (by decide)).trans ((GenP.V2_of m (outsA m) c main_arg4 (by decide)).trans (GenP.V1_of m c main_arg4 (by decide))))))))))))))))))))))))))))))))))))))))))))))))))))))))))

theorem A_v104 : GenP.V59 m (outsA m) c (Proc.devRef .tc main_v104) = shapeCast _ (GenP.V58 m (outsA m) c (Proc.devRef .tc main_arg4)) shapeCasts_S1x50000x64_S50000x64 := by
  show StableHlo.after hostOps1_56 (GenP.V58 m (outsA m) c) (Proc.devRef .tc main_v104) = _
  after_results_simp
  try rfl

theorem C_arg0_59_0 : GenP.V59 m (outsA m) c (Proc.devRef .tc main_arg0) = GenP.V0 m c (Proc.devRef .tc main_arg0) :=
  (GenP.V59_of m (outsA m) c main_arg0 (by decide)).trans ((GenP.V58_of m (outsA m) c main_arg0 (by decide)).trans ((GenP.V57_of m (outsA m) c main_arg0 (by decide)).trans ((GenP.V56_of m (outsA m) c main_arg0 (by decide)).trans ((GenP.V55_of m (outsA m) c main_arg0 (by decide)).trans ((GenP.V54_of m (outsA m) c main_arg0 (by decide)).trans ((GenP.V53_of m (outsA m) c main_arg0 (by decide)).trans ((GenP.V52_of m (outsA m) c main_arg0 (by decide)).trans ((GenP.V51_of m (outsA m) c main_arg0 (by decide)).trans ((GenP.V50_of m (outsA m) c main_arg0 (by decide)).trans ((GenP.V49_of m (outsA m) c main_arg0 (by decide)).trans ((GenP.V48_of m (outsA m) c main_arg0 (by decide)).trans ((GenP.V47_of m (outsA m) c main_arg0 (by decide)).trans ((GenP.V46_of m (outsA m) c main_arg0 (by decide)).trans ((GenP.V45_of m (outsA m) c main_arg0 (by decide)).trans ((GenP.V44_of m (outsA m) c main_arg0 (by decide)).trans ((GenP.V43_of m (outsA m) c main_arg0 (by decide)).trans ((GenP.V42_of m (outsA m) c main_arg0 (by decide)).trans ((GenP.V41_of m (outsA m) c main_arg0 (by decide)).trans ((GenP.V40_of m (outsA m) c main_arg0 (by decide)).trans ((GenP.V39_of m (outsA m) c main_arg0 (by decide)).trans ((GenP.V38_of m (outsA m) c main_arg0 (by decide)).trans ((GenP.V37_of m (outsA m) c main_arg0 (by decide)).trans ((GenP.V36_of m (outsA m) c main_arg0 (by decide)).trans ((GenP.V35_of m (outsA m) c main_arg0 (by decide)).trans ((GenP.V34_of m (outsA m) c main_arg0 (by decide)).trans ((GenP.V33_of m (outsA m) c main_arg0 (by decide)).trans ((GenP.V32_of m (outsA m) c main_arg0 (by decide)).trans ((GenP.V31_of m (outsA m) c main_arg0 (by decide)).trans ((GenP.V30_of m (outsA m) c main_arg0 (by decide)).trans ((GenP.V29_of m (outsA m) c main_arg0 (by decide)).trans ((GenP.V28_of m (outsA m) c main_arg0 (by decide)).trans ((GenP.V27_of m (outsA m) c main_arg0 (by decide)).trans ((GenP.V26_of m (outsA m) c main_arg0 (by decide)).trans ((GenP.V25_of m (outsA m) c main_arg0 (by decide)).trans ((GenP.V24_of m (outsA m) c main_arg0 (by decide)).trans ((GenP.V23_of m (outsA m) c main_arg0 (by decide)).trans ((GenP.V22_of m (outsA m) c main_arg0 (by decide)).trans ((GenP.V21_of m (outsA m) c main_arg0 (by decide)).trans ((GenP.V20_of m (outsA m) c main_arg0 (by decide)).trans ((GenP.V19_of m (outsA m) c main_arg0 (by decide)).trans ((GenP.V18_of m (outsA m) c main_arg0 (by decide)).trans ((GenP.V17_of m (outsA m) c main_arg0 (by decide)).trans ((GenP.V16_of m (outsA m) c main_arg0 (by decide)).trans ((GenP.V15_of m (outsA m) c main_arg0 (by decide)).trans ((GenP.V14_of m (outsA m) c main_arg0 (by decide)).trans ((GenP.V13_of m (outsA m) c main_arg0 (by decide)).trans ((GenP.V12_of m (outsA m) c main_arg0 (by decide)).trans ((GenP.V11_of m (outsA m) c main_arg0 (by decide)).trans ((GenP.V10_of m (outsA m) c main_arg0 (by decide)).trans ((GenP.V9_of m (outsA m) c main_arg0 (by decide)).trans ((GenP.V8_of m (outsA m) c main_arg0 (by decide)).trans ((GenP.V7_of m (outsA m) c main_arg0 (by decide)).trans ((GenP.V6_of m (outsA m) c main_arg0 (by decide)).trans ((GenP.V5_of m (outsA m) c main_arg0 (by decide)).trans ((GenP.V4_of m (outsA m) c main_arg0 (by decide)).trans ((GenP.V3_of m (outsA m) c main_arg0 (by decide)).trans ((GenP.V2_of m (outsA m) c main_arg0 (by decide)).trans (GenP.V1_of m c main_arg0 (by decide)))))))))))))))))))))))))))))))))))))))))))))))))))))))))))

theorem C_v28_59_3 : GenP.V59 m (outsA m) c (Proc.devRef .tc main_v28) = GenP.V3 m (outsA m) c (Proc.devRef .tc main_v28) :=
  (GenP.V59_of m (outsA m) c main_v28 (by decide)).trans ((GenP.V58_of m (outsA m) c main_v28 (by decide)).trans ((GenP.V57_of m (outsA m) c main_v28 (by decide)).trans ((GenP.V56_of m (outsA m) c main_v28 (by decide)).trans ((GenP.V55_of m (outsA m) c main_v28 (by decide)).trans ((GenP.V54_of m (outsA m) c main_v28 (by decide)).trans ((GenP.V53_of m (outsA m) c main_v28 (by decide)).trans ((GenP.V52_of m (outsA m) c main_v28 (by decide)).trans ((GenP.V51_of m (outsA m) c main_v28 (by decide)).trans ((GenP.V50_of m (outsA m) c main_v28 (by decide)).trans ((GenP.V49_of m (outsA m) c main_v28 (by decide)).trans ((GenP.V48_of m (outsA m) c main_v28 (by decide)).trans ((GenP.V47_of m (outsA m) c main_v28 (by decide)).trans ((GenP.V46_of m (outsA m) c main_v28 (by decide)).trans ((GenP.V45_of m (outsA m) c main_v28 (by decide)).trans ((GenP.V44_of m (outsA m) c main_v28 (by decide)).trans ((GenP.V43_of m (outsA m) c main_v28 (by decide)).trans ((GenP.V42_of m (outsA m) c main_v28 (by decide)).trans ((GenP.V41_of m (outsA m) c main_v28 (by decide)).trans ((GenP.V40_of m (outsA m) c main_v28 (by decide)).trans ((GenP.V39_of m (outsA m) c main_v28 (by decide)).trans ((GenP.V38_of m (outsA m) c main_v28 (by decide)).trans ((GenP.V37_of m (outsA m) c main_v28 (by decide)).trans ((GenP.V36_of m (outsA m) c main_v28 (by decide)).trans ((GenP.V35_of m (outsA m) c main_v28 (by decide)).trans ((GenP.V34_of m (outsA m) c main_v28 (by decide)).trans ((GenP.V33_of m (outsA m) c main_v28 (by decide)).trans ((GenP.V32_of m (outsA m) c main_v28 (by decide)).trans ((GenP.V31_of m (outsA m) c main_v28 (by decide)).trans ((GenP.V30_of m (outsA m) c main_v28 (by decide)).trans ((GenP.V29_of m (outsA m) c main_v28 (by decide)).trans ((GenP.V28_of m (outsA m) c main_v28 (by decide)).trans ((GenP.V27_of m (outsA m) c main_v28 (by decide)).trans ((GenP.V26_of m (outsA m) c main_v28 (by decide)).trans ((GenP.V25_of m (outsA m) c main_v28 (by decide)).trans ((GenP.V24_of m (outsA m) c main_v28 (by decide)).trans ((GenP.V23_of m (outsA m) c main_v28 (by decide)).trans ((GenP.V22_of m (outsA m) c main_v28 (by decide)).trans ((GenP.V21_of m (outsA m) c main_v28 (by decide)).trans ((GenP.V20_of m (outsA m) c main_v28 (by decide)).trans ((GenP.V19_of m (outsA m) c main_v28 (by decide)).trans ((GenP.V18_of m (outsA m) c main_v28 (by decide)).trans ((GenP.V17_of m (outsA m) c main_v28 (by decide)).trans ((GenP.V16_of m (outsA m) c main_v28 (by decide)).trans ((GenP.V15_of m (outsA m) c main_v28 (by decide)).trans ((GenP.V14_of m (outsA m) c main_v28 (by decide)).trans ((GenP.V13_of m (outsA m) c main_v28 (by decide)).trans ((GenP.V12_of m (outsA m) c main_v28 (by decide)).trans ((GenP.V11_of m (outsA m) c main_v28 (by decide)).trans ((GenP.V10_of m (outsA m) c main_v28 (by decide)).trans ((GenP.V9_of m (outsA m) c main_v28 (by decide)).trans ((GenP.V8_of m (outsA m) c main_v28 (by decide)).trans ((GenP.V7_of m (outsA m) c main_v28 (by decide)).trans ((GenP.V6_of m (outsA m) c main_v28 (by decide)).trans ((GenP.V5_of m (outsA m) c main_v28 (by decide)).trans (GenP.V4_of m (outsA m) c main_v28 (by decide))))))))))))))))))))))))))))))))))))))))))))))))))))))))

/-! ## The gate-padded parameters read at an index -/

theorem w_v36_g0 (k : Fin 100) (j : Fin 100) :
    GenP.V59 m (outsA m) c (Proc.devRef .tc main_v36) (ix2 k (⟨128 * 0 + j.val, by have := j.isLt; omega⟩ : Fin 384)) = m ((c.tc : Thread nD τ).loc main_arg6) (ix2 (⟨100 * 0 + j.val, by have := j.isLt; omega⟩ : Fin 300) k) := by
  rw [C_v36_59_9]
  rw [A_v36]
  rw [PadCat.cat3_0 _ _ _ _ k (⟨j.val, by have := j.isLt; omega⟩ : Fin 128) _ (by show 128 * 0 + j.val = 128 * 0 + j.val; rfl)]
  rw [C_v31_8_4]
  rw [A_v31]
  rw [PadCat.pad_cols_apply _ _ _ _ k j (⟨j.val, by have := j.isLt; omega⟩ : Fin 128) rfl]
  rw [A_v30]
  rw [slice2_axis1_apply 0 _ _ k j (⟨100 * 0 + j.val, by have := j.isLt; omega⟩ : Fin 300) (by show 100 * 0 + j.val = 0 + j.val; omega)]
  rw [transpose_ix2_apply]
  rw [C_arg6_2_0]
  try rfl

theorem w_v36_g1 (k : Fin 100) (j : Fin 100) :
    GenP.V59 m (outsA m) c (Proc.devRef .tc main_v36) (ix2 k (⟨128 * 1 + j.val, by have := j.isLt; omega⟩ : Fin 384)) = m ((c.tc : Thread nD τ).loc main_arg6) (ix2 (⟨100 * 1 + j.val, by have := j.isLt; omega⟩ : Fin 300) k) := by
  rw [C_v36_59_9]
  rw [A_v36]
  rw [PadCat.cat3_1 _ _ _ _ k (⟨j.val, by have := j.isLt; omega⟩ : Fin 128) _ (by show 128 * 1 + j.val = 128 * 1 + j.val; rfl)]
  rw [C_v33_8_6]
  rw [A_v33]
  rw [PadCat.pad_cols_apply _ _ _ _ k j (⟨j.val, by have := j.isLt; omega⟩ : Fin 128) rfl]
  rw [A_v32]
  rw [slice2_axis1_apply 100 _ _ k j (⟨100 * 1 + j.val, by have := j.isLt; omega⟩ : Fin 300) (by show 100 * 1 + j.val = 100 + j.val; omega)]
  rw [C_v29_4_3]
  rw [A_v29]
  rw [transpose_ix2_apply]
  rw [C_arg6_2_0]
  try rfl

theorem w_v36_g2 (k : Fin 100) (j : Fin 100) :
    GenP.V59 m (outsA m) c (Proc.devRef .tc main_v36) (ix2 k (⟨128 * 2 + j.val, by have := j.isLt; omega⟩ : Fin 384)) = m ((c.tc : Thread nD τ).loc main_arg6) (ix2 (⟨100 * 2 + j.val, by have := j.isLt; omega⟩ : Fin 300) k) := by
  rw [C_v36_59_9]
  rw [A_v36]
  rw [PadCat.cat3_2 _ _ _ _ k (⟨j.val, by have := j.isLt; omega⟩ : Fin 128) _ (by show 128 * 2 + j.val = 128 * 2 + j.val; rfl)]
  rw [A_v35]
  rw [PadCat.pad_cols_apply _ _ _ _ k j (⟨j.val, by have := j.isLt; omega⟩ : Fin 128) rfl]
  rw [A_v34]
  rw [slice2_axis1_apply 200 _ _ k j (⟨100 * 2 + j.val, by have := j.isLt; omega⟩ : Fin 300) (by show 100 * 2 + j.val = 200 + j.val; omega)]
  rw [C_v29_6_3]
  rw [A_v29]
  rw [transpose_ix2_apply]
  rw [C_arg6_2_0]
  try rfl

theorem w_v44_g0 (k : Fin 100) (j : Fin 100) :
    GenP.V59 m (outsA m) c (Proc.devRef .tc main_v44) (ix2 k (⟨128 * 0 + j.val, by have := j.isLt; omega⟩ : Fin 384)) = m ((c.tc : Thread nD τ).loc main_arg7) (ix2 (⟨100 * 0 + j.val, by have := j.isLt; omega⟩ : Fin 300) k) := by
  rw [C_v44_59_15]
  rw [A_v44]
  rw [PadCat.cat3_0 _ _ _ _ k (⟨j.val, by have := j.isLt; omega⟩ : Fin 128) _ (by show 128 * 0 + j.val = 128 * 0 + j.val; rfl)]
  rw [C_v39_14_10]
  rw [A_v39]
  rw [PadCat.pad_cols_apply _ _ _ _ k j (⟨j.val, by have := j.isLt; omega⟩ : Fin 128) rfl]
  rw [A_v38]
  rw [slice2_axis1_apply 0 _ _ k j (⟨100 * 0 + j.val, by have := j.isLt; omega⟩ : Fin 300) (by show 100 * 0 + j.val = 0 + j.val; omega)]
  rw [transpose_ix2_apply]
  rw [C_arg7_8_0]
  try rfl

theorem w_v44_g1 (k : Fin 100) (j : Fin 100) :
    GenP.V59 m (outsA m) c (Proc.devRef .tc main_v44) (ix2 k (⟨128 * 1 + j.val, by have := j.isLt; omega⟩ : Fin 384)) = m ((c.tc : Thread nD τ).loc main_arg7) (ix2 (⟨100 * 1 + j.val, by have := j.isLt; omega⟩ : Fin 300) k) := by
  rw [C_v44_59_15]
  rw [A_v44]
  rw [PadCat.cat3_1 _ _ _ _ k (⟨j.val, by have := j.isLt; omega⟩ : Fin 128) _ (by show 128 * 1 + j.val = 128 * 1 + j.val; rfl)]
  rw [C_v41_14_12]
  rw [A_v41]
  rw [PadCat.pad_cols_apply _ _ _ _ k j (⟨j.val, by have := j.isLt; omega⟩ : Fin 128) rfl]
  rw [A_v40]
  rw [slice2_axis1_apply 100 _ _ k j (⟨100 * 1 + j.val, by have := j.isLt; omega⟩ : Fin 300) (by show 100 * 1 + j.val = 100 + j.val; omega)]
  rw [C_v37_10_9]
  rw [A_v37]
  rw [transpose_ix2_apply]
  rw [C_arg7_8_0]
  try rfl

theorem w_v44_g2 (k : Fin 100) (j : Fin 100) :
    GenP.V59 m (outsA m) c (Proc.devRef .tc main_v44) (ix2 k (⟨128 * 2 + j.val, by have := j.isLt; omega⟩ : Fin 384)) = m ((c.tc : Thread nD τ).loc main_arg7) (ix2 (⟨100 * 2 + j.val, by have := j.isLt; omega⟩ : Fin 300) k) := by
  rw [C_v44_59_15]
  rw [A_v44]
  rw [PadCat.cat3_2 _ _ _ _ k (⟨j.val, by have := j.isLt; omega⟩ : Fin 128) _ (by show 128 * 2 + j.val = 128 * 2 + j.val; rfl)]
  rw [A_v43]
  rw [PadCat.pad_cols_apply _ _ _ _ k j (⟨j.val, by have := j.isLt; omega⟩ : Fin 128) rfl]
  rw [A_v42]
  rw [slice2_axis1_apply 200 _ _ k j (⟨100 * 2 + j.val, by have := j.isLt; omega⟩ : Fin 300) (by show 100 * 2 + j.val = 200 + j.val; omega)]
  rw [C_v37_12_9]
  rw [A_v37]
  rw [transpose_ix2_apply]
  rw [C_arg7_8_0]
  try rfl

theorem w_v52_g0 (k : Fin 1) (j : Fin 100) :
    GenP.V59 m (outsA m) c (Proc.devRef .tc main_v52) (ix2 k (⟨128 * 0 + j.val, by have := j.isLt; omega⟩ : Fin 384)) = m ((c.tc : Thread nD τ).loc main_arg8) (ix1 (⟨100 * 0 + j.val, by have := j.isLt; omega⟩ : Fin 300)) := by
  rw [C_v52_59_21]
  rw [A_v52]
  rw [PadCat.cat3_0 _ _ _ _ k (⟨j.val, by have := j.isLt; omega⟩ : Fin 128) _ (by show 128 * 0 + j.val = 128 * 0 + j.val; rfl)]
  rw [C_v47_20_16]
  rw [A_v47]
  rw [PadCat.pad_cols_apply _ _ _ _ k j (⟨j.val, by have := j.isLt; omega⟩ : Fin 128) rfl]
  rw [A_v46]
  rw [slice2_axis1_apply 0 _ _ k j (⟨100 * 0 + j.val, by have := j.isLt; omega⟩ : Fin 300) (by show 100 * 0 + j.val = 0 + j.val; omega)]
  rw [shapeCast_a_1a_apply]
  rw [C_arg8_14_0]
  try rfl

theorem w_v52_g1 (k : Fin 1) (j : Fin 100) :
    GenP.V59 m (outsA m) c (Proc.devRef .tc main_v52) (ix2 k (⟨128 * 1 + j.val, by have := j.isLt; omega⟩ : Fin 384)) = m ((c.tc : Thread nD τ).loc main_arg8) (ix1 (⟨100 * 1 + j.val, by have := j.isLt; omega⟩ : Fin 300)) := by
  rw [C_v52_59_21]
  rw [A_v52]
  rw [PadCat.cat3_1 _ _ _ _ k (⟨j.val, by have := j.isLt; omega⟩ : Fin 128) _ (by show 128 * 1 + j.val = 128 * 1 + j.val; rfl)]
  rw [C_v49_20_18]
  rw [A_v49]
  rw [PadCat.pad_cols_apply _ _ _ _ k j (⟨j.val, by have := j.isLt; omega⟩ : Fin 128) rfl]
  rw [A_v48]
  rw [slice2_axis1_apply 100 _ _ k j (⟨100 * 1 + j.val, by have := j.isLt; omega⟩ : Fin 300) (by show 100 * 1 + j.val = 100 + j.val; omega)]
  rw [C_v45_16_15]
  rw [A_v45]
  rw [shapeCast_a_1a_apply]
  rw [C_arg8_14_0]
  try rfl

theorem w_v52_g2 (k : Fin 1) (j : Fin 100) :
    GenP.V59 m (outsA m) c (Proc.devRef .tc main_v52) (ix2 k (⟨128 * 2 + j.val, by have := j.isLt; omega⟩ : Fin 384)) = m ((c.tc : Thread nD τ).loc main_arg8) (ix1 (⟨100 * 2 + j.val, by have := j.isLt; omega⟩ : Fin 300)) := by
  rw [C_v52_59_21]
  rw [A_v52]
  rw [PadCat.cat3_2 _ _ _ _ k (⟨j.val, by have := j.isLt; omega⟩ : Fin 128) _ (by show 128 * 2 + j.val = 128 * 2 + j.val; rfl)]
  rw [A_v51]
  rw [PadCat.pad_cols_apply _ _ _ _ k j (⟨j.val, by have := j.isLt; omega⟩ : Fin 128) rfl]
  rw [A_v50]
  rw [slice2_axis1_apply 200 _ _ k j (⟨100 * 2 + j.val, by have := j.isLt; omega⟩ : Fin 300) (by show 100 * 2 + j.val = 200 + j.val; omega)]
  rw [C_v45_18_15]
  rw [A_v45]
  rw [shapeCast_a_1a_apply]
  rw [C_arg8_14_0]
  try rfl

theorem w_v60_g0 (k : Fin 1) (j : Fin 100) :
    GenP.V59 m (outsA m) c (Proc.devRef .tc main_v60) (ix2 k (⟨128 * 0 + j.val, by have := j.isLt; omega⟩ : Fin 384)) = m ((c.tc : Thread nD τ).loc main_arg9) (ix1 (⟨100 * 0 + j.val, by have := j.isLt; omega⟩ : Fin 300)) := by
  rw [C_v60_59_27]
  rw [A_v60]
  rw [PadCat.cat3_0 _ _ _ _ k (⟨j.val, by have := j.isLt; omega⟩ : Fin 128) _ (by show 128 * 0 + j.val = 128 * 0 + j.val; rfl)]
  rw [C_v55_26_22]
  rw [A_v55]
  rw [PadCat.pad_cols_apply _ _ _ _ k j (⟨j.val, by have := j.isLt; omega⟩ : Fin 128) rfl]
  rw [A_v54]
  rw [slice2_axis1_apply 0 _ _ k j (⟨100 * 0 + j.val, by have := j.isLt; omega⟩ : Fin 300) (by show 100 * 0 + j.val = 0 + j.val; omega)]
  rw [shapeCast_a_1a_apply]
  rw [C_arg9_20_0]
  try rfl

theorem w_v60_g1 (k : Fin 1) (j : Fin 100) :
    GenP.V59 m (outsA m) c (Proc.devRef .tc main_v60) (ix2 k (⟨128 * 1 + j.val, by have := j.isLt; omega⟩ : Fin 384)) = m ((c.tc : Thread nD τ).loc main_arg9) (ix1 (⟨100 * 1 + j.val, by have := j.isLt; omega⟩ : Fin 300)) := by
  rw [C_v60_59_27]
  rw [A_v60]
  rw [PadCat.cat3_1 _ _ _ _ k (⟨j.val, by have := j.isLt; omega⟩ : Fin 128) _ (by show 128 * 1 + j.val = 128 * 1 + j.val; rfl)]
  rw [C_v57_26_24]
  rw [A_v57]
  rw [PadCat.pad_cols_apply _ _ _ _ k j (⟨j.val, by have := j.isLt; omega⟩ : Fin 128) rfl]
  rw [A_v56]
  rw [slice2_axis1_apply 100 _ _ k j (⟨100 * 1 + j.val, by have := j.isLt; omega⟩ : Fin 300) (by show 100 * 1 + j.val = 100 + j.val; omega)]
  rw [C_v53_22_21]
  rw [A_v53]
  rw [shapeCast_a_1a_apply]
  rw [C_arg9_20_0]
  try rfl

theorem w_v60_g2 (k : Fin 1) (j : Fin 100) :
    GenP.V59 m (outsA m) c (Proc.devRef .tc main_v60) (ix2 k (⟨128 * 2 + j.val, by have := j.isLt; omega⟩ : Fin 384)) = m ((c.tc : Thread nD τ).loc main_arg9) (ix1 (⟨100 * 2 + j.val, by have := j.isLt; omega⟩ : Fin 300)) := by
  rw [C_v60_59_27]
  rw [A_v60]
  rw [PadCat.cat3_2 _ _ _ _ k (⟨j.val, by have := j.isLt; omega⟩ : Fin 128) _ (by show 128 * 2 + j.val = 128 * 2 + j.val; rfl)]
  rw [A_v59]
  rw [PadCat.pad_cols_apply _ _ _ _ k j (⟨j.val, by have := j.isLt; omega⟩ : Fin 128) rfl]
  rw [A_v58]
  rw [slice2_axis1_apply 200 _ _ k j (⟨100 * 2 + j.val, by have := j.isLt; omega⟩ : Fin 300) (by show 100 * 2 + j.val = 200 + j.val; omega)]
  rw [C_v53_24_21]
  rw [A_v53]
  rw [shapeCast_a_1a_apply]
  rw [C_arg9_20_0]
  try rfl

theorem w_v70_g0 (k : Fin 100) (j : Fin 64) :
    GenP.V59 m (outsA m) c (Proc.devRef .tc main_v70) (ix2 k (⟨128 * 0 + j.val, by have := j.isLt; omega⟩ : Fin 512)) = m ((c.tc : Thread nD τ).loc main_arg10) (ix2 (⟨64 * 0 + j.val, by have := j.isLt; omega⟩ : Fin 256) k) := by
  rw [C_v70_59_35]
  rw [A_v70]
  rw [PadCat.cat4_0 _ _ _ _ _ k (⟨j.val, by have := j.isLt; omega⟩ : Fin 128) _ (by show 128 * 0 + j.val = 128 * 0 + j.val; rfl)]
  rw [C_v63_34_28]
  rw [A_v63]
  rw [PadCat.pad_cols_apply _ _ _ _ k j (⟨j.val, by have := j.isLt; omega⟩ : Fin 128) rfl]
  rw [A_v62]
  rw [slice2_axis1_apply 0 _ _ k j (⟨64 * 0 + j.val, by have := j.isLt; omega⟩ : Fin 256) (by show 64 * 0 + j.val = 0 + j.val; omega)]
  rw [transpose_ix2_apply]
  rw [C_arg10_26_0]
  try rfl

theorem w_v70_g1 (k : Fin 100) (j : Fin 64) :
    GenP.V59 m (outsA m) c (Proc.devRef .tc main_v70) (ix2 k (⟨128 * 1 + j.val, by have := j.isLt; omega⟩ : Fin 512)) = m ((c.tc : Thread nD τ).loc main_arg10) (ix2 (⟨64 * 1 + j.val, by have := j.isLt; omega⟩ : Fin 256) k) := by
  rw [C_v70_59_35]
  rw [A_v70]
  rw [PadCat.cat4_1 _ _ _ _ _ k (⟨j.val, by have := j.isLt; omega⟩ : Fin 128) _ (by show 128 * 1 + j.val = 128 * 1 + j.val; rfl)]
  rw [C_v65_34_30]
  rw [A_v65]
  rw [PadCat.pad_cols_apply _ _ _ _ k j (⟨j.val, by have := j.isLt; omega⟩ : Fin 128) rfl]
  rw [A_v64]
  rw [slice2_axis1_apply 64 _ _ k j (⟨64 * 1 + j.val, by have := j.isLt; omega⟩ : Fin 256) (by show 64 * 1 + j.val = 64 + j.val; omega)]
  rw [C_v61_28_27]
  rw [A_v61]
  rw [transpose_ix2_apply]
  rw [C_arg10_26_0]
  try rfl

theorem w_v70_g2 (k : Fin 100) (j : Fin 64) :
    GenP.V59 m (outsA m) c (Proc.devRef .tc main_v70) (ix2 k (⟨128 * 2 + j.val, by have := j.isLt; omega⟩ : Fin 512)) = m ((c.tc : Thread nD τ).loc main_arg10) (ix2 (⟨64 * 2 + j.val, by have := j.isLt; omega⟩ : Fin 256) k) := by
  rw [C_v70_59_35]
  rw [A_v70]
  rw [PadCat.cat4_2 _ _ _ _ _ k (⟨j.val, by have := j.isLt; omega⟩ : Fin 128) _ (by show 128 * 2 + j.val = 128 * 2 + j.val; rfl)]
  rw [C_v67_34_32]
  rw [A_v67]
  rw [PadCat.pad_cols_apply _ _ _ _ k j (⟨j.val, by have := j.isLt; omega⟩ : Fin 128) rfl]
  rw [A_v66]
  rw [slice2_axis1_apply 128 _ _ k j (⟨64 * 2 + j.val, by have := j.isLt; omega⟩ : Fin 256) (by show 64 * 2 + j.val = 128 + j.val; omega)]
  rw [C_v61_30_27]
  rw [A_v61]
  rw [transpose_ix2_apply]
  rw [C_arg10_26_0]
  try rfl

theorem w_v70_g3 (k : Fin 100) (j : Fin 64) :
    GenP.V59 m (outsA m) c (Proc.devRef .tc main_v70) (ix2 k (⟨128 * 3 + j.val, by have := j.isLt; omega⟩ : Fin 512)) = m ((c.tc : Thread nD τ).loc main_arg10) (ix2 (⟨64 * 3 + j.val, by have := j.isLt; omega⟩ : Fin 256) k) := by
  rw [C_v70_59_35]
  rw [A_v70]
  rw [PadCat.cat4_3 _ _ _ _ _ k (⟨j.val, by have := j.isLt; omega⟩ : Fin 128) _ (by show 128 * 3 + j.val = 128 * 3 + j.val; rfl)]
  rw [A_v69]
  rw [PadCat.pad_cols_apply _ _ _ _ k j (⟨j.val, by have := j.isLt; omega⟩ : Fin 128) rfl]
  rw [A_v68]
  rw [slice2_axis1_apply 192 _ _ k j (⟨64 * 3 + j.val, by have := j.isLt; omega⟩ : Fin 256) (by show 64 * 3 + j.val = 192 + j.val; omega)]
  rw [C_v61_32_27]
  rw [A_v61]
  rw [transpose_ix2_apply]
  rw [C_arg10_26_0]
  try rfl

theorem w_v80_g0 (k : Fin 64) (j : Fin 64) :
    GenP.V59 m (outsA m) c (Proc.devRef .tc main_v80) (ix2 k (⟨128 * 0 + j.val, by have := j.isLt; omega⟩ : Fin 512)) = m ((c.tc : Thread nD τ).loc main_arg11) (ix2 (⟨64 * 0 + j.val, by have := j.isLt; omega⟩ : Fin 256) k) := by
  rw [C_v80_59_43]
  rw [A_v80]
  rw [PadCat.cat4_0 _ _ _ _ _ k (⟨j.val, by have := j.isLt; omega⟩ : Fin 128) _ (by show 128 * 0 + j.val = 128 * 0 + j.val; rfl)]
  rw [C_v73_42_36]
  rw [A_v73]
  rw [PadCat.pad_cols_apply _ _ _ _ k j (⟨j.val, by have := j.isLt; omega⟩ : Fin 128) rfl]
  rw [A_v72]
  rw [slice2_axis1_apply 0 _ _ k j (⟨64 * 0 + j.val, by have := j.isLt; omega⟩ : Fin 256) (by show 64 * 0 + j.val = 0 + j.val; omega)]
  rw [transpose_ix2_apply]
  rw [C_arg11_34_0]
  try rfl

theorem w_v80_g1 (k : Fin 64) (j : Fin 64) :
    GenP.V59 m (outsA m) c (Proc.devRef .tc main_v80) (ix2 k (⟨128 * 1 + j.val, by have := j.isLt; omega⟩ : Fin 512)) = m ((c.tc : Thread nD τ).loc main_arg11) (ix2 (⟨64 * 1 + j.val, by have := j.isLt; omega⟩ : Fin 256) k) := by
  rw [C_v80_59_43]
  rw [A_v80]
  rw [PadCat.cat4_1 _ _ _ _ _ k (⟨j.val, by have := j.isLt; omega⟩ : Fin 128) _ (by show 128 * 1 + j.val = 128 * 1 + j.val; rfl)]
  rw [C_v75_42_38]
  rw [A_v75]
  rw [PadCat.pad_cols_apply _ _ _ _ k j (⟨j.val, by have := j.isLt; omega⟩ : Fin 128) rfl]
  rw [A_v74]
  rw [slice2_axis1_apply 64 _ _ k j (⟨64 * 1 + j.val, by have := j.isLt; omega⟩ : Fin 256) (by show 64 * 1 + j.val = 64 + j.val; omega)]
  rw [C_v71_36_35]
  rw [A_v71]
  rw [transpose_ix2_apply]
  rw [C_arg11_34_0]
  try rfl

theorem w_v80_g2 (k : Fin 64) (j : Fin 64) :
    GenP.V59 m (outsA m) c (Proc.devRef .tc main_v80) (ix2 k (⟨128 * 2 + j.val, by have := j.isLt; omega⟩ : Fin 512)) = m ((c.tc : Thread nD τ).loc main_arg11) (ix2 (⟨64 * 2 + j.val, by have := j.isLt; omega⟩ : Fin 256) k) := by
  rw [C_v80_59_43]
  rw [A_v80]
  rw [PadCat.cat4_2 _ _ _ _ _ k (⟨j.val, by have := j.isLt; omega⟩ : Fin 128) _ (by show 128 * 2 + j.val = 128 * 2 + j.val; rfl)]
  rw [C_v77_42_40]
  rw [A_v77]
  rw [PadCat.pad_cols_apply _ _ _ _ k j (⟨j.val, by have := j.isLt; omega⟩ : Fin 128) rfl]
  rw [A_v76]
  rw [slice2_axis1_apply 128 _ _ k j (⟨64 * 2 + j.val, by have := j.isLt; omega⟩ : Fin 256) (by show 64 * 2 + j.val = 128 + j.val; omega)]
  rw [C_v71_38_35]
  rw [A_v71]
  rw [transpose_ix2_apply]
  rw [C_arg11_34_0]
  try rfl

theorem w_v80_g3 (k : Fin 64) (j : Fin 64) :
    GenP.V59 m (outsA m) c (Proc.devRef .tc main_v80) (ix2 k (⟨128 * 3 + j.val, by have := j.isLt; omega⟩ : Fin 512)) = m ((c.tc : Thread nD τ).loc main_arg11) (ix2 (⟨64 * 3 + j.val, by have := j.isLt; omega⟩ : Fin 256) k) := by
  rw [C_v80_59_43]
  rw [A_v80]
  rw [PadCat.cat4_3 _ _ _ _ _ k (⟨j.val, by have := j.isLt; omega⟩ : Fin 128) _ (by show 128 * 3 + j.val = 128 * 3 + j.val; rfl)]
  rw [A_v79]
  rw [PadCat.pad_cols_apply _ _ _ _ k j (⟨j.val, by have := j.isLt; omega⟩ : Fin 128) rfl]
  rw [A_v78]
  rw [slice2_axis1_apply 192 _ _ k j (⟨64 * 3 + j.val, by have := j.isLt; omega⟩ : Fin 256) (by show 64 * 3 + j.val = 192 + j.val; omega)]
  rw [C_v71_40_35]
  rw [A_v71]
  rw [transpose_ix2_apply]
  rw [C_arg11_34_0]
  try rfl

theorem w_v90_g0 (k : Fin 1) (j : Fin 64) :
    GenP.V59 m (outsA m) c (Proc.devRef .tc main_v90) (ix2 k (⟨128 * 0 + j.val, by have := j.isLt; omega⟩ : Fin 512)) = m ((c.tc : Thread nD τ).loc main_arg12) (ix1 (⟨64 * 0 + j.val, by have := j.isLt; omega⟩ : Fin 256)) := by
  rw [C_v90_59_51]
  rw [A_v90]
  rw [PadCat.cat4_0 _ _ _ _ _ k (⟨j.val, by have := j.isLt; omega⟩ : Fin 128) _ (by show 128 * 0 + j.val = 128 * 0 + j.val; rfl)]
  rw [C_v83_50_44]
  rw [A_v83]
  rw [PadCat.pad_cols_apply _ _ _ _ k j (⟨j.val, by have := j.isLt; omega⟩ : Fin 128) rfl]
  rw [A_v82]
  rw [slice2_axis1_apply 0 _ _ k j (⟨64 * 0 + j.val, by have := j.isLt; omega⟩ : Fin 256) (by show 64 * 0 + j.val = 0 + j.val; omega)]
  rw [shapeCast_a_1a_apply]
  rw [C_arg12_42_0]
  try rfl

theorem w_v90_g1 (k : Fin 1) (j : Fin 64) :
    GenP.V59 m (outsA m) c (Proc.devRef .tc main_v90) (ix2 k (⟨128 * 1 + j.val, by have := j.isLt; omega⟩ : Fin 512)) = m ((c.tc : Thread nD τ).loc main_arg12) (ix1 (⟨64 * 1 + j.val, by have := j.isLt; omega⟩ : Fin 256)) := by
  rw [C_v90_59_51]
  rw [A_v90]
  rw [PadCat.cat4_1 _ _ _ _ _ k (⟨j.val, by have := j.isLt; omega⟩ : Fin 128) _ (by show 128 * 1 + j.val = 128 * 1 + j.val; rfl)]
  rw [C_v85_50_46]
  rw [A_v85]
  rw [PadCat.pad_cols_apply _ _ _ _ k j (⟨j.val, by have := j.isLt; omega⟩ : Fin 128) rfl]
  rw [A_v84]
  rw [slice2_axis1_apply 64 _ _ k j (⟨64 * 1 + j.val, by have := j.isLt; omega⟩ : Fin 256) (by show 64 * 1 + j.val = 64 + j.val; omega)]
  rw [C_v81_44_43]
  rw [A_v81]
  rw [shapeCast_a_1a_apply]
  rw [C_arg12_42_0]
  try rfl

theorem w_v90_g2 (k : Fin 1) (j : Fin 64) :
    GenP.V59 m (outsA m) c (Proc.devRef .tc main_v90) (ix2 k (⟨128 * 2 + j.val, by have := j.isLt; omega⟩ : Fin 512)) = m ((c.tc : Thread nD τ).loc main_arg12) (ix1 (⟨64 * 2 + j.val, by have := j.isLt; omega⟩ : Fin 256)) := by
  rw [C_v90_59_51]
  rw [A_v90]
  rw [PadCat.cat4_2 _ _ _ _ _ k (⟨j.val, by have := j.isLt; omega⟩ : Fin 128) _ (by show 128 * 2 + j.val = 128 * 2 + j.val; rfl)]
  rw [C_v87_50_48]
  rw [A_v87]
  rw [PadCat.pad_cols_apply _ _ _ _ k j (⟨j.val, by have := j.isLt; omega⟩ : Fin 128) rfl]
  rw [A_v86]
  rw [slice2_axis1_apply 128 _ _ k j (⟨64 * 2 + j.val, by have := j.isLt; omega⟩ : Fin 256) (by show 64 * 2 + j.val = 128 + j.val; omega)]
  rw [C_v81_46_43]
  rw [A_v81]
  rw [shapeCast_a_1a_apply]
  rw [C_arg12_42_0]
  try rfl

theorem w_v90_g3 (k : Fin 1) (j : Fin 64) :
    GenP.V59 m (outsA m) c (Proc.devRef .tc main_v90) (ix2 k (⟨128 * 3 + j.val, by have := j.isLt; omega⟩ : Fin 512)) = m ((c.tc : Thread nD τ).loc main_arg12) (ix1 (⟨64 * 3 + j.val, by have := j.isLt; omega⟩ : Fin 256)) := by
  rw [C_v90_59_51]
  rw [A_v90]
  rw [PadCat.cat4_3 _ _ _ _ _ k (⟨j.val, by have := j.isLt; omega⟩ : Fin 128) _ (by show 128 * 3 + j.val = 128 * 3 + j.val; rfl)]
  rw [A_v89]
  rw [PadCat.pad_cols_apply _ _ _ _ k j (⟨j.val, by have := j.isLt; omega⟩ : Fin 128) rfl]
  rw [A_v88]
  rw [slice2_axis1_apply 192 _ _ k j (⟨64 * 3 + j.val, by have := j.isLt; omega⟩ : Fin 256) (by show 64 * 3 + j.val = 192 + j.val; omega)]
  rw [C_v81_48_43]
  rw [A_v81]
  rw [shapeCast_a_1a_apply]
  rw [C_arg12_42_0]
  try rfl

theorem w_v100_g0 (k : Fin 1) (j : Fin 64) :
    GenP.V59 m (outsA m) c (Proc.devRef .tc main_v100) (ix2 k (⟨128 * 0 + j.val, by have := j.isLt; omega⟩ : Fin 512)) = m ((c.tc : Thread nD τ).loc main_arg13) (ix1 (⟨64 * 0 + j.val, by have := j.isLt; omega⟩ : Fin 256)) := by
  rw [A_v100]
  rw [PadCat.cat4_0 _ _ _ _ _ k (⟨j.val, by have := j.isLt; omega⟩ : Fin 128) _ (by show 128 * 0 + j.val = 128 * 0 + j.val; rfl)]
  rw [C_v93_58_52]
  rw [A_v93]
  rw [PadCat.pad_cols_apply _ _ _ _ k j (⟨j.val, by have := j.isLt; omega⟩ : Fin 128) rfl]
  rw [A_v92]
  rw [slice2_axis1_apply 0 _ _ k j (⟨64 * 0 + j.val, by have := j.isLt; omega⟩ : Fin 256) (by show 64 * 0 + j.val = 0 + j.val; omega)]
  rw [shapeCast_a_1a_apply]
  rw [C_arg13_50_0]
  try rfl

theorem w_v100_g1 (k : Fin 1) (j : Fin 64) :
    GenP.V59 m (outsA m) c (Proc.devRef .tc main_v100) (ix2 k (⟨128 * 1 + j.val, by have := j.isLt; omega⟩ : Fin 512)) = m ((c.tc : Thread nD τ).loc main_arg13) (ix1 (⟨64 * 1 + j.val, by have := j.isLt; omega⟩ : Fin 256)) := by
  rw [A_v100]
  rw [PadCat.cat4_1 _ _ _ _ _ k (⟨j.val, by have := j.isLt; omega⟩ : Fin 128) _ (by show 128 * 1 + j.val = 128 * 1 + j.val; rfl)]
  rw [C_v95_58_54]
  rw [A_v95]
  rw [PadCat.pad_cols_apply _ _ _ _ k j (⟨j.val, by have := j.isLt; omega⟩ : Fin 128) rfl]
  rw [A_v94]
  rw [slice2_axis1_apply 64 _ _ k j (⟨64 * 1 + j.val, by have := j.isLt; omega⟩ : Fin 256) (by show 64 * 1 + j.val = 64 + j.val; omega)]
  rw [C_v91_52_51]
  rw [A_v91]
  rw [shapeCast_a_1a_apply]
  rw [C_arg13_50_0]
  try rfl

theorem w_v100_g2 (k : Fin 1) (j : Fin 64) :
    GenP.V59 m (outsA m) c (Proc.devRef .tc main_v100) (ix2 k (⟨128 * 2 + j.val, by have := j.isLt; omega⟩ : Fin 512)) = m ((c.tc : Thread nD τ).loc main_arg13) (ix1 (⟨64 * 2 + j.val, by have := j.isLt; omega⟩ : Fin 256)) := by
  rw [A_v100]
  rw [PadCat.cat4_2 _ _ _ _ _ k (⟨j.val, by have := j.isLt; omega⟩ : Fin 128) _ (by show 128 * 2 + j.val = 128 * 2 + j.val; rfl)]
  rw [C_v97_58_56]
  rw [A_v97]
  rw [PadCat.pad_cols_apply _ _ _ _ k j (⟨j.val, by have := j.isLt; omega⟩ : Fin 128) rfl]
  rw [A_v96]
  rw [slice2_axis1_apply 128 _ _ k j (⟨64 * 2 + j.val, by have := j.isLt; omega⟩ : Fin 256) (by show 64 * 2 + j.val = 128 + j.val; omega)]
  rw [C_v91_54_51]
  rw [A_v91]
  rw [shapeCast_a_1a_apply]
  rw [C_arg13_50_0]
  try rfl

theorem w_v100_g3 (k : Fin 1) (j : Fin 64) :
    GenP.V59 m (outsA m) c (Proc.devRef .tc main_v100) (ix2 k (⟨128 * 3 + j.val, by have := j.isLt; omega⟩ : Fin 512)) = m ((c.tc : Thread nD τ).loc main_arg13) (ix1 (⟨64 * 3 + j.val, by have := j.isLt; omega⟩ : Fin 256)) := by
  rw [A_v100]
  rw [PadCat.cat4_3 _ _ _ _ _ k (⟨j.val, by have := j.isLt; omega⟩ : Fin 128) _ (by show 128 * 3 + j.val = 128 * 3 + j.val; rfl)]
  rw [A_v99]
  rw [PadCat.pad_cols_apply _ _ _ _ k j (⟨j.val, by have := j.isLt; omega⟩ : Fin 128) rfl]
  rw [A_v98]
  rw [slice2_axis1_apply 192 _ _ k j (⟨64 * 3 + j.val, by have := j.isLt; omega⟩ : Fin 256) (by show 64 * 3 + j.val = 192 + j.val; omega)]
  rw [C_v91_56_51]
  rw [A_v91]
  rw [shapeCast_a_1a_apply]
  rw [C_arg13_50_0]
  try rfl

/-! ## The operands the host only transposes or reshapes, and the aggregated messages' buffer -/

theorem op_v101 : GenP.V59 m (outsA m) c (Proc.devRef .tc main_v101) = transpose S64x8 [1, 0] (m ((c.tc : Thread nD τ).loc main_arg14)) transposes_S8x64_S64x8_1_0 := by
  rw [A_v101, C_arg14_58_0]
  try rfl

theorem op_v102 : GenP.V59 m (outsA m) c (Proc.devRef .tc main_v102) = shapeCast _ (m ((c.tc : Thread nD τ).loc main_arg15)) shapeCasts_S8_S1x8 := by
  rw [A_v102, C_arg15_58_0]
  try rfl

theorem op_v103 : GenP.V59 m (outsA m) c (Proc.devRef .tc main_v103) = shapeCast _ (m ((c.tc : Thread nD τ).loc main_arg3)) shapeCasts_S1x50000x64_S50000x64 := by
  rw [A_v103, C_arg3_58_0]
  try rfl

theorem op_v104 : GenP.V59 m (outsA m) c (Proc.devRef .tc main_v104) = shapeCast _ (m ((c.tc : Thread nD τ).loc main_arg4)) shapeCasts_S1x50000x64_S50000x64 := by
  rw [A_v104, C_arg4_58_0]
  try rfl

theorem op_arg0 : GenP.V59 m (outsA m) c (Proc.devRef .tc main_arg0) = m ((c.tc : Thread nD τ).loc main_arg0) :=
  C_arg0_59_0 m c

theorem op_v28 : GenP.V59 m (outsA m) c (Proc.devRef .tc main_v28) = GenP.V3 m (outsA m) c (Proc.devRef .tc main_v28) :=
  C_v28_59_3 m c

end Cert.KernelIdeal.HandH

end
-- ==== Proof.KIVal0.lean ====
/-
  What the projection kernel's region leaves in its output array, at the exact (extended-real) instance: row `r` of the
  array is row `r` of the features times the weight block — element (r, j) the sum over the 64 feature coordinates `k` of
  x[r, k] · w[k, j] — because grid point `t` writes back rows 1000·t … 1000·t + 999, each the product of its own row of
  features with the whole (resident) weight block, and the fifty blocks tile the array.
-/
import proofs.«173484_j54443005444660_2_alg».proof.Proof.KIBody0
import proofs.«173484_j54443005444660_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The projected features: row by row, the features times the weight block. -/
def M0 (x : S50000x64.Idx → EReal) (w : S64x100.Idx → EReal) : S50000x100.Idx → EReal :=
  fun i => ∑ k : Fin 64, x (ix2 (⟨(i 0).val, (i 0).isLt⟩ : Fin 50000) k) * w (ix2 k (⟨(i 1).val, (i 1).isLt⟩ : Fin 100))

theorem hz2 : (![0, 0] : Fin 2 → Nat) = fun _ => 0 := funext fun a => by fin_cases a <;> rfl

/-- The body's payload at (p, q): the product's sum over the contracted coordinate (the roundings to bf16 are the
    identity here). -/
theorem pay0_apply (x0 : Vec Ideal S1000x64 .f32) (x1 : Vec Ideal S64x100 .f32) (p : Fin 1000) (q : Fin 100) :
    k0_pay1 x0 x1 (ix2 p q) = ∑ k : Fin 64, x0 (ix2 p k) * x1 (ix2 k q) := by
  unfold k0_pay1
  show FloatOps.matmul dot_S1000x64_S64x100_S1000x100_1_0_0_1_n_n none _ _ (constant (F := Ideal) S1000x100 .f32 0x00000000#32) (ix2 p q) = _
  refine (PlainMatmul.matmul_zero_apply _ none _ _ p q).trans ?_
  refine Finset.sum_congr rfl fun k _ => ?_
  rw [shapeCast_self]
  rfl

/-- The printed block index maps, decided over the grid: the row windows move with the point, the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projected features. -/
theorem flushed0_eq (c : Dev nD) (t : Fin cfg0.N) :
    (dat0 V c).flushed 2 t = ((cfg0.win 2).blk t).view.read (Elt Ideal) (M0 (V c main_arg0) (V c main_v5)) := by
  show (cfg0.win 2).cut (grid0.coords t) ((dat0 V c).after 2 t) = _
  rw [after0_2]
  unfold out0_2
  rw [View.canon_unit_zero hz2]
  simp only [View.ld_unit_zero (S := S1000x64) hz2, View.ld_unit_zero (S := S64x100) hz2]
  funext j
  obtain ⟨p, q, rfl⟩ : ∃ (p : Fin 1000) (q : Fin 100), j = ix2 p q := ⟨j 0, j 1, eq_ix2 j⟩
  show k0_pay1 (iblk0 V c 0 t) (iblk0 V c 1 t) (ix2 p q) = M0 (V c main_arg0) (V c main_v5) (((cfg0.win 2).blk t).view.emb (ix2 p q))
  rw [pay0_apply]
  unfold M0
  obtain ⟨e0, e1, e2, e3, e4, e5⟩ := idx_facts0 t
  refine Finset.sum_congr rfl fun k _ => ?_
  have hl : iblk0 V c 0 t (ix2 p k) = V c main_arg0 (ix2 (⟨((((cfg0.win 2).blk t).view.emb (ix2 p q)) 0).val, ((((cfg0.win 2).blk t).view.emb (ix2 p q)) 0).isLt⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 64 + 1 * k.val = k.val; omega
  have hr : iblk0 V c 1 t (ix2 k q) = V c main_v5 (ix2 k (⟨((((cfg0.win 2).blk t).view.emb (ix2 p q)) 1).val, ((((cfg0.win 2).blk t).view.emb (ix2 p q)) 1).isLt⟩ : Fin 100)) := by
    show V c main_v5 (((cfg0.win 1).blk t).view.emb (ix2 k q)) = _
    refine congrArg (V c main_v5) (funext fun a => Fin.ext ?_)
    match a with
    | ⟨0, _⟩ => show win0_1.index t (0 : Fin 2) * 64 + 1 * k.val = k.val; omega
    | ⟨1, _⟩ => show win0_1.index t (1 : Fin 2) * 100 + 1 * q.val = win0_2.index t (1 : Fin 2) * 100 + 1 * q.val; omega
  rw [hl, hr]

/-- An index of the array is in point `t`'s block iff each coordinate is in the block's range on its axis. -/
theorem mem_blk0 (t : Fin cfg0.N) (i : S50000x100.Idx) :
    i ∈ ((cfg0.win 2).blk t).view.set ↔ ∀ a : Fin 2, win0_2.index t a * S1000x100.size a ≤ (i a).val ∧ (i a).val < win0_2.index t a * S1000x100.size a + S1000x100.size a := by
  show i ∈ ((View.whole main_v6).slice (win0_2.rect t)).set ↔ _
  rw [View.set_slice_whole, Rect.mem_set_unit]
  exact Iff.rfl

/-- Row `r` of the array is in the block of point `r / 1000`. -/
theorem cover0 (i : S50000x100.Idx) : ∃ t : Fin cfg0.N, (cfg0.win 2).flush t = true ∧ i ∈ ((cfg0.win 2).blk t).view.set := by
  have hi0 : (i 0).val < 50000 := (i 0).isLt
  have hi1 : (i 1).val < 100 := (i 1).isLt
  have hN : cfg0.N = 50 := N_0
  have ht : (i 0).val / 1000 < cfg0.N := by rw [hN]; omega
  refine ⟨⟨(i 0).val / 1000, ht⟩, flush0_2 _, ?_⟩
  rw [mem_blk0]
  obtain ⟨-, -, -, -, e4, e5⟩ := idx_facts0 ⟨(i 0).val / 1000, ht⟩
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 100 ≤ (i 1).val ∧ (i 1).val < win0_2.index ⟨(i 0).val / 1000, ht⟩ (1 : Fin 2) * 100 + 100
    rw [e5]; omega

/-- THE ARRAY after the region: the projected features. -/
theorem final0 (c : Dev nD) : (dat0 V c).arrAt 2 cfg0.N = M0 (V c main_arg0) (V c main_v5) :=
  (dat0 V c).arrAt_eq_of_cover 2 _ (fun t _ => flushed0_eq V c t) cover0

end Cert.KernelIdeal.HandV

end
-- ==== Proof.LibScatterRows.lean ====
/-
  A host scatter-add of ROWS, read at an index, at the exact (extended-real) instance.

  A segment sum — the scatter-add of update rows into an operand of rows — scatter indices of shape [E, 1], one
  row index per update row, the updates [E, C] landing in rows of an operand [N, C], or updates [E] landing in an operand
  [N] — adds to element (r, c) of the operand exactly the update elements (e, c) of the update rows `e` whose index word,
  read signed, is `r`; a row whose index is negative or at least N is dropped. So each column of the result is the
  one-column scatter of that column of the updates: this is what lets a scatter of `[updates | ones]` be read as the scatter
  of the updates beside the scatter of the ones.
-/
import Idealize.ShloMosaic.PureOps.Ideal
import Idealize.ShloMosaic.Lib.ValueIdx

open Idealize.ShloMosaic Idealize.ShloMosaic.ValueIdx

namespace Idealize.ShloMosaic.ScatterRows

variable {N C E w : Nat}

/-- The operand [N, C], the scatter indices [E, 1], the updates [E, C]; and the one-axis forms [N] and [E]. -/
abbrev SO (N C : Nat) : Shape := ⟨2, ![N, C]⟩
abbrev SI (E : Nat) : Shape := ⟨2, ![E, 1]⟩
abbrev SU (E C : Nat) : Shape := ⟨2, ![E, C]⟩
abbrev SO1 (N : Nat) : Shape := ⟨1, ![N]⟩
abbrev SU1 (E : Nat) : Shape := ⟨1, ![E]⟩

/-- The row an update row `e` is sent to: its index word, read signed. -/
abbrev rowOf (idx : IVec (SI E) w) (e : Fin E) : Int := (idx (ix2 e 0)).toInt

/-- An update index's row and column, at their literal types. -/
abbrev rowU (j : (SU E C).Idx) : Fin E := ⟨(j 0).val, (j 0).isLt⟩
abbrev colU (j : (SU E C).Idx) : Fin C := ⟨(j 1).val, (j 1).isLt⟩
theorem eqU (j : (SU E C).Idx) : j = ix2 (rowU j) (colU j) := by
  funext a; match a with | ⟨0, _⟩ => rfl | ⟨1, _⟩ => rfl
abbrev rowU1 (j : (SU1 E).Idx) : Fin E := ⟨(j 0).val, (j 0).isLt⟩
theorem eqU1 (j : (SU1 E).Idx) : j = ix1 (rowU1 j) := by
  funext a; match a with | ⟨0, _⟩ => rfl

/-- The host's accumulating scatter at the exact instance is the exact sum (whatever the shapes: the definition). -/
theorem hostScatterAdd_eq {s si su : Shape} {φ : FTy} {w' : Nat} (d : ScatterDims s si su) (x : FVec Ideal s φ) (idx : IVec si w')
    (upd : FVec Ideal su φ) : Host.scatterAdd (F := Ideal) d x idx upd = Ideal.hostScatterAdd d x idx upd := rfl

/-! ## Rows of width C -/

section Wide
variable (wf : ScatterDims.WF (SO N C) (SI E) (SU E C) [1] [0] [0] 1)

/-- The scatter's dimension numbers: update window axis 1, inserted operand axis 0, the index vector on axis 1. -/
abbrev dW : ScatterDims (SO N C) (SI E) (SU E C) := ⟨[1],[0],[0],1,wf⟩

theorem start0 (j : (SU E C).Idx) (idx : IVec (SI E) w) : (dW wf).start j idx 0 = rowOf idx (rowU j) := by
  unfold ScatterDims.start
  simp only [List.mem_singleton, dite_true]
  show (idx _).toInt = (idx _).toInt
  congr 2
  funext b
  unfold ScatterDims.siIdx
  match b with
  | ⟨0, _⟩ => simp [ScatterDims.siCoord]; rfl
  | ⟨1, _⟩ => simp; rfl

theorem start1 (j : (SU E C).Idx) (idx : IVec (SI E) w) : (dW wf).start j idx 1 = 0 := by
  unfold ScatterDims.start
  simp

theorem window0 (j : (SU E C).Idx) : (dW wf).window j 0 = 0 := by
  unfold ScatterDims.window
  simp [ScatterDims.sKept, Shape.kept]

theorem window1 (j : (SU E C).Idx) : (dW wf).window j 1 = (j 1).val := by
  unfold ScatterDims.window
  simp [ScatterDims.sKept, Shape.kept]
  rfl

/-- Where an update element lands: in the row its update row's index names, at its own column. -/
theorem resultIdx_iff (j : (SU E C).Idx) (idx : IVec (SI E) w) (i : (SO N C).Idx) :
    (dW wf).resultIdx? j idx = some i ↔ rowOf idx (rowU j) = ((i 0).val : Int) ∧ (j 1).val = (i 1).val := by
  have s0 := start0 wf j idx
  have s1 := start1 wf j idx
  have w0 := window0 wf j
  have w1 := window1 wf j
  have hi0 : (i 0).val < N := (i 0).isLt
  have hi1 : (i 1).val < C := (i 1).isLt
  have hj1 : (j 1).val < C := (j 1).isLt
  unfold ScatterDims.resultIdx?
  constructor
  · intro h
    split at h
    · rename_i hb
      have e := Option.some.inj h
      have e0 : ((dW wf).start j idx 0 + ((dW wf).window j 0 : Int)).toNat = (i 0).val := congrArg (fun f => (f 0).val) e
      have e1 : ((dW wf).start j idx 1 + ((dW wf).window j 1 : Int)).toNat = (i 1).val := congrArg (fun f => (f 1).val) e
      have hb0 : 0 ≤ (dW wf).start j idx 0 + ((dW wf).window j 0 : Int) := (hb 0).1
      rw [s0, w0] at e0 hb0
      rw [s1, w1] at e1
      constructor <;> omega
    · exact absurd h (by simp)
  · rintro ⟨h0, h1⟩
    have hb : ∀ a : Fin 2, 0 ≤ (dW wf).start j idx a + ((dW wf).window j a : Int)
        ∧ (dW wf).start j idx a + ((dW wf).window j a : Int) < (((SO N C).size a : Nat) : Int) := by
      refine Fin.forall_fin_two.mpr ⟨?_, ?_⟩
      · show 0 ≤ (dW wf).start j idx 0 + ((dW wf).window j 0 : Int) ∧ (dW wf).start j idx 0 + ((dW wf).window j 0 : Int) < ((N : Nat) : Int)
        rw [s0, w0]; omega
      · show 0 ≤ (dW wf).start j idx 1 + ((dW wf).window j 1 : Int) ∧ (dW wf).start j idx 1 + ((dW wf).window j 1 : Int) < ((C : Nat) : Int)
        rw [s1, w1]; omega
    rw [dif_pos hb]
    congr 1
    funext a
    apply Fin.ext
    revert a
    refine Fin.forall_fin_two.mpr ⟨?_, ?_⟩
    · show ((dW wf).start j idx 0 + ((dW wf).window j 0 : Int)).toNat = (i 0).val
      rw [s0, w0]; omega
    · show ((dW wf).start j idx 1 + ((dW wf).window j 1 : Int)).toNat = (i 1).val
      rw [s1, w1]; omega

/-- THE SCATTER OF ROWS AT AN INDEX: the operand's element plus the sum, over the update rows sent to its row, of their
    elements in its column. -/
theorem hostScatterAdd_apply (x : (SO N C).Idx → EReal) (idx : IVec (SI E) w) (upd : (SU E C).Idx → EReal) (r : Fin N) (c : Fin C) :
    Ideal.hostScatterAdd (dW wf) x idx upd (ix2 r c)
      = x (ix2 r c) + ∑ e ∈ Finset.univ.filter (fun e : Fin E => rowOf idx e = (r.val : Int)), upd (ix2 e c) := by
  unfold Ideal.hostScatterAdd
  congr 1
  refine Finset.sum_bij' (fun j _ => rowU j) (fun e _ => ix2 e c) ?_ ?_ ?_ ?_ ?_
  · intro j hj
    have hj2 := (Finset.mem_filter.mp hj).2
    exact Finset.mem_filter.mpr ⟨Finset.mem_univ _, ((resultIdx_iff wf j idx (ix2 r c)).mp hj2).1⟩
  · intro e he
    have he2 := (Finset.mem_filter.mp he).2
    exact Finset.mem_filter.mpr ⟨Finset.mem_univ _, (resultIdx_iff wf (ix2 e c) idx (ix2 r c)).mpr ⟨he2, rfl⟩⟩
  · intro j hj
    have hj2 := (Finset.mem_filter.mp hj).2
    have h1 : (j 1).val = c.val := ((resultIdx_iff wf j idx (ix2 r c)).mp hj2).2
    have hc : colU j = c := Fin.ext h1
    rw [← hc]; exact (eqU j).symm
  · intro e _
    rfl
  · intro j hj
    have hj2 := (Finset.mem_filter.mp hj).2
    have h1 : (j 1).val = c.val := ((resultIdx_iff wf j idx (ix2 r c)).mp hj2).2
    have hc : colU j = c := Fin.ext h1
    show upd j = upd (ix2 (rowU j) c)
    rw [← hc, ← eqU j]

/-- The same for any dimension numbers with those four fields (the record a program prints, whatever its proof field). -/
theorem hostScatterAdd_rows (d : ScatterDims (SO N C) (SI E) (SU E C)) (h1 : d.updateWindowDims = [1]) (h2 : d.insertedWindowDims = [0])
    (h3 : d.scatterDimsToOperandDims = [0]) (h4 : d.indexVectorDim = 1)
    (x : (SO N C).Idx → EReal) (idx : IVec (SI E) w) (upd : (SU E C).Idx → EReal) (r : Fin N) (c : Fin C) :
    Ideal.hostScatterAdd d x idx upd (ix2 r c)
      = x (ix2 r c) + ∑ e ∈ Finset.univ.filter (fun e : Fin E => rowOf idx e = (r.val : Int)), upd (ix2 e c) := by
  obtain ⟨uw, iw, sd, iv, wf⟩ := d
  simp only at h1 h2 h3 h4
  subst h1 h2 h3 h4
  exact hostScatterAdd_apply wf x idx upd r c

end Wide

/-! ## One axis -/

section Narrow
variable (wf : ScatterDims.WF (SO1 N) (SI E) (SU1 E) [] [0] [0] 1)

/-- The one-axis scatter's dimension numbers: no update window axis, the operand's one axis inserted. -/
abbrev dN : ScatterDims (SO1 N) (SI E) (SU1 E) := ⟨[],[0],[0],1,wf⟩

theorem start0' (j : (SU1 E).Idx) (idx : IVec (SI E) w) : (dN wf).start j idx 0 = rowOf idx (rowU1 j) := by
  unfold ScatterDims.start
  simp only [List.mem_singleton, dite_true]
  show (idx _).toInt = (idx _).toInt
  congr 2
  funext b
  unfold ScatterDims.siIdx
  match b with
  | ⟨0, _⟩ => simp [ScatterDims.siCoord]; rfl
  | ⟨1, _⟩ => simp; rfl

theorem window0' (j : (SU1 E).Idx) : (dN wf).window j 0 = 0 := by
  unfold ScatterDims.window
  simp [ScatterDims.sKept, Shape.kept]

theorem resultIdx_iff' (j : (SU1 E).Idx) (idx : IVec (SI E) w) (i : (SO1 N).Idx) :
    (dN wf).resultIdx? j idx = some i ↔ rowOf idx (rowU1 j) = ((i 0).val : Int) := by
  have s0 := start0' wf j idx
  have w0 := window0' wf j
  have hi0 : (i 0).val < N := (i 0).isLt
  unfold ScatterDims.resultIdx?
  constructor
  · intro h
    split at h
    · rename_i hb
      have e := Option.some.inj h
      have e0 : ((dN wf).start j idx 0 + ((dN wf).window j 0 : Int)).toNat = (i 0).val := congrArg (fun f => (f 0).val) e
      have hb0 : 0 ≤ (dN wf).start j idx 0 + ((dN wf).window j 0 : Int) := (hb 0).1
      rw [s0, w0] at e0 hb0
      omega
    · exact absurd h (by simp)
  · intro h0
    have hb : ∀ a : Fin 1, 0 ≤ (dN wf).start j idx a + ((dN wf).window j a : Int)
        ∧ (dN wf).start j idx a + ((dN wf).window j a : Int) < (((SO1 N).size a : Nat) : Int) := by
      intro a
      have ha : a = 0 := Subsingleton.elim _ _
      subst ha
      show 0 ≤ (dN wf).start j idx 0 + ((dN wf).window j 0 : Int) ∧ (dN wf).start j idx 0 + ((dN wf).window j 0 : Int) < ((N : Nat) : Int)
      rw [s0, w0]; omega
    rw [dif_pos hb]
    congr 1
    funext a
    apply Fin.ext
    have ha : a = 0 := Subsingleton.elim (α := Fin 1) _ _
    subst ha
    show ((dN wf).start j idx 0 + ((dN wf).window j 0 : Int)).toNat = (i 0).val
    rw [s0, w0]; omega

/-- THE ONE-AXIS SCATTER AT AN INDEX: the operand's element plus the sum of the update elements sent to it. -/
theorem hostScatterAdd_apply' (x : (SO1 N).Idx → EReal) (idx : IVec (SI E) w) (upd : (SU1 E).Idx → EReal) (r : Fin N) :
    Ideal.hostScatterAdd (dN wf) x idx upd (ix1 r)
      = x (ix1 r) + ∑ e ∈ Finset.univ.filter (fun e : Fin E => rowOf idx e = (r.val : Int)), upd (ix1 e) := by
  unfold Ideal.hostScatterAdd
  congr 1
  refine Finset.sum_bij' (fun j _ => rowU1 j) (fun e _ => ix1 e) ?_ ?_ ?_ ?_ ?_
  · intro j hj
    have hj2 := (Finset.mem_filter.mp hj).2
    exact Finset.mem_filter.mpr ⟨Finset.mem_univ _, (resultIdx_iff' wf j idx (ix1 r)).mp hj2⟩
  · intro e he
    have he2 := (Finset.mem_filter.mp he).2
    exact Finset.mem_filter.mpr ⟨Finset.mem_univ _, (resultIdx_iff' wf (ix1 e) idx (ix1 r)).mpr he2⟩
  · intro j _
    exact (eqU1 j).symm
  · intro e _
    rfl
  · intro j _
    show upd j = upd (ix1 (rowU1 j))
    rw [← eqU1 j]

/-- The same for any dimension numbers with those four fields. -/
theorem hostScatterAdd_rows' (d : ScatterDims (SO1 N) (SI E) (SU1 E)) (h1 : d.updateWindowDims = []) (h2 : d.insertedWindowDims = [0])
    (h3 : d.scatterDimsToOperandDims = [0]) (h4 : d.indexVectorDim = 1)
    (x : (SO1 N).Idx → EReal) (idx : IVec (SI E) w) (upd : (SU1 E).Idx → EReal) (r : Fin N) :
    Ideal.hostScatterAdd d x idx upd (ix1 r)
      = x (ix1 r) + ∑ e ∈ Finset.univ.filter (fun e : Fin E => rowOf idx e = (r.val : Int)), upd (ix1 e) := by
  obtain ⟨uw, iw, sd, iv, wf⟩ := d
  simp only at h1 h2 h3 h4
  subst h1 h2 h3 h4
  exact hostScatterAdd_apply' wf x idx upd r

end Narrow

end Idealize.ShloMosaic.ScatterRows
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.KIAgg.lean ====
/-
  The kernel's aggregated messages read at an index, at the exact (extended-real) instance: the scatter-add of the
  weighted messages with a column of ones appended, then the message columns divided by the count column (at least one).
  Row `r`, column `j` is the sum of the messages (e, j) of the edges `e` sent to node `r`, over the number of those edges
  or one.
-/
import proofs.«173484_j54443005444660_2_alg».proof.Proof.Gen.KernelIdeal
import proofs.«173484_j54443005444660_2_alg».proof.Proof.LibScatterRows
import proofs.«173484_j54443005444660_2_alg».proof.Proof.LibHostLayout
import Idealize.ShloMosaic.Lib.Pipeline.Value
import Idealize.ShloMosaic.Lib.ValueLayout
import Idealize.ShloMosaic.Lib.ValueIdx

set_option maxRecDepth 16384

noncomputable section

namespace Cert.KernelIdeal.HandA

open Cert.KernelIdeal Cert.KernelIdeal.Gen
open Idealize.ShloMosaic Idealize.ShloMosaic.TcCoe Idealize.ShloMosaic.ValueIdx Idealize.ShloMosaic.ScatterRows

/-- A scalar broadcast reads the scalar everywhere. -/
theorem bcast_scalar_apply {α : Type} {t : Shape} (h : S_.BroadcastsInDim t (![] : Fin 0 → Fin t.rank)) (x : S_.Idx → α) (i : t.Idx) :
    broadcastInDim t ![] h x i = x ix0 :=
  broadcastInDim_apply ![] h x i ix0 (fun a => a.elim0)

/-- The host's division at an index. -/
theorem hostDivf_at {s : Shape} {φ : FTy} (a b : FVec Ideal s φ) (i : s.Idx) : Host.divf (F := Ideal) a b i = Ideal.div (a i) (b i) := rfl

variable (MSG : FVec Ideal S800000x100 .f32) (D : IVec S800000x1 32) (r : Fin 50000)

/-- The scatter-add of `[messages | ones]` by destination node, at (r, c). -/
theorem sc_apply (cc : Fin 101) :
    (Host.scatterAdd (F := Ideal) scatter_S50000x101_S800000x1_S800000x101_1_0_0_1 (broadcastInDim S50000x101 ![] bcast_S_S50000x101 (constant (F := Ideal) S_ .f32 0x00000000#32)) D (concatenate S800000x101 1 [⟨S800000x100, MSG⟩, ⟨S800000x1, broadcastInDim S800000x1 ![] bcast_S_S800000x1 (constant (F := Ideal) S_ .f32 0x3F800000#32)⟩] concatenates_S800000x100_S800000x1_S800000x101_d1)) (ix2 r cc) = constant (F := Ideal) S_ .f32 0x00000000#32 ix0 + ∑ e ∈ Finset.univ.filter (fun e : Fin 800000 => rowOf D e = (r.val : Int)), (concatenate S800000x101 1 [⟨S800000x100, MSG⟩, ⟨S800000x1, broadcastInDim S800000x1 ![] bcast_S_S800000x1 (constant (F := Ideal) S_ .f32 0x3F800000#32)⟩] concatenates_S800000x100_S800000x1_S800000x101_d1) (ix2 e cc) := by
  rw [hostScatterAdd_eq]
  rw [hostScatterAdd_rows (N := 50000) (C := 101) (E := 800000) scatter_S50000x101_S800000x1_S800000x101_1_0_0_1 rfl rfl rfl rfl]
  rw [bcast_scalar_apply]

theorem cat_msg (o : FVec Ideal S800000x1 .f32) (e : Fin 800000) (j : Fin 100) :
    concatenate S800000x101 1 [⟨S800000x100, MSG⟩, ⟨S800000x1, o⟩] concatenates_S800000x100_S800000x1_S800000x101_d1
      (ix2 e (⟨j.val, by have := j.isLt; omega⟩ : Fin 101)) = MSG (ix2 e j) :=
  concatenate_pair_apply_left (t := S800000x101) (s₁ := S800000x100) (s₂ := S800000x1) (1 : Fin 2) _ _ _ _ rfl (ix2 e j) (fun b => by
    match b with
    | ⟨0, _⟩ => rfl
    | ⟨1, _⟩ => rfl)

theorem cat_one (o : FVec Ideal S800000x1 .f32) (e : Fin 800000) :
    concatenate S800000x101 1 [⟨S800000x100, MSG⟩, ⟨S800000x1, o⟩] concatenates_S800000x100_S800000x1_S800000x101_d1
      (ix2 e (⟨100, by decide⟩ : Fin 101)) = o (ix2 e (0 : Fin 1)) :=
  concatenate_pair_apply_right (t := S800000x101) (s₁ := S800000x100) (s₂ := S800000x1) (1 : Fin 2) _ _ _ _ rfl rfl (ix2 e (0 : Fin 1)) (fun b hb => by
    match b with
    | ⟨0, _⟩ => rfl
    | ⟨1, _⟩ => exact absurd rfl hb) rfl

/-- The message columns of the scatter. -/
theorem num_apply (j : Fin 100) :
    extractStridedSlice S50000x100 ![0, 0] (Host.scatterAdd (F := Ideal) scatter_S50000x101_S800000x1_S800000x101_1_0_0_1 (broadcastInDim S50000x101 ![] bcast_S_S50000x101 (constant (F := Ideal) S_ .f32 0x00000000#32)) D (concatenate S800000x101 1 [⟨S800000x100, MSG⟩, ⟨S800000x1, broadcastInDim S800000x1 ![] bcast_S_S800000x1 (constant (F := Ideal) S_ .f32 0x3F800000#32)⟩] concatenates_S800000x100_S800000x1_S800000x101_d1)) slices_S50000x101_S50000x100_0_0 (ix2 r j)
      = constant (F := Ideal) S_ .f32 0x00000000#32 ix0 + ∑ e ∈ Finset.univ.filter (fun e : Fin 800000 => rowOf D e = (r.val : Int)), MSG (ix2 e j) := by
  rw [slice2_axis1_apply 0 _ _ r j (⟨j.val, by have := j.isLt; omega⟩ : Fin 101) (by simp), sc_apply]
  refine congrArg (fun z : EReal => constant (F := Ideal) S_ .f32 0x00000000#32 ix0 + z) (Finset.sum_congr rfl fun e _ => ?_)
  exact cat_msg MSG _ e j

/-- A column [50000, 1] copied along the row; a column slice at 100; the pointwise maximum: each read at an index. -/
theorem col_bcast (V : FVec Ideal S50000x1 .f32) (j : Fin 100) :
    broadcastInDim S50000x100 ![0, 1] bcast_S50000x1_S50000x100_0_1 V (ix2 r j) = V (ix2 r (0 : Fin 1)) :=
  ValueIdx.broadcastInDim_col_apply V _ r j
theorem col100 (X : FVec Ideal S50000x101 .f32) :
    extractStridedSlice S50000x1 ![0, 100] X slices_S50000x101_S50000x1_0_100 (ix2 r (0 : Fin 1)) = X (ix2 r (⟨100, by decide⟩ : Fin 101)) :=
  slice2_axis1_apply 100 X _ r (0 : Fin 1) (⟨100, by decide⟩ : Fin 101) rfl
theorem max_at (A B : FVec Ideal S50000x1 .f32) (i : S50000x1.Idx) : maximumf A B i = max (A i) (B i) := rfl

/-- The count column of the scatter: the number of edges sent to the node. -/
theorem cnt_apply :
    (Host.scatterAdd (F := Ideal) scatter_S50000x101_S800000x1_S800000x101_1_0_0_1 (broadcastInDim S50000x101 ![] bcast_S_S50000x101 (constant (F := Ideal) S_ .f32 0x00000000#32)) D (concatenate S800000x101 1 [⟨S800000x100, MSG⟩, ⟨S800000x1, broadcastInDim S800000x1 ![] bcast_S_S800000x1 (constant (F := Ideal) S_ .f32 0x3F800000#32)⟩] concatenates_S800000x100_S800000x1_S800000x101_d1)) (ix2 r (⟨100, by decide⟩ : Fin 101)) = constant (F := Ideal) S_ .f32 0x00000000#32 ix0 + ∑ e ∈ Finset.univ.filter (fun e : Fin 800000 => rowOf D e = (r.val : Int)), constant (F := Ideal) S_ .f32 0x3F800000#32 ix0 := by
  rw [sc_apply]
  refine congrArg (fun z : EReal => constant (F := Ideal) S_ .f32 0x00000000#32 ix0 + z) (Finset.sum_congr rfl fun e _ => ?_)
  rw [cat_one, bcast_scalar_apply]

/-- The count column, at least one, copied along the row. -/
theorem den_apply (j : Fin 100) :
    broadcastInDim S50000x100 ![0, 1] bcast_S50000x1_S50000x100_0_1
      (maximumf (extractStridedSlice S50000x1 ![0, 100] (Host.scatterAdd (F := Ideal) scatter_S50000x101_S800000x1_S800000x101_1_0_0_1 (broadcastInDim S50000x101 ![] bcast_S_S50000x101 (constant (F := Ideal) S_ .f32 0x00000000#32)) D (concatenate S800000x101 1 [⟨S800000x100, MSG⟩, ⟨S800000x1, broadcastInDim S800000x1 ![] bcast_S_S800000x1 (constant (F := Ideal) S_ .f32 0x3F800000#32)⟩] concatenates_S800000x100_S800000x1_S800000x101_d1)) slices_S50000x101_S50000x1_0_100)
        (broadcastInDim S50000x1 ![] bcast_S_S50000x1 (constant (F := Ideal) S_ .f32 0x3F800000#32))) (ix2 r j)
      = max (constant (F := Ideal) S_ .f32 0x00000000#32 ix0 + ∑ e ∈ Finset.univ.filter (fun e : Fin 800000 => rowOf D e = (r.val : Int)), constant (F := Ideal) S_ .f32 0x3F800000#32 ix0) (constant (F := Ideal) S_ .f32 0x3F800000#32 ix0) :=
  (col_bcast r _ j).trans ((max_at _ _ _).trans (congrArg₂ (fun a b : EReal => max a b)
    ((col100 r _).trans (cnt_apply MSG D r)) (bcast_scalar_apply bcast_S_S50000x1 _ _)))

end Cert.KernelIdeal.HandA

end
-- ==== Proof.RefAgg.lean ====
/-
  The reference's aggregated messages read at an index, at the exact (extended-real) instance: row `r`, column `j` is the
  sum of the weighted messages (e, j) of the edges `e` sent to node `r`, over the number of those edges or one.
-/
import proofs.«173484_j54443005444660_2_alg».proof.Proof.Gen.ReferenceIdeal.Read
import proofs.«173484_j54443005444660_2_alg».proof.Proof.LibScatterRows
import Idealize.ShloMosaic.Lib.ValueIdx

set_option maxRecDepth 16384

noncomputable section

namespace Cert.ReferenceIdeal.RefAgg

open Cert.ReferenceIdeal Cert.ReferenceIdeal.Gen Cert.ReferenceIdeal.Read
open Idealize.ShloMosaic Idealize.ShloMosaic.TcCoe Idealize.ShloMosaic.ValueIdx Idealize.ShloMosaic.ScatterRows

abbrev oneR : EReal := Ideal.ofBits .f32 0x3F800000#32
abbrev zeroR : EReal := Ideal.ofBits .f32 0x00000000#32

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x5 : (⟨S1x100x100, .f32⟩ : BufTy).Contents (Elt Ideal))
  (r : Fin 50000) (j : Fin 100)

/-- The scatter-add of the weighted messages by destination node. -/
theorem sum_msgs : val_main_v19 (F := Ideal) x0 x1 x2 x5 (ix2 r j) = zeroR + ∑ e ∈ Finset.univ.filter (fun e : Fin 800000 => rowOf (val_main_v18 (F := Ideal) x1) e = (r.val : Int)), val_main_v16 (F := Ideal) x0 x1 x2 x5 (ix2 e j) := by
  show Host.scatterAdd (F := Ideal) scatter_S50000x100_S800000x1_S800000x100_1_0_0_1 (val_main_v17 (F := Ideal)) (val_main_v18 (F := Ideal) x1) (val_main_v16 (F := Ideal) x0 x1 x2 x5) (ix2 r j) = _
  rw [hostScatterAdd_eq, hostScatterAdd_rows (N := 50000) (C := 100) (E := 800000) scatter_S50000x100_S800000x1_S800000x100_1_0_0_1 rfl rfl rfl rfl,
    val_main_v17_apply, val_main_cst_apply]
  rfl

/-- The scatter-add of ones: the number of edges sent to the node. -/
theorem count : val_main_v23 (F := Ideal) x1 (ix1 r) = zeroR + ∑ e ∈ Finset.univ.filter (fun e : Fin 800000 => rowOf (val_main_v22 (F := Ideal) x1) e = (r.val : Int)), oneR := by
  show Host.scatterAdd (F := Ideal) scatter_S50000_S800000x1_S800000_n_0_0_1 (val_main_v21 (F := Ideal)) (val_main_v22 (F := Ideal) x1) (val_main_v20 (F := Ideal)) (ix1 r) = _
  rw [hostScatterAdd_eq, hostScatterAdd_rows' (N := 50000) (E := 800000) scatter_S50000_S800000x1_S800000_n_0_0_1 rfl rfl rfl rfl,
    val_main_v21_apply, val_main_cst_3_apply]
  refine congrArg (fun z : EReal => FloatOps.ofBits (F := Ideal) .f32 0x00000000#32 + z) (Finset.sum_congr rfl fun e _ => ?_)
  exact (val_main_v20_apply (F := Ideal) (ix1 e)).trans (val_main_cst_2_apply (F := Ideal) _)

/-- The divisor: the count, at least one, copied along the row. -/
theorem divisor : val_main_v27 (F := Ideal) x1 (ix2 r j) = max (val_main_v23 (F := Ideal) x1 (ix1 r)) oneR := by
  rw [val_main_v27_apply, val_main_v26_apply, val_main_v25_apply, val_main_v24_apply, val_main_cst_4_apply]
  exact congrArg (fun z => max (val_main_v23 (F := Ideal) x1 z) oneR) (funext fun a => Fin.ext (by match a with | ⟨0, _⟩ => rfl))

/-- THE AGGREGATED MESSAGES at (r, j). -/
theorem agg_apply :
    val_main_v28 (F := Ideal) x0 x1 x2 x5 (ix2 r j)
      = Ideal.div (zeroR + ∑ e ∈ Finset.univ.filter (fun e : Fin 800000 => rowOf (val_main_v18 (F := Ideal) x1) e = (r.val : Int)), val_main_v16 (F := Ideal) x0 x1 x2 x5 (ix2 e j)) (max (zeroR + ∑ e ∈ Finset.univ.filter (fun e : Fin 800000 => rowOf (val_main_v22 (F := Ideal) x1) e = (r.val : Int)), oneR) oneR) := by
  rw [val_main_v28_apply]
  show Ideal.div (val_main_v19 (F := Ideal) x0 x1 x2 x5 (ix2 r j)) (val_main_v27 (F := Ideal) x1 (ix2 r j)) = _
  rw [sum_msgs, divisor, count]

end Cert.ReferenceIdeal.RefAgg

end
-- ==== Proof.AggEq.lean ====
/-
  The aggregated messages are ONE array on both sides. The kernel scatters `[messages | ones]` and divides the message
  columns by the count column; the reference scatters the messages and the ones separately. Column by column a scatter
  of rows is the scatter of that column, so at every (node, column) both are the sum of the node's incoming weighted
  messages over the number of its incoming edges, or one. The messages themselves agree because the projected features
  agree: the reference's product over the zero-padded coordinates adds zeros to the kernel's product over the 64
  feature coordinates.
-/
import proofs.«173484_j54443005444660_2_alg».proof.Proof.KIHost
import proofs.«173484_j54443005444660_2_alg».proof.Proof.KIVal0
import proofs.«173484_j54443005444660_2_alg».proof.Proof.KIAgg
import proofs.«173484_j54443005444660_2_alg».proof.Proof.RefAgg
import proofs.«173484_j54443005444660_2_alg».proof.Proof.RefRows

set_option maxRecDepth 65536
set_option maxHeartbeats 2000000

noncomputable section

namespace Cert.Proof.AggEq

open Cert.KernelIdeal Cert.KernelIdeal.Gen Cert.KernelIdeal.Hand Cert.KernelIdeal.HandV Cert.KernelIdeal.HandH Cert.KernelIdeal.HandA
open Idealize.ShloMosaic Idealize.ShloMosaic.TcCoe Idealize.ShloMosaic.StableHlo Idealize.ShloMosaic.ValueIdx Idealize.ShloMosaic.ScatterRows
open Idealize.SL Idealize.SL.Sem

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)

/-! ## The host stretch before the first region -/

theorem V1_v1 : GenP.V1 m c (Proc.devRef .tc main_v1) = shapeCast _ (extractStridedSlice S1x800000 ![0, 0] (a1 m c) slices_S2x800000_S1x800000_0_0) shapeCasts_S1x800000_S800000 := by
  show StableHlo.after hostOps0 (GenP.V0 m c) (Proc.devRef .tc main_v1) = _
  after_results_simp
  try rfl
theorem V1_v3 : GenP.V1 m c (Proc.devRef .tc main_v3) = shapeCast _ (extractStridedSlice S1x800000 ![1, 0] (a1 m c) slices_S2x800000_S1x800000_1_0) shapeCasts_S1x800000_S800000 := by
  show StableHlo.after hostOps0 (GenP.V0 m c) (Proc.devRef .tc main_v3) = _
  after_results_simp
  try rfl
theorem V1_v5 : GenP.V1 m c (Proc.devRef .tc main_v5) = shapeCast _ (extractStridedSlice S1x64x100 ![0, 0, 0] (a5 m c) slices_S1x100x100_S1x64x100_0_0_0) shapeCasts_S1x64x100_S64x100 := by
  show StableHlo.after hostOps0 (GenP.V0 m c) (Proc.devRef .tc main_v5) = _
  after_results_simp
  try rfl

/-! ## The projected features -/

/-- What the first region leaves in its output array. -/
theorem V2_v6 : GenP.V2 m (outsA m) c (Proc.devRef .tc main_v6) = M0 (a0 m c) (GenP.V1 m c (Proc.devRef .tc main_v5)) := by
  have e1 : GenP.V2 m (outsA m) c (Proc.devRef .tc main_v6) = W2 m c (Proc.devRef .tc main_v6) := by
    simp only [GenP.V2, Function.update_self]
  rw [e1]
  refine ((W2_arr m c 2).trans (final0 (Vr1 m) c)).trans ?_
  show M0 (GenP.V1 m c (Proc.devRef .tc main_arg0)) (GenP.V1 m c (Proc.devRef .tc main_v5)) = _
  rw [GenP.V1_of m c main_arg0 (by decide)]

/-- The kernel's projected features are the reference's. -/
theorem proj_eq : GenP.V2 m (outsA m) c (Proc.devRef .tc main_v6) = Cert.ReferenceIdeal.Read.val_main_v6 (F := Ideal) (a0 m c) (a5 m c) := by
  rw [V2_v6, V1_v5]
  funext i
  obtain ⟨r, j, rfl⟩ : ∃ (r : Fin 50000) (j : Fin 100), i = ix2 r j := ⟨i 0, i 1, eq_ix2 i⟩
  rw [Cert.ReferenceIdeal.RefRows.m_ref]
  unfold M0
  refine Finset.sum_congr rfl fun k _ => ?_
  refine congrArg₂ (fun a b : EReal => a * b) rfl ?_
  rw [shapeCast_1ab_ab_apply]
  exact slice3_axis1_apply 0 _ _ (0 : Fin 1) k j (⟨k.val, by have := k.isLt; omega⟩ : Fin 100) (by simp)

/-! ## The aggregated messages -/

theorem A_v28 : GenP.V3 m (outsA m) c (Proc.devRef .tc main_v28) = Host.divf (F := Ideal) (extractStridedSlice S50000x100 ![0, 0] (Host.scatterAdd (F := Ideal) scatter_S50000x101_S800000x1_S800000x101_1_0_0_1 (broadcastInDim S50000x101 ![] bcast_S_S50000x101 (constant (F := Ideal) S_ .f32 0x00000000#32)) (broadcastInDim S800000x1 ![0] bcast_S800000_S800000x1_0 (GenP.V2 m (outsA m) c (Proc.devRef .tc main_v3))) (concatenate S800000x101 1 [⟨S800000x100, (mulf (F := Ideal) (extf (F := Ideal) .f32 (Host.gather gather_S50000x100_S800000x1_S800000x100_1_0_n_n_0_1_1100 (GenP.V2 m (outsA m) c (Proc.devRef .tc main_v6)) (broadcastInDim S800000x1 ![0] bcast_S800000_S800000x1_0 (select (cmpi .slt (GenP.V2 m (outsA m) c (Proc.devRef .tc main_v1)) (broadcastInDim S800000 ![] bcast_S_S800000 (constantI S_ 32 0#32))) (addi (GenP.V2 m (outsA m) c (Proc.devRef .tc main_v1)) (broadcastInDim S800000 ![] bcast_S_S800000 (constantI S_ 32 50000#32))) (GenP.V2 m (outsA m) c (Proc.devRef .tc main_v1))))) bitsLt_bf16_f32) (broadcastInDim S800000x100 ![0, 1] bcast_S800000x1_S800000x100_0_1 (broadcastInDim S800000x1 ![0] bcast_S800000_S800000x1_0 (GenP.V2 m (outsA m) c (Proc.devRef .tc main_arg2)))))⟩, ⟨S800000x1, (broadcastInDim S800000x1 ![] bcast_S_S800000x1 (constant (F := Ideal) S_ .f32 0x3F800000#32))⟩] concatenates_S800000x100_S800000x1_S800000x101_d1)) slices_S50000x101_S50000x100_0_0) (broadcastInDim S50000x100 ![0, 1] bcast_S50000x1_S50000x100_0_1 (maximumf (F := Ideal) (extractStridedSlice S50000x1 ![0, 100] (Host.scatterAdd (F := Ideal) scatter_S50000x101_S800000x1_S800000x101_1_0_0_1 (broadcastInDim S50000x101 ![] bcast_S_S50000x101 (constant (F := Ideal) S_ .f32 0x00000000#32)) (broadcastInDim S800000x1 ![0] bcast_S800000_S800000x1_0 (GenP.V2 m (outsA m) c (Proc.devRef .tc main_v3))) (concatenate S800000x101 1 [⟨S800000x100, (mulf (F := Ideal) (extf (F := Ideal) .f32 (Host.gather gather_S50000x100_S800000x1_S800000x100_1_0_n_n_0_1_1100 (GenP.V2 m (outsA m) c (Proc.devRef .tc main_v6)) (broadcastInDim S800000x1 ![0] bcast_S800000_S800000x1_0 (select (cmpi .slt (GenP.V2 m (outsA m) c (Proc.devRef .tc main_v1)) (broadcastInDim S800000 ![] bcast_S_S800000 (constantI S_ 32 0#32))) (addi (GenP.V2 m (outsA m) c (Proc.devRef .tc main_v1)) (broadcastInDim S800000 ![] bcast_S_S800000 (constantI S_ 32 50000#32))) (GenP.V2 m (outsA m) c (Proc.devRef .tc main_v1))))) bitsLt_bf16_f32) (broadcastInDim S800000x100 ![0, 1] bcast_S800000x1_S800000x100_0_1 (broadcastInDim S800000x1 ![0] bcast_S800000_S800000x1_0 (GenP.V2 m (outsA m) c (Proc.devRef .tc main_arg2)))))⟩, ⟨S800000x1, (broadcastInDim S800000x1 ![] bcast_S_S800000x1 (constant (F := Ideal) S_ .f32 0x3F800000#32))⟩] concatenates_S800000x100_S800000x1_S800000x101_d1)) slices_S50000x101_S50000x1_0_100) (broadcastInDim S50000x1 ![] bcast_S_S50000x1 (constant (F := Ideal) S_ .f32 0x3F800000#32)))) := by
  show StableHlo.after hostOps1 (GenP.V2 m (outsA m) c) (Proc.devRef .tc main_v28) = _
  after_results_simp
  try rfl

/-- The destination indices, one row per edge, are the reference's. -/
theorem dst_eq : broadcastInDim S800000x1 ![0] bcast_S800000_S800000x1_0 (GenP.V2 m (outsA m) c (Proc.devRef .tc main_v3)) = Cert.ReferenceIdeal.Read.val_main_v18 (F := Ideal) (a1 m c) := by
  rw [GenP.V2_of m (outsA m) c main_v3 (by decide), V1_v3]
  rfl

/-- The weighted messages are the reference's. -/
theorem msg_eq : mulf (F := Ideal) (extf (F := Ideal) .f32 (Host.gather gather_S50000x100_S800000x1_S800000x100_1_0_n_n_0_1_1100 (GenP.V2 m (outsA m) c (Proc.devRef .tc main_v6)) (broadcastInDim S800000x1 ![0] bcast_S800000_S800000x1_0 (select (cmpi .slt (GenP.V2 m (outsA m) c (Proc.devRef .tc main_v1)) (broadcastInDim S800000 ![] bcast_S_S800000 (constantI S_ 32 0#32))) (addi (GenP.V2 m (outsA m) c (Proc.devRef .tc main_v1)) (broadcastInDim S800000 ![] bcast_S_S800000 (constantI S_ 32 50000#32))) (GenP.V2 m (outsA m) c (Proc.devRef .tc main_v1))))) bitsLt_bf16_f32) (broadcastInDim S800000x100 ![0, 1] bcast_S800000x1_S800000x100_0_1 (broadcastInDim S800000x1 ![0] bcast_S800000_S800000x1_0 (GenP.V2 m (outsA m) c (Proc.devRef .tc main_arg2)))) = Cert.ReferenceIdeal.Read.val_main_v16 (F := Ideal) (a0 m c) (a1 m c) (a2 m c) (a5 m c) := by
  rw [proj_eq, GenP.V2_of m (outsA m) c main_v1 (by decide), V1_v1, GenP.V2_of m (outsA m) c main_arg2 (by decide), GenP.V1_of m c main_arg2 (by decide)]
  rfl

/-- THE AGGREGATED MESSAGES are one array on both sides. -/
theorem agg_eq : GenP.V59 m (outsA m) c (Proc.devRef .tc main_v28) = Cert.ReferenceIdeal.Read.val_main_v28 (F := Ideal) (a0 m c) (a1 m c) (a2 m c) (a5 m c) := by
  rw [op_v28, A_v28]
  funext i
  obtain ⟨r, j, rfl⟩ : ∃ (r : Fin 50000) (j : Fin 100), i = ix2 r j := ⟨i 0, i 1, eq_ix2 i⟩
  rw [Cert.ReferenceIdeal.RefAgg.agg_apply]
  have h22 : Cert.ReferenceIdeal.Read.val_main_v22 (F := Ideal) (a1 m c) = Cert.ReferenceIdeal.Read.val_main_v18 (F := Ideal) (a1 m c) := rfl
  rw [h22, ← dst_eq, ← msg_eq]
  rw [hostDivf_at, num_apply (mulf (F := Ideal) (extf (F := Ideal) .f32 (Host.gather gather_S50000x100_S800000x1_S800000x100_1_0_n_n_0_1_1100 (GenP.V2 m (outsA m) c (Proc.devRef .tc main_v6)) (broadcastInDim S800000x1 ![0] bcast_S800000_S800000x1_0 (select (cmpi .slt (GenP.V2 m (outsA m) c (Proc.devRef .tc main_v1)) (broadcastInDim S800000 ![] bcast_S_S800000 (constantI S_ 32 0#32))) (addi (GenP.V2 m (outsA m) c (Proc.devRef .tc main_v1)) (broadcastInDim S800000 ![] bcast_S_S800000 (constantI S_ 32 50000#32))) (GenP.V2 m (outsA m) c (Proc.devRef .tc main_v1))))) bitsLt_bf16_f32) (broadcastInDim S800000x100 ![0, 1] bcast_S800000x1_S800000x100_0_1 (broadcastInDim S800000x1 ![0] bcast_S800000_S800000x1_0 (GenP.V2 m (outsA m) c (Proc.devRef .tc main_arg2))))) (broadcastInDim S800000x1 ![0] bcast_S800000_S800000x1_0 (GenP.V2 m (outsA m) c (Proc.devRef .tc main_v3))) r j, den_apply (mulf (F := Ideal) (extf (F := Ideal) .f32 (Host.gather gather_S50000x100_S800000x1_S800000x100_1_0_n_n_0_1_1100 (GenP.V2 m (outsA m) c (Proc.devRef .tc main_v6)) (broadcastInDim S800000x1 ![0] bcast_S800000_S800000x1_0 (select (cmpi .slt (GenP.V2 m (outsA m) c (Proc.devRef .tc main_v1)) (broadcastInDim S800000 ![] bcast_S_S800000 (constantI S_ 32 0#32))) (addi (GenP.V2 m (outsA m) c (Proc.devRef .tc main_v1)) (broadcastInDim S800000 ![] bcast_S_S800000 (constantI S_ 32 50000#32))) (GenP.V2 m (outsA m) c (Proc.devRef .tc main_v1))))) bitsLt_bf16_f32) (broadcastInDim S800000x100 ![0, 1] bcast_S800000x1_S800000x100_0_1 (broadcastInDim S800000x1 ![0] bcast_S800000_S800000x1_0 (GenP.V2 m (outsA m) c (Proc.devRef .tc main_arg2))))) (broadcastInDim S800000x1 ![0] bcast_S800000_S800000x1_0 (GenP.V2 m (outsA m) c (Proc.devRef .tc main_v3))) r j]
  rfl

end Cert.Proof.AggEq

end
-- ==== Proof.Final.lean ====
/-
  The algebraic claim. The kernel's program ends with each result buffer at the last valuation of its run; the head's
  output is the second region's third output array, and the hidden and cell states are its first two with a leading unit
  axis added. Those arrays are the reference's stages (the bridge), and the reference's own run ends at those stages of
  its arguments, which agree with the kernel's.
-/
import proofs.«173484_j54443005444660_2_alg».proof.Defs
import proofs.«173484_j54443005444660_2_alg».proof.Proof.KIVals
import proofs.«173484_j54443005444660_2_alg».proof.Proof.Bridge
import proofs.«173484_j54443005444660_2_alg».proof.Proof.AggEq
import proofs.«173484_j54443005444660_2_alg».proof.Proof.KIHost
import Idealize.ShloMosaic.Lib.ValueLayout
import proofs.«173484_j54443005444660_2_alg».proof.Proof.RefFrame
import proofs.«173484_j54443005444660_2_alg».proof.Proof.Gen.ReferenceIdeal.Read

set_option maxRecDepth 65536
set_option maxHeartbeats 4000000

noncomputable section

namespace Cert.Proof.Final

open Cert.KernelIdeal Cert.KernelIdeal.Gen Cert.KernelIdeal.Hand Cert.KernelIdeal.HandV Cert.KernelIdeal.HandH
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)

/-- The reference's three result stages, of the kernel's argument arrays. -/
abbrev R113 := Cert.ReferenceIdeal.Read.val_main_v113 (F := Ideal) (a0 m c) (a1 m c) (a2 m c) (a3 m c) (a4 m c) (a5 m c) (a6 m c) (a7 m c) (a8 m c) (a9 m c) (a10 m c) (a11 m c) (a12 m c) (a13 m c) (a14 m c) (a15 m c)
abbrev R114 := Cert.ReferenceIdeal.Read.val_main_v114 (F := Ideal) (a0 m c) (a1 m c) (a2 m c) (a3 m c) (a4 m c) (a5 m c) (a6 m c) (a7 m c) (a8 m c) (a9 m c) (a10 m c) (a11 m c) (a12 m c) (a13 m c)
abbrev R115 := Cert.ReferenceIdeal.Read.val_main_v115 (F := Ideal) (a0 m c) (a1 m c) (a2 m c) (a3 m c) (a4 m c) (a5 m c) (a6 m c) (a7 m c) (a8 m c) (a9 m c) (a10 m c) (a11 m c) (a12 m c) (a13 m c)

/-- The second region's operand arrays, as the host operations leave them. -/
def Aop (b : Ref sig .tc) : Buf (Elt Ideal) ((c.tc : Thread nD τ).loc b) := GenP.V59 m (outsA m) c (Proc.devRef .tc b)

set_option maxHeartbeats 8000000 in
/-- They stand to the argument arrays as the bridge asks. -/
theorem facts : Cert.Proof.Bridge.OperandFacts (Aop m c main_arg0) (Aop m c main_v28) (Aop m c main_v103) (Aop m c main_v104) (Aop m c main_v36) (Aop m c main_v44) (Aop m c main_v52) (Aop m c main_v60) (Aop m c main_v70) (Aop m c main_v80) (Aop m c main_v90) (Aop m c main_v100) (Aop m c main_v101) (Aop m c main_v102)
    (a0 m c) (a1 m c) (a2 m c) (a3 m c) (a4 m c) (a5 m c) (a6 m c) (a7 m c) (a8 m c) (a9 m c) (a10 m c) (a11 m c) (a12 m c) (a13 m c) (a14 m c) (a15 m c) where
  hA0 := op_arg0 m c
  hAgg := Cert.Proof.AggEq.agg_eq m c
  hA2 := fun r k => (congrFun (op_v103 m c) (ix2 r k)).trans (shapeCast_1ab_ab_apply _ _ r k)
  hA3 := fun r k => (congrFun (op_v104 m c) (ix2 r k)).trans (shapeCast_1ab_ab_apply _ _ r k)
  w4_0 := fun k j => ((congrArg (fun z : Fin 384 => Aop m c main_v36 (ix2 k z)) (Fin.ext (by show 0 + j.val = 128 * 0 + j.val; omega))).trans (w_v36_g0 m c k j)).trans (congrArg (fun z : Fin 300 => a6 m c (ix2 z k)) (Fin.ext (by show 100 * 0 + j.val = j.val; omega)))
  w5_0 := fun k j => ((congrArg (fun z : Fin 384 => Aop m c main_v44 (ix2 k z)) (Fin.ext (by show 0 + j.val = 128 * 0 + j.val; omega))).trans (w_v44_g0 m c k j)).trans (congrArg (fun z : Fin 300 => a7 m c (ix2 z k)) (Fin.ext (by show 100 * 0 + j.val = j.val; omega)))
  w6_0 := fun j => ((congrArg (fun z : Fin 384 => Aop m c main_v52 (ix2 (0 : Fin 1) z)) (Fin.ext (by show 0 + j.val = 128 * 0 + j.val; omega))).trans (w_v52_g0 m c 0 j)).trans (congrArg (fun z : Fin 300 => a8 m c (ix1 z)) (Fin.ext (by show 100 * 0 + j.val = j.val; omega)))
  w7_0 := fun j => ((congrArg (fun z : Fin 384 => Aop m c main_v60 (ix2 (0 : Fin 1) z)) (Fin.ext (by show 0 + j.val = 128 * 0 + j.val; omega))).trans (w_v60_g0 m c 0 j)).trans (congrArg (fun z : Fin 300 => a9 m c (ix1 z)) (Fin.ext (by show 100 * 0 + j.val = j.val; omega)))
  w4_1 := fun k j => ((congrArg (fun z : Fin 384 => Aop m c main_v36 (ix2 k z)) (Fin.ext (by show 128 + j.val = 128 * 1 + j.val; omega))).trans (w_v36_g1 m c k j)).trans (congrArg (fun z : Fin 300 => a6 m c (ix2 z k)) (Fin.ext (by show 100 * 1 + j.val = 100 + j.val; omega)))
  w5_1 := fun k j => ((congrArg (fun z : Fin 384 => Aop m c main_v44 (ix2 k z)) (Fin.ext (by show 128 + j.val = 128 * 1 + j.val; omega))).trans (w_v44_g1 m c k j)).trans (congrArg (fun z : Fin 300 => a7 m c (ix2 z k)) (Fin.ext (by show 100 * 1 + j.val = 100 + j.val; omega)))
  w6_1 := fun j => ((congrArg (fun z : Fin 384 => Aop m c main_v52 (ix2 (0 : Fin 1) z)) (Fin.ext (by show 128 + j.val = 128 * 1 + j.val; omega))).trans (w_v52_g1 m c 0 j)).trans (congrArg (fun z : Fin 300 => a8 m c (ix1 z)) (Fin.ext (by show 100 * 1 + j.val = 100 + j.val; omega)))
  w7_1 := fun j => ((congrArg (fun z : Fin 384 => Aop m c main_v60 (ix2 (0 : Fin 1) z)) (Fin.ext (by show 128 + j.val = 128 * 1 + j.val; omega))).trans (w_v60_g1 m c 0 j)).trans (congrArg (fun z : Fin 300 => a9 m c (ix1 z)) (Fin.ext (by show 100 * 1 + j.val = 100 + j.val; omega)))
  w4_2 := fun k j => ((congrArg (fun z : Fin 384 => Aop m c main_v36 (ix2 k z)) (Fin.ext (by show 256 + j.val = 128 * 2 + j.val; omega))).trans (w_v36_g2 m c k j)).trans (congrArg (fun z : Fin 300 => a6 m c (ix2 z k)) (Fin.ext (by show 100 * 2 + j.val = 200 + j.val; omega)))
  w5_2 := fun k j => ((congrArg (fun z : Fin 384 => Aop m c main_v44 (ix2 k z)) (Fin.ext (by show 256 + j.val = 128 * 2 + j.val; omega))).trans (w_v44_g2 m c k j)).trans (congrArg (fun z : Fin 300 => a7 m c (ix2 z k)) (Fin.ext (by show 100 * 2 + j.val = 200 + j.val; omega)))
  w6_2 := fun j => ((congrArg (fun z : Fin 384 => Aop m c main_v52 (ix2 (0 : Fin 1) z)) (Fin.ext (by show 256 + j.val = 128 * 2 + j.val; omega))).trans (w_v52_g2 m c 0 j)).trans (congrArg (fun z : Fin 300 => a8 m c (ix1 z)) (Fin.ext (by show 100 * 2 + j.val = 200 + j.val; omega)))
  w7_2 := fun j => ((congrArg (fun z : Fin 384 => Aop m c main_v60 (ix2 (0 : Fin 1) z)) (Fin.ext (by show 256 + j.val = 128 * 2 + j.val; omega))).trans (w_v60_g2 m c 0 j)).trans (congrArg (fun z : Fin 300 => a9 m c (ix1 z)) (Fin.ext (by show 100 * 2 + j.val = 200 + j.val; omega)))
  w8_0 := fun k j => ((congrArg (fun z : Fin 512 => Aop m c main_v70 (ix2 k z)) (Fin.ext (by show 0 + j.val = 128 * 0 + j.val; omega))).trans (w_v70_g0 m c k j)).trans (congrArg (fun z : Fin 256 => a10 m c (ix2 z k)) (Fin.ext (by show 64 * 0 + j.val = j.val; omega)))
  w9_0 := fun k j => ((congrArg (fun z : Fin 512 => Aop m c main_v80 (ix2 k z)) (Fin.ext (by show 0 + j.val = 128 * 0 + j.val; omega))).trans (w_v80_g0 m c k j)).trans (congrArg (fun z : Fin 256 => a11 m c (ix2 z k)) (Fin.ext (by show 64 * 0 + j.val = j.val; omega)))
  w10_0 := fun j => ((congrArg (fun z : Fin 512 => Aop m c main_v90 (ix2 (0 : Fin 1) z)) (Fin.ext (by show 0 + j.val = 128 * 0 + j.val; omega))).trans (w_v90_g0 m c 0 j)).trans (congrArg (fun z : Fin 256 => a12 m c (ix1 z)) (Fin.ext (by show 64 * 0 + j.val = j.val; omega)))
  w11_0 := fun j => ((congrArg (fun z : Fin 512 => Aop m c main_v100 (ix2 (0 : Fin 1) z)) (Fin.ext (by show 0 + j.val = 128 * 0 + j.val; omega))).trans (w_v100_g0 m c 0 j)).trans (congrArg (fun z : Fin 256 => a13 m c (ix1 z)) (Fin.ext (by show 64 * 0 + j.val = j.val; omega)))
  w8_1 := fun k j => ((congrArg (fun z : Fin 512 => Aop m c main_v70 (ix2 k z)) (Fin.ext (by show 128 + j.val = 128 * 1 + j.val; omega))).trans (w_v70_g1 m c k j)).trans (congrArg (fun z : Fin 256 => a10 m c (ix2 z k)) (Fin.ext (by show 64 * 1 + j.val = 64 + j.val; omega)))
  w9_1 := fun k j => ((congrArg (fun z : Fin 512 => Aop m c main_v80 (ix2 k z)) (Fin.ext (by show 128 + j.val = 128 * 1 + j.val; omega))).trans (w_v80_g1 m c k j)).trans (congrArg (fun z : Fin 256 => a11 m c (ix2 z k)) (Fin.ext (by show 64 * 1 + j.val = 64 + j.val; omega)))
  w10_1 := fun j => ((congrArg (fun z : Fin 512 => Aop m c main_v90 (ix2 (0 : Fin 1) z)) (Fin.ext (by show 128 + j.val = 128 * 1 + j.val; omega))).trans (w_v90_g1 m c 0 j)).trans (congrArg (fun z : Fin 256 => a12 m c (ix1 z)) (Fin.ext (by show 64 * 1 + j.val = 64 + j.val; omega)))
  w11_1 := fun j => ((congrArg (fun z : Fin 512 => Aop m c main_v100 (ix2 (0 : Fin 1) z)) (Fin.ext (by show 128 + j.val = 128 * 1 + j.val; omega))).trans (w_v100_g1 m c 0 j)).trans (congrArg (fun z : Fin 256 => a13 m c (ix1 z)) (Fin.ext (by show 64 * 1 + j.val = 64 + j.val; omega)))
  w8_2 := fun k j => ((congrArg (fun z : Fin 512 => Aop m c main_v70 (ix2 k z)) (Fin.ext (by show 256 + j.val = 128 * 2 + j.val; omega))).trans (w_v70_g2 m c k j)).trans (congrArg (fun z : Fin 256 => a10 m c (ix2 z k)) (Fin.ext (by show 64 * 2 + j.val = 128 + j.val; omega)))
  w9_2 := fun k j => ((congrArg (fun z : Fin 512 => Aop m c main_v80 (ix2 k z)) (Fin.ext (by show 256 + j.val = 128 * 2 + j.val; omega))).trans (w_v80_g2 m c k j)).trans (congrArg (fun z : Fin 256 => a11 m c (ix2 z k)) (Fin.ext (by show 64 * 2 + j.val = 128 + j.val; omega)))
  w10_2 := fun j => ((congrArg (fun z : Fin 512 => Aop m c main_v90 (ix2 (0 : Fin 1) z)) (Fin.ext (by show 256 + j.val = 128 * 2 + j.val; omega))).trans (w_v90_g2 m c 0 j)).trans (congrArg (fun z : Fin 256 => a12 m c (ix1 z)) (Fin.ext (by show 64 * 2 + j.val = 128 + j.val; omega)))
  w11_2 := fun j => ((congrArg (fun z : Fin 512 => Aop m c main_v100 (ix2 (0 : Fin 1) z)) (Fin.ext (by show 256 + j.val = 128 * 2 + j.val; omega))).trans (w_v100_g2 m c 0 j)).trans (congrArg (fun z : Fin 256 => a13 m c (ix1 z)) (Fin.ext (by show 64 * 2 + j.val = 128 + j.val; omega)))
  w8_3 := fun k j => ((congrArg (fun z : Fin 512 => Aop m c main_v70 (ix2 k z)) (Fin.ext (by show 384 + j.val = 128 * 3 + j.val; omega))).trans (w_v70_g3 m c k j)).trans (congrArg (fun z : Fin 256 => a10 m c (ix2 z k)) (Fin.ext (by show 64 * 3 + j.val = 192 + j.val; omega)))
  w9_3 := fun k j => ((congrArg (fun z : Fin 512 => Aop m c main_v80 (ix2 k z)) (Fin.ext (by show 384 + j.val = 128 * 3 + j.val; omega))).trans (w_v80_g3 m c k j)).trans (congrArg (fun z : Fin 256 => a11 m c (ix2 z k)) (Fin.ext (by show 64 * 3 + j.val = 192 + j.val; omega)))
  w10_3 := fun j => ((congrArg (fun z : Fin 512 => Aop m c main_v90 (ix2 (0 : Fin 1) z)) (Fin.ext (by show 384 + j.val = 128 * 3 + j.val; omega))).trans (w_v90_g3 m c 0 j)).trans (congrArg (fun z : Fin 256 => a12 m c (ix1 z)) (Fin.ext (by show 64 * 3 + j.val = 192 + j.val; omega)))
  w11_3 := fun j => ((congrArg (fun z : Fin 512 => Aop m c main_v100 (ix2 (0 : Fin 1) z)) (Fin.ext (by show 384 + j.val = 128 * 3 + j.val; omega))).trans (w_v100_g3 m c 0 j)).trans (congrArg (fun z : Fin 256 => a13 m c (ix1 z)) (Fin.ext (by show 64 * 3 + j.val = 192 + j.val; omega)))
  hA12 := fun k q => (congrFun (op_v101 m c) (ix2 k q)).trans (transpose_ix2_apply _ _ k q)
  hA13 := fun q => (congrFun (op_v102 m c) (ix2 (0 : Fin 1) q)).trans (shapeCast_a_1a_apply _ _ (0 : Fin 1) q)

/-- The head's output. -/
theorem res_out : GenP.V61 m (outs m) c (Proc.devRef .tc main_v105_2) = R113 m c :=
  (GenP.V61_of m (outs m) c main_v105_2 (by decide)).trans ((hF1 m c 16).symm.trans ((final1_16 (Vr59 m) c).trans
    (Cert.Proof.Bridge.G16_eq _ _ _ _ _ _ _ _ _ _ _ _ _ _ _ _ _ _ _ _ _ _ _ _ _ _ _ _ _ _ (facts m c))))

/-- The new hidden state, with its leading unit axis. -/
theorem res_h1 : GenP.V61 m (outs m) c (Proc.devRef .tc main_v106) = R114 m c := by
  have e : GenP.V61 m (outs m) c (Proc.devRef .tc main_v106)
      = broadcastInDim S1x50000x64 ![1, 2] bcast_S50000x64_S1x50000x64_1_2 (GenP.V60 m (outs m) c (Proc.devRef .tc main_v105_0)) := by
    show StableHlo.after hostOps2 (GenP.V60 m (outs m) c) (Proc.devRef .tc main_v106) = _
    after_results_simp
    try rfl
  rw [e, (hF1 m c 14).symm.trans ((final1_14 (Vr59 m) c).trans (Cert.Proof.Bridge.G14_eq _ _ _ _ _ _ _ _ _ _ _ _ _ _ _ _ _ _ _ _ _ _ _ _ _ _ _ _ _ _ (facts m c)))]
  rfl

/-- The new cell state, with its leading unit axis. -/
theorem res_c1 : GenP.V61 m (outs m) c (Proc.devRef .tc main_v107) = R115 m c := by
  have e : GenP.V61 m (outs m) c (Proc.devRef .tc main_v107)
      = broadcastInDim S1x50000x64 ![1, 2] bcast_S50000x64_S1x50000x64_1_2 (GenP.V60 m (outs m) c (Proc.devRef .tc main_v105_1)) := by
    show StableHlo.after hostOps2 (GenP.V60 m (outs m) c) (Proc.devRef .tc main_v107) = _
    after_results_simp
    try rfl
  rw [e, (hF1 m c 15).symm.trans ((final1_15 (Vr59 m) c).trans (Cert.Proof.Bridge.G15_eq _ _ _ _ _ _ _ _ _ _ _ _ _ _ _ _ _ _ _ _ _ _ _ _ _ _ _ _ _ _ (facts m c)))]
  rfl

/-- At the exact instance the kernel's program and the reference, run from memories agreeing on the arguments, end with
    equal results. -/
theorem algebraic : Cert.algebraic_KernelIdeal_ReferenceIdeal := by
  intro m ρ m' ρ' _ hagree
  refine ⟨fun c => R113 m c, fun c => R114 m c, fun c => R115 m c, ?_, ?_⟩
  · refine (θ_run Cert.KernelIdeal.defs _ _).mono (fun r h c => ?_) (run_all m ρ)
    have hc := h c
    exact ⟨(hc _ (mem_uc main_v105_2 (by decide))).trans (res_out m c), (hc _ (mem_uc main_v106 (by decide))).trans (res_h1 m c),
      (hc _ (mem_uc main_v107 (by decide))).trans (res_c1 m c),
      (hc _ (mem_uc main_arg0 (by decide))).trans (GenP.V61_main_arg0 m (outs m) c),
      (hc _ (mem_uc main_arg1 (by decide))).trans (GenP.V61_main_arg1 m (outs m) c),
      (hc _ (mem_uc main_arg2 (by decide))).trans (GenP.V61_main_arg2 m (outs m) c),
      (hc _ (mem_uc main_arg3 (by decide))).trans (GenP.V61_main_arg3 m (outs m) c),
      (hc _ (mem_uc main_arg4 (by decide))).trans (GenP.V61_main_arg4 m (outs m) c),
      (hc _ (mem_uc main_arg5 (by decide))).trans (GenP.V61_main_arg5 m (outs m) c),
      (hc _ (mem_uc main_arg6 (by decide))).trans (GenP.V61_main_arg6 m (outs m) c),
      (hc _ (mem_uc main_arg7 (by decide))).trans (GenP.V61_main_arg7 m (outs m) c),
      (hc _ (mem_uc main_arg8 (by decide))).trans (GenP.V61_main_arg8 m (outs m) c),
      (hc _ (mem_uc main_arg9 (by decide))).trans (GenP.V61_main_arg9 m (outs m) c),
      (hc _ (mem_uc main_arg10 (by decide))).trans (GenP.V61_main_arg10 m (outs m) c),
      (hc _ (mem_uc main_arg11 (by decide))).trans (GenP.V61_main_arg11 m (outs m) c),
      (hc _ (mem_uc main_arg12 (by decide))).trans (GenP.V61_main_arg12 m (outs m) c),
      (hc _ (mem_uc main_arg13 (by decide))).trans (GenP.V61_main_arg13 m (outs m) c),
      (hc _ (mem_uc main_arg14 (by decide))).trans (GenP.V61_main_arg14 m (outs m) c),
      (hc _ (mem_uc main_arg15 (by decide))).trans (GenP.V61_main_arg15 m (outs m) c)⟩
  · refine (θ_run Cert.ReferenceIdeal.defs _ _).mono (fun r h c => ?_) (Cert.ReferenceIdeal.Value.run (F := Ideal) m' ρ')
    obtain ⟨h113, h114, h115, hargs⟩ := h c
    obtain ⟨g0, g1, g2, g3, g4, g5, g6, g7, g8, g9, g10, g11, g12, g13, g14, g15⟩ := hagree c
    refine ⟨h113.trans ?_, h114.trans ?_, h115.trans ?_, hargs⟩
    · rw [Cert.ReferenceIdeal.Read.val_main_v113_eq, g0, g1, g2, g3, g4, g5, g6, g7, g8, g9, g10, g11, g12, g13, g14, g15]
    · rw [Cert.ReferenceIdeal.Read.val_main_v114_eq, g0, g1, g2, g3, g4, g5, g6, g7, g8, g9, g10, g11, g12, g13]
    · rw [Cert.ReferenceIdeal.Read.val_main_v115_eq, g0, g1, g2, g3, g4, g5, g6, g7, g8, g9, g10, g11, g12, g13]

end Cert.Proof.Final

end
-- ==== Proof.lean ====
/-
  The certificate of a graph-network step: a gated graph convolution with mean aggregation, a GRU cell, one LSTM step and a
  rectified linear head over 50000 nodes and 800000 edges. The kernel's program projects the features in one pipelined
  kernel, gathers, weights and scatter-adds the messages on the host (with the edge counts as one more scattered column),
  pads every gate of the GRU's and the LSTM's parameters to its own 128-lane tile, and runs the rest in a second
  pipelined kernel on row blocks of 1000 nodes; the reference is plain host code over the original parameters.
  The three frames: each program runs to the end from any memory, faults nowhere and leaves its arguments as launched
  (the two kernel programs through their two regions' body obligations; the reference through its run). The idealization
  rewrote nothing. At the exact instance the two idealized programs end with equal results: row by row both apply the same
  gate mathematics to pre-activations that agree entry by entry, and the aggregated messages are one array on both sides.
-/
import proofs.«173484_j54443005444660_2_alg».proof.Defs
import proofs.«173484_j54443005444660_2_alg».proof.Proof.Gen.Kernel
import proofs.«173484_j54443005444660_2_alg».proof.Proof.Gen.KernelIdeal
import proofs.«173484_j54443005444660_2_alg».proof.Proof.Gen.ReferenceIdeal
import proofs.«173484_j54443005444660_2_alg».proof.Proof.Gen.Pre_finite_inputs
import proofs.«173484_j54443005444660_2_alg».proof.Proof.KRun
import proofs.«173484_j54443005444660_2_alg».proof.Proof.KIRun
import proofs.«173484_j54443005444660_2_alg».proof.Proof.RefFrame
import proofs.«173484_j54443005444660_2_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ, fun m ρ _ => Cert.KernelIdeal.Hand.frame m ρ, Cert.Proof.RefSide.frame_ri, trivial,
  Cert.Proof.Final.algebraic⟩

end Cert.Proof

end
